-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S25000x128 : Shape := ⟨2, ![25000, 128]⟩
abbrev S2x600000 : Shape := ⟨2, ![2, 600000]⟩
abbrev S600000x1 : Shape := ⟨2, ![600000, 1]⟩
abbrev S25000 : Shape := ⟨1, ![25000]⟩
abbrev S256x128 : Shape := ⟨2, ![256, 128]⟩
abbrev S256 : Shape := ⟨1, ![256]⟩
abbrev S256x256 : Shape := ⟨2, ![256, 256]⟩
abbrev S128x256 : Shape := ⟨2, ![128, 256]⟩
abbrev S128 : Shape := ⟨1, ![128]⟩
abbrev S128x128 : Shape := ⟨2, ![128, 128]⟩
abbrev S1x192 : Shape := ⟨2, ![1, 192]⟩
abbrev S1 : Shape := ⟨1, ![1]⟩
abbrev S1x64 : Shape := ⟨2, ![1, 64]⟩
abbrev S_ : Shape := ⟨0, ![]⟩

class Facts : Prop where
  bcast_S_S25000x128 : S_.BroadcastsInDim S25000x128 (![] : Fin 0 → Fin S25000x128.rank)
  reducesTo_S25000x128_S_d0_1 : S25000x128.ReducesTo [0, 1] S_
  h_S_ : 0 < S_.numel
  bcast_S_S600000x1 : S_.BroadcastsInDim S600000x1 (![] : Fin 0 → Fin S600000x1.rank)
  reducesTo_S600000x1_S_d0_1 : S600000x1.ReducesTo [0, 1] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1x192 : S_.BroadcastsInDim S1x192 (![] : Fin 0 → Fin S1x192.rank)
  reducesTo_S1x192_S_d0_1 : S1x192.ReducesTo [0, 1] S_
  bcast_S_S1 : S_.BroadcastsInDim S1 (![] : Fin 0 → Fin S1.rank)
  reducesTo_S1_S_d0 : S1.ReducesTo [0] S_
  bcast_S_S1x64 : S_.BroadcastsInDim S1x64 (![] : Fin 0 → Fin S1x64.rank)
  reducesTo_S1x64_S_d0_1 : S1x64.ReducesTo [0, 1] S_

variable [Facts]

def fn_part6 {F : FTy → Type} [FloatOps F] (main_arg23 : FVec F S1x64 .f32) (main_arg24 : FVec F S1 .f32) (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  let main_v104 : FVec F S1x64 .f32 := Host.absf main_arg23
  let main_cst_40 : FVec F S_ .f32 := constant S_ .f32 0x7F800000#32
  let main_v105 : FVec F S1x64 .f32 := broadcastInDim S1x64 ![] bcast_S_S1x64 main_cst_40
  let main_v106 : IVec S1x64 1 := cmpf .olt main_v104 main_v105
  let main_c_41 : IVec S_ 1 := constantI S_ 1 1#1
  let main_v107 : IVec S_ 1 := (fun x v => Host.reduce IntOp.andi x v reducesTo_S1x64_S_d0_1 h_S_) main_v106 main_c_41
  let main_v108 : IVec S_ 1 := andi main_v103 main_v107
  let main_v109 : FVec F S1 .f32 := Host.absf main_arg24
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  main_v113

def fn_part5 {F : FTy → Type} [FloatOps F] (main_arg20 : FVec F S128 .f32) (main_arg21 : FVec F S1x192 .f32) (main_arg22 : FVec F S1 .f32) (main_arg23 : FVec F S1x64 .f32) (main_arg24 : FVec F S1 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S1x192 .f32 := Host.absf main_arg21
  let main_cst_36 : FVec F S_ .f32 := constant S_ .f32 0x7F800000#32
  let main_v95 : FVec F S1x192 .f32 := broadcastInDim S1x192 ![] bcast_S_S1x192 main_cst_36
  let main_v96 : IVec S1x192 1 := cmpf .olt main_v94 main_v95
  let main_c_37 : IVec S_ 1 := constantI S_ 1 1#1
  let main_v97 : IVec S_ 1 := (fun x v => Host.reduce IntOp.andi x v reducesTo_S1x192_S_d0_1 h_S_) main_v96 main_c_37
  let main_v98 : IVec S_ 1 := andi main_v93 main_v97
  let main_v99 : FVec F S1 .f32 := Host.absf main_arg22
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_arg23 main_arg24 main_v98 main_v101 main_c_39

def fn_part4 {F : FTy → Type} [FloatOps F] (main_arg16 : FVec F S256 .f32) (main_arg17 : FVec F S256x256 .f32) (main_arg18 : FVec F S256 .f32) (main_arg19 : FVec F S128x128 .f32) (main_arg20 : FVec F S128 .f32) (main_arg21 : FVec F S1x192 .f32) (main_arg22 : FVec F S1 .f32) (main_arg23 : FVec F S1x64 .f32) (main_arg24 : FVec F S1 .f32) (main_v63 : IVec S_ 1) (main_v67 : IVec S_ 1) : IVec S_ 1 :=
  let main_v68 : IVec S_ 1 := andi main_v63 main_v67
  let main_v69 : FVec F S256 .f32 := Host.absf main_arg16
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x256 .f32 := Host.absf main_arg17
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256 .f32 := Host.absf main_arg18
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S128x128 .f32 := Host.absf main_arg19
  let main_cst_32 : FVec F S_ .f32 := constant S_ .f32 0x7F800000#32
  fn_part5 (F := F) main_arg20 main_arg21 main_arg22 main_arg23 main_arg24 main_v83 main_v84 main_cst_32

def fn_part3 {F : FTy → Type} [FloatOps F] (main_arg13 : FVec F S128 .f32) (main_arg14 : FVec F S128x256 .f32) (main_arg15 : FVec F S256x256 .f32) (main_arg16 : FVec F S256 .f32) (main_arg17 : FVec F S256x256 .f32) (main_arg18 : FVec F S256 .f32) (main_arg19 : FVec F S128x128 .f32) (main_arg20 : FVec F S128 .f32) (main_arg21 : FVec F S1x192 .f32) (main_arg22 : FVec F S1 .f32) (main_arg23 : FVec F S1x64 .f32) (main_arg24 : FVec F S1 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x256 .f32 := Host.absf main_arg14
  let main_cst_22 : FVec F S_ .f32 := constant S_ .f32 0x7F800000#32
  let main_v60 : FVec F S128x256 .f32 := broadcastInDim S128x256 ![] bcast_S_S128x256 main_cst_22
  let main_v61 : IVec S128x256 1 := cmpf .olt main_v59 main_v60
  let main_c_23 : IVec S_ 1 := constantI S_ 1 1#1
  let main_v62 : IVec S_ 1 := (fun x v => Host.reduce IntOp.andi x v reducesTo_S128x256_S_d0_1 h_S_) main_v61 main_c_23
  let main_v63 : IVec S_ 1 := andi main_v58 main_v62
  let main_v64 : FVec F S256x256 .f32 := Host.absf main_arg15
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg16 main_arg17 main_arg18 main_arg19 main_arg20 main_arg21 main_arg22 main_arg23 main_arg24 main_v63 main_v67

def fn_part2 {F : FTy → Type} [FloatOps F] (main_arg9 : FVec F S256x256 .f32) (main_arg10 : FVec F S256 .f32) (main_arg11 : FVec F S256x256 .f32) (main_arg12 : FVec F S128x256 .f32) (main_arg13 : FVec F S128 .f32) (main_arg14 : FVec F S128x256 .f32) (main_arg15 : FVec F S256x256 .f32) (main_arg16 : FVec F S256 .f32) (main_arg17 : FVec F S256x256 .f32) (main_arg18 : FVec F S256 .f32) (main_arg19 : FVec F S128x128 .f32) (main_arg20 : FVec F S128 .f32) (main_arg21 : FVec F S1x192 .f32) (main_arg22 : FVec F S1 .f32) (main_arg23 : FVec F S1x64 .f32) (main_arg24 : FVec F S1 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S128x256 .f32 := Host.absf main_arg12
  let main_cst_18 : FVec F S_ .f32 := constant S_ .f32 0x7F800000#32
  let main_v50 : FVec F S128x256 .f32 := broadcastInDim S128x256 ![] bcast_S_S128x256 main_cst_18
  fn_part3 (F := F) main_arg13 main_arg14 main_arg15 main_arg16 main_arg17 main_arg18 main_arg19 main_arg20 main_arg21 main_arg22 main_arg23 main_arg24 main_v48 main_v49 main_v50

def fn_part1 {F : FTy → Type} [FloatOps F] (main_arg6 : FVec F S256x256 .f32) (main_arg7 : FVec F S256 .f32) (main_arg8 : FVec F S256x256 .f32) (main_arg9 : FVec F S256x256 .f32) (main_arg10 : FVec F S256 .f32) (main_arg11 : FVec F S256x256 .f32) (main_arg12 : FVec F S128x256 .f32) (main_arg13 : FVec F S128 .f32) (main_arg14 : FVec F S128x256 .f32) (main_arg15 : FVec F S256x256 .f32) (main_arg16 : FVec F S256 .f32) (main_arg17 : FVec F S256x256 .f32) (main_arg18 : FVec F S256 .f32) (main_arg19 : FVec F S128x128 .f32) (main_arg20 : FVec F S128 .f32) (main_arg21 : FVec F S1x192 .f32) (main_arg22 : FVec F S1 .f32) (main_arg23 : FVec F S1x64 .f32) (main_arg24 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S25000x128 .f32) (main_arg1 : IVec S2x600000 32) (main_arg2 : FVec F S600000x1 .f32) (main_arg3 : IVec S25000 32) (main_arg4 : FVec F S256x128 .f32) (main_arg5 : FVec F S256 .f32) (main_arg6 : FVec F S256x256 .f32) (main_arg7 : FVec F S256 .f32) (main_arg8 : FVec F S256x256 .f32) (main_arg9 : FVec F S256x256 .f32) (main_arg10 : FVec F S256 .f32) (main_arg11 : FVec F S256x256 .f32) (main_arg12 : FVec F S128x256 .f32) (main_arg13 : FVec F S128 .f32) (main_arg14 : FVec F S128x256 .f32) (main_arg15 : FVec F S256x256 .f32) (main_arg16 : FVec F S256 .f32) (main_arg17 : FVec F S256x256 .f32) (main_arg18 : FVec F S256 .f32) (main_arg19 : FVec F S128x128 .f32) (main_arg20 : FVec F S128 .f32) (main_arg21 : FVec F S1x192 .f32) (main_arg22 : FVec F S1 .f32) (main_arg23 : FVec F S1x64 .f32) (main_arg24 : FVec F S1 .f32) : IVec S_ 1 :=
  let main_v0 : FVec F S25000x128 .f32 := Host.absf main_arg0
  let main_cst : FVec F S_ .f32 := constant S_ .f32 0x7F800000#32
  let main_v1 : FVec F S25000x128 .f32 := broadcastInDim S25000x128 ![] bcast_S_S25000x128 main_cst
  let main_v2 : IVec S25000x128 1 := cmpf .olt main_v0 main_v1
  let main_c : IVec S_ 1 := constantI S_ 1 1#1
  let main_v3 : IVec S_ 1 := (fun x v => Host.reduce IntOp.andi x v reducesTo_S25000x128_S_d0_1 h_S_) main_v2 main_c
  let main_v4 : FVec F S600000x1 .f32 := Host.absf main_arg2
  let main_cst_0 : FVec F S_ .f32 := constant S_ .f32 0x7F800000#32
  let main_v5 : FVec F S600000x1 .f32 := broadcastInDim S600000x1 ![] bcast_S_S600000x1 main_cst_0
  let main_v6 : IVec S600000x1 1 := cmpf .olt main_v4 main_v5
  let main_c_1 : IVec S_ 1 := constantI S_ 1 1#1
  let main_v7 : IVec S_ 1 := (fun x v => Host.reduce IntOp.andi x v reducesTo_S600000x1_S_d0_1 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S25000x128 : Shape := ⟨2, ![25000, 128]⟩
abbrev S2x600000 : Shape := ⟨2, ![2, 600000]⟩
abbrev S600000x1 : Shape := ⟨2, ![600000, 1]⟩
abbrev S25000 : Shape := ⟨1, ![25000]⟩
abbrev S256x128 : Shape := ⟨2, ![256, 128]⟩
abbrev S256 : Shape := ⟨1, ![256]⟩
abbrev S256x256 : Shape := ⟨2, ![256, 256]⟩
abbrev S128x256 : Shape := ⟨2, ![128, 256]⟩
abbrev S128 : Shape := ⟨1, ![128]⟩
abbrev S128x128 : Shape := ⟨2, ![128, 128]⟩
abbrev S1x192 : Shape := ⟨2, ![1, 192]⟩
abbrev S1 : Shape := ⟨1, ![1]⟩
abbrev S1x64 : Shape := ⟨2, ![1, 64]⟩
abbrev S1x600000 : Shape := ⟨2, ![1, 600000]⟩
abbrev S600000 : Shape := ⟨1, ![600000]⟩
abbrev S_ : Shape := ⟨0, ![]⟩
abbrev S25000x1 : Shape := ⟨2, ![25000, 1]⟩
abbrev S1x256 : Shape := ⟨2, ![1, 256]⟩
abbrev S25000x256 : Shape := ⟨2, ![25000, 256]⟩
abbrev S1000x128 : Shape := ⟨2, ![1000, 128]⟩
abbrev S1000x256 : Shape := ⟨2, ![1000, 256]⟩
abbrev S600000x256 : Shape := ⟨2, ![600000, 256]⟩
abbrev S1x128 : Shape := ⟨2, ![1, 128]⟩
abbrev S25000x96 : Shape := ⟨2, ![25000, 96]⟩
abbrev S25000x32 : Shape := ⟨2, ![25000, 32]⟩
abbrev S600000x96 : Shape := ⟨2, ![600000, 96]⟩
abbrev S600000x32 : Shape := ⟨2, ![600000, 32]⟩
abbrev S1x96 : Shape := ⟨2, ![1, 96]⟩
abbrev S1x32 : Shape := ⟨2, ![1, 32]⟩
abbrev S1x1 : Shape := ⟨2, ![1, 1]⟩
abbrev S12000x96 : Shape := ⟨2, ![12000, 96]⟩
abbrev S12000x32 : Shape := ⟨2, ![12000, 32]⟩
abbrev S12000x1 : Shape := ⟨2, ![12000, 1]⟩
abbrev S12000 : Shape := ⟨1, ![12000]⟩
abbrev S12500x48 : Shape := ⟨2, ![12500, 48]⟩
abbrev S12500 : Shape := ⟨1, ![12500]⟩
abbrev S12500x1 : Shape := ⟨2, ![12500, 1]⟩

abbrev nBuf : Space → Nat
  | .hbm => 164
  | .vmem => 69
  | .smem => 0
  | _ => 0

abbrev hbmTy0_0 (i : Nat) : BufTy := match i % 128 with
  | 0 => ⟨S25000x128, .f32⟩
  | 1 => ⟨S2x600000, .i32⟩
  | 2 => ⟨S600000x1, .f32⟩
  | 3 => ⟨S25000, .i32⟩
  | 4 => ⟨S256x128, .f32⟩
  | 5 => ⟨S256, .f32⟩
  | 6 => ⟨S256x256, .f32⟩
  | 7 => ⟨S256, .f32⟩
  | 8 => ⟨S256x256, .f32⟩
  | 9 => ⟨S256x256, .f32⟩
  | 10 => ⟨S256, .f32⟩
  | 11 => ⟨S256x256, .f32⟩
  | 12 => ⟨S128x256, .f32⟩
  | 13 => ⟨S128, .f32⟩
  | 14 => ⟨S128x256, .f32⟩
  | 15 => ⟨S256x256, .f32⟩
  | 16 => ⟨S256, .f32⟩
  | 17 => ⟨S256x256, .f32⟩
  | 18 => ⟨S256, .f32⟩
  | 19 => ⟨S128x128, .f32⟩
  | 20 => ⟨S128, .f32⟩
  | 21 => ⟨S1x192, .f32⟩
  | 22 => ⟨S1, .f32⟩
  | 23 => ⟨S1x64, .f32⟩
  | 24 => ⟨S1, .f32⟩
  | 25 => ⟨S1x600000, .i32⟩
  | 26 => ⟨S600000, .i32⟩
  | 27 => ⟨S1x600000, .i32⟩
  | 28 => ⟨S600000, .i32⟩
  | 29 => ⟨S_, .f32⟩
  | 30 => ⟨S600000, .f32⟩
  | 31 => ⟨S_, .f32⟩
  | 32 => ⟨S25000, .f32⟩
  | 33 => ⟨S600000x1, .i32⟩
  | 34 => ⟨S25000, .f32⟩
  | 35 => ⟨S_, .f32⟩
  | 36 => ⟨S25000, .f32⟩
  | 37 => ⟨S25000, .f32⟩
  | 38 => ⟨S_, .f32⟩
  | 39 => ⟨S25000, .f32⟩
  | 40 => ⟨S25000, .f32⟩
  | 41 => ⟨S25000x1, .f32⟩
  | 42 => ⟨S128x256, .f32⟩
  | 43 => ⟨S1x256, .f32⟩
  | 44 => ⟨S25000x256, .f32⟩
  | 45 => ⟨S_, .i32⟩
  | 46 => ⟨S600000, .i32⟩
  | 47 => ⟨S600000, .i1⟩
  | 48 => ⟨S_, .i32⟩
  | 49 => ⟨S600000, .i32⟩
  | 50 => ⟨S600000, .i32⟩
  | 51 => ⟨S600000, .i32⟩
  | 52 => ⟨S600000x1, .i32⟩
  | 53 => ⟨S600000x256, .f32⟩
  | 54 => ⟨S_, .f32⟩
  | 55 => ⟨S25000x256, .f32⟩
  | 56 => ⟨S600000x1, .i32⟩
  | 57 => ⟨S25000x256, .f32⟩
  | 58 => ⟨S25000x256, .f32⟩
  | 59 => ⟨S25000x256, .f32⟩
  | 60 => ⟨S256x256, .f32⟩
  | 61 => ⟨S256x256, .f32⟩
  | 62 => ⟨S1x256, .f32⟩
  | 63 => ⟨S25000x256, .f32⟩
  | 64 => ⟨S256x256, .f32⟩
  | 65 => ⟨S1x256, .f32⟩
  | 66 => ⟨S25000x256, .f32⟩
  | 67 => ⟨S_, .i32⟩
  | 68 => ⟨S600000, .i32⟩
  | 69 => ⟨S600000, .i1⟩
  | 70 => ⟨S_, .i32⟩
  | 71 => ⟨S600000, .i32⟩
  | 72 => ⟨S600000, .i32⟩
  | 73 => ⟨S600000, .i32⟩
  | 74 => ⟨S600000x1, .i32⟩
  | 75 => ⟨S600000x256, .f32⟩
  | 76 => ⟨S_, .f32⟩
  | 77 => ⟨S25000x256, .f32⟩
  | 78 => ⟨S600000x1, .i32⟩
  | 79 => ⟨S25000x256, .f32⟩
  | 80 => ⟨S25000x256, .f32⟩
  | 81 => ⟨S25000x256, .f32⟩
  | 82 => ⟨S256x256, .f32⟩
  | 83 => ⟨S256x256, .f32⟩
  | 84 => ⟨S1x256, .f32⟩
  | 85 => ⟨S25000x256, .f32⟩
  | 86 => ⟨S256x256, .f32⟩
  | 87 => ⟨S1x256, .f32⟩
  | 88 => ⟨S25000x256, .f32⟩
  | 89 => ⟨S_, .i32⟩
  | 90 => ⟨S600000, .i32⟩
  | 91 => ⟨S600000, .i1⟩
  | 92 => ⟨S_, .i32⟩
  | 93 => ⟨S600000, .i32⟩
  | 94 => ⟨S600000, .i32⟩
  | 95 => ⟨S600000, .i32⟩
  | 96 => ⟨S600000x1, .i32⟩
  | 97 => ⟨S600000x256, .f32⟩
  | 98 => ⟨S_, .f32⟩
  | 99 => ⟨S25000x256, .f32⟩
  | 100 => ⟨S600000x1, .i32⟩
  | 101 => ⟨S25000x256, .f32⟩
  | 102 => ⟨S25000x256, .f32⟩
  | 103 => ⟨S25000x256, .f32⟩
  | 104 => ⟨S256x128, .f32⟩
  | 105 => ⟨S256x128, .f32⟩
  | 106 => ⟨S1x128, .f32⟩
  | 107 => ⟨S25000x128, .f32⟩
  | 108 => ⟨S128x128, .f32⟩
  | 109 => ⟨S1x128, .f32⟩
  | 110 => ⟨S25000x128, .f32⟩
  | 111 => ⟨S25000x128, .bf16⟩
  | 112 => ⟨S25000x96, .bf16⟩
  | 113 => ⟨S25000x32, .bf16⟩
  | 114 => ⟨S_, .i32⟩
  | 115 => ⟨S600000, .i32⟩
  | 116 => ⟨S600000, .i1⟩
  | 117 => ⟨S_, .i32⟩
  | 118 => ⟨S600000, .i32⟩
  | 119 => ⟨S600000, .i32⟩
  | 120 => ⟨S600000, .i32⟩
  | 121 => ⟨S600000x1, .i32⟩
  | 122 => ⟨S600000x96, .bf16⟩
  | 123 => ⟨S_, .i32⟩
  | 124 => ⟨S600000, .i32⟩
  | 125 => ⟨S600000, .i1⟩
  | 126 => ⟨S_, .i32⟩
  | 127 => ⟨S600000, .i32⟩
  | _ => ⟨S25000x128, .f32⟩

abbrev hbmTy0_1 (i : Nat) : BufTy := match i % 128 with
  | 0 => ⟨S600000, .i32⟩
  | 1 => ⟨S600000, .i32⟩
  | 2 => ⟨S600000x1, .i32⟩
  | 3 => ⟨S600000x96, .bf16⟩
  | 4 => ⟨S_, .i32⟩
  | 5 => ⟨S600000, .i32⟩
  | 6 => ⟨S600000, .i1⟩
  | 7 => ⟨S_, .i32⟩
  | 8 => ⟨S600000, .i32⟩
  | 9 => ⟨S600000, .i32⟩
  | 10 => ⟨S600000, .i32⟩
  | 11 => ⟨S600000x1, .i32⟩
  | 12 => ⟨S600000x32, .bf16⟩
  | 13 => ⟨S_, .i32⟩
  | 14 => ⟨S600000, .i32⟩
  | 15 => ⟨S600000, .i1⟩
  | 16 => ⟨S_, .i32⟩
  | 17 => ⟨S600000, .i32⟩
  | 18 => ⟨S600000, .i32⟩
  | 19 => ⟨S600000, .i32⟩
  | 20 => ⟨S600000x1, .i32⟩
  | 21 => ⟨S600000x32, .bf16⟩
  | 22 => ⟨S1x96, .f32⟩
  | 23 => ⟨S1x96, .f32⟩
  | 24 => ⟨S1x32, .f32⟩
  | 25 => ⟨S1x32, .f32⟩
  | 26 => ⟨S1x1, .f32⟩
  | 27 => ⟨S1x1, .f32⟩
  | 28 => ⟨S600000x1, .f32⟩
  | 29 => ⟨S12500x48, .f32⟩
  | 30 => ⟨S_, .f32⟩
  | 31 => ⟨S12500, .f32⟩
  | 32 => ⟨S_, .f32⟩
  | 33 => ⟨S12500, .f32⟩
  | 34 => ⟨S12500, .f32⟩
  | 35 => ⟨S12500x1, .f32⟩
  | _ => ⟨S25000x128, .f32⟩

abbrev hbmTy (i : Nat) : BufTy := match i / 128 with
  | 0 => hbmTy0_0 i
  | 1 => hbmTy0_1 i
  | _ => ⟨S25000x128, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S128x256, .f32⟩
  | .local _ .vmem, ⟨3, _⟩ => ⟨S1x256, .f32⟩
  | .local _ .vmem, ⟨4, _⟩ => ⟨S1000x256, .f32⟩
  | .local _ .vmem, ⟨5, _⟩ => ⟨S1000x256, .f32⟩
  | .local _ .vmem, ⟨6, _⟩ => ⟨S1000x256, .f32⟩
  | .local _ .vmem, ⟨7, _⟩ => ⟨S1000x256, .f32⟩
  | .local _ .vmem, ⟨8, _⟩ => ⟨S1000x256, .f32⟩
  | .local _ .vmem, ⟨9, _⟩ => ⟨S1000x256, .f32⟩
  | .local _ .vmem, ⟨10, _⟩ => ⟨S256x256, .f32⟩
  | .local _ .vmem, ⟨11, _⟩ => ⟨S1x256, .f32⟩
  | .local _ .vmem, ⟨12, _⟩ => ⟨S256x256, .f32⟩
  | .local _ .vmem, ⟨13, _⟩ => ⟨S1000x256, .f32⟩
  | .local _ .vmem, ⟨14, _⟩ => ⟨S1000x256, .f32⟩
  | .local _ .vmem, ⟨15, _⟩ => ⟨S1000x256, .f32⟩
  | .local _ .vmem, ⟨16, _⟩ => ⟨S1000x256, .f32⟩
  | .local _ .vmem, ⟨17, _⟩ => ⟨S256x256, .f32⟩
  | .local _ .vmem, ⟨18, _⟩ => ⟨S1x256, .f32⟩
  | .local _ .vmem, ⟨19, _⟩ => ⟨S1000x256, .f32⟩
  | .local _ .vmem, ⟨20, _⟩ => ⟨S1000x256, .f32⟩
  | .local _ .vmem, ⟨21, _⟩ => ⟨S1000x256, .f32⟩
  | .local _ .vmem, ⟨22, _⟩ => ⟨S1000x256, .f32⟩
  | .local _ .vmem, ⟨23, _⟩ => ⟨S1000x256, .f32⟩
  | .local _ .vmem, ⟨24, _⟩ => ⟨S1000x256, .f32⟩
  | .local _ .vmem, ⟨25, _⟩ => ⟨S256x256, .f32⟩
  | .local _ .vmem, ⟨26, _⟩ => ⟨S1x256, .f32⟩
  | .local _ .vmem, ⟨27, _⟩ => ⟨S256x256, .f32⟩
  | .local _ .vmem, ⟨28, _⟩ => ⟨S1000x256, .f32⟩
  | .local _ .vmem, ⟨29, _⟩ => ⟨S1000x256, .f32⟩
  | .local _ .vmem, ⟨30, _⟩ => ⟨S1000x256, .f32⟩
  | .local _ .vmem, ⟨31, _⟩ => ⟨S1000x256, .f32⟩
  | .local _ .vmem, ⟨32, _⟩ => ⟨S256x256, .f32⟩
  | .local _ .vmem, ⟨33, _⟩ => ⟨S1x256, .f32⟩
  | .local _ .vmem, ⟨34, _⟩ => ⟨S1000x256, .f32⟩
  | .local _ .vmem, ⟨35, _⟩ => ⟨S1000x256, .f32⟩
  | .local _ .vmem, ⟨36, _⟩ => ⟨S1000x256, .f32⟩
  | .local _ .vmem, ⟨37, _⟩ => ⟨S1000x256, .f32⟩
  | .local _ .vmem, ⟨38, _⟩ => ⟨S1000x256, .f32⟩
  | .local _ .vmem, ⟨39, _⟩ => ⟨S1000x256, .f32⟩
  | .local _ .vmem, ⟨40, _⟩ => ⟨S256x128, .f32⟩
  | .local _ .vmem, ⟨41, _⟩ => ⟨S1x128, .f32⟩
  | .local _ .vmem, ⟨42, _⟩ => ⟨S256x128, .f32⟩
  | .local _ .vmem, ⟨43, _⟩ => ⟨S1000x128, .f32⟩
  | .local _ .vmem, ⟨44, _⟩ => ⟨S1000x128, .f32⟩
  | .local _ .vmem, ⟨45, _⟩ => ⟨S1000x128, .f32⟩
  | .local _ .vmem, ⟨46, _⟩ => ⟨S1000x128, .f32⟩
  | .local _ .vmem, ⟨47, _⟩ => ⟨S128x128, .f32⟩
  | .local _ .vmem, ⟨48, _⟩ => ⟨S1x128, .f32⟩
  | .local _ .vmem, ⟨49, _⟩ => ⟨S1000x128, .f32⟩
  | .local _ .vmem, ⟨50, _⟩ => ⟨S1000x128, .f32⟩
  | .local _ .vmem, ⟨51, _⟩ => ⟨S12000x96, .bf16⟩
  | .local _ .vmem, ⟨52, _⟩ => ⟨S12000x96, .bf16⟩
  | .local _ .vmem, ⟨53, _⟩ => ⟨S12000x96, .bf16⟩
  | .local _ .vmem, ⟨54, _⟩ => ⟨S12000x96, .bf16⟩
  | .local _ .vmem, ⟨55, _⟩ => ⟨S12000x32, .bf16⟩
  | .local _ .vmem, ⟨56, _⟩ => ⟨S12000x32, .bf16⟩
  | .local _ .vmem, ⟨57, _⟩ => ⟨S12000x32, .bf16⟩
  | .local _ .vmem, ⟨58, _⟩ => ⟨S12000x32, .bf16⟩
  | .local _ .vmem, ⟨59, _⟩ => ⟨S12000x1, .f32⟩
  | .local _ .vmem, ⟨60, _⟩ => ⟨S12000x1, .f32⟩
  | .local _ .vmem, ⟨61, _⟩ => ⟨S1x96, .f32⟩
  | .local _ .vmem, ⟨62, _⟩ => ⟨S1x96, .f32⟩
  | .local _ .vmem, ⟨63, _⟩ => ⟨S1x1, .f32⟩
  | .local _ .vmem, ⟨64, _⟩ => ⟨S1x32, .f32⟩
  | .local _ .vmem, ⟨65, _⟩ => ⟨S1x32, .f32⟩
  | .local _ .vmem, ⟨66, _⟩ => ⟨S1x1, .f32⟩
  | .local _ .vmem, ⟨67, _⟩ => ⟨S12000x1, .f32⟩
  | .local _ .vmem, ⟨68, _⟩ => ⟨S12000x1, .f32⟩
  | _, _ => ⟨S25000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_1 : Ref sig .tc := ⟨.hbm, 35, rfl⟩
abbrev main_v8 : Ref sig .tc := ⟨.hbm, 36, rfl⟩
abbrev main_v9 : Ref sig .tc := ⟨.hbm, 37, rfl⟩
abbrev main_cst_2 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_c : Ref sig .tc := ⟨.hbm, 45, rfl⟩
abbrev main_v16 : Ref sig .tc := ⟨.hbm, 46, rfl⟩
abbrev main_v17 : Ref sig .tc := ⟨.hbm, 47, rfl⟩
abbrev main_c_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_cst_4 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_c_5 : Ref sig .tc := ⟨.hbm, 67, rfl⟩
abbrev main_v35 : Ref sig .tc := ⟨.hbm, 68, rfl⟩
abbrev main_v36 : Ref sig .tc := ⟨.hbm, 69, rfl⟩
abbrev main_c_6 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_7 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_c_8 : Ref sig .tc := ⟨.hbm, 89, rfl⟩
abbrev main_v54 : Ref sig .tc := ⟨.hbm, 90, rfl⟩
abbrev main_v55 : Ref sig .tc := ⟨.hbm, 91, rfl⟩
abbrev main_c_9 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_10 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_c_11 : Ref sig .tc := ⟨.hbm, 114, rfl⟩
abbrev main_v76 : Ref sig .tc := ⟨.hbm, 115, rfl⟩
abbrev main_v77 : Ref sig .tc := ⟨.hbm, 116, rfl⟩
abbrev main_c_12 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_c_13 : Ref sig .tc := ⟨.hbm, 123, rfl⟩
abbrev main_v83 : Ref sig .tc := ⟨.hbm, 124, rfl⟩
abbrev main_v84 : Ref sig .tc := ⟨.hbm, 125, rfl⟩
abbrev main_c_14 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_c_15 : Ref sig .tc := ⟨.hbm, 132, rfl⟩
abbrev main_v90 : Ref sig .tc := ⟨.hbm, 133, rfl⟩
abbrev main_v91 : Ref sig .tc := ⟨.hbm, 134, rfl⟩
abbrev main_c_16 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_c_17 : Ref sig .tc := ⟨.hbm, 141, rfl⟩
abbrev main_v97 : Ref sig .tc := ⟨.hbm, 142, rfl⟩
abbrev main_v98 : Ref sig .tc := ⟨.hbm, 143, rfl⟩
abbrev main_c_18 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_cst_19 : Ref sig .tc := ⟨.hbm, 158, rfl⟩
abbrev main_v112 : Ref sig .tc := ⟨.hbm, 159, rfl⟩
abbrev main_cst_20 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg4_0 : Ref sig .tc := ⟨.vmem, 42, rfl⟩
abbrev cc5_stg5_0 : Ref sig .tc := ⟨.vmem, 43, rfl⟩
abbrev cc5_stg5_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg2_0 : Ref sig .tc := ⟨.vmem, 48, rfl⟩
abbrev cc6_stg3_0 : Ref sig .tc := ⟨.vmem, 49, rfl⟩
abbrev cc6_stg3_1 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg1_1 : Ref sig .tc := ⟨.vmem, 54, rfl⟩
abbrev cc7_stg2_0 : Ref sig .tc := ⟨.vmem, 55, rfl⟩
abbrev cc7_stg2_1 : Ref sig .tc := ⟨.vmem, 56, rfl⟩
abbrev cc7_stg3_0 : Ref sig .tc := ⟨.vmem, 57, rfl⟩
abbrev cc7_stg3_1 : Ref sig .tc := ⟨.vmem, 58, rfl⟩
abbrev cc7_stg4_0 : Ref sig .tc := ⟨.vmem, 59, rfl⟩
abbrev cc7_stg4_1 : Ref sig .tc := ⟨.vmem, 60, rfl⟩
abbrev cc7_stg5_0 : Ref sig .tc := ⟨.vmem, 61, rfl⟩
abbrev cc7_stg6_0 : Ref sig .tc := ⟨.vmem, 62, rfl⟩
abbrev cc7_stg7_0 : Ref sig .tc := ⟨.vmem, 63, rfl⟩
abbrev cc7_stg8_0 : Ref sig .tc := ⟨.vmem, 64, rfl⟩
abbrev cc7_stg9_0 : Ref sig .tc := ⟨.vmem, 65, rfl⟩
abbrev cc7_stg10_0 : Ref sig .tc := ⟨.vmem, 66, rfl⟩
abbrev cc7_stg11_0 : Ref sig .tc := ⟨.vmem, 67, rfl⟩
abbrev cc7_stg11_1 : Ref sig .tc := ⟨.vmem, 68, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem3_0 : DmaSem sig := 41
abbrev cc5_sem4_0 : DmaSem sig := 42
abbrev cc5_sem5_0 : DmaSem sig := 43
abbrev cc5_sem5_1 : DmaSem sig := 44
abbrev cc6_sem0_0 : DmaSem sig := 45
abbrev cc6_sem0_1 : DmaSem sig := 46
abbrev cc6_sem1_0 : DmaSem sig := 47
abbrev cc6_sem2_0 : DmaSem sig := 48
abbrev cc6_sem3_0 : DmaSem sig := 49
abbrev cc6_sem3_1 : DmaSem sig := 50
abbrev cc7_sem0_0 : DmaSem sig := 51
abbrev cc7_sem0_1 : DmaSem sig := 52
abbrev cc7_sem1_0 : DmaSem sig := 53
abbrev cc7_sem1_1 : DmaSem sig := 54
abbrev cc7_sem2_0 : DmaSem sig := 55
abbrev cc7_sem2_1 : DmaSem sig := 56
abbrev cc7_sem3_0 : DmaSem sig := 57
abbrev cc7_sem3_1 : DmaSem sig := 58
abbrev cc7_sem4_0 : DmaSem sig := 59
abbrev cc7_sem4_1 : DmaSem sig := 60
abbrev cc7_sem5_0 : DmaSem sig := 61
abbrev cc7_sem6_0 : DmaSem sig := 62
abbrev cc7_sem7_0 : DmaSem sig := 63
abbrev cc7_sem8_0 : DmaSem sig := 64
abbrev cc7_sem9_0 : DmaSem sig := 65
abbrev cc7_sem10_0 : DmaSem sig := 66
abbrev cc7_sem11_0 : DmaSem sig := 67
abbrev cc7_sem11_1 : DmaSem sig := 68

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S256x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S1000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S1000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_10 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_11 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S12000x96 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S12000x96 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S12000x32 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S12000x32 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S12000x1 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S1x96 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x96 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x1 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S1x32 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S1x32 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev stage7_10 : Fin 1 → Memref sig .tc .vmem S1x1 .f32 := fun | 0 => Memref.whole cc7_stg10_0 | ⟨_ + 1, h⟩ => absurd h (Nat.not_lt.2 (Nat.le_add_left _ _))
abbrev sem7_10 : Fin 1 → DmaSem sig := fun | 0 => cc7_sem10_0 | ⟨_ + 1, h⟩ => absurd h (Nat.not_lt.2 (Nat.le_add_left _ _))
abbrev reads7_10 : Fin grid7.rank → Bool := ![false]

abbrev stage7_11 : Fin 2 → Memref sig .tc .vmem S12000x1 .f32 := fun | 0 => Memref.whole cc7_stg11_0 | 1 => Memref.whole cc7_stg11_1 | ⟨_ + 2, h⟩ => absurd h (Nat.not_lt.2 (Nat.le_add_left _ _))
abbrev sem7_11 : Fin 2 → DmaSem sig := fun | 0 => cc7_sem11_0 | 1 => cc7_sem11_1 | ⟨_ + 2, h⟩ => absurd h (Nat.not_lt.2 (Nat.le_add_left _ _))
abbrev reads7_11 : Fin grid7.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S25000 : S_.BroadcastsInDim S25000 (![] : Fin 0 → Fin S25000.rank)
  bcast_S600000_S600000x1_0 : S600000.BroadcastsInDim S600000x1 (![0] : Fin 1 → Fin S600000x1.rank)
  shapeCasts_S25000_S25000x1 : S25000.ShapeCasts S25000x1
  transposes_S256x128_S128x256_1_0 : S256x128.Transposes [1, 0] S128x256
  shapeCasts_S256_S1x256 : S256.ShapeCasts S1x256
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  bcast_S_S25000x256 : S_.BroadcastsInDim S25000x256 (![] : Fin 0 → Fin S25000x256.rank)
  bcast_S25000x1_S25000x256_0_1 : S25000x1.BroadcastsInDim S25000x256 (![0, 1] : Fin 2 → Fin S25000x256.rank)
  transposes_S256x256_S256x256_1_0 : S256x256.Transposes [1, 0] S256x256
  shapeCasts_S1000x256_S1000x256 : S1000x256.ShapeCasts S1000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  transposes_S128x256_S256x128_1_0 : S128x256.Transposes [1, 0] S256x128
  shapeCasts_S128_S1x128 : S128.ShapeCasts S1x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  transposes_S128x128_S128x128_1_0 : S128x128.Transposes [1, 0] S128x128
  shapeCasts_S1000x128_S1000x128 : S1000x128.ShapeCasts S1000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S25000x128_S25000x96_0_0 : S25000x128.Slices ![0, 0] S25000x96
  slices_S25000x128_S25000x32_0_96 : S25000x128.Slices ![0, 96] S25000x32
  slices_S1x192_S1x96_0_0 : S1x192.Slices ![0, 0] S1x96
  slices_S1x192_S1x96_0_96 : S1x192.Slices ![0, 96] S1x96
  slices_S1x64_S1x32_0_0 : S1x64.Slices ![0, 0] S1x32
  slices_S1x64_S1x32_0_32 : S1x64.Slices ![0, 32] S1x32
  shapeCasts_S1_S1x1 : S1.ShapeCasts S1x1
  inb_S12000x96_S12000x96_0_0 : ∀ a, (![0, 0] : Fin 2 → Nat) a + S12000x96.size a ≤ S12000x96.size a
  h_S12000x96 : 0 < S12000x96.numel
  shapeCasts_S12000x96_S12000x96 : S12000x96.ShapeCasts S12000x96
  inb_S12000x32_S12000x32_0_0 : ∀ a, (![0, 0] : Fin 2 → Nat) a + S12000x32.size a ≤ S12000x32.size a
  h_S12000x32 : 0 < S12000x32.numel
  shapeCasts_S12000x32_S12000x32 : S12000x32.ShapeCasts S12000x32
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S12000x96 : S1x96.Broadcasts S12000x96
  reduces_S12000x96_S12000 : S12000x96.Reduces [1] S12000
  shapeCasts_S12000_S12000x1 : S12000.ShapeCasts S12000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S12000x1 : S1x1.Broadcasts S12000x1
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S12000x32 : S1x32.Broadcasts S12000x32
  reduces_S12000x32_S12000 : S12000x32.Reduces [1] S12000
  inb_S12000x1_S12000x1_0_0 : ∀ a, (![0, 0] : Fin 2 → Nat) a + S12000x1.size a ≤ S12000x1.size a
  h_S12000x1 : 0 < S12000x1.numel
  shapeCasts_S600000x1_S12500x48 : S600000x1.ShapeCasts S12500x48
  reducesTo_S12500x48_S12500_d1 : S12500x48.ReducesTo [1] S12500
  h_S_ : 0 < S_.numel
  bcast_S_S12500 : S_.BroadcastsInDim S12500 (![] : Fin 0 → Fin S12500.rank)
  shapeCasts_S12500_S12500x1 : S12500.ShapeCasts S12500x1
  scatter_S25000_S600000x1_S600000_n_0_0_1_wf : ScatterDims.WF S25000 S600000x1 S600000 [] [0] [0] 1
  dot_S1000x128_S128x256_S1000x256_1_0_0_1_n_n_wf : DotDims.WF S1000x128 S128x256 S1000x256 [1] [0] [0] [1] [] []
  gather_S25000x256_S600000x1_S600000x256_1_0_n_n_0_1_1256_wf : GatherDims.WF S25000x256 S600000x1 S600000x256 [1] [0] [] [0] [] 1 ![1, 256]
  scatter_S25000x256_S600000x1_S600000x256_1_0_0_1_wf : ScatterDims.WF S25000x256 S600000x1 S600000x256 [1] [0] [0] 1
  dot_S1000x256_S256x256_S1000x256_1_0_0_1_n_n_wf : DotDims.WF S1000x256 S256x256 S1000x256 [1] [0] [0] [1] [] []
  dot_S1000x256_S256x128_S1000x128_1_0_0_1_n_n_wf : DotDims.WF S1000x256 S256x128 S1000x128 [1] [0] [0] [1] [] []
  dot_S1000x128_S128x128_S1000x128_1_0_0_1_n_n_wf : DotDims.WF S1000x128 S128x128 S1000x128 [1] [0] [0] [1] [] []
  gather_S25000x96_S600000x1_S600000x96_1_0_n_n_0_1_196_wf : GatherDims.WF S25000x96 S600000x1 S600000x96 [1] [0] [] [0] [] 1 ![1, 96]
  gather_S25000x32_S600000x1_S600000x32_1_0_n_n_0_1_132_wf : GatherDims.WF S25000x32 S600000x1 S600000x32 [1] [0] [] [0] [] 1 ![1, 32]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S25000x128.size a
  hwx0_0 : ∀ i : grid0.Coords, EltTy.bits .f32 = 32 ∨ (Rect.block (s := S25000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S25000x256.size a
  hwx0_3 : ∀ i : grid0.Coords, EltTy.bits .f32 = 32 ∨ (Rect.block (s := S25000x256) S1000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S25000x256.size a
  hwx1_0 : ∀ i : grid1.Coords, EltTy.bits .f32 = 32 ∨ (Rect.block (s := S25000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x256.size a ≤ S25000x256.size a
  hwx1_1 : ∀ i : grid1.Coords, EltTy.bits .f32 = 32 ∨ (Rect.block (s := S25000x256) S1000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x256.size a ≤ S25000x256.size a
  hwx1_5 : ∀ i : grid1.Coords, EltTy.bits .f32 = 32 ∨ (Rect.block (s := S25000x256) S1000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S25000x256.size a
  hwx2_0 : ∀ i : grid2.Coords, EltTy.bits .f32 = 32 ∨ (Rect.block (s := S25000x256) S1000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x256.size a ≤ S25000x256.size a
  hwx2_3 : ∀ i : grid2.Coords, EltTy.bits .f32 = 32 ∨ (Rect.block (s := S25000x256) S1000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x256.size a ≤ S25000x256.size a
  hwx3_0 : ∀ i : grid3.Coords, EltTy.bits .f32 = 32 ∨ (Rect.block (s := S25000x256) S1000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x256.size a ≤ S25000x256.size a
  hwx3_1 : ∀ i : grid3.Coords, EltTy.bits .f32 = 32 ∨ (Rect.block (s := S25000x256) S1000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .f32 = 32 ∨ (Rect.block (s := S256x256) S256x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1000x256.size a ≤ S25000x256.size a
  hwx3_5 : ∀ i : grid3.Coords, EltTy.bits .f32 = 32 ∨ (Rect.block (s := S25000x256) S1000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x256.size a ≤ S25000x256.size a
  hwx4_0 : ∀ i : grid4.Coords, EltTy.bits .f32 = 32 ∨ (Rect.block (s := S25000x256) S1000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1000x256.size a ≤ S25000x256.size a
  hwx4_3 : ∀ i : grid4.Coords, EltTy.bits .f32 = 32 ∨ (Rect.block (s := S25000x256) S1000x256.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x256.size a ≤ S25000x256.size a
  hwx5_0 : ∀ i : grid5.Coords, EltTy.bits .f32 = 32 ∨ (Rect.block (s := S25000x256) S1000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1000x256.size a ≤ S25000x256.size a
  hwx5_1 : ∀ i : grid5.Coords, EltTy.bits .f32 = 32 ∨ (Rect.block (s := S25000x256) S1000x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x128.size a ≤ S256x128.size a
  hwx5_2 : ∀ i : grid5.Coords, EltTy.bits .f32 = 32 ∨ (Rect.block (s := S256x128) S256x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S256x128.size a ≤ S256x128.size a
  hwx5_4 : ∀ i : grid5.Coords, EltTy.bits .f32 = 32 ∨ (Rect.block (s := S256x128) S256x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1000x128.size a ≤ S25000x128.size a
  hwx5_5 : ∀ i : grid5.Coords, EltTy.bits .f32 = 32 ∨ (Rect.block (s := S25000x128) S1000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x128.size a ≤ S25000x128.size a
  hwx6_0 : ∀ i : grid6.Coords, EltTy.bits .f32 = 32 ∨ (Rect.block (s := S25000x128) S1000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1000x128.size a ≤ S25000x128.size a
  hwx6_3 : ∀ i : grid6.Coords, EltTy.bits .f32 = 32 ∨ (Rect.block (s := S25000x128) S1000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S12000x96.size a ≤ S600000x96.size a
  hwx7_0 : ∀ i : grid7.Coords, EltTy.bits .bf16 = 32 ∨ (Rect.block (s := S600000x96) S12000x96.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S12000x96.size a ≤ S600000x96.size a
  hwx7_1 : ∀ i : grid7.Coords, EltTy.bits .bf16 = 32 ∨ (Rect.block (s := S600000x96) S12000x96.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S12000x32.size a ≤ S600000x32.size a
  hwx7_2 : ∀ i : grid7.Coords, EltTy.bits .bf16 = 32 ∨ (Rect.block (s := S600000x32) S12000x32.size (cc7_transform_2 i) (hinb7_2 i)).WholeWords (EltTy.packing .bf16)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S12000x32.size a ≤ S600000x32.size a
  hwx7_3 : ∀ i : grid7.Coords, EltTy.bits .bf16 = 32 ∨ (Rect.block (s := S600000x32) S12000x32.size (cc7_transform_3 i) (hinb7_3 i)).WholeWords (EltTy.packing .bf16)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S12000x1.size a ≤ S600000x1.size a
  hwx7_4 : ∀ i : grid7.Coords, EltTy.bits .f32 = 32 ∨ (Rect.block (s := S600000x1) S12000x1.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x96.size a ≤ S1x96.size a
  hwx7_5 : ∀ i : grid7.Coords, EltTy.bits .f32 = 32 ∨ (Rect.block (s := S1x96) S1x96.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x96.size a ≤ S1x96.size a
  hwx7_6 : ∀ i : grid7.Coords, EltTy.bits .f32 = 32 ∨ (Rect.block (s := S1x96) S1x96.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x1.size a ≤ S1x1.size a
  hwx7_7 : ∀ i : grid7.Coords, EltTy.bits .f32 = 32 ∨ (Rect.block (s := S1x1) S1x1.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x32.size a ≤ S1x32.size a
  hwx7_8 : ∀ i : grid7.Coords, EltTy.bits .f32 = 32 ∨ (Rect.block (s := S1x32) S1x32.size (cc7_transform_8 i) (hinb7_8 i)).WholeWords (EltTy.packing .f32)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S1x32.size a ≤ S1x32.size a
  hwx7_9 : ∀ i : grid7.Coords, EltTy.bits .f32 = 32 ∨ (Rect.block (s := S1x32) S1x32.size (cc7_transform_9 i) (hinb7_9 i)).WholeWords (EltTy.packing .f32)
  hstage7_10 : ∀ j, (stage7_10 j).IsWhole
  nbuf7_10 : grid7.bufCount reads7_10 true = 1
  hreads7_10 : ∀ i i' : grid7.Coords, (∀ a, reads7_10 a = true → i a = i' a) → cc7_transform_10 i = cc7_transform_10 i'
  hinb7_10 : ∀ (i : grid7.Coords) a, (cc7_transform_10 i a + 1) * S1x1.size a ≤ S1x1.size a
  hwx7_10 : ∀ i : grid7.Coords, EltTy.bits .f32 = 32 ∨ (Rect.block (s := S1x1) S1x1.size (cc7_transform_10 i) (hinb7_10 i)).WholeWords (EltTy.packing .f32)
  hstage7_11 : ∀ j, (stage7_11 j).IsWhole
  nbuf7_11 : grid7.bufCount reads7_11 false = 2
  hreads7_11 : ∀ i i' : grid7.Coords, (∀ a, reads7_11 a = true → i a = i' a) → cc7_transform_11 i = cc7_transform_11 i'
  hinb7_11 : ∀ (i : grid7.Coords) a, (cc7_transform_11 i a + 1) * S12000x1.size a ≤ S600000x1.size a
  hwx7_11 : ∀ i : grid7.Coords, EltTy.bits .f32 = 32 ∨ (Rect.block (s := S600000x1) S12000x1.size (cc7_transform_11 i) (hinb7_11 i)).WholeWords (EltTy.packing .f32)

variable [Facts₀]

def scatter_S25000_S600000x1_S600000_n_0_0_1 : ScatterDims S25000 S600000x1 S600000 where
  updateWindowDims := []
  insertedWindowDims := [0]
  scatterDimsToOperandDims := [0]
  indexVectorDim := 1
  wf := scatter_S25000_S600000x1_S600000_n_0_0_1_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def gather_S25000x256_S600000x1_S600000x256_1_0_n_n_0_1_1256 : GatherDims S25000x256 S600000x1 S600000x256 where
  offsetDims := [1]
  collapsedSliceDims := [0]
  operandBatchingDims := []
  startIndicesBatchingDims := []
  startIndexMap := [0]
  indexVectorDim := 1
  sliceSizes := ![1, 256]
  wf := gather_S25000x256_S600000x1_S600000x256_1_0_n_n_0_1_1256_wf
def scatter_S25000x256_S600000x1_S600000x256_1_0_0_1 : ScatterDims S25000x256 S600000x1 S600000x256 where
  updateWindowDims := [1]
  insertedWindowDims := [0]
  scatterDimsToOperandDims := [0]
  indexVectorDim := 1
  wf := scatter_S25000x256_S600000x1_S600000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S25000x96_S600000x1_S600000x96_1_0_n_n_0_1_196 : GatherDims S25000x96 S600000x1 S600000x96 where
  offsetDims := [1]
  collapsedSliceDims := [0]
  operandBatchingDims := []
  startIndicesBatchingDims := []
  startIndexMap := [0]
  indexVectorDim := 1
  sliceSizes := ![1, 96]
  wf := gather_S25000x96_S600000x1_S600000x96_1_0_n_n_0_1_196_wf
def gather_S25000x32_S600000x1_S600000x32_1_0_n_n_0_1_132 : GatherDims S25000x32 S600000x1 S600000x32 where
  offsetDims := [1]
  collapsedSliceDims := [0]
  operandBatchingDims := []
  startIndicesBatchingDims := []
  startIndexMap := [0]
  indexVectorDim := 1
  sliceSizes := ![1, 32]
  wf := gather_S25000x32_S600000x1_S600000x32_1_0_n_n_0_1_132_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v31) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S1000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v46) S1000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S1000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v47) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v49) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v48) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v50) S1000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v50) S1000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v51) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v52) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v53) S1000x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v65) S1000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v53) S1000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v66) S256x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v68) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v67) S256x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v69) S1000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v69) S1000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v70) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v71) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v72) S1000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v82) S12000x96.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v89) S12000x96.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v96) S12000x32.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v103) S12000x32.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_arg2) S12000x1.size cc7_transform_4 reads7_4 false false 2 stage7_4 sem7_4
    hrank7 hreads7_4 hinb7_4 nbuf7_4 (Memref.isWhole_whole _) hwx7_4 hstage7_4

abbrev win7_5 : Pipeline.Window sig grid7 :=
  Pipeline.Window.ofSpec (Memref.whole main_v104) S1x96.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v105) S1x96.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v108) S1x1.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v106) S1x32.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v107) S1x32.size cc7_transform_9 reads7_9 false true 1 stage7_9 sem7_9
    hrank7 hreads7_9 hinb7_9 nbuf7_9 (Memref.isWhole_whole _) hwx7_9 hstage7_9

abbrev win7_10 : Pipeline.Window sig grid7 :=
  Pipeline.Window.ofSpec (Memref.whole main_v109) S1x1.size cc7_transform_10 reads7_10 false true 1 stage7_10 sem7_10
    hrank7 hreads7_10 hinb7_10 nbuf7_10 (Memref.isWhole_whole _) hwx7_10 hstage7_10

abbrev win7_11 : Pipeline.Window sig grid7 :=
  Pipeline.Window.ofSpec (Memref.whole main_v110) S12000x1.size cc7_transform_11 reads7_11 true false 2 stage7_11 sem7_11
    hrank7 hreads7_11 hinb7_11 nbuf7_11 (Memref.isWhole_whole _) hwx7_11 hstage7_11

abbrev win7 : Fin 12 → Pipeline.Window sig grid7 := fun | 0 => win7_0 | 1 => win7_1 | 2 => win7_2 | 3 => win7_3 | 4 => win7_4 | 5 => win7_5 | 6 => win7_6 | 7 => win7_7 | 8 => win7_8 | 9 => win7_9 | 10 => win7_10 | 11 => win7_11 | ⟨_ + 12, h⟩ => absurd h (Nat.not_lt.2 (Nat.le_add_left _ _))
abbrev spec7 : Fin 12 → Pipeline.WinSpec sig grid7.rank := fun w => (win7 w).toWinSpec

class Facts : Prop extends Facts₀ where

variable [Facts]
-- ==== ReferenceIdeal.lean ====
abbrev S25000x128 : Shape := ⟨2, ![25000, 128]⟩
abbrev S2x600000 : Shape := ⟨2, ![2, 600000]⟩
abbrev S600000x1 : Shape := ⟨2, ![600000, 1]⟩
abbrev S25000 : Shape := ⟨1, ![25000]⟩
abbrev S256x128 : Shape := ⟨2, ![256, 128]⟩
abbrev S256 : Shape := ⟨1, ![256]⟩
abbrev S256x256 : Shape := ⟨2, ![256, 256]⟩
abbrev S128x256 : Shape := ⟨2, ![128, 256]⟩
abbrev S128 : Shape := ⟨1, ![128]⟩
abbrev S128x128 : Shape := ⟨2, ![128, 128]⟩
abbrev S1x192 : Shape := ⟨2, ![1, 192]⟩
abbrev S1 : Shape := ⟨1, ![1]⟩
abbrev S1x64 : Shape := ⟨2, ![1, 64]⟩
abbrev S1x600000 : Shape := ⟨2, ![1, 600000]⟩
abbrev S600000 : Shape := ⟨1, ![600000]⟩
abbrev S25000x256 : Shape := ⟨2, ![25000, 256]⟩
abbrev S1x256 : Shape := ⟨2, ![1, 256]⟩
abbrev S_ : Shape := ⟨0, ![]⟩
abbrev S600000x256 : Shape := ⟨2, ![600000, 256]⟩
abbrev S25000x1 : Shape := ⟨2, ![25000, 1]⟩
abbrev S1x128 : Shape := ⟨2, ![1, 128]⟩
abbrev S600000x128 : Shape := ⟨2, ![600000, 128]⟩
abbrev S600000x96 : Shape := ⟨2, ![600000, 96]⟩
abbrev S600000x192 : Shape := ⟨2, ![600000, 192]⟩
abbrev S600000x32 : Shape := ⟨2, ![600000, 32]⟩
abbrev S600000x64 : Shape := ⟨2, ![600000, 64]⟩
abbrev S192x1 : Shape := ⟨2, ![192, 1]⟩
abbrev S1x1 : Shape := ⟨2, ![1, 1]⟩
abbrev S64x1 : Shape := ⟨2, ![64, 1]⟩
abbrev S12500x48 : Shape := ⟨2, ![12500, 48]⟩
abbrev S12500 : Shape := ⟨1, ![12500]⟩
abbrev S12500x1 : Shape := ⟨2, ![12500, 1]⟩

abbrev nBuf : Space → Nat
  | .hbm => 230
  | .vmem => 0
  | .smem => 0
  | _ => 0

abbrev hbmTy0_0 (i : Nat) : BufTy := match i % 128 with
  | 0 => ⟨S25000x128, .f32⟩
  | 1 => ⟨S2x600000, .i32⟩
  | 2 => ⟨S600000x1, .f32⟩
  | 3 => ⟨S25000, .i32⟩
  | 4 => ⟨S256x128, .f32⟩
  | 5 => ⟨S256, .f32⟩
  | 6 => ⟨S256x256, .f32⟩
  | 7 => ⟨S256, .f32⟩
  | 8 => ⟨S256x256, .f32⟩
  | 9 => ⟨S256x256, .f32⟩
  | 10 => ⟨S256, .f32⟩
  | 11 => ⟨S256x256, .f32⟩
  | 12 => ⟨S128x256, .f32⟩
  | 13 => ⟨S128, .f32⟩
  | 14 => ⟨S128x256, .f32⟩
  | 15 => ⟨S256x256, .f32⟩
  | 16 => ⟨S256, .f32⟩
  | 17 => ⟨S256x256, .f32⟩
  | 18 => ⟨S256, .f32⟩
  | 19 => ⟨S128x128, .f32⟩
  | 20 => ⟨S128, .f32⟩
  | 21 => ⟨S1x192, .f32⟩
  | 22 => ⟨S1, .f32⟩
  | 23 => ⟨S1x64, .f32⟩
  | 24 => ⟨S1, .f32⟩
  | 25 => ⟨S1x600000, .i32⟩
  | 26 => ⟨S600000, .i32⟩
  | 27 => ⟨S1x600000, .i32⟩
  | 28 => ⟨S600000, .i32⟩
  | 29 => ⟨S128x256, .f32⟩
  | 30 => ⟨S25000x256, .f32⟩
  | 31 => ⟨S1x256, .f32⟩
  | 32 => ⟨S25000x256, .f32⟩
  | 33 => ⟨S25000x256, .f32⟩
  | 34 => ⟨S_, .f32⟩
  | 35 => ⟨S25000x256, .f32⟩
  | 36 => ⟨S25000x256, .f32⟩
  | 37 => ⟨S_, .i32⟩
  | 38 => ⟨S600000, .i32⟩
  | 39 => ⟨S600000, .i1⟩
  | 40 => ⟨S_, .i32⟩
  | 41 => ⟨S600000, .i32⟩
  | 42 => ⟨S600000, .i32⟩
  | 43 => ⟨S600000, .i32⟩
  | 44 => ⟨S600000x1, .i32⟩
  | 45 => ⟨S600000x256, .f32⟩
  | 46 => ⟨S_, .f32⟩
  | 47 => ⟨S25000x256, .f32⟩
  | 48 => ⟨S600000x1, .i32⟩
  | 49 => ⟨S25000x256, .f32⟩
  | 50 => ⟨S_, .f32⟩
  | 51 => ⟨S600000, .f32⟩
  | 52 => ⟨S_, .f32⟩
  | 53 => ⟨S25000, .f32⟩
  | 54 => ⟨S600000x1, .i32⟩
  | 55 => ⟨S25000, .f32⟩
  | 56 => ⟨S_, .f32⟩
  | 57 => ⟨S25000, .f32⟩
  | 58 => ⟨S25000, .f32⟩
  | 59 => ⟨S25000x1, .f32⟩
  | 60 => ⟨S25000x256, .f32⟩
  | 61 => ⟨S25000x256, .f32⟩
  | 62 => ⟨S256x256, .f32⟩
  | 63 => ⟨S25000x256, .f32⟩
  | 64 => ⟨S1x256, .f32⟩
  | 65 => ⟨S25000x256, .f32⟩
  | 66 => ⟨S25000x256, .f32⟩
  | 67 => ⟨S256x256, .f32⟩
  | 68 => ⟨S25000x256, .f32⟩
  | 69 => ⟨S25000x256, .f32⟩
  | 70 => ⟨S_, .f32⟩
  | 71 => ⟨S25000x256, .f32⟩
  | 72 => ⟨S25000x256, .f32⟩
  | 73 => ⟨S256x256, .f32⟩
  | 74 => ⟨S25000x256, .f32⟩
  | 75 => ⟨S1x256, .f32⟩
  | 76 => ⟨S25000x256, .f32⟩
  | 77 => ⟨S25000x256, .f32⟩
  | 78 => ⟨S_, .f32⟩
  | 79 => ⟨S25000x256, .f32⟩
  | 80 => ⟨S25000x256, .i1⟩
  | 81 => ⟨S_, .f32⟩
  | 82 => ⟨S25000x256, .f32⟩
  | 83 => ⟨S25000x256, .f32⟩
  | 84 => ⟨S25000x256, .f32⟩
  | 85 => ⟨S_, .i32⟩
  | 86 => ⟨S600000, .i32⟩
  | 87 => ⟨S600000, .i1⟩
  | 88 => ⟨S_, .i32⟩
  | 89 => ⟨S600000, .i32⟩
  | 90 => ⟨S600000, .i32⟩
  | 91 => ⟨S600000, .i32⟩
  | 92 => ⟨S600000x1, .i32⟩
  | 93 => ⟨S600000x256, .f32⟩
  | 94 => ⟨S_, .f32⟩
  | 95 => ⟨S25000x256, .f32⟩
  | 96 => ⟨S600000x1, .i32⟩
  | 97 => ⟨S25000x256, .f32⟩
  | 98 => ⟨S_, .f32⟩
  | 99 => ⟨S600000, .f32⟩
  | 100 => ⟨S_, .f32⟩
  | 101 => ⟨S25000, .f32⟩
  | 102 => ⟨S600000x1, .i32⟩
  | 103 => ⟨S25000, .f32⟩
  | 104 => ⟨S_, .f32⟩
  | 105 => ⟨S25000, .f32⟩
  | 106 => ⟨S25000, .f32⟩
  | 107 => ⟨S25000x1, .f32⟩
  | 108 => ⟨S25000x256, .f32⟩
  | 109 => ⟨S25000x256, .f32⟩
  | 110 => ⟨S256x256, .f32⟩
  | 111 => ⟨S25000x256, .f32⟩
  | 112 => ⟨S1x256, .f32⟩
  | 113 => ⟨S25000x256, .f32⟩
  | 114 => ⟨S25000x256, .f32⟩
  | 115 => ⟨S256x256, .f32⟩
  | 116 => ⟨S25000x256, .f32⟩
  | 117 => ⟨S25000x256, .f32⟩
  | 118 => ⟨S_, .f32⟩
  | 119 => ⟨S25000x256, .f32⟩
  | 120 => ⟨S25000x256, .f32⟩
  | 121 => ⟨S256x256, .f32⟩
  | 122 => ⟨S25000x256, .f32⟩
  | 123 => ⟨S1x256, .f32⟩
  | 124 => ⟨S25000x256, .f32⟩
  | 125 => ⟨S25000x256, .f32⟩
  | 126 => ⟨S_, .f32⟩
  | 127 => ⟨S25000x256, .f32⟩
  | _ => ⟨S25000x128, .f32⟩

abbrev hbmTy0_1 (i : Nat) : BufTy := match i % 128 with
  | 0 => ⟨S25000x256, .i1⟩
  | 1 => ⟨S_, .f32⟩
  | 2 => ⟨S25000x256, .f32⟩
  | 3 => ⟨S25000x256, .f32⟩
  | 4 => ⟨S25000x256, .f32⟩
  | 5 => ⟨S_, .i32⟩
  | 6 => ⟨S600000, .i32⟩
  | 7 => ⟨S600000, .i1⟩
  | 8 => ⟨S_, .i32⟩
  | 9 => ⟨S600000, .i32⟩
  | 10 => ⟨S600000, .i32⟩
  | 11 => ⟨S600000, .i32⟩
  | 12 => ⟨S600000x1, .i32⟩
  | 13 => ⟨S600000x256, .f32⟩
  | 14 => ⟨S_, .f32⟩
  | 15 => ⟨S25000x256, .f32⟩
  | 16 => ⟨S600000x1, .i32⟩
  | 17 => ⟨S25000x256, .f32⟩
  | 18 => ⟨S_, .f32⟩
  | 19 => ⟨S600000, .f32⟩
  | 20 => ⟨S_, .f32⟩
  | 21 => ⟨S25000, .f32⟩
  | 22 => ⟨S600000x1, .i32⟩
  | 23 => ⟨S25000, .f32⟩
  | 24 => ⟨S_, .f32⟩
  | 25 => ⟨S25000, .f32⟩
  | 26 => ⟨S25000, .f32⟩
  | 27 => ⟨S25000x1, .f32⟩
  | 28 => ⟨S25000x256, .f32⟩
  | 29 => ⟨S25000x256, .f32⟩
  | 30 => ⟨S256x128, .f32⟩
  | 31 => ⟨S25000x128, .f32⟩
  | 32 => ⟨S1x128, .f32⟩
  | 33 => ⟨S25000x128, .f32⟩
  | 34 => ⟨S25000x128, .f32⟩
  | 35 => ⟨S256x128, .f32⟩
  | 36 => ⟨S25000x128, .f32⟩
  | 37 => ⟨S25000x128, .f32⟩
  | 38 => ⟨S_, .f32⟩
  | 39 => ⟨S25000x128, .f32⟩
  | 40 => ⟨S25000x128, .f32⟩
  | 41 => ⟨S128x128, .f32⟩
  | 42 => ⟨S25000x128, .f32⟩
  | 43 => ⟨S1x128, .f32⟩
  | 44 => ⟨S25000x128, .f32⟩
  | 45 => ⟨S25000x128, .f32⟩
  | 46 => ⟨S_, .f32⟩
  | 47 => ⟨S25000x128, .f32⟩
  | 48 => ⟨S25000x128, .i1⟩
  | 49 => ⟨S_, .f32⟩
  | 50 => ⟨S25000x128, .f32⟩
  | 51 => ⟨S25000x128, .f32⟩
  | 52 => ⟨S25000x128, .f32⟩
  | 53 => ⟨S_, .i32⟩
  | 54 => ⟨S600000, .i32⟩
  | 55 => ⟨S600000, .i1⟩
  | 56 => ⟨S_, .i32⟩
  | 57 => ⟨S600000, .i32⟩
  | 58 => ⟨S600000, .i32⟩
  | 59 => ⟨S600000, .i32⟩
  | 60 => ⟨S600000x1, .i32⟩
  | 61 => ⟨S600000x128, .f32⟩
  | 62 => ⟨S_, .i32⟩
  | 63 => ⟨S600000, .i32⟩
  | 64 => ⟨S600000, .i1⟩
  | 65 => ⟨S_, .i32⟩
  | 66 => ⟨S600000, .i32⟩
  | 67 => ⟨S600000, .i32⟩
  | 68 => ⟨S600000, .i32⟩
  | 69 => ⟨S600000x1, .i32⟩
  | 70 => ⟨S600000x128, .f32⟩
  | 71 => ⟨S600000x96, .f32⟩
  | 72 => ⟨S600000x96, .f32⟩
  | 73 => ⟨S600000x192, .f32⟩
  | 74 => ⟨S600000x32, .f32⟩
  | 75 => ⟨S600000x32, .f32⟩
  | 76 => ⟨S600000x64, .f32⟩
  | 77 => ⟨S192x1, .f32⟩
  | 78 => ⟨S600000x1, .f32⟩
  | 79 => ⟨S1x1, .f32⟩
  | 80 => ⟨S600000x1, .f32⟩
  | 81 => ⟨S600000x1, .f32⟩
  | 82 => ⟨S_, .f32⟩
  | 83 => ⟨S600000x1, .f32⟩
  | 84 => ⟨S600000x1, .f32⟩
  | 85 => ⟨S64x1, .f32⟩
  | 86 => ⟨S600000x1, .f32⟩
  | 87 => ⟨S1x1, .f32⟩
  | 88 => ⟨S600000x1, .f32⟩
  | 89 => ⟨S600000x1, .f32⟩
  | 90 => ⟨S_, .f32⟩
  | 91 => ⟨S600000x1, .f32⟩
  | 92 => ⟨S600000x1, .f32⟩
  | 93 => ⟨S600000x1, .f32⟩
  | 94 => ⟨S600000x1, .f32⟩
  | 95 => ⟨S12500x48, .f32⟩
  | 96 => ⟨S_, .f32⟩
  | 97 => ⟨S12500, .f32⟩
  | 98 => ⟨S_, .f32⟩
  | 99 => ⟨S12500, .f32⟩
  | 100 => ⟨S12500, .f32⟩
  | 101 => ⟨S12500x1, .f32⟩
  | _ => ⟨S25000x128, .f32⟩

abbrev hbmTy (i : Nat) : BufTy := match i / 128 with
  | 0 => hbmTy0_0 i
  | 1 => hbmTy0_1 i
  | _ => ⟨S25000x128, .f32⟩

abbrev bufTy : (tb : Table) → Fin (tcTables nBuf tb) → BufTy
  | .hbm, ⟨i, _⟩ => hbmTy i
  | _, _ => ⟨S25000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_call0_cst : Ref sig .tc := ⟨.hbm, 34, rfl⟩
abbrev main_call0_v0 : Ref sig .tc := ⟨.hbm, 35, rfl⟩
abbrev main_v9 : Ref sig .tc := ⟨.hbm, 36, rfl⟩
abbrev main_c : Ref sig .tc := ⟨.hbm, 37, rfl⟩
abbrev main_v10 : Ref sig .tc := ⟨.hbm, 38, rfl⟩
abbrev main_v11 : Ref sig .tc := ⟨.hbm, 39, rfl⟩
abbrev main_c_0 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_cst_1 : Ref sig .tc := ⟨.hbm, 50, rfl⟩
abbrev main_v20 : Ref sig .tc := ⟨.hbm, 51, rfl⟩
abbrev main_cst_2 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_3 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_call1_cst : Ref sig .tc := ⟨.hbm, 70, rfl⟩
abbrev main_call1_v0 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst_4 : Ref sig .tc := ⟨.hbm, 78, rfl⟩
abbrev main_v43 : Ref sig .tc := ⟨.hbm, 79, rfl⟩
abbrev main_v44 : Ref sig .tc := ⟨.hbm, 80, rfl⟩
abbrev main_cst_5 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_c_6 : Ref sig .tc := ⟨.hbm, 85, rfl⟩
abbrev main_v48 : Ref sig .tc := ⟨.hbm, 86, rfl⟩
abbrev main_v49 : Ref sig .tc := ⟨.hbm, 87, rfl⟩
abbrev main_c_7 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst_8 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_cst_9 : Ref sig .tc := ⟨.hbm, 98, rfl⟩
abbrev main_v58 : Ref sig .tc := ⟨.hbm, 99, rfl⟩
abbrev main_cst_10 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_cst_11 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_call3_cst : Ref sig .tc := ⟨.hbm, 118, rfl⟩
abbrev main_call3_v0 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_cst_12 : Ref sig .tc := ⟨.hbm, 126, rfl⟩
abbrev main_v81 : Ref sig .tc := ⟨.hbm, 127, rfl⟩
abbrev main_v82 : Ref sig .tc := ⟨.hbm, 128, rfl⟩
abbrev main_cst_13 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_c_14 : Ref sig .tc := ⟨.hbm, 133, rfl⟩
abbrev main_v86 : Ref sig .tc := ⟨.hbm, 134, rfl⟩
abbrev main_v87 : Ref sig .tc := ⟨.hbm, 135, rfl⟩
abbrev main_c_15 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_cst_16 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_cst_17 : Ref sig .tc := ⟨.hbm, 146, rfl⟩
abbrev main_v96 : Ref sig .tc := ⟨.hbm, 147, rfl⟩
abbrev main_cst_18 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_cst_19 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_call5_cst : Ref sig .tc := ⟨.hbm, 166, rfl⟩
abbrev main_call5_v0 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_cst_20 : Ref sig .tc := ⟨.hbm, 174, rfl⟩
abbrev main_v119 : Ref sig .tc := ⟨.hbm, 175, rfl⟩
abbrev main_v120 : Ref sig .tc := ⟨.hbm, 176, rfl⟩
abbrev main_cst_21 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_c_22 : Ref sig .tc := ⟨.hbm, 181, rfl⟩
abbrev main_v124 : Ref sig .tc := ⟨.hbm, 182, rfl⟩
abbrev main_v125 : Ref sig .tc := ⟨.hbm, 183, rfl⟩
abbrev main_c_23 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_c_24 : Ref sig .tc := ⟨.hbm, 190, rfl⟩
abbrev main_v131 : Ref sig .tc := ⟨.hbm, 191, rfl⟩
abbrev main_v132 : Ref sig .tc := ⟨.hbm, 192, rfl⟩
abbrev main_c_25 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_call7_cst : Ref sig .tc := ⟨.hbm, 210, rfl⟩
abbrev main_call7_v0 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_call8_cst : Ref sig .tc := ⟨.hbm, 218, rfl⟩
abbrev main_call8_v0 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_cst_26 : Ref sig .tc := ⟨.hbm, 224, rfl⟩
abbrev main_v159 : Ref sig .tc := ⟨.hbm, 225, rfl⟩
abbrev main_cst_27 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  transposes_S256x128_S128x256_1_0 : S256x128.Transposes [1, 0] S128x256
  bcast_S256_S1x256_1 : S256.BroadcastsInDim S1x256 (![1] : Fin 1 → Fin S1x256.rank)
  bcast_S1x256_S25000x256_0_1 : S1x256.BroadcastsInDim S25000x256 (![0, 1] : Fin 2 → Fin S25000x256.rank)
  bcast_S_S25000x256 : S_.BroadcastsInDim S25000x256 (![] : Fin 0 → Fin S25000x256.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S25000 : S_.BroadcastsInDim S25000 (![] : Fin 0 → Fin S25000.rank)
  bcast_S25000_S25000x1_0 : S25000.BroadcastsInDim S25000x1 (![0] : Fin 1 → Fin S25000x1.rank)
  bcast_S25000x1_S25000x256_0_1 : S25000x1.BroadcastsInDim S25000x256 (![0, 1] : Fin 2 → Fin S25000x256.rank)
  transposes_S256x256_S256x256_1_0 : S256x256.Transposes [1, 0] S256x256
  transposes_S128x256_S256x128_1_0 : S128x256.Transposes [1, 0] S256x128
  bcast_S128_S1x128_1 : S128.BroadcastsInDim S1x128 (![1] : Fin 1 → Fin S1x128.rank)
  bcast_S1x128_S25000x128_0_1 : S1x128.BroadcastsInDim S25000x128 (![0, 1] : Fin 2 → Fin S25000x128.rank)
  bcast_S_S25000x128 : S_.BroadcastsInDim S25000x128 (![] : Fin 0 → Fin S25000x128.rank)
  transposes_S128x128_S128x128_1_0 : S128x128.Transposes [1, 0] S128x128
  slices_S600000x128_S600000x96_0_0 : S600000x128.Slices ![0, 0] S600000x96
  concatenates_S600000x96_S600000x96_S600000x192_d1 : Shape.Concatenates [S600000x96, S600000x96] S600000x192 1
  slices_S600000x128_S600000x32_0_96 : S600000x128.Slices ![0, 96] S600000x32
  concatenates_S600000x32_S600000x32_S600000x64_d1 : Shape.Concatenates [S600000x32, S600000x32] S600000x64 1
  transposes_S1x192_S192x1_1_0 : S1x192.Transposes [1, 0] S192x1
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  bcast_S_S600000x1 : S_.BroadcastsInDim S600000x1 (![] : Fin 0 → Fin S600000x1.rank)
  transposes_S1x64_S64x1_1_0 : S1x64.Transposes [1, 0] S64x1
  shapeCasts_S600000x1_S12500x48 : S600000x1.ShapeCasts S12500x48
  reducesTo_S12500x48_S12500_d1 : S12500x48.ReducesTo [1] S12500
  h_S_ : 0 < S_.numel
  bcast_S_S12500 : S_.BroadcastsInDim S12500 (![] : Fin 0 → Fin S12500.rank)
  shapeCasts_S12500_S12500x1 : S12500.ShapeCasts S12500x1
  dot_S25000x128_S128x256_S25000x256_1_0_0_1_n_n_wf : DotDims.WF S25000x128 S128x256 S25000x256 [1] [0] [0] [1] [] []
  gather_S25000x256_S600000x1_S600000x256_1_0_n_n_0_1_1256_wf : GatherDims.WF S25000x256 S600000x1 S600000x256 [1] [0] [] [0] [] 1 ![1, 256]
  scatter_S25000x256_S600000x1_S600000x256_1_0_0_1_wf : ScatterDims.WF S25000x256 S600000x1 S600000x256 [1] [0] [0] 1
  scatter_S25000_S600000x1_S600000_n_0_0_1_wf : ScatterDims.WF S25000 S600000x1 S600000 [] [0] [0] 1
  dot_S25000x256_S256x256_S25000x256_1_0_0_1_n_n_wf : DotDims.WF S25000x256 S256x256 S25000x256 [1] [0] [0] [1] [] []
  dot_S25000x256_S256x128_S25000x128_1_0_0_1_n_n_wf : DotDims.WF S25000x256 S256x128 S25000x128 [1] [0] [0] [1] [] []
  dot_S25000x128_S128x128_S25000x128_1_0_0_1_n_n_wf : DotDims.WF S25000x128 S128x128 S25000x128 [1] [0] [0] [1] [] []
  gather_S25000x128_S600000x1_S600000x128_1_0_n_n_0_1_1128_wf : GatherDims.WF S25000x128 S600000x1 S600000x128 [1] [0] [] [0] [] 1 ![1, 128]
  dot_S600000x192_S192x1_S600000x1_1_0_0_1_n_n_wf : DotDims.WF S600000x192 S192x1 S600000x1 [1] [0] [0] [1] [] []
  dot_S600000x64_S64x1_S600000x1_1_0_0_1_n_n_wf : DotDims.WF S600000x64 S64x1 S600000x1 [1] [0] [0] [1] [] []

variable [Facts₀]

def dot_S25000x128_S128x256_S25000x256_1_0_0_1_n_n : DotDims S25000x128 S128x256 S25000x256 where
  lhsContracting := [1]
  rhsContracting := [0]
  lhsNonContracting := [0]
  rhsNonContracting := [1]
  lhsBatch := []
  rhsBatch := []
  wf := dot_S25000x128_S128x256_S25000x256_1_0_0_1_n_n_wf
def gather_S25000x256_S600000x1_S600000x256_1_0_n_n_0_1_1256 : GatherDims S25000x256 S600000x1 S600000x256 where
  offsetDims := [1]
  collapsedSliceDims := [0]
  operandBatchingDims := []
  startIndicesBatchingDims := []
  startIndexMap := [0]
  indexVectorDim := 1
  sliceSizes := ![1, 256]
  wf := gather_S25000x256_S600000x1_S600000x256_1_0_n_n_0_1_1256_wf
def scatter_S25000x256_S600000x1_S600000x256_1_0_0_1 : ScatterDims S25000x256 S600000x1 S600000x256 where
  updateWindowDims := [1]
  insertedWindowDims := [0]
  scatterDimsToOperandDims := [0]
  indexVectorDim := 1
  wf := scatter_S25000x256_S600000x1_S600000x256_1_0_0_1_wf
def scatter_S25000_S600000x1_S600000_n_0_0_1 : ScatterDims S25000 S600000x1 S600000 where
  updateWindowDims := []
  insertedWindowDims := [0]
  scatterDimsToOperandDims := [0]
  indexVectorDim := 1
  wf := scatter_S25000_S600000x1_S600000_n_0_0_1_wf
def dot_S25000x256_S256x256_S25000x256_1_0_0_1_n_n : DotDims S25000x256 S256x256 S25000x256 where
  lhsContracting := [1]
  rhsContracting := [0]
  lhsNonContracting := [0]
  rhsNonContracting := [1]
  lhsBatch := []
  rhsBatch := []
  wf := dot_S25000x256_S256x256_S25000x256_1_0_0_1_n_n_wf
def dot_S25000x256_S256x128_S25000x128_1_0_0_1_n_n : DotDims S25000x256 S256x128 S25000x128 where
  lhsContracting := [1]
  rhsContracting := [0]
  lhsNonContracting := [0]
  rhsNonContracting := [1]
  lhsBatch := []
  rhsBatch := []
  wf := dot_S25000x256_S256x128_S25000x128_1_0_0_1_n_n_wf
def dot_S25000x128_S128x128_S25000x128_1_0_0_1_n_n : DotDims S25000x128 S128x128 S25000x128 where
  lhsContracting := [1]
  rhsContracting := [0]
  lhsNonContracting := [0]
  rhsNonContracting := [1]
  lhsBatch := []
  rhsBatch := []
  wf := dot_S25000x128_S128x128_S25000x128_1_0_0_1_n_n_wf
def gather_S25000x128_S600000x1_S600000x128_1_0_n_n_0_1_1128 : GatherDims S25000x128 S600000x1 S600000x128 where
  offsetDims := [1]
  collapsedSliceDims := [0]
  operandBatchingDims := []
  startIndicesBatchingDims := []
  startIndexMap := [0]
  indexVectorDim := 1
  sliceSizes := ![1, 128]
  wf := gather_S25000x128_S600000x1_S600000x128_1_0_n_n_0_1_1128_wf
def dot_S600000x192_S192x1_S600000x1_1_0_0_1_n_n : DotDims S600000x192 S192x1 S600000x1 where
  lhsContracting := [1]
  rhsContracting := [0]
  lhsNonContracting := [0]
  rhsNonContracting := [1]
  lhsBatch := []
  rhsBatch := []
  wf := dot_S600000x192_S192x1_S600000x1_1_0_0_1_n_n_wf
def dot_S600000x64_S64x1_S600000x1_1_0_0_1_n_n : DotDims S600000x64 S64x1 S600000x1 where
  lhsContracting := [1]
  rhsContracting := [0]
  lhsNonContracting := [0]
  rhsNonContracting := [1]
  lhsBatch := []
  rhsBatch := []
  wf := dot_S600000x64_S64x1_S600000x1_1_0_0_1_n_n_wf

class Facts : Prop extends Facts₀ where

variable [Facts]
-- ==== Proof.KernelRun.lean ====
/-
  The kernel program's run with its result kept.

  The program is eight launches among stretches of host operations. Its run is the launch over these segments: every
  weakly fair execution terminates, nothing faults, and the last thread state holds every unscoped buffer at the
  contents of the last segment boundary. Read against the final state this gives, beside the argument arrays as
  launched, the result buffer at the last boundary's contents — the fold of the host stretches and of the regions'
  written-back arrays from the launch memory.
-/
import proofs.«130552_j4191888081216_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run with the result kept: at the compiled mesh, from any memory with zero counters, every weakly fair execution
    of the program terminates, nothing faulting, and every final state has the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v115) = W17 m ρ c (Proc.devRef .tc main_v115) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v115 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c),
       (h c _ (mem_uc main_arg13 (by decide))).trans (W17_main_arg13 m ρ c),
       (h c _ (mem_uc main_arg14 (by decide))).trans (W17_main_arg14 m ρ c),
       (h c _ (mem_uc main_arg15 (by decide))).trans (W17_main_arg15 m ρ c),
       (h c _ (mem_uc main_arg16 (by decide))).trans (W17_main_arg16 m ρ c),
       (h c _ (mem_uc main_arg17 (by decide))).trans (W17_main_arg17 m ρ c),
       (h c _ (mem_uc main_arg18 (by decide))).trans (W17_main_arg18 m ρ c),
       (h c _ (mem_uc main_arg19 (by decide))).trans (W17_main_arg19 m ρ c),
       (h c _ (mem_uc main_arg20 (by decide))).trans (W17_main_arg20 m ρ c),
       (h c _ (mem_uc main_arg21 (by decide))).trans (W17_main_arg21 m ρ c),
       (h c _ (mem_uc main_arg22 (by decide))).trans (W17_main_arg22 m ρ c),
       (h c _ (mem_uc main_arg23 (by decide))).trans (W17_main_arg23 m ρ c),
       (h c _ (mem_uc main_arg24 (by decide))).trans (W17_main_arg24 m ρ c)⟩)

end Cert.KernelIdeal.Gen

end
-- ==== Proof.Spec.lean ====
/-
  The stages of the network, each as one function of whole tables, index by index, on the extended reals.

  A table with m rows and n columns is a function of a two-coordinate index. Three stages occur:

  * a dense layer: entry (r, j) is  act (Σ_k x(r, k) · w(k, j) + b(0, j)),  the weights already laid out with the
    contracted axis first and the bias as a one-row table;
  * a neighbourhood layer: entry (r, j) is  act ((Σ_k mean(r, k) · lw(k, j) + Σ_k x(r, k) · rw(k, j)) + lb(0, j));
  * the edge stage: for an edge e,  relu ((Σ_k xl(e, k) · wl(0, k) + Σ_k xr(e, k) · wr(0, k)) + b(0, 0))  once over 96
    features and once over 32, the first multiplied by the edge's attribute and the second added.

  The two activations are the maximum with zero, and the choice between v and a fixed multiple of v according to
  whether v exceeds zero. No entry is assumed finite anywhere in this file.
-/
import Idealize.ShloMosaic.Lib.ValueIdx
import Idealize.ShloMosaic.PureOps.Ideal

noncomputable section

open scoped BigOperators

namespace Cert.Sage.Spec

open Idealize.ShloMosaic Idealize.ShloMosaic.ValueIdx

/-- A table of extended reals with m rows and n columns. -/
abbrev Tab (m n : Nat) := (⟨2, ![m, n]⟩ : Shape).Idx → EReal

/-- The maximum with zero. -/
def relu (v : EReal) : EReal := max v (Ideal.ofBits .f32 0x00000000#32)

/-- v where v exceeds zero, a fixed multiple of v elsewhere. -/
def leaky (v : EReal) : EReal :=
  Scalar.select (FloatOps.cmpf (F := Ideal) .ogt v (Ideal.ofBits .f32 0x00000000#32)) v
    (Ideal.ofBits .f32 0x3C23D70A#32 * v)

/-- A dense layer. -/
def dense {m n p : Nat} (act : EReal → EReal) (x : Tab m n) (w : Tab n p) (b : Tab 1 p) : Tab m p :=
  fun i => act ((∑ k : Fin n, x (ix2 (i 0) k) * w (ix2 k (i 1))) + b (ix2 0 (i 1)))

/-- A neighbourhood layer: the neighbours' mean through one weight table, the node itself through another, then
    the bias. -/
def sage {m n p : Nat} (act : EReal → EReal) (mean x : Tab m n) (lw : Tab n p) (lb : Tab 1 p) (rw : Tab n p) :
    Tab m p :=
  fun i => act (((∑ k : Fin n, mean (ix2 (i 0) k) * lw (ix2 k (i 1)))
    + ∑ k : Fin n, x (ix2 (i 0) k) * rw (ix2 k (i 1))) + lb (ix2 0 (i 1)))

/-- One half of the edge stage: the two endpoint rows against their weight rows, the bias, the maximum with zero. -/
def edgeHalf {e n : Nat} (xl xr : Tab e n) (wl wr : Tab 1 n) (b : Tab 1 1) (r : Fin e) : EReal :=
  relu (((∑ k : Fin n, xl (ix2 r k) * wl (ix2 0 k)) + ∑ k : Fin n, xr (ix2 r k) * wr (ix2 0 k)) + b (ix2 0 0))

/-- The edge stage. -/
def edge {e : Nat} (xl96 xr96 : Tab e 96) (xl32 xr32 : Tab e 32) (ea : Tab e 1) (w96l w96r : Tab 1 96) (b96 : Tab 1 1)
    (w32l w32r : Tab 1 32) (b32 : Tab 1 1) : Tab e 1 :=
  fun i => edgeHalf xl96 xr96 w96l w96r b96 (i 0) * ea (ix2 (i 0) 0) + edgeHalf xl32 xr32 w32l w32r b32 (i 0)

end Cert.Sage.Spec

end
-- ==== Proof.LibDot.lean ====
/-
  Two reads at an index, for tables of any size.

  A matrix product. A product of an m × n table with an n × p table, as the dimension records of this certificate
  describe it (rows free on the left, columns free on the right, one contracted axis, no batch axis), sums over the
  positions of the contracted axis; entry (a, b) is  Σ_k l(a, k) · r(k, b)  with k running over `Fin n`. The sum
  over the record's own contraction index type is carried to `Fin n` along the bijection that reads its one
  coordinate.

  A vector along the rows. A vector b of n entries laid along each of m rows has entry b(j) at (r, j), whether it is
  laid by casting it to one row and repeating the row, or by placing it along axis 1 of a one-row table that is then
  repeated.
-/
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

open scoped BigOperators

namespace Cert.Sage.LibDot

open Idealize.ShloMosaic Idealize.ShloMosaic.ValueIdx

/-- Entry (a, b) of a plain product as a sum over the contracted axis' positions `k : Fin n`: the record contracts one
    axis of extent n (`hr`, `hs`), its left index at output (a, b) and contraction position q is (a, q) and its
    right index (q, b) (`hl0` … `hr1`, coordinate by coordinate). -/
theorem sum_plain {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (l : (⟨2, ![m, n]⟩ : Shape).Idx → EReal) (r : (⟨2, ![n, p]⟩ : Shape).Idx → EReal) (a : Fin m) (b : Fin p) :
    ∑ k : d.contr.Idx, l (d.lhsIdx (ix2 a b) k) * r (d.rhsIdx (ix2 a b) k) = ∑ k : Fin n, l (ix2 a k) * r (ix2 k b) := by
  rw [← Equiv.sum_comp (contrEquiv1 d n hr hs).symm]
  refine Finset.sum_congr rfl fun k _ => ?_
  have hk := contrEquiv1_symm_val d n hr hs k
  have el : d.lhsIdx (ix2 a b) ((contrEquiv1 d n hr hs).symm k) = ix2 a k := funext fun x => Fin.ext (by
    match x with
    | ⟨0, _⟩ => exact hl0 _ _
    | ⟨1, _⟩ => exact (hl1 _ _).trans hk)
  have er : d.rhsIdx (ix2 a b) ((contrEquiv1 d n hr hs).symm k) = ix2 k b := funext fun x => Fin.ext (by
    match x with
    | ⟨0, _⟩ => exact (hr0 _ _).trans hk
    | ⟨1, _⟩ => exact hr1 _ _)
  rw [el, er]

variable {α : Type}

/-- A vector cast to one row and the row repeated down m rows: entry (r, j) is the vector's entry j. -/
theorem row_cast_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (r : Fin m) (j : Fin n) :
    broadcastTo ⟨2, ![m, n]⟩ (shapeCast ⟨2, ![1, n]⟩ x h1) hb (ix2 r j) = x (ix1 j) := by
  have e1 := broadcastTo_apply (shapeCast ⟨2, ![1, n]⟩ x h1) hb (ix2 r j) (ix2 (0 : Fin 1) j) (by
    intro a
    match a with
    | ⟨0, _⟩ => rfl
    | ⟨1, _⟩ =>
      show j.val = if n = 1 then 0 else j.val
      split
      · have := j.isLt; omega
      · rfl)
  have e2 := shapeCast_apply x h1 (ix2 (0 : Fin 1) j) (ix1 j) (by
    rw [Shape.rowMajor_val_two, Shape.rowMajor_val_one]; show j.val = 0 * n + j.val; omega)
  exact e1.trans e2

/-- A vector placed along axis 1 of a one-row table and the table repeated down m rows: entry (r, j) is the vector's
    entry j. -/
theorem row_dims_apply {m n : Nat} (x : (⟨1, ![n]⟩ : Shape).Idx → α)
    (hd : (⟨1, ![n]⟩ : Shape).BroadcastsInDim ⟨2, ![1, n]⟩ ![1])
    (hbc : (⟨2, ![1, n]⟩ : Shape).BroadcastsInDim ⟨2, ![m, n]⟩ ![0, 1]) (r : Fin m) (j : Fin n) :
    broadcastInDim ⟨2, ![m, n]⟩ ![0, 1] hbc (broadcastInDim ⟨2, ![1, n]⟩ ![1] hd x) (ix2 r j) = x (ix1 j) := by
  rw [broadcastInDim_oneRow_apply]
  refine broadcastInDim_apply ![1] hd x (ix2 (0 : Fin 1) j) (ix1 j) ?_
  intro a
  match a with
  | ⟨0, _⟩ =>
    show j.val = if n = 1 then 0 else j.val
    split
    · have := j.isLt; omega
    · rfl

end Cert.Sage.LibDot

end
-- ==== Proof.Region0.lean ====
/-
  The first dense layer, as the table it leaves.

  The node table x has 25000 rows of 128 features; the weights are a 128 × 256 table with the contracted axis first;
  the bias is one row of 256 entries. The grid has 25 points on one axis. Point t reads rows 1000 t … 1000 t + 999 of x,
  the whole weight table and the whole bias row, and writes rows 1000 t … 1000 t + 999 of the output, all 256 columns.
  Entry (r, j) of the output depends on row r of x, column j of the weights and entry j of the bias row only:

      out(r, j) = max (Σ_k x(r, k) · w(k, j) + b(0, j)) 0,     k over the 128 features.

  On the extended reals a change of number format is the identity and the product accumulates into zero, so one entry of
  a stored block is exactly that expression of the loaded blocks; a loaded block's entry (p, k) is the table's entry
  (1000 t + p, k); and the 25 row blocks cover every row, so the output table is this function of the three tables at
  every index. Nothing is assumed finite.
-/
import proofs.«130552_j4191888081216_2_alg».proof.Proof.Gen.KernelIdeal.Frame
import proofs.«130552_j4191888081216_2_alg».proof.Proof.Spec
import proofs.«130552_j4191888081216_2_alg».proof.Proof.LibDot
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Region0

open Idealize.ShloMosaic Idealize.ShloMosaic.ValueIdx Cert.KernelIdeal Cert.KernelIdeal.Gen
open Idealize.ShloMosaic.TcCoe
open Cert.Sage

variable (V : (c : Dev nD) → (b : Ref sig .tc) → Buf (Elt Ideal) ((c : Thread nD τ).loc b))

/-- One entry of the block the body stores: the contraction over the 128 features of row p of the loaded activations
    against column q of the weights, plus entry q of the bias row, then the maximum with zero. -/
theorem pay (x0 : Vec Ideal S1000x128 .f32) (x1 : Vec Ideal S128x256 .f32) (x2 : Vec Ideal S1x256 .f32)
    (p : Fin 1000) (q : Fin 256) :
    k0_pay1 x0 x1 x2 (ix2 p q)
      = Spec.relu ((∑ k : Fin 128, x0 (ix2 p k) * x1 (ix2 k q)) + x2 (ix2 0 q)) := by
  unfold k0_pay1
  show max (FloatOps.matmul (F := Ideal) dot_S1000x128_S128x256_S1000x256_1_0_0_1_n_n none
        (truncf (F := Ideal) .bf16 x0 bitsLt_bf16_f32)
        (truncf (F := Ideal) .bf16 (shapeCast S128x256 x1 shapeCasts_S128x256_S128x256) bitsLt_bf16_f32)
        (constant (F := Ideal) S1000x256 .f32 0x00000000#32) (ix2 p q)
      + broadcastTo S1000x256 (shapeCast S1x256 x2 shapeCasts_S1x256_S1x256) broadcasts_S1x256_S1000x256 (ix2 p q))
      (Ideal.ofBits .f32 0x00000000#32) = _
  rw [Ideal.matmul_constant_zero_apply, shapeCast_self, shapeCast_self]
  have hs := LibDot.sum_plain dot_S1000x128_S128x256_S1000x256_1_0_0_1_n_n rfl rfl (fun _ _ => rfl) (fun _ _ => rfl)
    (fun _ _ => rfl) (fun _ _ => rfl) x0 x1 p q
  have hb : broadcastTo S1000x256 x2 broadcasts_S1x256_S1000x256 (ix2 p q) = x2 (ix2 0 q) :=
    broadcastTo_apply x2 broadcasts_S1x256_S1000x256 (ix2 p q) (ix2 (0 : Fin 1) q) (by
      intro a
      match a with
      | ⟨0, _⟩ => rfl
      | ⟨1, _⟩ => rfl)
  rw [hb]
  exact congrArg (fun s => max (s + x2 (ix2 0 q)) (Ideal.ofBits .f32 0x00000000#32)) hs

/-- The same entry against whole tables: when row p of the loaded activations is row r of the table X, column q of the
    loaded weights is column q of W, and the loaded bias row is B's, the entry is the dense layer's entry (r, q). -/
theorem pay_dense (x0 : Vec Ideal S1000x128 .f32) (x1 : Vec Ideal S128x256 .f32) (x2 : Vec Ideal S1x256 .f32)
    (X : Spec.Tab 25000 128) (W : Spec.Tab 128 256) (B : Spec.Tab 1 256)
    (p : Fin 1000) (q : Fin 256) (r : Fin 25000)
    (h0 : ∀ k : Fin 128, x0 (ix2 p k) = X (ix2 r k))
    (h1 : ∀ k : Fin 128, x1 (ix2 k q) = W (ix2 k q))
    (h2 : x2 (ix2 0 q) = B (ix2 0 q)) :
    k0_pay1 x0 x1 x2 (ix2 p q) = Spec.dense Spec.relu X W B (ix2 r q) := by
  rw [pay, h2]
  refine congrArg (fun s => Spec.relu (s + B (ix2 0 q))) (Finset.sum_congr rfl fun k _ => ?_)
  rw [h0 k, h1 k]

/-- The two zero offsets of a whole-block access, as a constant function. -/
theorem hz : (![0, 0] : Fin 2 → Nat) = fun _ => 0 := funext fun a => by fin_cases a <;> rfl

/-- The printed index maps over the 25 grid points: the activations' and the output's blocks sit at block row t,
    block column 0; the weights and the bias row are one block each, at (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the dense layer of the tables the region finds: rows 1000 t … 1000 t + 999,
    every column. -/
theorem flushed_eq (c : Dev nD) (t : Fin cfg0.N) :
    (dat0 (F := Ideal) V c).flushed 3 t = ((cfg0.win 3).blk t).view.read (Elt Ideal)
      (Spec.dense Spec.relu (V c main_arg0) (V c main_v13) (V c main_v14)) := by
  show (cfg0.win 3).cut (grid0.coords t) ((dat0 V c).after 3 t) = _
  rw [after0_3]
  unfold out0_3
  rw [View.canon_unit_zero hz]
  simp only [View.ld_unit_zero (S := S1000x128) hz, View.ld_unit_zero (S := S128x256) hz, View.ld_unit_zero (S := S1x256) hz]
  obtain ⟨e00, e01, e10, e11, e20, e21, e30, e31⟩ := idx_facts t
  have ht : t.val < 25 := by have h := t.isLt; have hN : cfg0.N = 25 := N_0; omega
  funext j
  obtain ⟨p, q, rfl⟩ : ∃ (p : Fin 1000) (q : Fin 256), j = ix2 p q := ⟨j 0, j 1, eq_ix2 j⟩
  have hp : p.val < 1000 := p.isLt
  have hi : ((cfg0.win 3).blk t).view.emb (ix2 p q) = ix2 (⟨t.val * 1000 + p.val, by omega⟩ : Fin 25000) q := by
    funext a; apply Fin.ext
    match a with
    | ⟨0, _⟩ => show win0_3.index t (0 : Fin 2) * 1000 + 1 * p.val = t.val * 1000 + p.val; omega
    | ⟨1, _⟩ => show win0_3.index t (1 : Fin 2) * 256 + 1 * q.val = q.val; omega
  show k0_pay1 (iblk0 V c 0 t) (iblk0 V c 1 t) (iblk0 V c 2 t) (ix2 p q)
    = Spec.dense Spec.relu (V c main_arg0) (V c main_v13) (V c main_v14) (((cfg0.win 3).blk t).view.emb (ix2 p q))
  rw [hi]
  refine pay_dense _ _ _ _ _ _ p q _ (fun k => ?_) (fun k => ?_) ?_
  · show V c main_arg0 (((cfg0.win 0).blk t).view.emb (ix2 p k)) = _
    refine congrArg _ (funext fun a => Fin.ext ?_)
    match a with
    | ⟨0, _⟩ => show win0_0.index t (0 : Fin 2) * 1000 + 1 * p.val = t.val * 1000 + p.val; omega
    | ⟨1, _⟩ => show win0_0.index t (1 : Fin 2) * 128 + 1 * k.val = k.val; omega
  · show V c main_v13 (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 256 + 1 * q.val = q.val; omega
  · show V c main_v14 (((cfg0.win 2).blk t).view.emb (ix2 0 q)) = _
    refine congrArg _ (funext fun a => Fin.ext ?_)
    match a with
    | ⟨0, _⟩ => show win0_2.index t (0 : Fin 2) * 1 + 1 * 0 = 0; omega
    | ⟨1, _⟩ => show win0_2.index t (1 : Fin 2) * 256 + 1 * q.val = q.val; omega

/-- An entry of the output table is in point t's block iff each coordinate is in the block's range on its axis. -/
theorem mem_blk (t : Fin cfg0.N) (i : S25000x256.Idx) :
    i ∈ ((cfg0.win 3).blk t).view.set ↔ ∀ a : Fin 2, win0_3.index t a * S1000x256.size a ≤ (i a).val
      ∧ (i a).val < win0_3.index t a * S1000x256.size a + S1000x256.size a := by
  show i ∈ ((View.whole main_v15).slice (win0_3.rect t)).set ↔ _
  rw [View.set_slice_whole, Rect.mem_set_unit]
  exact Iff.rfl

/-- Every entry of the output table is written back by some point: row r by point r / 1000. -/
theorem cover (i : S25000x256.Idx) :
    ∃ t : Fin cfg0.N, (cfg0.win 3).flush t = true ∧ i ∈ ((cfg0.win 3).blk t).view.set := by
  have hi0 : (i 0).val < 25000 := (i 0).isLt
  have hi1 : (i 1).val < 256 := (i 1).isLt
  have hN : cfg0.N = 25 := N_0
  have hlt : (i 0).val / 1000 < cfg0.N := by rw [hN]; omega
  obtain ⟨e00, e01, e10, e11, e20, e21, e30, e31⟩ := idx_facts ⟨(i 0).val / 1000, hlt⟩
  refine ⟨⟨(i 0).val / 1000, hlt⟩, flush0_3 _, ?_⟩
  rw [mem_blk]
  intro a
  match a with
  | ⟨0, _⟩ =>
    show win0_3.index ⟨(i 0).val / 1000, hlt⟩ (0 : Fin 2) * 1000 ≤ (i 0).val
      ∧ (i 0).val < win0_3.index ⟨(i 0).val / 1000, hlt⟩ (0 : Fin 2) * 1000 + 1000
    rw [e30]; show (i 0).val / 1000 * 1000 ≤ (i 0).val ∧ (i 0).val < (i 0).val / 1000 * 1000 + 1000; omega
  | ⟨1, _⟩ =>
    show win0_3.index ⟨(i 0).val / 1000, hlt⟩ (1 : Fin 2) * 256 ≤ (i 1).val
      ∧ (i 1).val < win0_3.index ⟨(i 0).val / 1000, hlt⟩ (1 : Fin 2) * 256 + 256
    rw [e31]; omega

/-- The output table after the region: the dense layer of the three tables the region finds, entry by entry. -/
theorem final (c : Dev nD) :
    (dat0 (F := Ideal) V c).arrAt 3 cfg0.N
      = Spec.dense Spec.relu (V c (Pipeline.arrRef spec0 0)) (V c (Pipeline.arrRef spec0 1)) (V c (Pipeline.arrRef spec0 2)) :=
  (dat0 V c).arrAt_eq_of_cover 3 _ (fun t _ => flushed_eq V c t) cover

end Cert.KernelIdeal.Region0

end
-- ==== Proof.Region1.lean ====
/-
  The first neighbourhood layer, as the whole table its region leaves.

  The region runs over 25 points. At point t it holds rows 1000 t … 1000 t + 999 of the neighbours' mean and of the
  node table (25000 rows of 256 features each), the whole left and right weight tables (256 by 256) and the whole
  bias row, and writes rows 1000 t … 1000 t + 999 of the output table.

  Entry (r, j) of the output depends on row r of the mean, row r of the node table, column j of each weight table and
  entry j of the bias row, and on nothing else:

      out(r, j) = max ( (Σ_k mean(r, k) · lw(k, j) + Σ_k x(r, k) · rw(k, j)) + b(0, j) ,  0 ),

  k running over the 256 features. The narrowing of the operands before each product is the identity on the extended
  reals, and each product starts from a zero table, so the two sums are the plain sums above. Row r is written by
  point r / 1000 and the 25 blocks fill the table, so the table after the region is this function at every index,
  whatever the five tables hold when the region is entered.
-/
import proofs.«130552_j4191888081216_2_alg».proof.Proof.Gen.KernelIdeal.Frame
import proofs.«130552_j4191888081216_2_alg».proof.Proof.Spec
import proofs.«130552_j4191888081216_2_alg».proof.Proof.LibDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Region1

open Idealize.ShloMosaic Idealize.ShloMosaic.ValueIdx Idealize.ShloMosaic.TcCoe Cert.KernelIdeal Cert.KernelIdeal.Gen
open Idealize.ShloMosaic.Pipeline (Dat)
open Cert.Sage

/-- The product record of this region contracts the second axis of the left table with the first of the right. -/
theorem sum_dot (l : Vec Ideal S1000x256 .f32) (r : Vec Ideal S256x256 .f32) (p : Fin 1000) (q : Fin 256) :
    ∑ k : dot_S1000x256_S256x256_S1000x256_1_0_0_1_n_n.contr.Idx,
        l (dot_S1000x256_S256x256_S1000x256_1_0_0_1_n_n.lhsIdx (ix2 p q) k)
          * r (dot_S1000x256_S256x256_S1000x256_1_0_0_1_n_n.rhsIdx (ix2 p q) k)
      = ∑ k : Fin 256, l (ix2 p k) * r (ix2 k q) :=
  LibDot.sum_plain dot_S1000x256_S256x256_S1000x256_1_0_0_1_n_n rfl rfl (fun _ _ => rfl) (fun _ _ => rfl)
    (fun _ _ => rfl) (fun _ _ => rfl) l r p q

/-- The bias row laid along every row of the block reads the row's entry of the column. -/
theorem bias_apply (b : Vec Ideal S1x256 .f32) (p : Fin 1000) (q : Fin 256) :
    broadcastTo S1000x256 b broadcasts_S1x256_S1000x256 (ix2 p q) = b (ix2 0 q) := by
  refine broadcastTo_apply b broadcasts_S1x256_S1000x256 (ix2 p q) (ix2 (0 : Fin 1) q) ?_
  intro a
  match a with
  | ⟨0, _⟩ => rfl
  | ⟨1, _⟩ => rfl

/-- The body's payload at an entry of the block: the row of the mean block against the column of the left weights,
    the row of the node block against the column of the right weights, the bias entry, the maximum with zero. -/
theorem pay_apply (mean x : Vec Ideal S1000x256 .f32) (lw rw : Vec Ideal S256x256 .f32) (b : Vec Ideal S1x256 .f32)
    (p : Fin 1000) (q : Fin 256) :
    k1_pay1 mean x lw rw b (ix2 p q)
      = Spec.relu (((∑ k : Fin 256, mean (ix2 p k) * lw (ix2 k q)) + ∑ k : Fin 256, x (ix2 p k) * rw (ix2 k q))
          + b (ix2 0 q)) := by
  unfold k1_pay1
  simp only [shapeCast_self]
  show max ((FloatOps.matmul dot_S1000x256_S256x256_S1000x256_1_0_0_1_n_n none
        (truncf .bf16 mean bitsLt_bf16_f32 : FVec Ideal S1000x256 .bf16) (truncf .bf16 lw bitsLt_bf16_f32 : FVec Ideal S256x256 .bf16)
        (constant S1000x256 .f32 0x00000000#32) (ix2 p q)
      + FloatOps.matmul dot_S1000x256_S256x256_S1000x256_1_0_0_1_n_n none
        (truncf .bf16 x bitsLt_bf16_f32 : FVec Ideal S1000x256 .bf16) (truncf .bf16 rw bitsLt_bf16_f32 : FVec Ideal S256x256 .bf16)
        (constant S1000x256 .f32 0x00000000#32) (ix2 p q))
      + broadcastTo S1000x256 b broadcasts_S1x256_S1000x256 (ix2 p q)) (Ideal.ofBits .f32 0x00000000#32) = _
  rw [Ideal.matmul_constant_zero_apply, Ideal.matmul_constant_zero_apply, bias_apply]
  simp only [truncf_apply]
  rw [sum_dot mean lw p q, sum_dot x rw p q]
  rfl

/-- An entry of a point's output block from the entries of its input blocks: when row `p` of the two activation
    blocks is row `r` of the two activation tables, and the weight and bias blocks are the weight and bias tables,
    the payload's entry (p, q) is the layer's entry (r, q). -/
theorem blk_entry (A0 A1 : Spec.Tab 25000 256) (A2 : Spec.Tab 256 256) (A3 : Spec.Tab 1 256) (A4 : Spec.Tab 256 256)
    (x0 x1 : Vec Ideal S1000x256 .f32) (x2 : Vec Ideal S256x256 .f32) (x3 : Vec Ideal S1x256 .f32)
    (x4 : Vec Ideal S256x256 .f32) (r : Fin 25000) (p : Fin 1000) (q : Fin 256)
    (h0 : ∀ k : Fin 256, x0 (ix2 p k) = A0 (ix2 r k)) (h1 : ∀ k : Fin 256, x1 (ix2 p k) = A1 (ix2 r k))
    (h2 : ∀ k : Fin 256, x2 (ix2 k q) = A2 (ix2 k q)) (h3 : x3 (ix2 0 q) = A3 (ix2 0 q))
    (h4 : ∀ k : Fin 256, x4 (ix2 k q) = A4 (ix2 k q)) :
    k1_pay1 x0 x1 x2 x4 x3 (ix2 p q) = Spec.sage Spec.relu A0 A1 A2 A3 A4 (ix2 r q) := by
  rw [pay_apply]
  show _ = Spec.relu (((∑ k : Fin 256, A0 (ix2 r k) * A2 (ix2 k q)) + ∑ k : Fin 256, A1 (ix2 r k) * A4 (ix2 k q))
    + A3 (ix2 0 q))
  simp only [h0, h1, h2, h3, h4]

/-! ## Where each window's block sits at a grid point -/

theorem hz : (![0, 0] : Fin 2 → Nat) = fun _ => 0 := funext fun a => by fin_cases a <;> rfl

/-- The printed index maps over the 25 grid points: the two activation windows and the output window are at block
    row `t`, block column 0; the weight and bias windows are at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 25 := lt_of_lt_of_eq t.isLt N_1

/-- Row `p` of point `t`'s block of a row-tiled table is row `1000 t + p` of the table. -/
def row (t : Fin cfg1.N) (p : Fin 1000) : Fin 25000 := ⟨t.val * 1000 + p.val, by have := t_lt t; omega⟩

theorem emb0 (t : Fin cfg1.N) (p : Fin 1000) (k : Fin 256) :
    ((cfg1.win 0).blk t).view.emb (ix2 p k) = (ix2 (row t p) k : S25000x256.Idx) := by
  obtain ⟨e0, e1, -⟩ := idx_facts t
  funext a; apply Fin.ext
  match a with
  | ⟨0, _⟩ => show win1_0.index t (0 : Fin 2) * 1000 + 1 * p.val = t.val * 1000 + p.val; omega
  | ⟨1, _⟩ => show win1_0.index t (1 : Fin 2) * 256 + 1 * k.val = k.val; omega

theorem emb1 (t : Fin cfg1.N) (p : Fin 1000) (k : Fin 256) :
    ((cfg1.win 1).blk t).view.emb (ix2 p k) = (ix2 (row t p) k : S25000x256.Idx) := by
  obtain ⟨-, -, e0, e1, -⟩ := idx_facts t
  funext a; apply Fin.ext
  match a with
  | ⟨0, _⟩ => show win1_1.index t (0 : Fin 2) * 1000 + 1 * p.val = t.val * 1000 + p.val; omega
  | ⟨1, _⟩ => show win1_1.index t (1 : Fin 2) * 256 + 1 * k.val = k.val; omega

theorem emb2 (t : Fin cfg1.N) (k q : Fin 256) :
    ((cfg1.win 2).blk t).view.emb (ix2 k q) = (ix2 k q : S256x256.Idx) := by
  obtain ⟨-, -, -, -, e0, e1, -⟩ := idx_facts t
  funext a; apply Fin.ext
  match a with
  | ⟨0, _⟩ => show win1_2.index t (0 : Fin 2) * 256 + 1 * k.val = k.val; omega
  | ⟨1, _⟩ => show win1_2.index t (1 : Fin 2) * 256 + 1 * q.val = q.val; omega

theorem emb3 (t : Fin cfg1.N) (q : Fin 256) :
    ((cfg1.win 3).blk t).view.emb (ix2 (0 : Fin 1) q) = (ix2 (0 : Fin 1) q : S1x256.Idx) := by
  obtain ⟨-, -, -, -, -, -, e0, e1, -⟩ := idx_facts t
  funext a; apply Fin.ext
  match a with
  | ⟨0, _⟩ => show win1_3.index t (0 : Fin 2) * 1 + 1 * 0 = 0; omega
  | ⟨1, _⟩ => show win1_3.index t (1 : Fin 2) * 256 + 1 * q.val = q.val; omega

theorem emb4 (t : Fin cfg1.N) (k q : Fin 256) :
    ((cfg1.win 4).blk t).view.emb (ix2 k q) = (ix2 k q : S256x256.Idx) := by
  obtain ⟨-, -, -, -, -, -, -, -, e0, e1, -⟩ := idx_facts t
  funext a; apply Fin.ext
  match a with
  | ⟨0, _⟩ => show win1_4.index t (0 : Fin 2) * 256 + 1 * k.val = k.val; omega
  | ⟨1, _⟩ => show win1_4.index t (1 : Fin 2) * 256 + 1 * q.val = q.val; omega

theorem emb5 (t : Fin cfg1.N) (p : Fin 1000) (q : Fin 256) :
    ((cfg1.win 5).blk t).view.emb (ix2 p q) = (ix2 (row t p) q : S25000x256.Idx) := by
  obtain ⟨-, -, -, -, -, -, -, -, -, -, e0, e1⟩ := idx_facts t
  funext a; apply Fin.ext
  match a with
  | ⟨0, _⟩ => show win1_5.index t (0 : Fin 2) * 1000 + 1 * p.val = t.val * 1000 + p.val; omega
  | ⟨1, _⟩ => show win1_5.index t (1 : Fin 2) * 256 + 1 * q.val = q.val; omega

/-! ## What a point writes back, the cover, the whole table -/

variable (V : (c : Dev nD) → (b : Ref sig .tc) → Buf (Elt Ideal) ((c : Thread nD τ).loc b))

/-- The layer's whole output table, from the five tables the region finds. -/
abbrev G (c : Dev nD) : Spec.Tab 25000 256 :=
  Spec.sage Spec.relu (V c (Pipeline.arrRef spec1 0)) (V c (Pipeline.arrRef spec1 1)) (V c (Pipeline.arrRef spec1 2))
    (V c (Pipeline.arrRef spec1 3)) (V c (Pipeline.arrRef spec1 4))

/-- Point `t` writes back rows `1000 t … 1000 t + 999` of the layer's output table. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S1000x256) hz, View.ld_unit_zero (S := S256x256) hz,
    View.ld_unit_zero (S := S1x256) hz]
  funext j
  obtain ⟨p, q, rfl⟩ : ∃ (p : Fin 1000) (q : Fin 256), j = ix2 p q := ⟨j 0, j 1, eq_ix2 j⟩
  show k1_pay1 (iblk1 V c 0 t) (iblk1 V c 1 t) (iblk1 V c 2 t) (iblk1 V c 4 t) (iblk1 V c 3 t) (ix2 p q)
    = G V c (((cfg1.win 5).blk t).view.emb (ix2 p q))
  rw [emb5]
  refine blk_entry _ _ _ _ _ _ _ _ _ _ (row t p) p q ?_ ?_ ?_ ?_ ?_
  · intro k
    show V c (Pipeline.arrRef spec1 0) (((cfg1.win 0).blk t).view.emb (ix2 p k)) = _
    rw [emb0]
  · intro k
    show V c (Pipeline.arrRef spec1 1) (((cfg1.win 1).blk t).view.emb (ix2 p k)) = _
    rw [emb1]
  · intro k
    show V c (Pipeline.arrRef spec1 2) (((cfg1.win 2).blk t).view.emb (ix2 k q)) = _
    rw [emb2]
  · show V c (Pipeline.arrRef spec1 3) (((cfg1.win 3).blk t).view.emb (ix2 (0 : Fin 1) q)) = _
    rw [emb3]
  · intro k
    show V c (Pipeline.arrRef spec1 4) (((cfg1.win 4).blk t).view.emb (ix2 k q)) = _
    rw [emb4]

/-- An index of the output table is in point `t`'s block iff each coordinate is in the block's range on its axis. -/
theorem mem_blk (t : Fin cfg1.N) (i : S25000x256.Idx) :
    i ∈ ((cfg1.win 5).blk t).view.set ↔ ∀ a : Fin 2, win1_5.index t a * S1000x256.size a ≤ (i a).val
      ∧ (i a).val < win1_5.index t a * S1000x256.size a + S1000x256.size a := by
  show i ∈ ((View.whole main_v31).slice (win1_5.rect t)).set ↔ _
  rw [View.set_slice_whole, Rect.mem_set_unit]
  exact Iff.rfl

/-- Every entry of the output table is written: row `r` by point `r / 1000`. -/
theorem cover (i : S25000x256.Idx) :
    ∃ t : Fin cfg1.N, (cfg1.win 5).flush t = true ∧ i ∈ ((cfg1.win 5).blk t).view.set := by
  have hi0 : (i 0).val < 25000 := (i 0).isLt
  have hi1 : (i 1).val < 256 := (i 1).isLt
  have hN : cfg1.N = 25 := N_1
  let t : Fin cfg1.N := ⟨(i 0).val / 1000, by rw [hN]; omega⟩
  have ht : t.val = (i 0).val / 1000 := rfl
  obtain ⟨-, -, -, -, -, -, -, -, -, -, e0, e1⟩ := idx_facts t
  refine ⟨t, flush1_5 t, ?_⟩
  rw [mem_blk]
  intro a
  match a with
  | ⟨0, _⟩ =>
    show win1_5.index t (0 : Fin 2) * 1000 ≤ (i 0).val ∧ (i 0).val < win1_5.index t (0 : Fin 2) * 1000 + 1000
    omega
  | ⟨1, _⟩ =>
    show win1_5.index t (1 : Fin 2) * 256 ≤ (i 1).val ∧ (i 1).val < win1_5.index t (1 : Fin 2) * 256 + 256
    omega

/-- THE OUTPUT TABLE after the region: the neighbourhood layer of the five tables the region finds. -/
theorem final (c : Dev nD) : (dat1 (F := Ideal) V c).arrAt 5 cfg1.N
    = Spec.sage Spec.relu (V c (Pipeline.arrRef spec1 0)) (V c (Pipeline.arrRef spec1 1))
        (V c (Pipeline.arrRef spec1 2)) (V c (Pipeline.arrRef spec1 3)) (V c (Pipeline.arrRef spec1 4)) :=
  (dat1 V c).arrAt_eq_of_cover 5 (G V c) (fun t _ => flushed_eq V c t) cover

end Cert.KernelIdeal.Region1

end
-- ==== Proof.Region2.lean ====
/-
  The second dense layer, as the table it leaves.

  The activations x are a table of 25000 rows and 256 columns; the weights are a 256 × 256 table with the contracted
  axis first; the bias is one row of 256 entries. The grid has 25 points on one axis. Point t reads rows
  1000 t … 1000 t + 999 of x, the whole weight table and the whole bias row, and writes rows 1000 t … 1000 t + 999 of the
  output, all 256 columns. Entry (r, j) of the output depends on row r of x, column j of the weights and entry j of the
  bias row only: with

      v = Σ_k x(r, k) · w(k, j) + b(0, j),     k over the 256 columns of x,

  it is v where v exceeds zero and the fixed multiple of v elsewhere.

  On the extended reals a change of number format is the identity and the product accumulates into zero, so one entry of
  a stored block is exactly that expression of the loaded blocks; a loaded block's entry (p, k) is the table's entry
  (1000 t + p, k); and the 25 row blocks cover every row, so the output table is this function of the three tables at
  every index. Nothing is assumed finite.
-/
import proofs.«130552_j4191888081216_2_alg».proof.Proof.Gen.KernelIdeal.Frame
import proofs.«130552_j4191888081216_2_alg».proof.Proof.Spec
import proofs.«130552_j4191888081216_2_alg».proof.Proof.LibDot
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Region2

open Idealize.ShloMosaic Idealize.ShloMosaic.ValueIdx Cert.KernelIdeal Cert.KernelIdeal.Gen
open Idealize.ShloMosaic.TcCoe
open Cert.Sage

variable (V : (c : Dev nD) → (b : Ref sig .tc) → Buf (Elt Ideal) ((c : Thread nD τ).loc b))

/-- One entry of the block the body stores: the contraction over the 256 features of row p of the loaded activations
    against column q of the weights, plus entry q of the bias row; then that value v itself where v exceeds zero and
    the fixed multiple of v elsewhere. -/
theorem pay (x0 : Vec Ideal S1000x256 .f32) (x1 : Vec Ideal S256x256 .f32) (x2 : Vec Ideal S1x256 .f32)
    (p : Fin 1000) (q : Fin 256) :
    k2_pay1 x0 x1 x2 (ix2 p q)
      = Spec.leaky ((∑ k : Fin 256, x0 (ix2 p k) * x1 (ix2 k q)) + x2 (ix2 0 q)) := by
  unfold k2_pay1
  show Spec.leaky (FloatOps.matmul (F := Ideal) dot_S1000x256_S256x256_S1000x256_1_0_0_1_n_n none
        (truncf (F := Ideal) .bf16 (shapeCast S1000x256 x0 shapeCasts_S1000x256_S1000x256) bitsLt_bf16_f32)
        (truncf (F := Ideal) .bf16 (shapeCast S256x256 x1 shapeCasts_S256x256_S256x256) bitsLt_bf16_f32)
        (constant (F := Ideal) S1000x256 .f32 0x00000000#32) (ix2 p q)
      + broadcastTo S1000x256 (shapeCast S1x256 x2 shapeCasts_S1x256_S1x256) broadcasts_S1x256_S1000x256 (ix2 p q)) = _
  rw [Ideal.matmul_constant_zero_apply, shapeCast_self, shapeCast_self, shapeCast_self]
  have hs := LibDot.sum_plain dot_S1000x256_S256x256_S1000x256_1_0_0_1_n_n rfl rfl (fun _ _ => rfl) (fun _ _ => rfl)
    (fun _ _ => rfl) (fun _ _ => rfl) x0 x1 p q
  have hb : broadcastTo S1000x256 x2 broadcasts_S1x256_S1000x256 (ix2 p q) = x2 (ix2 0 q) :=
    broadcastTo_apply x2 broadcasts_S1x256_S1000x256 (ix2 p q) (ix2 (0 : Fin 1) q) (by
      intro a
      match a with
      | ⟨0, _⟩ => rfl
      | ⟨1, _⟩ => rfl)
  rw [hb]
  exact congrArg (fun s => Spec.leaky (s + x2 (ix2 0 q))) hs

/-- The same entry against whole tables: when row p of the loaded activations is row r of the table X, column q of the
    loaded weights is column q of W, and the loaded bias row is B's, the entry is the dense layer's entry (r, q). -/
theorem pay_dense (x0 : Vec Ideal S1000x256 .f32) (x1 : Vec Ideal S256x256 .f32) (x2 : Vec Ideal S1x256 .f32)
    (X : Spec.Tab 25000 256) (W : Spec.Tab 256 256) (B : Spec.Tab 1 256)
    (p : Fin 1000) (q : Fin 256) (r : Fin 25000)
    (h0 : ∀ k : Fin 256, x0 (ix2 p k) = X (ix2 r k))
    (h1 : ∀ k : Fin 256, x1 (ix2 k q) = W (ix2 k q))
    (h2 : x2 (ix2 0 q) = B (ix2 0 q)) :
    k2_pay1 x0 x1 x2 (ix2 p q) = Spec.dense Spec.leaky X W B (ix2 r q) := by
  rw [pay, h2]
  refine congrArg (fun s => Spec.leaky (s + B (ix2 0 q))) (Finset.sum_congr rfl fun k _ => ?_)
  rw [h0 k, h1 k]

/-- The two zero offsets of a whole-block access, as a constant function. -/
theorem hz : (![0, 0] : Fin 2 → Nat) = fun _ => 0 := funext fun a => by fin_cases a <;> rfl

/-- The printed index maps over the 25 grid points: the activations' and the output's blocks sit at block row t,
    block column 0; the weights and the bias row are one block each, at (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the dense layer of the tables the region finds: rows 1000 t … 1000 t + 999,
    every column. -/
theorem flushed_eq (c : Dev nD) (t : Fin cfg2.N) :
    (dat2 (F := Ideal) V c).flushed 3 t = ((cfg2.win 3).blk t).view.read (Elt Ideal)
      (Spec.dense Spec.leaky (V c main_v31) (V c main_v32) (V c main_v33)) := by
  show (cfg2.win 3).cut (grid2.coords t) ((dat2 V c).after 3 t) = _
  rw [after2_3]
  unfold out2_3
  rw [View.canon_unit_zero hz]
  simp only [View.ld_unit_zero (S := S1000x256) hz, View.ld_unit_zero (S := S256x256) hz, View.ld_unit_zero (S := S1x256) hz]
  obtain ⟨e00, e01, e10, e11, e20, e21, e30, e31⟩ := idx_facts t
  have ht : t.val < 25 := by have h := t.isLt; have hN : cfg2.N = 25 := N_2; omega
  funext j
  obtain ⟨p, q, rfl⟩ : ∃ (p : Fin 1000) (q : Fin 256), j = ix2 p q := ⟨j 0, j 1, eq_ix2 j⟩
  have hp : p.val < 1000 := p.isLt
  have hi : ((cfg2.win 3).blk t).view.emb (ix2 p q) = ix2 (⟨t.val * 1000 + p.val, by omega⟩ : Fin 25000) q := by
    funext a; apply Fin.ext
    match a with
    | ⟨0, _⟩ => show win2_3.index t (0 : Fin 2) * 1000 + 1 * p.val = t.val * 1000 + p.val; omega
    | ⟨1, _⟩ => show win2_3.index t (1 : Fin 2) * 256 + 1 * q.val = q.val; omega
  show k2_pay1 (iblk2 V c 0 t) (iblk2 V c 1 t) (iblk2 V c 2 t) (ix2 p q)
    = Spec.dense Spec.leaky (V c main_v31) (V c main_v32) (V c main_v33) (((cfg2.win 3).blk t).view.emb (ix2 p q))
  rw [hi]
  refine pay_dense _ _ _ _ _ _ p q _ (fun k => ?_) (fun k => ?_) ?_
  · show V c main_v31 (((cfg2.win 0).blk t).view.emb (ix2 p k)) = _
    refine congrArg _ (funext fun a => Fin.ext ?_)
    match a with
    | ⟨0, _⟩ => show win2_0.index t (0 : Fin 2) * 1000 + 1 * p.val = t.val * 1000 + p.val; omega
    | ⟨1, _⟩ => show win2_0.index t (1 : Fin 2) * 256 + 1 * k.val = k.val; omega
  · show V c main_v32 (((cfg2.win 1).blk t).view.emb (ix2 k q)) = _
    refine congrArg _ (funext fun a => Fin.ext ?_)
    match a with
    | ⟨0, _⟩ => show win2_1.index t (0 : Fin 2) * 256 + 1 * k.val = k.val; omega
    | ⟨1, _⟩ => show win2_1.index t (1 : Fin 2) * 256 + 1 * q.val = q.val; omega
  · show V c main_v33 (((cfg2.win 2).blk t).view.emb (ix2 0 q)) = _
    refine congrArg _ (funext fun a => Fin.ext ?_)
    match a with
    | ⟨0, _⟩ => show win2_2.index t (0 : Fin 2) * 1 + 1 * 0 = 0; omega
    | ⟨1, _⟩ => show win2_2.index t (1 : Fin 2) * 256 + 1 * q.val = q.val; omega

/-- An entry of the output table is in point t's block iff each coordinate is in the block's range on its axis. -/
theorem mem_blk (t : Fin cfg2.N) (i : S25000x256.Idx) :
    i ∈ ((cfg2.win 3).blk t).view.set ↔ ∀ a : Fin 2, win2_3.index t a * S1000x256.size a ≤ (i a).val
      ∧ (i a).val < win2_3.index t a * S1000x256.size a + S1000x256.size a := by
  show i ∈ ((View.whole main_v34).slice (win2_3.rect t)).set ↔ _
  rw [View.set_slice_whole, Rect.mem_set_unit]
  exact Iff.rfl

/-- Every entry of the output table is written back by some point: row r by point r / 1000. -/
theorem cover (i : S25000x256.Idx) :
    ∃ t : Fin cfg2.N, (cfg2.win 3).flush t = true ∧ i ∈ ((cfg2.win 3).blk t).view.set := by
  have hi0 : (i 0).val < 25000 := (i 0).isLt
  have hi1 : (i 1).val < 256 := (i 1).isLt
  have hN : cfg2.N = 25 := N_2
  have hlt : (i 0).val / 1000 < cfg2.N := by rw [hN]; omega
  obtain ⟨e00, e01, e10, e11, e20, e21, e30, e31⟩ := idx_facts ⟨(i 0).val / 1000, hlt⟩
  refine ⟨⟨(i 0).val / 1000, hlt⟩, flush2_3 _, ?_⟩
  rw [mem_blk]
  intro a
  match a with
  | ⟨0, _⟩ =>
    show win2_3.index ⟨(i 0).val / 1000, hlt⟩ (0 : Fin 2) * 1000 ≤ (i 0).val
      ∧ (i 0).val < win2_3.index ⟨(i 0).val / 1000, hlt⟩ (0 : Fin 2) * 1000 + 1000
    rw [e30]; show (i 0).val / 1000 * 1000 ≤ (i 0).val ∧ (i 0).val < (i 0).val / 1000 * 1000 + 1000; omega
  | ⟨1, _⟩ =>
    show win2_3.index ⟨(i 0).val / 1000, hlt⟩ (1 : Fin 2) * 256 ≤ (i 1).val
      ∧ (i 1).val < win2_3.index ⟨(i 0).val / 1000, hlt⟩ (1 : Fin 2) * 256 + 256
    rw [e31]; omega

/-- The output table after the region: the dense layer of the three tables the region finds, entry by entry. -/
theorem final (c : Dev nD) :
    (dat2 (F := Ideal) V c).arrAt 3 cfg2.N
      = Spec.dense Spec.leaky (V c (Pipeline.arrRef spec2 0)) (V c (Pipeline.arrRef spec2 1)) (V c (Pipeline.arrRef spec2 2)) :=
  (dat2 V c).arrAt_eq_of_cover 3 _ (fun t _ => flushed_eq V c t) cover

end Cert.KernelIdeal.Region2

end
-- ==== Proof.Region3.lean ====
/-
  The second neighbourhood layer, as the whole table its region leaves.

  The region runs over 25 points. At point t it holds rows 1000 t … 1000 t + 999 of the neighbours' mean and of the
  node table (25000 rows of 256 features each), the whole left and right weight tables (256 by 256) and the whole
  bias row, and writes rows 1000 t … 1000 t + 999 of the output table.

  Entry (r, j) of the output depends on row r of the mean, row r of the node table, column j of each weight table and
  entry j of the bias row, and on nothing else:

      out(r, j) = max ( (Σ_k mean(r, k) · lw(k, j) + Σ_k x(r, k) · rw(k, j)) + b(0, j) ,  0 ),

  k running over the 256 features. The narrowing of the operands before each product is the identity on the extended
  reals, and each product starts from a zero table, so the two sums are the plain sums above. Row r is written by
  point r / 1000 and the 25 blocks fill the table, so the table after the region is this function at every index,
  whatever the five tables hold when the region is entered.
-/
import proofs.«130552_j4191888081216_2_alg».proof.Proof.Gen.KernelIdeal.Frame
import proofs.«130552_j4191888081216_2_alg».proof.Proof.Spec
import proofs.«130552_j4191888081216_2_alg».proof.Proof.LibDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Region3

open Idealize.ShloMosaic Idealize.ShloMosaic.ValueIdx Idealize.ShloMosaic.TcCoe Cert.KernelIdeal Cert.KernelIdeal.Gen
open Idealize.ShloMosaic.Pipeline (Dat)
open Cert.Sage

/-- The product record of this region contracts the second axis of the left table with the first of the right. -/
theorem sum_dot (l : Vec Ideal S1000x256 .f32) (r : Vec Ideal S256x256 .f32) (p : Fin 1000) (q : Fin 256) :
    ∑ k : dot_S1000x256_S256x256_S1000x256_1_0_0_1_n_n.contr.Idx,
        l (dot_S1000x256_S256x256_S1000x256_1_0_0_1_n_n.lhsIdx (ix2 p q) k)
          * r (dot_S1000x256_S256x256_S1000x256_1_0_0_1_n_n.rhsIdx (ix2 p q) k)
      = ∑ k : Fin 256, l (ix2 p k) * r (ix2 k q) :=
  LibDot.sum_plain dot_S1000x256_S256x256_S1000x256_1_0_0_1_n_n rfl rfl (fun _ _ => rfl) (fun _ _ => rfl)
    (fun _ _ => rfl) (fun _ _ => rfl) l r p q

/-- The bias row laid along every row of the block reads the row's entry of the column. -/
theorem bias_apply (b : Vec Ideal S1x256 .f32) (p : Fin 1000) (q : Fin 256) :
    broadcastTo S1000x256 b broadcasts_S1x256_S1000x256 (ix2 p q) = b (ix2 0 q) := by
  refine broadcastTo_apply b broadcasts_S1x256_S1000x256 (ix2 p q) (ix2 (0 : Fin 1) q) ?_
  intro a
  match a with
  | ⟨0, _⟩ => rfl
  | ⟨1, _⟩ => rfl

/-- The body's payload at an entry of the block: the row of the mean block against the column of the left weights,
    the row of the node block against the column of the right weights, the bias entry, the maximum with zero. -/
theorem pay_apply (mean x : Vec Ideal S1000x256 .f32) (lw rw : Vec Ideal S256x256 .f32) (b : Vec Ideal S1x256 .f32)
    (p : Fin 1000) (q : Fin 256) :
    k3_pay1 mean x lw rw b (ix2 p q)
      = Spec.relu (((∑ k : Fin 256, mean (ix2 p k) * lw (ix2 k q)) + ∑ k : Fin 256, x (ix2 p k) * rw (ix2 k q))
          + b (ix2 0 q)) := by
  unfold k3_pay1
  simp only [shapeCast_self]
  show max ((FloatOps.matmul dot_S1000x256_S256x256_S1000x256_1_0_0_1_n_n none
        (truncf .bf16 mean bitsLt_bf16_f32 : FVec Ideal S1000x256 .bf16) (truncf .bf16 lw bitsLt_bf16_f32 : FVec Ideal S256x256 .bf16)
        (constant S1000x256 .f32 0x00000000#32) (ix2 p q)
      + FloatOps.matmul dot_S1000x256_S256x256_S1000x256_1_0_0_1_n_n none
        (truncf .bf16 x bitsLt_bf16_f32 : FVec Ideal S1000x256 .bf16) (truncf .bf16 rw bitsLt_bf16_f32 : FVec Ideal S256x256 .bf16)
        (constant S1000x256 .f32 0x00000000#32) (ix2 p q))
      + broadcastTo S1000x256 b broadcasts_S1x256_S1000x256 (ix2 p q)) (Ideal.ofBits .f32 0x00000000#32) = _
  rw [Ideal.matmul_constant_zero_apply, Ideal.matmul_constant_zero_apply, bias_apply]
  simp only [truncf_apply]
  rw [sum_dot mean lw p q, sum_dot x rw p q]
  rfl

/-- An entry of a point's output block from the entries of its input blocks: when row `p` of the two activation
    blocks is row `r` of the two activation tables, and the weight and bias blocks are the weight and bias tables,
    the payload's entry (p, q) is the layer's entry (r, q). -/
theorem blk_entry (A0 A1 : Spec.Tab 25000 256) (A2 : Spec.Tab 256 256) (A3 : Spec.Tab 1 256) (A4 : Spec.Tab 256 256)
    (x0 x1 : Vec Ideal S1000x256 .f32) (x2 : Vec Ideal S256x256 .f32) (x3 : Vec Ideal S1x256 .f32)
    (x4 : Vec Ideal S256x256 .f32) (r : Fin 25000) (p : Fin 1000) (q : Fin 256)
    (h0 : ∀ k : Fin 256, x0 (ix2 p k) = A0 (ix2 r k)) (h1 : ∀ k : Fin 256, x1 (ix2 p k) = A1 (ix2 r k))
    (h2 : ∀ k : Fin 256, x2 (ix2 k q) = A2 (ix2 k q)) (h3 : x3 (ix2 0 q) = A3 (ix2 0 q))
    (h4 : ∀ k : Fin 256, x4 (ix2 k q) = A4 (ix2 k q)) :
    k3_pay1 x0 x1 x2 x4 x3 (ix2 p q) = Spec.sage Spec.relu A0 A1 A2 A3 A4 (ix2 r q) := by
  rw [pay_apply]
  show _ = Spec.relu (((∑ k : Fin 256, A0 (ix2 r k) * A2 (ix2 k q)) + ∑ k : Fin 256, A1 (ix2 r k) * A4 (ix2 k q))
    + A3 (ix2 0 q))
  simp only [h0, h1, h2, h3, h4]

/-! ## Where each window's block sits at a grid point -/

theorem hz : (![0, 0] : Fin 2 → Nat) = fun _ => 0 := funext fun a => by fin_cases a <;> rfl

/-- The printed index maps over the 25 grid points: the two activation windows and the output window are at block
    row `t`, block column 0; the weight and bias windows are at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem t_lt (t : Fin cfg3.N) : t.val < 25 := lt_of_lt_of_eq t.isLt N_3

/-- Row `p` of point `t`'s block of a row-tiled table is row `1000 t + p` of the table. -/
def row (t : Fin cfg3.N) (p : Fin 1000) : Fin 25000 := ⟨t.val * 1000 + p.val, by have := t_lt t; omega⟩

theorem emb0 (t : Fin cfg3.N) (p : Fin 1000) (k : Fin 256) :
    ((cfg3.win 0).blk t).view.emb (ix2 p k) = (ix2 (row t p) k : S25000x256.Idx) := by
  obtain ⟨e0, e1, -⟩ := idx_facts t
  funext a; apply Fin.ext
  match a with
  | ⟨0, _⟩ => show win3_0.index t (0 : Fin 2) * 1000 + 1 * p.val = t.val * 1000 + p.val; omega
  | ⟨1, _⟩ => show win3_0.index t (1 : Fin 2) * 256 + 1 * k.val = k.val; omega

theorem emb1 (t : Fin cfg3.N) (p : Fin 1000) (k : Fin 256) :
    ((cfg3.win 1).blk t).view.emb (ix2 p k) = (ix2 (row t p) k : S25000x256.Idx) := by
  obtain ⟨-, -, e0, e1, -⟩ := idx_facts t
  funext a; apply Fin.ext
  match a with
  | ⟨0, _⟩ => show win3_1.index t (0 : Fin 2) * 1000 + 1 * p.val = t.val * 1000 + p.val; omega
  | ⟨1, _⟩ => show win3_1.index t (1 : Fin 2) * 256 + 1 * k.val = k.val; omega

theorem emb2 (t : Fin cfg3.N) (k q : Fin 256) :
    ((cfg3.win 2).blk t).view.emb (ix2 k q) = (ix2 k q : S256x256.Idx) := by
  obtain ⟨-, -, -, -, e0, e1, -⟩ := idx_facts t
  funext a; apply Fin.ext
  match a with
  | ⟨0, _⟩ => show win3_2.index t (0 : Fin 2) * 256 + 1 * k.val = k.val; omega
  | ⟨1, _⟩ => show win3_2.index t (1 : Fin 2) * 256 + 1 * q.val = q.val; omega

theorem emb3 (t : Fin cfg3.N) (q : Fin 256) :
    ((cfg3.win 3).blk t).view.emb (ix2 (0 : Fin 1) q) = (ix2 (0 : Fin 1) q : S1x256.Idx) := by
  obtain ⟨-, -, -, -, -, -, e0, e1, -⟩ := idx_facts t
  funext a; apply Fin.ext
  match a with
  | ⟨0, _⟩ => show win3_3.index t (0 : Fin 2) * 1 + 1 * 0 = 0; omega
  | ⟨1, _⟩ => show win3_3.index t (1 : Fin 2) * 256 + 1 * q.val = q.val; omega

theorem emb4 (t : Fin cfg3.N) (k q : Fin 256) :
    ((cfg3.win 4).blk t).view.emb (ix2 k q) = (ix2 k q : S256x256.Idx) := by
  obtain ⟨-, -, -, -, -, -, -, -, e0, e1, -⟩ := idx_facts t
  funext a; apply Fin.ext
  match a with
  | ⟨0, _⟩ => show win3_4.index t (0 : Fin 2) * 256 + 1 * k.val = k.val; omega
  | ⟨1, _⟩ => show win3_4.index t (1 : Fin 2) * 256 + 1 * q.val = q.val; omega

theorem emb5 (t : Fin cfg3.N) (p : Fin 1000) (q : Fin 256) :
    ((cfg3.win 5).blk t).view.emb (ix2 p q) = (ix2 (row t p) q : S25000x256.Idx) := by
  obtain ⟨-, -, -, -, -, -, -, -, -, -, e0, e1⟩ := idx_facts t
  funext a; apply Fin.ext
  match a with
  | ⟨0, _⟩ => show win3_5.index t (0 : Fin 2) * 1000 + 1 * p.val = t.val * 1000 + p.val; omega
  | ⟨1, _⟩ => show win3_5.index t (1 : Fin 2) * 256 + 1 * q.val = q.val; omega

/-! ## What a point writes back, the cover, the whole table -/

variable (V : (c : Dev nD) → (b : Ref sig .tc) → Buf (Elt Ideal) ((c : Thread nD τ).loc b))

/-- The layer's whole output table, from the five tables the region finds. -/
abbrev G (c : Dev nD) : Spec.Tab 25000 256 :=
  Spec.sage Spec.relu (V c (Pipeline.arrRef spec3 0)) (V c (Pipeline.arrRef spec3 1)) (V c (Pipeline.arrRef spec3 2))
    (V c (Pipeline.arrRef spec3 3)) (V c (Pipeline.arrRef spec3 4))

/-- Point `t` writes back rows `1000 t … 1000 t + 999` of the layer's output table. -/
theorem flushed_eq (c : Dev nD) (t : Fin cfg3.N) :
    (dat3 (F := Ideal) V c).flushed 5 t = ((cfg3.win 5).blk t).view.read (Elt Ideal) (G V c) := by
  show (cfg3.win 5).cut (grid3.coords t) ((dat3 V c).after 5 t) = _
  rw [after3_5]
  unfold out3_5
  rw [View.canon_unit_zero hz]
  simp only [View.ld_unit_zero (S := S1000x256) hz, View.ld_unit_zero (S := S256x256) hz,
    View.ld_unit_zero (S := S1x256) hz]
  funext j
  obtain ⟨p, q, rfl⟩ : ∃ (p : Fin 1000) (q : Fin 256), j = ix2 p q := ⟨j 0, j 1, eq_ix2 j⟩
  show k3_pay1 (iblk3 V c 0 t) (iblk3 V c 1 t) (iblk3 V c 2 t) (iblk3 V c 4 t) (iblk3 V c 3 t) (ix2 p q)
    = G V c (((cfg3.win 5).blk t).view.emb (ix2 p q))
  rw [emb5]
  refine blk_entry _ _ _ _ _ _ _ _ _ _ (row t p) p q ?_ ?_ ?_ ?_ ?_
  · intro k
    show V c (Pipeline.arrRef spec3 0) (((cfg3.win 0).blk t).view.emb (ix2 p k)) = _
    rw [emb0]
  · intro k
    show V c (Pipeline.arrRef spec3 1) (((cfg3.win 1).blk t).view.emb (ix2 p k)) = _
    rw [emb1]
  · intro k
    show V c (Pipeline.arrRef spec3 2) (((cfg3.win 2).blk t).view.emb (ix2 k q)) = _
    rw [emb2]
  · show V c (Pipeline.arrRef spec3 3) (((cfg3.win 3).blk t).view.emb (ix2 (0 : Fin 1) q)) = _
    rw [emb3]
  · intro k
    show V c (Pipeline.arrRef spec3 4) (((cfg3.win 4).blk t).view.emb (ix2 k q)) = _
    rw [emb4]

/-- An index of the output table is in point `t`'s block iff each coordinate is in the block's range on its axis. -/
theorem mem_blk (t : Fin cfg3.N) (i : S25000x256.Idx) :
    i ∈ ((cfg3.win 5).blk t).view.set ↔ ∀ a : Fin 2, win3_5.index t a * S1000x256.size a ≤ (i a).val
      ∧ (i a).val < win3_5.index t a * S1000x256.size a + S1000x256.size a := by
  show i ∈ ((View.whole main_v50).slice (win3_5.rect t)).set ↔ _
  rw [View.set_slice_whole, Rect.mem_set_unit]
  exact Iff.rfl

/-- Every entry of the output table is written: row `r` by point `r / 1000`. -/
theorem cover (i : S25000x256.Idx) :
    ∃ t : Fin cfg3.N, (cfg3.win 5).flush t = true ∧ i ∈ ((cfg3.win 5).blk t).view.set := by
  have hi0 : (i 0).val < 25000 := (i 0).isLt
  have hi1 : (i 1).val < 256 := (i 1).isLt
  have hN : cfg3.N = 25 := N_3
  let t : Fin cfg3.N := ⟨(i 0).val / 1000, by rw [hN]; omega⟩
  have ht : t.val = (i 0).val / 1000 := rfl
  obtain ⟨-, -, -, -, -, -, -, -, -, -, e0, e1⟩ := idx_facts t
  refine ⟨t, flush3_5 t, ?_⟩
  rw [mem_blk]
  intro a
  match a with
  | ⟨0, _⟩ =>
    show win3_5.index t (0 : Fin 2) * 1000 ≤ (i 0).val ∧ (i 0).val < win3_5.index t (0 : Fin 2) * 1000 + 1000
    omega
  | ⟨1, _⟩ =>
    show win3_5.index t (1 : Fin 2) * 256 ≤ (i 1).val ∧ (i 1).val < win3_5.index t (1 : Fin 2) * 256 + 256
    omega

/-- THE OUTPUT TABLE after the region: the neighbourhood layer of the five tables the region finds. -/
theorem final (c : Dev nD) : (dat3 (F := Ideal) V c).arrAt 5 cfg3.N
    = Spec.sage Spec.relu (V c (Pipeline.arrRef spec3 0)) (V c (Pipeline.arrRef spec3 1))
        (V c (Pipeline.arrRef spec3 2)) (V c (Pipeline.arrRef spec3 3)) (V c (Pipeline.arrRef spec3 4)) :=
  (dat3 V c).arrAt_eq_of_cover 5 (G V c) (fun t _ => flushed_eq V c t) cover

end Cert.KernelIdeal.Region3

end
-- ==== Proof.Region4.lean ====
/-
  The third dense layer, as the table it leaves.

  The activations x are a table of 25000 rows and 256 columns; the weights are a 256 × 256 table with the contracted
  axis first; the bias is one row of 256 entries. The grid has 25 points on one axis. Point t reads rows
  1000 t … 1000 t + 999 of x, the whole weight table and the whole bias row, and writes rows 1000 t … 1000 t + 999 of the
  output, all 256 columns. Entry (r, j) of the output depends on row r of x, column j of the weights and entry j of the
  bias row only: with

      v = Σ_k x(r, k) · w(k, j) + b(0, j),     k over the 256 columns of x,

  it is v where v exceeds zero and the fixed multiple of v elsewhere.

  On the extended reals a change of number format is the identity and the product accumulates into zero, so one entry of
  a stored block is exactly that expression of the loaded blocks; a loaded block's entry (p, k) is the table's entry
  (1000 t + p, k); and the 25 row blocks cover every row, so the output table is this function of the three tables at
  every index. Nothing is assumed finite.
-/
import proofs.«130552_j4191888081216_2_alg».proof.Proof.Gen.KernelIdeal.Frame
import proofs.«130552_j4191888081216_2_alg».proof.Proof.Spec
import proofs.«130552_j4191888081216_2_alg».proof.Proof.LibDot
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Region4

open Idealize.ShloMosaic Idealize.ShloMosaic.ValueIdx Cert.KernelIdeal Cert.KernelIdeal.Gen
open Idealize.ShloMosaic.TcCoe
open Cert.Sage

variable (V : (c : Dev nD) → (b : Ref sig .tc) → Buf (Elt Ideal) ((c : Thread nD τ).loc b))

/-- One entry of the block the body stores: the contraction over the 256 features of row p of the loaded activations
    against column q of the weights, plus entry q of the bias row; then that value v itself where v exceeds zero and
    the fixed multiple of v elsewhere. -/
theorem pay (x0 : Vec Ideal S1000x256 .f32) (x1 : Vec Ideal S256x256 .f32) (x2 : Vec Ideal S1x256 .f32)
    (p : Fin 1000) (q : Fin 256) :
    k4_pay1 x0 x1 x2 (ix2 p q)
      = Spec.leaky ((∑ k : Fin 256, x0 (ix2 p k) * x1 (ix2 k q)) + x2 (ix2 0 q)) := by
  unfold k4_pay1
  show Spec.leaky (FloatOps.matmul (F := Ideal) dot_S1000x256_S256x256_S1000x256_1_0_0_1_n_n none
        (truncf (F := Ideal) .bf16 (shapeCast S1000x256 x0 shapeCasts_S1000x256_S1000x256) bitsLt_bf16_f32)
        (truncf (F := Ideal) .bf16 (shapeCast S256x256 x1 shapeCasts_S256x256_S256x256) bitsLt_bf16_f32)
        (constant (F := Ideal) S1000x256 .f32 0x00000000#32) (ix2 p q)
      + broadcastTo S1000x256 (shapeCast S1x256 x2 shapeCasts_S1x256_S1x256) broadcasts_S1x256_S1000x256 (ix2 p q)) = _
  rw [Ideal.matmul_constant_zero_apply, shapeCast_self, shapeCast_self, shapeCast_self]
  have hs := LibDot.sum_plain dot_S1000x256_S256x256_S1000x256_1_0_0_1_n_n rfl rfl (fun _ _ => rfl) (fun _ _ => rfl)
    (fun _ _ => rfl) (fun _ _ => rfl) x0 x1 p q
  have hb : broadcastTo S1000x256 x2 broadcasts_S1x256_S1000x256 (ix2 p q) = x2 (ix2 0 q) :=
    broadcastTo_apply x2 broadcasts_S1x256_S1000x256 (ix2 p q) (ix2 (0 : Fin 1) q) (by
      intro a
      match a with
      | ⟨0, _⟩ => rfl
      | ⟨1, _⟩ => rfl)
  rw [hb]
  exact congrArg (fun s => Spec.leaky (s + x2 (ix2 0 q))) hs

/-- The same entry against whole tables: when row p of the loaded activations is row r of the table X, column q of the
    loaded weights is column q of W, and the loaded bias row is B's, the entry is the dense layer's entry (r, q). -/
theorem pay_dense (x0 : Vec Ideal S1000x256 .f32) (x1 : Vec Ideal S256x256 .f32) (x2 : Vec Ideal S1x256 .f32)
    (X : Spec.Tab 25000 256) (W : Spec.Tab 256 256) (B : Spec.Tab 1 256)
    (p : Fin 1000) (q : Fin 256) (r : Fin 25000)
    (h0 : ∀ k : Fin 256, x0 (ix2 p k) = X (ix2 r k))
    (h1 : ∀ k : Fin 256, x1 (ix2 k q) = W (ix2 k q))
    (h2 : x2 (ix2 0 q) = B (ix2 0 q)) :
    k4_pay1 x0 x1 x2 (ix2 p q) = Spec.dense Spec.leaky X W B (ix2 r q) := by
  rw [pay, h2]
  refine congrArg (fun s => Spec.leaky (s + B (ix2 0 q))) (Finset.sum_congr rfl fun k _ => ?_)
  rw [h0 k, h1 k]

/-- The two zero offsets of a whole-block access, as a constant function. -/
theorem hz : (![0, 0] : Fin 2 → Nat) = fun _ => 0 := funext fun a => by fin_cases a <;> rfl

/-- The printed index maps over the 25 grid points: the activations' and the output's blocks sit at block row t,
    block column 0; the weights and the bias row are one block each, at (0, 0). -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point t writes back is block t of the dense layer of the tables the region finds: rows 1000 t … 1000 t + 999,
    every column. -/
theorem flushed_eq (c : Dev nD) (t : Fin cfg4.N) :
    (dat4 (F := Ideal) V c).flushed 3 t = ((cfg4.win 3).blk t).view.read (Elt Ideal)
      (Spec.dense Spec.leaky (V c main_v50) (V c main_v51) (V c main_v52)) := by
  show (cfg4.win 3).cut (grid4.coords t) ((dat4 V c).after 3 t) = _
  rw [after4_3]
  unfold out4_3
  rw [View.canon_unit_zero hz]
  simp only [View.ld_unit_zero (S := S1000x256) hz, View.ld_unit_zero (S := S256x256) hz, View.ld_unit_zero (S := S1x256) hz]
  obtain ⟨e00, e01, e10, e11, e20, e21, e30, e31⟩ := idx_facts t
  have ht : t.val < 25 := by have h := t.isLt; have hN : cfg4.N = 25 := N_4; omega
  funext j
  obtain ⟨p, q, rfl⟩ : ∃ (p : Fin 1000) (q : Fin 256), j = ix2 p q := ⟨j 0, j 1, eq_ix2 j⟩
  have hp : p.val < 1000 := p.isLt
  have hi : ((cfg4.win 3).blk t).view.emb (ix2 p q) = ix2 (⟨t.val * 1000 + p.val, by omega⟩ : Fin 25000) q := by
    funext a; apply Fin.ext
    match a with
    | ⟨0, _⟩ => show win4_3.index t (0 : Fin 2) * 1000 + 1 * p.val = t.val * 1000 + p.val; omega
    | ⟨1, _⟩ => show win4_3.index t (1 : Fin 2) * 256 + 1 * q.val = q.val; omega
  show k4_pay1 (iblk4 V c 0 t) (iblk4 V c 1 t) (iblk4 V c 2 t) (ix2 p q)
    = Spec.dense Spec.leaky (V c main_v50) (V c main_v51) (V c main_v52) (((cfg4.win 3).blk t).view.emb (ix2 p q))
  rw [hi]
  refine pay_dense _ _ _ _ _ _ p q _ (fun k => ?_) (fun k => ?_) ?_
  · show V c main_v50 (((cfg4.win 0).blk t).view.emb (ix2 p k)) = _
    refine congrArg _ (funext fun a => Fin.ext ?_)
    match a with
    | ⟨0, _⟩ => show win4_0.index t (0 : Fin 2) * 1000 + 1 * p.val = t.val * 1000 + p.val; omega
    | ⟨1, _⟩ => show win4_0.index t (1 : Fin 2) * 256 + 1 * k.val = k.val; omega
  · show V c main_v51 (((cfg4.win 1).blk t).view.emb (ix2 k q)) = _
    refine congrArg _ (funext fun a => Fin.ext ?_)
    match a with
    | ⟨0, _⟩ => show win4_1.index t (0 : Fin 2) * 256 + 1 * k.val = k.val; omega
    | ⟨1, _⟩ => show win4_1.index t (1 : Fin 2) * 256 + 1 * q.val = q.val; omega
  · show V c main_v52 (((cfg4.win 2).blk t).view.emb (ix2 0 q)) = _
    refine congrArg _ (funext fun a => Fin.ext ?_)
    match a with
    | ⟨0, _⟩ => show win4_2.index t (0 : Fin 2) * 1 + 1 * 0 = 0; omega
    | ⟨1, _⟩ => show win4_2.index t (1 : Fin 2) * 256 + 1 * q.val = q.val; omega

/-- An entry of the output table is in point t's block iff each coordinate is in the block's range on its axis. -/
theorem mem_blk (t : Fin cfg4.N) (i : S25000x256.Idx) :
    i ∈ ((cfg4.win 3).blk t).view.set ↔ ∀ a : Fin 2, win4_3.index t a * S1000x256.size a ≤ (i a).val
      ∧ (i a).val < win4_3.index t a * S1000x256.size a + S1000x256.size a := by
  show i ∈ ((View.whole main_v53).slice (win4_3.rect t)).set ↔ _
  rw [View.set_slice_whole, Rect.mem_set_unit]
  exact Iff.rfl

/-- Every entry of the output table is written back by some point: row r by point r / 1000. -/
theorem cover (i : S25000x256.Idx) :
    ∃ t : Fin cfg4.N, (cfg4.win 3).flush t = true ∧ i ∈ ((cfg4.win 3).blk t).view.set := by
  have hi0 : (i 0).val < 25000 := (i 0).isLt
  have hi1 : (i 1).val < 256 := (i 1).isLt
  have hN : cfg4.N = 25 := N_4
  have hlt : (i 0).val / 1000 < cfg4.N := by rw [hN]; omega
  obtain ⟨e00, e01, e10, e11, e20, e21, e30, e31⟩ := idx_facts ⟨(i 0).val / 1000, hlt⟩
  refine ⟨⟨(i 0).val / 1000, hlt⟩, flush4_3 _, ?_⟩
  rw [mem_blk]
  intro a
  match a with
  | ⟨0, _⟩ =>
    show win4_3.index ⟨(i 0).val / 1000, hlt⟩ (0 : Fin 2) * 1000 ≤ (i 0).val
      ∧ (i 0).val < win4_3.index ⟨(i 0).val / 1000, hlt⟩ (0 : Fin 2) * 1000 + 1000
    rw [e30]; show (i 0).val / 1000 * 1000 ≤ (i 0).val ∧ (i 0).val < (i 0).val / 1000 * 1000 + 1000; omega
  | ⟨1, _⟩ =>
    show win4_3.index ⟨(i 0).val / 1000, hlt⟩ (1 : Fin 2) * 256 ≤ (i 1).val
      ∧ (i 1).val < win4_3.index ⟨(i 0).val / 1000, hlt⟩ (1 : Fin 2) * 256 + 256
    rw [e31]; omega

/-- The output table after the region: the dense layer of the three tables the region finds, entry by entry. -/
theorem final (c : Dev nD) :
    (dat4 (F := Ideal) V c).arrAt 3 cfg4.N
      = Spec.dense Spec.leaky (V c (Pipeline.arrRef spec4 0)) (V c (Pipeline.arrRef spec4 1)) (V c (Pipeline.arrRef spec4 2)) :=
  (dat4 V c).arrAt_eq_of_cover 3 _ (fun t _ => flushed_eq V c t) cover

end Cert.KernelIdeal.Region4

end
-- ==== Proof.Region5.lean ====
/-
  The third neighbourhood layer, as the whole table its region leaves.

  The region runs over 25 points. At point t it holds rows 1000 t … 1000 t + 999 of the neighbours' mean and of the
  node table (25000 rows of 256 features each), the whole left and right weight tables (256 by 128) and the whole
  bias row, and writes rows 1000 t … 1000 t + 999 of the output table.

  Entry (r, j) of the output depends on row r of the mean, row r of the node table, column j of each weight table and
  entry j of the bias row, and on nothing else:

      out(r, j) = max ( (Σ_k mean(r, k) · lw(k, j) + Σ_k x(r, k) · rw(k, j)) + b(0, j) ,  0 ),

  k running over the 256 features. The narrowing of the operands before each product is the identity on the extended
  reals, and each product starts from a zero table, so the two sums are the plain sums above. Row r is written by
  point r / 1000 and the 25 blocks fill the table, so the table after the region is this function at every index,
  whatever the five tables hold when the region is entered.
-/
import proofs.«130552_j4191888081216_2_alg».proof.Proof.Gen.KernelIdeal.Frame
import proofs.«130552_j4191888081216_2_alg».proof.Proof.Spec
import proofs.«130552_j4191888081216_2_alg».proof.Proof.LibDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Region5

open Idealize.ShloMosaic Idealize.ShloMosaic.ValueIdx Idealize.ShloMosaic.TcCoe Cert.KernelIdeal Cert.KernelIdeal.Gen
open Idealize.ShloMosaic.Pipeline (Dat)
open Cert.Sage

/-- The product record of this region contracts the second axis of the left table with the first of the right. -/
theorem sum_dot (l : Vec Ideal S1000x256 .f32) (r : Vec Ideal S256x128 .f32) (p : Fin 1000) (q : Fin 128) :
    ∑ k : dot_S1000x256_S256x128_S1000x128_1_0_0_1_n_n.contr.Idx,
        l (dot_S1000x256_S256x128_S1000x128_1_0_0_1_n_n.lhsIdx (ix2 p q) k)
          * r (dot_S1000x256_S256x128_S1000x128_1_0_0_1_n_n.rhsIdx (ix2 p q) k)
      = ∑ k : Fin 256, l (ix2 p k) * r (ix2 k q) :=
  LibDot.sum_plain dot_S1000x256_S256x128_S1000x128_1_0_0_1_n_n rfl rfl (fun _ _ => rfl) (fun _ _ => rfl)
    (fun _ _ => rfl) (fun _ _ => rfl) l r p q

/-- The bias row laid along every row of the block reads the row's entry of the column. -/
theorem bias_apply (b : Vec Ideal S1x128 .f32) (p : Fin 1000) (q : Fin 128) :
    broadcastTo S1000x128 b broadcasts_S1x128_S1000x128 (ix2 p q) = b (ix2 0 q) := by
  refine broadcastTo_apply b broadcasts_S1x128_S1000x128 (ix2 p q) (ix2 (0 : Fin 1) q) ?_
  intro a
  match a with
  | ⟨0, _⟩ => rfl
  | ⟨1, _⟩ => rfl

/-- The body's payload at an entry of the block: the row of the mean block against the column of the left weights,
    the row of the node block against the column of the right weights, the bias entry, the maximum with zero. -/
theorem pay_apply (mean x : Vec Ideal S1000x256 .f32) (lw rw : Vec Ideal S256x128 .f32) (b : Vec Ideal S1x128 .f32)
    (p : Fin 1000) (q : Fin 128) :
    k5_pay1 mean x lw rw b (ix2 p q)
      = Spec.relu (((∑ k : Fin 256, mean (ix2 p k) * lw (ix2 k q)) + ∑ k : Fin 256, x (ix2 p k) * rw (ix2 k q))
          + b (ix2 0 q)) := by
  unfold k5_pay1
  simp only [shapeCast_self]
  show max ((FloatOps.matmul dot_S1000x256_S256x128_S1000x128_1_0_0_1_n_n none
        (truncf .bf16 mean bitsLt_bf16_f32 : FVec Ideal S1000x256 .bf16) (truncf .bf16 lw bitsLt_bf16_f32 : FVec Ideal S256x128 .bf16)
        (constant S1000x128 .f32 0x00000000#32) (ix2 p q)
      + FloatOps.matmul dot_S1000x256_S256x128_S1000x128_1_0_0_1_n_n none
        (truncf .bf16 x bitsLt_bf16_f32 : FVec Ideal S1000x256 .bf16) (truncf .bf16 rw bitsLt_bf16_f32 : FVec Ideal S256x128 .bf16)
        (constant S1000x128 .f32 0x00000000#32) (ix2 p q))
      + broadcastTo S1000x128 b broadcasts_S1x128_S1000x128 (ix2 p q)) (Ideal.ofBits .f32 0x00000000#32) = _
  rw [Ideal.matmul_constant_zero_apply, Ideal.matmul_constant_zero_apply, bias_apply]
  simp only [truncf_apply]
  rw [sum_dot mean lw p q, sum_dot x rw p q]
  rfl

/-- An entry of a point's output block from the entries of its input blocks: when row `p` of the two activation
    blocks is row `r` of the two activation tables, and the weight and bias blocks are the weight and bias tables,
    the payload's entry (p, q) is the layer's entry (r, q). -/
theorem blk_entry (A0 A1 : Spec.Tab 25000 256) (A2 : Spec.Tab 256 128) (A3 : Spec.Tab 1 128) (A4 : Spec.Tab 256 128)
    (x0 x1 : Vec Ideal S1000x256 .f32) (x2 : Vec Ideal S256x128 .f32) (x3 : Vec Ideal S1x128 .f32)
    (x4 : Vec Ideal S256x128 .f32) (r : Fin 25000) (p : Fin 1000) (q : Fin 128)
    (h0 : ∀ k : Fin 256, x0 (ix2 p k) = A0 (ix2 r k)) (h1 : ∀ k : Fin 256, x1 (ix2 p k) = A1 (ix2 r k))
    (h2 : ∀ k : Fin 256, x2 (ix2 k q) = A2 (ix2 k q)) (h3 : x3 (ix2 0 q) = A3 (ix2 0 q))
    (h4 : ∀ k : Fin 256, x4 (ix2 k q) = A4 (ix2 k q)) :
    k5_pay1 x0 x1 x2 x4 x3 (ix2 p q) = Spec.sage Spec.relu A0 A1 A2 A3 A4 (ix2 r q) := by
  rw [pay_apply]
  show _ = Spec.relu (((∑ k : Fin 256, A0 (ix2 r k) * A2 (ix2 k q)) + ∑ k : Fin 256, A1 (ix2 r k) * A4 (ix2 k q))
    + A3 (ix2 0 q))
  simp only [h0, h1, h2, h3, h4]

/-! ## Where each window's block sits at a grid point -/

theorem hz : (![0, 0] : Fin 2 → Nat) = fun _ => 0 := funext fun a => by fin_cases a <;> rfl

/-- The printed index maps over the 25 grid points: the two activation windows and the output window are at block
    row `t`, block column 0; the weight and bias windows are at block (0, 0). -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

theorem t_lt (t : Fin cfg5.N) : t.val < 25 := lt_of_lt_of_eq t.isLt N_5

/-- Row `p` of point `t`'s block of a row-tiled table is row `1000 t + p` of the table. -/
def row (t : Fin cfg5.N) (p : Fin 1000) : Fin 25000 := ⟨t.val * 1000 + p.val, by have := t_lt t; omega⟩

theorem emb0 (t : Fin cfg5.N) (p : Fin 1000) (k : Fin 256) :
    ((cfg5.win 0).blk t).view.emb (ix2 p k) = (ix2 (row t p) k : S25000x256.Idx) := by
  obtain ⟨e0, e1, -⟩ := idx_facts t
  funext a; apply Fin.ext
  match a with
  | ⟨0, _⟩ => show win5_0.index t (0 : Fin 2) * 1000 + 1 * p.val = t.val * 1000 + p.val; omega
  | ⟨1, _⟩ => show win5_0.index t (1 : Fin 2) * 256 + 1 * k.val = k.val; omega

theorem emb1 (t : Fin cfg5.N) (p : Fin 1000) (k : Fin 256) :
    ((cfg5.win 1).blk t).view.emb (ix2 p k) = (ix2 (row t p) k : S25000x256.Idx) := by
  obtain ⟨-, -, e0, e1, -⟩ := idx_facts t
  funext a; apply Fin.ext
  match a with
  | ⟨0, _⟩ => show win5_1.index t (0 : Fin 2) * 1000 + 1 * p.val = t.val * 1000 + p.val; omega
  | ⟨1, _⟩ => show win5_1.index t (1 : Fin 2) * 256 + 1 * k.val = k.val; omega

theorem emb2 (t : Fin cfg5.N) (k : Fin 256) (q : Fin 128) :
    ((cfg5.win 2).blk t).view.emb (ix2 k q) = (ix2 k q : S256x128.Idx) := by
  obtain ⟨-, -, -, -, e0, e1, -⟩ := idx_facts t
  funext a; apply Fin.ext
  match a with
  | ⟨0, _⟩ => show win5_2.index t (0 : Fin 2) * 256 + 1 * k.val = k.val; omega
  | ⟨1, _⟩ => show win5_2.index t (1 : Fin 2) * 128 + 1 * q.val = q.val; omega

theorem emb3 (t : Fin cfg5.N) (q : Fin 128) :
    ((cfg5.win 3).blk t).view.emb (ix2 (0 : Fin 1) q) = (ix2 (0 : Fin 1) q : S1x128.Idx) := by
  obtain ⟨-, -, -, -, -, -, e0, e1, -⟩ := idx_facts t
  funext a; apply Fin.ext
  match a with
  | ⟨0, _⟩ => show win5_3.index t (0 : Fin 2) * 1 + 1 * 0 = 0; omega
  | ⟨1, _⟩ => show win5_3.index t (1 : Fin 2) * 128 + 1 * q.val = q.val; omega

theorem emb4 (t : Fin cfg5.N) (k : Fin 256) (q : Fin 128) :
    ((cfg5.win 4).blk t).view.emb (ix2 k q) = (ix2 k q : S256x128.Idx) := by
  obtain ⟨-, -, -, -, -, -, -, -, e0, e1, -⟩ := idx_facts t
  funext a; apply Fin.ext
  match a with
  | ⟨0, _⟩ => show win5_4.index t (0 : Fin 2) * 256 + 1 * k.val = k.val; omega
  | ⟨1, _⟩ => show win5_4.index t (1 : Fin 2) * 128 + 1 * q.val = q.val; omega

theorem emb5 (t : Fin cfg5.N) (p : Fin 1000) (q : Fin 128) :
    ((cfg5.win 5).blk t).view.emb (ix2 p q) = (ix2 (row t p) q : S25000x128.Idx) := by
  obtain ⟨-, -, -, -, -, -, -, -, -, -, e0, e1⟩ := idx_facts t
  funext a; apply Fin.ext
  match a with
  | ⟨0, _⟩ => show win5_5.index t (0 : Fin 2) * 1000 + 1 * p.val = t.val * 1000 + p.val; omega
  | ⟨1, _⟩ => show win5_5.index t (1 : Fin 2) * 128 + 1 * q.val = q.val; omega

/-! ## What a point writes back, the cover, the whole table -/

variable (V : (c : Dev nD) → (b : Ref sig .tc) → Buf (Elt Ideal) ((c : Thread nD τ).loc b))

/-- The layer's whole output table, from the five tables the region finds. -/
abbrev G (c : Dev nD) : Spec.Tab 25000 128 :=
  Spec.sage Spec.relu (V c (Pipeline.arrRef spec5 0)) (V c (Pipeline.arrRef spec5 1)) (V c (Pipeline.arrRef spec5 2))
    (V c (Pipeline.arrRef spec5 3)) (V c (Pipeline.arrRef spec5 4))

/-- Entry (p, k) of the mean block at point `t` is entry (1000 t + p, k) of the mean table. -/
theorem rd0 (c : Dev nD) (t : Fin cfg5.N) (p : Fin 1000) (k : Fin 256) :
    iblk5 V c 0 t (ix2 p k) = V c (Pipeline.arrRef spec5 0) (ix2 (row t p) k) := by
  show V c (Pipeline.arrRef spec5 0) (((cfg5.win 0).blk t).view.emb (ix2 p k)) = _
  rw [emb0]

/-- Entry (p, k) of the node block at point `t` is entry (1000 t + p, k) of the node table. -/
theorem rd1 (c : Dev nD) (t : Fin cfg5.N) (p : Fin 1000) (k : Fin 256) :
    iblk5 V c 1 t (ix2 p k) = V c (Pipeline.arrRef spec5 1) (ix2 (row t p) k) := by
  show V c (Pipeline.arrRef spec5 1) (((cfg5.win 1).blk t).view.emb (ix2 p k)) = _
  rw [emb1]

/-- The left weights' block at every point is the whole table. -/
theorem rd2 (c : Dev nD) (t : Fin cfg5.N) (k : Fin 256) (q : Fin 128) :
    iblk5 V c 2 t (ix2 k q) = V c (Pipeline.arrRef spec5 2) (ix2 k q) := by
  show V c (Pipeline.arrRef spec5 2) (((cfg5.win 2).blk t).view.emb (ix2 k q)) = _
  rw [emb2]

/-- The bias block at every point is the whole row. -/
theorem rd3 (c : Dev nD) (t : Fin cfg5.N) (q : Fin 128) :
    iblk5 V c 3 t (ix2 (0 : Fin 1) q) = V c (Pipeline.arrRef spec5 3) (ix2 (0 : Fin 1) q) := by
  show V c (Pipeline.arrRef spec5 3) (((cfg5.win 3).blk t).view.emb (ix2 (0 : Fin 1) q)) = _
  rw [emb3]

/-- The right weights' block at every point is the whole table. -/
theorem rd4 (c : Dev nD) (t : Fin cfg5.N) (k : Fin 256) (q : Fin 128) :
    iblk5 V c 4 t (ix2 k q) = V c (Pipeline.arrRef spec5 4) (ix2 k q) := by
  show V c (Pipeline.arrRef spec5 4) (((cfg5.win 4).blk t).view.emb (ix2 k q)) = _
  rw [emb4]

/-- Point `t` writes back rows `1000 t … 1000 t + 999` of the layer's output table. -/
theorem flushed_eq (c : Dev nD) (t : Fin cfg5.N) :
    (dat5 (F := Ideal) V c).flushed 5 t = ((cfg5.win 5).blk t).view.read (Elt Ideal) (G V c) := by
  show (cfg5.win 5).cut (grid5.coords t) ((dat5 V c).after 5 t) = _
  rw [after5_5]
  unfold out5_5
  rw [View.canon_unit_zero hz]
  simp only [View.ld_unit_zero (S := S1000x256) hz, View.ld_unit_zero (S := S256x128) hz,
    View.ld_unit_zero (S := S1x128) hz]
  funext j
  obtain ⟨p, q, rfl⟩ : ∃ (p : Fin 1000) (q : Fin 128), j = ix2 p q := ⟨j 0, j 1, eq_ix2 j⟩
  show k5_pay1 (iblk5 V c 0 t) (iblk5 V c 1 t) (iblk5 V c 2 t) (iblk5 V c 4 t) (iblk5 V c 3 t) (ix2 p q)
    = G V c (((cfg5.win 5).blk t).view.emb (ix2 p q))
  rw [emb5]
  exact blk_entry _ _ _ _ _ _ _ _ _ _ (row t p) p q (rd0 V c t p) (rd1 V c t p) (fun k => rd2 V c t k q)
    (rd3 V c t q) (fun k => rd4 V c t k q)

/-- An index of the output table is in point `t`'s block iff each coordinate is in the block's range on its axis. -/
theorem mem_blk (t : Fin cfg5.N) (i : S25000x128.Idx) :
    i ∈ ((cfg5.win 5).blk t).view.set ↔ ∀ a : Fin 2, win5_5.index t a * S1000x128.size a ≤ (i a).val
      ∧ (i a).val < win5_5.index t a * S1000x128.size a + S1000x128.size a := by
  show i ∈ ((View.whole main_v69).slice (win5_5.rect t)).set ↔ _
  rw [View.set_slice_whole, Rect.mem_set_unit]
  exact Iff.rfl

/-- Every entry of the output table is written: row `r` by point `r / 1000`. -/
theorem cover (i : S25000x128.Idx) :
    ∃ t : Fin cfg5.N, (cfg5.win 5).flush t = true ∧ i ∈ ((cfg5.win 5).blk t).view.set := by
  have hi0 : (i 0).val < 25000 := (i 0).isLt
  have hi1 : (i 1).val < 128 := (i 1).isLt
  have hN : cfg5.N = 25 := N_5
  let t : Fin cfg5.N := ⟨(i 0).val / 1000, by rw [hN]; omega⟩
  have ht : t.val = (i 0).val / 1000 := rfl
  obtain ⟨-, -, -, -, -, -, -, -, -, -, e0, e1⟩ := idx_facts t
  refine ⟨t, flush5_5 t, ?_⟩
  rw [mem_blk]
  intro a
  match a with
  | ⟨0, _⟩ =>
    show win5_5.index t (0 : Fin 2) * 1000 ≤ (i 0).val ∧ (i 0).val < win5_5.index t (0 : Fin 2) * 1000 + 1000
    omega
  | ⟨1, _⟩ =>
    show win5_5.index t (1 : Fin 2) * 128 ≤ (i 1).val ∧ (i 1).val < win5_5.index t (1 : Fin 2) * 128 + 128
    omega

/-- THE OUTPUT TABLE after the region: the neighbourhood layer of the five tables the region finds. -/
theorem final (c : Dev nD) : (dat5 (F := Ideal) V c).arrAt 5 cfg5.N
    = Spec.sage Spec.relu (V c (Pipeline.arrRef spec5 0)) (V c (Pipeline.arrRef spec5 1))
        (V c (Pipeline.arrRef spec5 2)) (V c (Pipeline.arrRef spec5 3)) (V c (Pipeline.arrRef spec5 4)) :=
  (dat5 V c).arrAt_eq_of_cover 5 (G V c) (fun t _ => flushed_eq V c t) cover

end Cert.KernelIdeal.Region5

end
-- ==== Proof.Region6.lean ====
/-
  The fourth dense layer, as the table it leaves.

  The activations x are a table of 25000 rows and 128 columns; the weights are a 128 × 128 table with the contracted
  axis first; the bias is one row of 128 entries. The grid has 25 points on one axis. Point t reads rows
  1000 t … 1000 t + 999 of x, the whole weight table and the whole bias row, and writes rows 1000 t … 1000 t + 999 of the
  output, all 128 columns. Entry (r, j) of the output depends on row r of x, column j of the weights and entry j of the
  bias row only: with

      v = Σ_k x(r, k) · w(k, j) + b(0, j),     k over the 128 columns of x,

  it is v where v exceeds zero and the fixed multiple of v elsewhere.

  On the extended reals a change of number format is the identity and the product accumulates into zero, so one entry of
  a stored block is exactly that expression of the loaded blocks; a loaded block's entry (p, k) is the table's entry
  (1000 t + p, k); and the 25 row blocks cover every row, so the output table is this function of the three tables at
  every index. Nothing is assumed finite.
-/
import proofs.«130552_j4191888081216_2_alg».proof.Proof.Gen.KernelIdeal.Frame
import proofs.«130552_j4191888081216_2_alg».proof.Proof.Spec
import proofs.«130552_j4191888081216_2_alg».proof.Proof.LibDot
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Region6

open Idealize.ShloMosaic Idealize.ShloMosaic.ValueIdx Cert.KernelIdeal Cert.KernelIdeal.Gen
open Idealize.ShloMosaic.TcCoe
open Cert.Sage

variable (V : (c : Dev nD) → (b : Ref sig .tc) → Buf (Elt Ideal) ((c : Thread nD τ).loc b))

/-- One entry of the block the body stores: the contraction over the 128 features of row p of the loaded activations
    against column q of the weights, plus entry q of the bias row; then that value v itself where v exceeds zero and
    the fixed multiple of v elsewhere. -/
theorem pay (x0 : Vec Ideal S1000x128 .f32) (x1 : Vec Ideal S128x128 .f32) (x2 : Vec Ideal S1x128 .f32)
    (p : Fin 1000) (q : Fin 128) :
    k6_pay1 x0 x1 x2 (ix2 p q)
      = Spec.leaky ((∑ k : Fin 128, x0 (ix2 p k) * x1 (ix2 k q)) + x2 (ix2 0 q)) := by
  unfold k6_pay1
  show Spec.leaky (FloatOps.matmul (F := Ideal) dot_S1000x128_S128x128_S1000x128_1_0_0_1_n_n none
        (truncf (F := Ideal) .bf16 (shapeCast S1000x128 x0 shapeCasts_S1000x128_S1000x128) bitsLt_bf16_f32)
        (truncf (F := Ideal) .bf16 (shapeCast S128x128 x1 shapeCasts_S128x128_S128x128) bitsLt_bf16_f32)
        (constant (F := Ideal) S1000x128 .f32 0x00000000#32) (ix2 p q)
      + broadcastTo S1000x128 (shapeCast S1x128 x2 shapeCasts_S1x128_S1x128) broadcasts_S1x128_S1000x128 (ix2 p q)) = _
  rw [Ideal.matmul_constant_zero_apply, shapeCast_self, shapeCast_self, shapeCast_self]
  have hs := LibDot.sum_plain dot_S1000x128_S128x128_S1000x128_1_0_0_1_n_n rfl rfl (fun _ _ => rfl) (fun _ _ => rfl)
    (fun _ _ => rfl) (fun _ _ => rfl) x0 x1 p q
  have hb : broadcastTo S1000x128 x2 broadcasts_S1x128_S1000x128 (ix2 p q) = x2 (ix2 0 q) :=
    broadcastTo_apply x2 broadcasts_S1x128_S1000x128 (ix2 p q) (ix2 (0 : Fin 1) q) (by
      intro a
      match a with
      | ⟨0, _⟩ => rfl
      | ⟨1, _⟩ => rfl)
  rw [hb]
  exact congrArg (fun s => Spec.leaky (s + x2 (ix2 0 q))) hs

/-- The same entry against whole tables: when row p of the loaded activations is row r of the table X, column q of the
    loaded weights is column q of W, and the loaded bias row is B's, the entry is the dense layer's entry (r, q). -/
theorem pay_dense (x0 : Vec Ideal S1000x128 .f32) (x1 : Vec Ideal S128x128 .f32) (x2 : Vec Ideal S1x128 .f32)
    (X : Spec.Tab 25000 128) (W : Spec.Tab 128 128) (B : Spec.Tab 1 128)
    (p : Fin 1000) (q : Fin 128) (r : Fin 25000)
    (h0 : ∀ k : Fin 128, x0 (ix2 p k) = X (ix2 r k))
    (h1 : ∀ k : Fin 128, x1 (ix2 k q) = W (ix2 k q))
    (h2 : x2 (ix2 0 q) = B (ix2 0 q)) :
    k6_pay1 x0 x1 x2 (ix2 p q) = Spec.dense Spec.leaky X W B (ix2 r q) := by
  rw [pay, h2]
  refine congrArg (fun s => Spec.leaky (s + B (ix2 0 q))) (Finset.sum_congr rfl fun k _ => ?_)
  rw [h0 k, h1 k]

/-- The two zero offsets of a whole-block access, as a constant function. -/
theorem hz : (![0, 0] : Fin 2 → Nat) = fun _ => 0 := funext fun a => by fin_cases a <;> rfl

/-- The printed index maps over the 25 grid points: the activations' and the output's blocks sit at block row t,
    block column 0; the weights and the bias row are one block each, at (0, 0). -/
theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- What point t writes back is block t of the dense layer of the tables the region finds: rows 1000 t … 1000 t + 999,
    every column. -/
theorem flushed_eq (c : Dev nD) (t : Fin cfg6.N) :
    (dat6 (F := Ideal) V c).flushed 3 t = ((cfg6.win 3).blk t).view.read (Elt Ideal)
      (Spec.dense Spec.leaky (V c main_v69) (V c main_v70) (V c main_v71)) := by
  show (cfg6.win 3).cut (grid6.coords t) ((dat6 V c).after 3 t) = _
  rw [after6_3]
  unfold out6_3
  rw [View.canon_unit_zero hz]
  simp only [View.ld_unit_zero (S := S1000x128) hz, View.ld_unit_zero (S := S128x128) hz, View.ld_unit_zero (S := S1x128) hz]
  obtain ⟨e00, e01, e10, e11, e20, e21, e30, e31⟩ := idx_facts t
  have ht : t.val < 25 := by have h := t.isLt; have hN : cfg6.N = 25 := N_6; omega
  funext j
  obtain ⟨p, q, rfl⟩ : ∃ (p : Fin 1000) (q : Fin 128), j = ix2 p q := ⟨j 0, j 1, eq_ix2 j⟩
  have hp : p.val < 1000 := p.isLt
  have hi : ((cfg6.win 3).blk t).view.emb (ix2 p q) = ix2 (⟨t.val * 1000 + p.val, by omega⟩ : Fin 25000) q := by
    funext a; apply Fin.ext
    match a with
    | ⟨0, _⟩ => show win6_3.index t (0 : Fin 2) * 1000 + 1 * p.val = t.val * 1000 + p.val; omega
    | ⟨1, _⟩ => show win6_3.index t (1 : Fin 2) * 128 + 1 * q.val = q.val; omega
  show k6_pay1 (iblk6 V c 0 t) (iblk6 V c 1 t) (iblk6 V c 2 t) (ix2 p q)
    = Spec.dense Spec.leaky (V c main_v69) (V c main_v70) (V c main_v71) (((cfg6.win 3).blk t).view.emb (ix2 p q))
  rw [hi]
  refine pay_dense _ _ _ _ _ _ p q _ (fun k => ?_) (fun k => ?_) ?_
  · show V c main_v69 (((cfg6.win 0).blk t).view.emb (ix2 p k)) = _
    refine congrArg _ (funext fun a => Fin.ext ?_)
    match a with
    | ⟨0, _⟩ => show win6_0.index t (0 : Fin 2) * 1000 + 1 * p.val = t.val * 1000 + p.val; omega
    | ⟨1, _⟩ => show win6_0.index t (1 : Fin 2) * 128 + 1 * k.val = k.val; omega
  · show V c main_v70 (((cfg6.win 1).blk t).view.emb (ix2 k q)) = _
    refine congrArg _ (funext fun a => Fin.ext ?_)
    match a with
    | ⟨0, _⟩ => show win6_1.index t (0 : Fin 2) * 128 + 1 * k.val = k.val; omega
    | ⟨1, _⟩ => show win6_1.index t (1 : Fin 2) * 128 + 1 * q.val = q.val; omega
  · show V c main_v71 (((cfg6.win 2).blk t).view.emb (ix2 0 q)) = _
    refine congrArg _ (funext fun a => Fin.ext ?_)
    match a with
    | ⟨0, _⟩ => show win6_2.index t (0 : Fin 2) * 1 + 1 * 0 = 0; omega
    | ⟨1, _⟩ => show win6_2.index t (1 : Fin 2) * 128 + 1 * q.val = q.val; omega

/-- An entry of the output table is in point t's block iff each coordinate is in the block's range on its axis. -/
theorem mem_blk (t : Fin cfg6.N) (i : S25000x128.Idx) :
    i ∈ ((cfg6.win 3).blk t).view.set ↔ ∀ a : Fin 2, win6_3.index t a * S1000x128.size a ≤ (i a).val
      ∧ (i a).val < win6_3.index t a * S1000x128.size a + S1000x128.size a := by
  show i ∈ ((View.whole main_v72).slice (win6_3.rect t)).set ↔ _
  rw [View.set_slice_whole, Rect.mem_set_unit]
  exact Iff.rfl

/-- Every entry of the output table is written back by some point: row r by point r / 1000. -/
theorem cover (i : S25000x128.Idx) :
    ∃ t : Fin cfg6.N, (cfg6.win 3).flush t = true ∧ i ∈ ((cfg6.win 3).blk t).view.set := by
  have hi0 : (i 0).val < 25000 := (i 0).isLt
  have hi1 : (i 1).val < 128 := (i 1).isLt
  have hN : cfg6.N = 25 := N_6
  have hlt : (i 0).val / 1000 < cfg6.N := by rw [hN]; omega
  obtain ⟨e00, e01, e10, e11, e20, e21, e30, e31⟩ := idx_facts ⟨(i 0).val / 1000, hlt⟩
  refine ⟨⟨(i 0).val / 1000, hlt⟩, flush6_3 _, ?_⟩
  rw [mem_blk]
  intro a
  match a with
  | ⟨0, _⟩ =>
    show win6_3.index ⟨(i 0).val / 1000, hlt⟩ (0 : Fin 2) * 1000 ≤ (i 0).val
      ∧ (i 0).val < win6_3.index ⟨(i 0).val / 1000, hlt⟩ (0 : Fin 2) * 1000 + 1000
    rw [e30]; show (i 0).val / 1000 * 1000 ≤ (i 0).val ∧ (i 0).val < (i 0).val / 1000 * 1000 + 1000; omega
  | ⟨1, _⟩ =>
    show win6_3.index ⟨(i 0).val / 1000, hlt⟩ (1 : Fin 2) * 128 ≤ (i 1).val
      ∧ (i 1).val < win6_3.index ⟨(i 0).val / 1000, hlt⟩ (1 : Fin 2) * 128 + 128
    rw [e31]; omega

/-- The output table after the region: the dense layer of the three tables the region finds, entry by entry. -/
theorem final (c : Dev nD) :
    (dat6 (F := Ideal) V c).arrAt 3 cfg6.N
      = Spec.dense Spec.leaky (V c (Pipeline.arrRef spec6 0)) (V c (Pipeline.arrRef spec6 1)) (V c (Pipeline.arrRef spec6 2)) :=
  (dat6 V c).arrAt_eq_of_cover 3 _ (fun t _ => flushed_eq V c t) cover

end Cert.KernelIdeal.Region6

end
-- ==== Proof.Region7.lean ====
/-
  The edge stage, as the table it leaves.

  There are 600000 edges. For each edge the tables give the 96 leading and the 32 trailing features of its two
  endpoints (four tables of 600000 rows), and its attribute (one column). Two weight rows of 96 entries with a bias,
  and two weight rows of 32 entries with a bias, are whole one-row tables. The grid has 50 points on one axis; point t
  reads rows 12000 t … 12000 t + 11999 of the five edge tables and the six one-row tables whole, and writes rows
  12000 t … 12000 t + 11999 of the one-column output. The output's entry for edge e depends on row e of the five edge
  tables only:

      out(e) = max (Σ_k xl96(e, k) · wl96(k) + Σ_k xr96(e, k) · wr96(k) + b96) 0 · attr(e)
             + max (Σ_k xl32(e, k) · wl32(k) + Σ_k xr32(e, k) · wr32(k) + b32) 0.

  On the extended reals a change of number format is the identity, a sum along a row kept as a column is the sum over
  the row's positions, and a one-row table repeated down the rows reads its own entry; so one entry of a stored block is
  exactly that expression of the loaded blocks. A loaded block's row p is the table's row 12000 t + p, and the 50 row
  blocks cover every edge, so the output table is this function of the eleven tables at every index. Nothing is assumed
  finite.
-/
import proofs.«130552_j4191888081216_2_alg».proof.Proof.Gen.KernelIdeal.Frame
import proofs.«130552_j4191888081216_2_alg».proof.Proof.Spec
import proofs.«130552_j4191888081216_2_alg».proof.Proof.LibDot
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Region7

open Idealize.ShloMosaic Idealize.ShloMosaic.ValueIdx Cert.KernelIdeal Cert.KernelIdeal.Gen
open Idealize.ShloMosaic.TcCoe
open Cert.Sage

variable (V : (c : Dev nD) → (b : Ref sig .tc) → Buf (Elt Ideal) ((c : Thread nD τ).loc b))

/-- A product with a repeated row, summed along each row and kept as a column: entry (p, 0) is the sum over the n
    positions of row p of a against the row w. -/
theorem lane_dot {n : Nat} (a : FVec Ideal ⟨2, ![12000, n]⟩ .f32) (w : FVec Ideal ⟨2, ![1, n]⟩ .f32)
    (hb : (⟨2, ![1, n]⟩ : Shape).Broadcasts ⟨2, ![12000, n]⟩)
    (h : (⟨2, ![12000, n]⟩ : Shape).Reduces [1] S12000) (hφ : FKind.Formats .f32)
    (hacc : (0x00000000#32 : BitVec 32) = FKind.add.neutral .f32 hφ) (hc : S12000.ShapeCasts S12000x1)
    (p : Fin 12000) :
    shapeCast S12000x1 (multiReduction (F := Ideal) .add [1] S12000 (mulf a (broadcastTo ⟨2, ![12000, n]⟩ w hb))
        0x00000000#32 h hφ hacc) hc (ix2 p 0)
      = ∑ k : Fin n, a (ix2 p k) * w (ix2 0 k) := by
  refine (shapeCast_apply _ hc (ix2 p 0) (ix1 p) ?_).trans ?_
  · rw [Shape.rowMajor_val_two, Shape.rowMajor_val_one]
    show p.val = p.val * 1 + 0
    omega
  refine (Ideal.multiReduction_add_single _ _ h hφ hacc (ix1 p)).trans ?_
  show ∑ k : Fin n, (mulf a (broadcastTo ⟨2, ![12000, n]⟩ w hb)) (h.lift (ix1 p) k) = _
  refine Finset.sum_congr rfl fun k _ => ?_
  have e : h.lift (ix1 p) k = ix2 p k := funext fun x => Fin.ext (by
    match x with
    | ⟨0, _⟩ => rfl
    | ⟨1, _⟩ => rfl)
  rw [e]
  show a (ix2 p k) * broadcastTo ⟨2, ![12000, n]⟩ w hb (ix2 p k) = _
  rw [broadcastTo_apply w hb (ix2 p k) (ix2 (0 : Fin 1) k) (by
    intro x
    match x with
    | ⟨0, _⟩ => rfl
    | ⟨1, _⟩ =>
      show k.val = if n = 1 then 0 else k.val
      split
      · have := k.isLt; omega
      · rfl)]

/-- A one-entry table repeated down a column: every entry is that entry. -/
theorem one_apply (b : FVec Ideal S1x1 .f32) (p : Fin 12000) :
    broadcastTo S12000x1 b broadcasts_S1x1_S12000x1 (ix2 p 0) = b (ix2 0 0) :=
  broadcastTo_apply b broadcasts_S1x1_S12000x1 (ix2 p 0) (ix2 (0 : Fin 1) (0 : Fin 1)) (by
    intro x
    match x with
    | ⟨0, _⟩ => rfl
    | ⟨1, _⟩ => rfl)

/-- The second endpoint's 32 features, widened: the same table. -/
theorem pay2_eq (x : Vec Ideal S12000x32 .bf16) : k7_pay2 x = x := by
  unfold k7_pay2
  show extf (F := Ideal) .f32 (shapeCast S12000x32 x shapeCasts_S12000x32_S12000x32) bitsLt_bf16_f32 = x
  rw [shapeCast_self]
  rfl

/-- The first endpoint's half of the 32-feature sum: row p against the weight row. -/
theorem pay4_apply (x2 : Vec Ideal S12000x32 .bf16) (x8 : Vec Ideal S1x32 .f32) (p : Fin 12000) :
    k7_pay4 x2 x8 (ix2 p 0) = ∑ k : Fin 32, x2 (ix2 p k) * x8 (ix2 0 k) := by
  unfold k7_pay4
  show shapeCast S12000x1 (multiReduction (F := Ideal) .add [1] S12000
      (mulf (extf (F := Ideal) .f32 (shapeCast S12000x32 x2 shapeCasts_S12000x32_S12000x32) bitsLt_bf16_f32)
        (broadcastTo S12000x32 (shapeCast S1x32 x8 shapeCasts_S1x32_S1x32) broadcasts_S1x32_S12000x32))
      0x00000000#32 reduces_S12000x32_S12000 (.inl rfl) rfl) shapeCasts_S12000_S12000x1 (ix2 p 0) = _
  rw [shapeCast_self, shapeCast_self]
  exact lane_dot (n := 32) _ x8 _ _ _ _ _ p

/-- The 96-feature half: both endpoints' rows against their weight rows, the bias, the maximum with zero. -/
theorem pay3_apply (x0 x1 : Vec Ideal S12000x96 .bf16) (x5 x6 : Vec Ideal S1x96 .f32) (x7 : Vec Ideal S1x1 .f32)
    (p : Fin 12000) :
    k7_pay3 x0 x1 x5 x6 x7 (ix2 p 0)
      = Spec.relu (((∑ k : Fin 96, x0 (ix2 p k) * x5 (ix2 0 k)) + ∑ k : Fin 96, x1 (ix2 p k) * x6 (ix2 0 k))
          + x7 (ix2 0 0)) := by
  unfold k7_pay3
  show max ((shapeCast S12000x1 (multiReduction (F := Ideal) .add [1] S12000
          (mulf (extf (F := Ideal) .f32 (shapeCast S12000x96 x0 shapeCasts_S12000x96_S12000x96) bitsLt_bf16_f32)
            (broadcastTo S12000x96 (shapeCast S1x96 x5 shapeCasts_S1x96_S1x96) broadcasts_S1x96_S12000x96))
          0x00000000#32 reduces_S12000x96_S12000 (.inl rfl) rfl) shapeCasts_S12000_S12000x1 (ix2 p 0)
        + shapeCast S12000x1 (multiReduction (F := Ideal) .add [1] S12000
          (mulf (extf (F := Ideal) .f32 (shapeCast S12000x96 x1 shapeCasts_S12000x96_S12000x96) bitsLt_bf16_f32)
            (broadcastTo S12000x96 (shapeCast S1x96 x6 shapeCasts_S1x96_S1x96) broadcasts_S1x96_S12000x96))
          0x00000000#32 reduces_S12000x96_S12000 (.inl rfl) rfl) shapeCasts_S12000_S12000x1 (ix2 p 0))
      + broadcastTo S12000x1 (shapeCast S1x1 x7 shapeCasts_S1x1_S1x1) broadcasts_S1x1_S12000x1 (ix2 p 0))
      (Ideal.ofBits .f32 0x00000000#32) = _
  rw [shapeCast_self, shapeCast_self, shapeCast_self, shapeCast_self, shapeCast_self]
  exact congrArg₂ (fun s b => max (s + b) (Ideal.ofBits .f32 0x00000000#32))
    (congrArg₂ (fun s s' : EReal => s + s') (lane_dot (n := 96) _ x5 _ _ _ _ _ p) (lane_dot (n := 96) _ x6 _ _ _ _ _ p))
    (one_apply x7 p)

/-- The stored entry from the three partial results: the 96-feature half times the edge's attribute, plus the
    32-feature half (the first endpoint's sum, the second endpoint's sum, the bias, the maximum with zero). -/
theorem pay1_apply (v11 : FVec Ideal S12000x32 .f32) (v30 v36 : FVec Ideal S12000x1 .f32) (v37 : Vec Ideal S1x32 .f32)
    (v44 : Vec Ideal S1x1 .f32) (v50 : Vec Ideal S12000x1 .f32) (p : Fin 12000) :
    k7_pay1 v11 v30 v36 v37 v44 v50 (ix2 p 0)
      = v30 (ix2 p 0) * v50 (ix2 p 0)
        + Spec.relu ((v36 (ix2 p 0) + ∑ k : Fin 32, v11 (ix2 p k) * v37 (ix2 0 k)) + v44 (ix2 0 0)) := by
  unfold k7_pay1
  show v30 (ix2 p 0) * v50 (ix2 p 0)
      + max ((v36 (ix2 p 0) + shapeCast S12000x1 (multiReduction (F := Ideal) .add [1] S12000
            (mulf v11 (broadcastTo S12000x32 (shapeCast S1x32 v37 shapeCasts_S1x32_S1x32) broadcasts_S1x32_S12000x32))
            0x00000000#32 reduces_S12000x32_S12000 (.inl rfl) rfl) shapeCasts_S12000_S12000x1 (ix2 p 0))
          + broadcastTo S12000x1 (shapeCast S1x1 v44 shapeCasts_S1x1_S1x1) broadcasts_S1x1_S12000x1 (ix2 p 0))
        (Ideal.ofBits .f32 0x00000000#32) = _
  rw [shapeCast_self, shapeCast_self]
  exact congrArg₂ (fun s b => v30 (ix2 p 0) * v50 (ix2 p 0)
      + max ((v36 (ix2 p 0) + s) + b) (Ideal.ofBits .f32 0x00000000#32))
    (lane_dot (n := 32) v11 v37 _ _ _ _ _ p) (one_apply v44 p)

/-- One entry of the block the body stores, from the loaded blocks: for the edge in row p, the maximum with zero of
    (first endpoint's 96 features · weights + second endpoint's 96 features · weights + bias), times the edge's
    attribute, plus the same expression over the 32 remaining features with their own weights and bias. -/
theorem pay (x0 x1 : Vec Ideal S12000x96 .bf16) (x2 x3 : Vec Ideal S12000x32 .bf16) (x4 : Vec Ideal S12000x1 .f32)
    (x5 x6 : Vec Ideal S1x96 .f32) (x7 : Vec Ideal S1x1 .f32) (x8 x9 : Vec Ideal S1x32 .f32) (x10 : Vec Ideal S1x1 .f32)
    (p : Fin 12000) :
    k7_pay1 (k7_pay2 x3) (k7_pay3 x0 x1 x5 x6 x7) (k7_pay4 x2 x8) x9 x10 x4 (ix2 p 0)
      = Spec.relu (((∑ k : Fin 96, x0 (ix2 p k) * x5 (ix2 0 k)) + ∑ k : Fin 96, x1 (ix2 p k) * x6 (ix2 0 k))
            + x7 (ix2 0 0)) * x4 (ix2 p 0)
        + Spec.relu (((∑ k : Fin 32, x2 (ix2 p k) * x8 (ix2 0 k)) + ∑ k : Fin 32, x3 (ix2 p k) * x9 (ix2 0 k))
            + x10 (ix2 0 0)) := by
  rw [pay1_apply, pay3_apply, pay4_apply, pay2_eq]

/-- The same entry against whole tables: when row p of each loaded edge block is row r of its table and the loaded
    one-row tables are the tables themselves, the entry is the edge stage's entry for edge r. -/
theorem pay_edge (x0 x1 : Vec Ideal S12000x96 .bf16) (x2 x3 : Vec Ideal S12000x32 .bf16) (x4 : Vec Ideal S12000x1 .f32)
    (x5 x6 : Vec Ideal S1x96 .f32) (x7 : Vec Ideal S1x1 .f32) (x8 x9 : Vec Ideal S1x32 .f32) (x10 : Vec Ideal S1x1 .f32)
    (XL96 XR96 : Spec.Tab 600000 96) (XL32 XR32 : Spec.Tab 600000 32) (EA : Spec.Tab 600000 1)
    (W96L W96R : Spec.Tab 1 96) (B96 : Spec.Tab 1 1) (W32L W32R : Spec.Tab 1 32) (B32 : Spec.Tab 1 1)
    (p : Fin 12000) (r : Fin 600000)
    (h0 : ∀ k : Fin 96, x0 (ix2 p k) = XL96 (ix2 r k)) (h1 : ∀ k : Fin 96, x1 (ix2 p k) = XR96 (ix2 r k))
    (h2 : ∀ k : Fin 32, x2 (ix2 p k) = XL32 (ix2 r k)) (h3 : ∀ k : Fin 32, x3 (ix2 p k) = XR32 (ix2 r k))
    (h4 : x4 (ix2 p 0) = EA (ix2 r 0))
    (h5 : ∀ k : Fin 96, x5 (ix2 0 k) = W96L (ix2 0 k)) (h6 : ∀ k : Fin 96, x6 (ix2 0 k) = W96R (ix2 0 k))
    (h7 : x7 (ix2 0 0) = B96 (ix2 0 0))
    (h8 : ∀ k : Fin 32, x8 (ix2 0 k) = W32L (ix2 0 k)) (h9 : ∀ k : Fin 32, x9 (ix2 0 k) = W32R (ix2 0 k))
    (h10 : x10 (ix2 0 0) = B32 (ix2 0 0)) :
    k7_pay1 (k7_pay2 x3) (k7_pay3 x0 x1 x5 x6 x7) (k7_pay4 x2 x8) x9 x10 x4 (ix2 p 0)
      = Spec.edge XL96 XR96 XL32 XR32 EA W96L W96R B96 W32L W32R B32 (ix2 r 0) := by
  have s0 : ∑ k : Fin 96, x0 (ix2 p k) * x5 (ix2 0 k) = ∑ k : Fin 96, XL96 (ix2 r k) * W96L (ix2 0 k) :=
    Finset.sum_congr rfl fun k _ => by rw [h0 k, h5 k]
  have s1 : ∑ k : Fin 96, x1 (ix2 p k) * x6 (ix2 0 k) = ∑ k : Fin 96, XR96 (ix2 r k) * W96R (ix2 0 k) :=
    Finset.sum_congr rfl fun k _ => by rw [h1 k, h6 k]
  have s2 : ∑ k : Fin 32, x2 (ix2 p k) * x8 (ix2 0 k) = ∑ k : Fin 32, XL32 (ix2 r k) * W32L (ix2 0 k) :=
    Finset.sum_congr rfl fun k _ => by rw [h2 k, h8 k]
  have s3 : ∑ k : Fin 32, x3 (ix2 p k) * x9 (ix2 0 k) = ∑ k : Fin 32, XR32 (ix2 r k) * W32R (ix2 0 k) :=
    Finset.sum_congr rfl fun k _ => by rw [h3 k, h9 k]
  rw [pay, s0, s1, s2, s3, h4, h7, h10]
  rfl

/-- The two zero offsets of a whole-block access, as a constant function. -/
theorem hz : (![0, 0] : Fin 2 → Nat) = fun _ => 0 := funext fun a => by fin_cases a <;> rfl

/-- The printed index maps over the 50 grid points: the five edge tables' and the output's blocks sit at block row t,
    block column 0; the six one-row tables are one block each, at (0, 0). -/
theorem idx_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0
    ∧ win7_4.index t (0 : Fin 2) = t.val ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = 0 ∧ win7_7.index t (1 : Fin 2) = 0
    ∧ win7_8.index t (0 : Fin 2) = 0 ∧ win7_8.index t (1 : Fin 2) = 0
    ∧ win7_9.index t (0 : Fin 2) = 0 ∧ win7_9.index t (1 : Fin 2) = 0
    ∧ win7_10.index t (0 : Fin 2) = 0 ∧ win7_10.index t (1 : Fin 2) = 0
    ∧ win7_11.index t (0 : Fin 2) = t.val ∧ win7_11.index t (1 : Fin 2) = 0 :=
  (by decide +kernel : ∀ t : Fin grid7.N, _)

/-- What point t writes back is block t of the edge stage of the tables the region finds: edges
    12000 t … 12000 t + 11999. -/
theorem flushed_eq (c : Dev nD) (t : Fin cfg7.N) :
    (dat7 (F := Ideal) V c).flushed 11 t = ((cfg7.win 11).blk t).view.read (Elt Ideal)
      (Spec.edge (V c main_v82) (V c main_v89) (V c main_v96) (V c main_v103) (V c main_arg2) (V c main_v104)
        (V c main_v105) (V c main_v108) (V c main_v106) (V c main_v107) (V c main_v109)) := by
  show (cfg7.win 11).cut (grid7.coords t) ((dat7 V c).after 11 t) = _
  rw [after7_11]
  unfold out7_11
  rw [View.canon_unit_zero hz]
  simp only [View.ld_unit_zero (S := S12000x96) hz, View.ld_unit_zero (S := S12000x32) hz,
    View.ld_unit_zero (S := S12000x1) hz, View.ld_unit_zero (S := S1x96) hz, View.ld_unit_zero (S := S1x32) hz,
    View.ld_unit_zero (S := S1x1) hz]
  obtain ⟨e00, e01, e10, e11, e20, e21, e30, e31, e40, e41, e50, e51, e60, e61, e70, e71, e80, e81, e90, e91,
    ea0, ea1, eb0, eb1⟩ := idx_facts t
  have ht : t.val < 50 := by have h := t.isLt; have hN : cfg7.N = 50 := N_7; omega
  funext j
  obtain ⟨p, q, rfl⟩ : ∃ (p : Fin 12000) (q : Fin 1), j = ix2 p q := ⟨j 0, j 1, eq_ix2 j⟩
  obtain rfl : q = 0 := Subsingleton.elim _ _
  have hp : p.val < 12000 := p.isLt
  have hi : ((cfg7.win 11).blk t).view.emb (ix2 p 0) = ix2 (⟨t.val * 12000 + p.val, by omega⟩ : Fin 600000) 0 := by
    funext a; apply Fin.ext
    match a with
    | ⟨0, _⟩ => show win7_11.index t (0 : Fin 2) * 12000 + 1 * p.val = t.val * 12000 + p.val; omega
    | ⟨1, _⟩ => show win7_11.index t (1 : Fin 2) * 1 + 1 * 0 = 0; omega
  show k7_pay1 (k7_pay2 (iblk7 V c 3 t)) (k7_pay3 (iblk7 V c 0 t) (iblk7 V c 1 t) (iblk7 V c 5 t) (iblk7 V c 6 t)
        (iblk7 V c 7 t)) (k7_pay4 (iblk7 V c 2 t) (iblk7 V c 8 t)) (iblk7 V c 9 t) (iblk7 V c 10 t) (iblk7 V c 4 t) (ix2 p 0)
    = Spec.edge (V c main_v82) (V c main_v89) (V c main_v96) (V c main_v103) (V c main_arg2) (V c main_v104)
        (V c main_v105) (V c main_v108) (V c main_v106) (V c main_v107) (V c main_v109)
        (((cfg7.win 11).blk t).view.emb (ix2 p 0))
  rw [hi]
  refine pay_edge _ _ _ _ _ _ _ _ _ _ _ _ _ _ _ _ _ _ _ _ _ _ p _ (fun k => ?_) (fun k => ?_) (fun k => ?_)
    (fun k => ?_) ?_ (fun k => ?_) (fun k => ?_) ?_ (fun k => ?_) (fun k => ?_) ?_
  · show V c main_v82 (((cfg7.win 0).blk t).view.emb (ix2 p k)) = _
    refine congrArg _ (funext fun a => Fin.ext ?_)
    match a with
    | ⟨0, _⟩ => show win7_0.index t (0 : Fin 2) * 12000 + 1 * p.val = t.val * 12000 + p.val; omega
    | ⟨1, _⟩ => show win7_0.index t (1 : Fin 2) * 96 + 1 * k.val = k.val; omega
  · show V c main_v89 (((cfg7.win 1).blk t).view.emb (ix2 p k)) = _
    refine congrArg _ (funext fun a => Fin.ext ?_)
    match a with
    | ⟨0, _⟩ => show win7_1.index t (0 : Fin 2) * 12000 + 1 * p.val = t.val * 12000 + p.val; omega
    | ⟨1, _⟩ => show win7_1.index t (1 : Fin 2) * 96 + 1 * k.val = k.val; omega
  · show V c main_v96 (((cfg7.win 2).blk t).view.emb (ix2 p k)) = _
    refine congrArg _ (funext fun a => Fin.ext ?_)
    match a with
    | ⟨0, _⟩ => show win7_2.index t (0 : Fin 2) * 12000 + 1 * p.val = t.val * 12000 + p.val; omega
    | ⟨1, _⟩ => show win7_2.index t (1 : Fin 2) * 32 + 1 * k.val = k.val; omega
  · show V c main_v103 (((cfg7.win 3).blk t).view.emb (ix2 p k)) = _
    refine congrArg _ (funext fun a => Fin.ext ?_)
    match a with
    | ⟨0, _⟩ => show win7_3.index t (0 : Fin 2) * 12000 + 1 * p.val = t.val * 12000 + p.val; omega
    | ⟨1, _⟩ => show win7_3.index t (1 : Fin 2) * 32 + 1 * k.val = k.val; omega
  · show V c main_arg2 (((cfg7.win 4).blk t).view.emb (ix2 p 0)) = _
    refine congrArg _ (funext fun a => Fin.ext ?_)
    match a with
    | ⟨0, _⟩ => show win7_4.index t (0 : Fin 2) * 12000 + 1 * p.val = t.val * 12000 + p.val; omega
    | ⟨1, _⟩ => show win7_4.index t (1 : Fin 2) * 1 + 1 * 0 = 0; omega
  · show V c main_v104 (((cfg7.win 5).blk t).view.emb (ix2 0 k)) = _
    refine congrArg _ (funext fun a => Fin.ext ?_)
    match a with
    | ⟨0, _⟩ => show win7_5.index t (0 : Fin 2) * 1 + 1 * 0 = 0; omega
    | ⟨1, _⟩ => show win7_5.index t (1 : Fin 2) * 96 + 1 * k.val = k.val; omega
  · show V c main_v105 (((cfg7.win 6).blk t).view.emb (ix2 0 k)) = _
    refine congrArg _ (funext fun a => Fin.ext ?_)
    match a with
    | ⟨0, _⟩ => show win7_6.index t (0 : Fin 2) * 1 + 1 * 0 = 0; omega
    | ⟨1, _⟩ => show win7_6.index t (1 : Fin 2) * 96 + 1 * k.val = k.val; omega
  · show V c main_v108 (((cfg7.win 7).blk t).view.emb (ix2 0 0)) = _
    refine congrArg _ (funext fun a => Fin.ext ?_)
    match a with
    | ⟨0, _⟩ => show win7_7.index t (0 : Fin 2) * 1 + 1 * 0 = 0; omega
    | ⟨1, _⟩ => show win7_7.index t (1 : Fin 2) * 1 + 1 * 0 = 0; omega
  · show V c main_v106 (((cfg7.win 8).blk t).view.emb (ix2 0 k)) = _
    refine congrArg _ (funext fun a => Fin.ext ?_)
    match a with
    | ⟨0, _⟩ => show win7_8.index t (0 : Fin 2) * 1 + 1 * 0 = 0; omega
    | ⟨1, _⟩ => show win7_8.index t (1 : Fin 2) * 32 + 1 * k.val = k.val; omega
  · show V c main_v107 (((cfg7.win 9).blk t).view.emb (ix2 0 k)) = _
    refine congrArg _ (funext fun a => Fin.ext ?_)
    match a with
    | ⟨0, _⟩ => show win7_9.index t (0 : Fin 2) * 1 + 1 * 0 = 0; omega
    | ⟨1, _⟩ => show win7_9.index t (1 : Fin 2) * 32 + 1 * k.val = k.val; omega
  · show V c main_v109 (((cfg7.win 10).blk t).view.emb (ix2 0 0)) = _
    refine congrArg _ (funext fun a => Fin.ext ?_)
    match a with
    | ⟨0, _⟩ => show win7_10.index t (0 : Fin 2) * 1 + 1 * 0 = 0; omega
    | ⟨1, _⟩ => show win7_10.index t (1 : Fin 2) * 1 + 1 * 0 = 0; omega

/-- An entry of the output table is in point t's block iff each coordinate is in the block's range on its axis. -/
theorem mem_blk (t : Fin cfg7.N) (i : S600000x1.Idx) :
    i ∈ ((cfg7.win 11).blk t).view.set ↔ ∀ a : Fin 2, win7_11.index t a * S12000x1.size a ≤ (i a).val
      ∧ (i a).val < win7_11.index t a * S12000x1.size a + S12000x1.size a := by
  show i ∈ ((View.whole main_v110).slice (win7_11.rect t)).set ↔ _
  rw [View.set_slice_whole, Rect.mem_set_unit]
  exact Iff.rfl

/-- Every entry of the output table is written back by some point: edge e by point e / 12000. -/
theorem cover (i : S600000x1.Idx) :
    ∃ t : Fin cfg7.N, (cfg7.win 11).flush t = true ∧ i ∈ ((cfg7.win 11).blk t).view.set := by
  have hi0 : (i 0).val < 600000 := (i 0).isLt
  have hi1 : (i 1).val < 1 := (i 1).isLt
  have hN : cfg7.N = 50 := N_7
  have hlt : (i 0).val / 12000 < cfg7.N := by rw [hN]; omega
  obtain ⟨e00, e01, e10, e11, e20, e21, e30, e31, e40, e41, e50, e51, e60, e61, e70, e71, e80, e81, e90, e91,
    ea0, ea1, eb0, eb1⟩ := idx_facts ⟨(i 0).val / 12000, hlt⟩
  refine ⟨⟨(i 0).val / 12000, hlt⟩, flush7_11 _, ?_⟩
  rw [mem_blk]
  intro a
  match a with
  | ⟨0, _⟩ =>
    show win7_11.index ⟨(i 0).val / 12000, hlt⟩ (0 : Fin 2) * 12000 ≤ (i 0).val
      ∧ (i 0).val < win7_11.index ⟨(i 0).val / 12000, hlt⟩ (0 : Fin 2) * 12000 + 12000
    rw [eb0]; show (i 0).val / 12000 * 12000 ≤ (i 0).val ∧ (i 0).val < (i 0).val / 12000 * 12000 + 12000; omega
  | ⟨1, _⟩ =>
    show win7_11.index ⟨(i 0).val / 12000, hlt⟩ (1 : Fin 2) * 1 ≤ (i 1).val
      ∧ (i 1).val < win7_11.index ⟨(i 0).val / 12000, hlt⟩ (1 : Fin 2) * 1 + 1
    rw [eb1]; omega

/-- The output table after the region: the edge stage of the eleven tables the region finds, entry by entry. -/
theorem final (c : Dev nD) :
    (dat7 (F := Ideal) V c).arrAt 11 cfg7.N
      = Spec.edge (V c (Pipeline.arrRef spec7 0)) (V c (Pipeline.arrRef spec7 1)) (V c (Pipeline.arrRef spec7 2))
          (V c (Pipeline.arrRef spec7 3)) (V c (Pipeline.arrRef spec7 4)) (V c (Pipeline.arrRef spec7 5))
          (V c (Pipeline.arrRef spec7 6)) (V c (Pipeline.arrRef spec7 7)) (V c (Pipeline.arrRef spec7 8))
          (V c (Pipeline.arrRef spec7 9)) (V c (Pipeline.arrRef spec7 10)) :=
  (dat7 V c).arrAt_eq_of_cover 11 _ (fun t _ => flushed_eq V c t) cover

end Cert.KernelIdeal.Region7

end
-- ==== Proof.KNet.lean ====
/-
  The host side of the kernel program, as named functions of tables.

  From the [2, 600000] table of edge endpoints: the source and the target index vectors (its two rows); the row a
  possibly negative node index names (25000 is added to a negative index) laid out as a one-column gather index; the
  neighbourhood sum of a node table h (row h(source e) of every edge e added into row target e of a zero table); the
  reciprocal of max(deg, 1), where deg counts the edges arriving at each node; and the neighbourhood mean, the sum times
  that reciprocal. For the edge stage: the node table's first 96 and last 32 columns, gathered at one endpoint of every
  edge; the two halves of each weight row; and the closing average of every 48 consecutive edge values. The gather, the
  scatter-add and the index arithmetic are kept as the operations they are: both programs apply the same ones.
-/
import proofs.«130552_j4191888081216_2_alg».proof.Proof.Gen.KernelIdeal
import Idealize.ShloMosaic.PureOps.Ideal

noncomputable section

namespace Cert.KernelIdeal.Net

open Idealize.ShloMosaic Cert.KernelIdeal Cert.KernelIdeal.Facts₀ Cert.KernelIdeal.Facts

/-- Row 0 of the endpoint table: the source node of every edge. -/
def src (a1 : IVec S2x600000 32) : IVec S600000 32 :=
  shapeCast S600000 (extractStridedSlice S1x600000 ![0, 0] a1 slices_S2x600000_S1x600000_0_0) shapeCasts_S1x600000_S600000

/-- Row 1 of the endpoint table: the target node of every edge. -/
def dst (a1 : IVec S2x600000 32) : IVec S600000 32 :=
  shapeCast S600000 (extractStridedSlice S1x600000 ![1, 0] a1 slices_S2x600000_S1x600000_1_0) shapeCasts_S1x600000_S600000

/-- The gather index of an index vector: 25000 added where the index is negative, laid out as one column. -/
def gidx (s : IVec S600000 32) : IVec S600000x1 32 :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 25000#32))) s)

/-- The scatter index of the target vector: one column. -/
def sidx (d : IVec S600000 32) : IVec S600000x1 32 := broadcastInDim S600000x1 ![0] bcast_S600000_S600000x1_0 d

/-- The reciprocal of max(deg, 1), one column. -/
def dinv (d : IVec S600000 32) : FVec Ideal S25000x1 .f32 :=
  shapeCast S25000x1
    (Host.divf (broadcastInDim S25000 ![] bcast_S_S25000 (constant (F := Ideal) S_ .f32 0x3F800000#32))
      (maximumf
        (Host.scatterAdd scatter_S25000_S600000x1_S600000_n_0_0_1
          (broadcastInDim S25000 ![] bcast_S_S25000 (constant (F := Ideal) S_ .f32 0x00000000#32)) (sidx d)
          (broadcastInDim S600000 ![] bcast_S_S600000 (constant (F := Ideal) S_ .f32 0x3F800000#32)))
        (broadcastInDim S25000 ![] bcast_S_S25000 (constant (F := Ideal) S_ .f32 0x3F800000#32))))
    shapeCasts_S25000_S25000x1

/-- The neighbourhood sum of a 256-column node table. -/
def nbr (h : FVec Ideal S25000x256 .f32) (s d : IVec S600000 32) : FVec Ideal S25000x256 .f32 :=
  Host.scatterAdd scatter_S25000x256_S600000x1_S600000x256_1_0_0_1
    (broadcastInDim S25000x256 ![] bcast_S_S25000x256 (constant (F := Ideal) S_ .f32 0x00000000#32)) (sidx d)
    (Host.gather gather_S25000x256_S600000x1_S600000x256_1_0_n_n_0_1_1256 h (gidx s))

/-- The neighbourhood mean: the sum times the reciprocal of max(deg, 1). -/
def mean (h : FVec Ideal S25000x256 .f32) (s d : IVec S600000 32) (dv : FVec Ideal S25000x1 .f32) :
    FVec Ideal S25000x256 .f32 :=
  mulf (nbr h s d) (broadcastInDim S25000x256 ![0, 1] bcast_S25000x1_S25000x256_0_1 dv)

/-- The first 96 columns of the node table, gathered at the endpoint s of every edge. -/
def take96 (h : FVec Ideal S25000x128 .f32) (s : IVec S600000 32) : FVec Ideal S600000x96 .bf16 :=
  Host.gather gather_S25000x96_S600000x1_S600000x96_1_0_n_n_0_1_196
    (extractStridedSlice S25000x96 ![0, 0] (truncf .bf16 h bitsLt_bf16_f32) slices_S25000x128_S25000x96_0_0) (gidx s)

/-- The last 32 columns of the node table, gathered at the endpoint s of every edge. -/
def take32 (h : FVec Ideal S25000x128 .f32) (s : IVec S600000 32) : FVec Ideal S600000x32 .bf16 :=
  Host.gather gather_S25000x32_S600000x1_S600000x32_1_0_n_n_0_1_132
    (extractStridedSlice S25000x32 ![0, 96] (truncf .bf16 h bitsLt_bf16_f32) slices_S25000x128_S25000x32_0_96) (gidx s)

/-- The closing average: every 48 consecutive edge values summed and divided by 48. -/
def tail (e : FVec Ideal S600000x1 .f32) : FVec Ideal S12500x1 .f32 :=
  shapeCast S12500x1
    (Host.divf
      (Host.reduceAdd (shapeCast S12500x48 e shapeCasts_S600000x1_S12500x48) (constant (F := Ideal) S_ .f32 0x00000000#32)
        reducesTo_S12500x48_S12500_d1 h_S_)
      (broadcastInDim S12500 ![] bcast_S_S12500 (constant (F := Ideal) S_ .f32 0x42400000#32)))
    shapeCasts_S12500_S12500x1

end Cert.KernelIdeal.Net

end
-- ==== Proof.KStages.lean ====
/-
  The kernel program's result as named stages of its argument arrays.

  The node table goes through seven layers: a dense layer with the maximum with zero; then three times a
  neighbourhood layer (the neighbours' mean and the node itself, each through its own weights, plus a bias, maximum with
  zero) followed by a dense layer with the leaky activation. The last table's first 96 and last 32 columns are gathered
  at both endpoints of every edge, the edge stage turns them into one value per edge, and every 48 consecutive values
  are averaged. Each stage is a definition over the previous one, so no table is written out twice.
-/
import proofs.«130552_j4191888081216_2_alg».proof.Proof.KNet
import proofs.«130552_j4191888081216_2_alg».proof.Proof.Spec

noncomputable section

namespace Cert.KernelIdeal.Stages

open Idealize.ShloMosaic Cert.KernelIdeal Cert.KernelIdeal.Facts₀ Cert.KernelIdeal.Facts Cert.Sage

/-- The argument arrays the result depends on (the batch vector is not read). -/
structure Args where
  a0 : FVec Ideal S25000x128 .f32
  a1 : IVec S2x600000 32
  a2 : FVec Ideal S600000x1 .f32
  a4 : FVec Ideal S256x128 .f32
  a5 : FVec Ideal S256 .f32
  a6 : FVec Ideal S256x256 .f32
  a7 : FVec Ideal S256 .f32
  a8 : FVec Ideal S256x256 .f32
  a9 : FVec Ideal S256x256 .f32
  a10 : FVec Ideal S256 .f32
  a11 : FVec Ideal S256x256 .f32
  a12 : FVec Ideal S128x256 .f32
  a13 : FVec Ideal S128 .f32
  a14 : FVec Ideal S128x256 .f32
  a15 : FVec Ideal S256x256 .f32
  a16 : FVec Ideal S256 .f32
  a17 : FVec Ideal S256x256 .f32
  a18 : FVec Ideal S256 .f32
  a19 : FVec Ideal S128x128 .f32
  a20 : FVec Ideal S128 .f32
  a21 : FVec Ideal S1x192 .f32
  a22 : FVec Ideal S1 .f32
  a23 : FVec Ideal S1x64 .f32
  a24 : FVec Ideal S1 .f32

/-- A 256 × 256 weight table with the contracted axis first. -/
abbrev T256 (w : FVec Ideal S256x256 .f32) : FVec Ideal S256x256 .f32 := transpose S256x256 [1, 0] w transposes_S256x256_S256x256_1_0
/-- A bias vector of 256 entries as a one-row table. -/
abbrev row256 (b : FVec Ideal S256 .f32) : FVec Ideal S1x256 .f32 := shapeCast S1x256 b shapeCasts_S256_S1x256
/-- A bias vector of 128 entries as a one-row table. -/
abbrev row128 (b : FVec Ideal S128 .f32) : FVec Ideal S1x128 .f32 := shapeCast S1x128 b shapeCasts_S128_S1x128

variable (a : Args)

def src : IVec S600000 32 := Net.src a.a1
def dst : IVec S600000 32 := Net.dst a.a1
def dinv : FVec Ideal S25000x1 .f32 := Net.dinv (dst a)

def h0 : FVec Ideal S25000x256 .f32 :=
  Spec.dense Spec.relu a.a0 (transpose S128x256 [1, 0] a.a4 transposes_S256x128_S128x256_1_0) (row256 a.a5)
def h1 : FVec Ideal S25000x256 .f32 :=
  Spec.sage Spec.relu (Net.mean (h0 a) (src a) (dst a) (dinv a)) (h0 a) (T256 a.a6) (row256 a.a7) (T256 a.a8)
def h2 : FVec Ideal S25000x256 .f32 := Spec.dense Spec.leaky (h1 a) (T256 a.a15) (row256 a.a16)
def h3 : FVec Ideal S25000x256 .f32 :=
  Spec.sage Spec.relu (Net.mean (h2 a) (src a) (dst a) (dinv a)) (h2 a) (T256 a.a9) (row256 a.a10) (T256 a.a11)
def h4 : FVec Ideal S25000x256 .f32 := Spec.dense Spec.leaky (h3 a) (T256 a.a17) (row256 a.a18)
def h5 : FVec Ideal S25000x128 .f32 :=
  Spec.sage Spec.relu (Net.mean (h4 a) (src a) (dst a) (dinv a)) (h4 a)
    (transpose S256x128 [1, 0] a.a12 transposes_S128x256_S256x128_1_0) (row128 a.a13)
    (transpose S256x128 [1, 0] a.a14 transposes_S128x256_S256x128_1_0)
def h6 : FVec Ideal S25000x128 .f32 :=
  Spec.dense Spec.leaky (h5 a) (transpose S128x128 [1, 0] a.a19 transposes_S128x128_S128x128_1_0) (row128 a.a20)

/-- One value per edge. -/
def edge : FVec Ideal S600000x1 .f32 :=
  Spec.edge (Net.take96 (h6 a) (src a)) (Net.take96 (h6 a) (dst a)) (Net.take32 (h6 a) (src a)) (Net.take32 (h6 a) (dst a)) a.a2
    (extractStridedSlice S1x96 ![0, 0] a.a21 slices_S1x192_S1x96_0_0) (extractStridedSlice S1x96 ![0, 96] a.a21 slices_S1x192_S1x96_0_96)
    (shapeCast S1x1 a.a22 shapeCasts_S1_S1x1)
    (extractStridedSlice S1x32 ![0, 0] a.a23 slices_S1x64_S1x32_0_0) (extractStridedSlice S1x32 ![0, 32] a.a23 slices_S1x64_S1x32_0_32)
    (shapeCast S1x1 a.a24 shapeCasts_S1_S1x1)

/-- The result: the average of every 48 consecutive edge values. -/
def result : FVec Ideal S12500x1 .f32 := Net.tail (edge a)

end Cert.KernelIdeal.Stages

end
-- ==== Proof.KHost.lean ====
/- A table of cases, no argument: what each stretch of host operations of the kernel program leaves in the buffers
   the next region (or the next stretch) reads, as a function of ANY contents V the stretch starts from - the
   transposed weight tables, the bias vectors cast to one-row tables, the neighbourhood means, the gathered endpoint
   rows and the halves of the edge weights, the closing average - and the previous layer's table passing through a
   stretch that does not write it. Each equation is the stretch's operations composed, nothing more. -/
import proofs.«130552_j4191888081216_2_alg».proof.Proof.Gen.KernelIdeal.Launch
import proofs.«130552_j4191888081216_2_alg».proof.Proof.KNet
import Idealize.ShloMosaic.Lib.StableHlo.Run

set_option maxRecDepth 16384

noncomputable section

namespace Cert.KernelIdeal.KHost

open Idealize.ShloMosaic Idealize.ShloMosaic.TcCoe Idealize.ShloMosaic.StableHlo Idealize.SL.Sem
open Cert.KernelIdeal Cert.KernelIdeal.Facts₀ Cert.KernelIdeal.Facts

variable (V : Valuation τ sig (Elt Ideal))

set_option maxHeartbeats 8000000 in
theorem s0_v1 : StableHlo.after (Gen.hostOps0 (F := Ideal)) V (Proc.devRef .tc main_v1) = Net.src (V (Proc.devRef .tc main_arg1)) := by
  after_results <;> rfl

set_option maxHeartbeats 8000000 in
theorem s0_v3 : StableHlo.after (Gen.hostOps0 (F := Ideal)) V (Proc.devRef .tc main_v3) = Net.dst (V (Proc.devRef .tc main_arg1)) := by
  after_results <;> rfl

set_option maxHeartbeats 8000000 in
theorem s0_v12 : StableHlo.after (Gen.hostOps0 (F := Ideal)) V (Proc.devRef .tc main_v12) = Net.dinv (Net.dst (V (Proc.devRef .tc main_arg1))) := by
  after_results <;> rfl

set_option maxHeartbeats 8000000 in
theorem s0_v13 : StableHlo.after (Gen.hostOps0 (F := Ideal)) V (Proc.devRef .tc main_v13) = transpose S128x256 [1, 0] (V (Proc.devRef .tc main_arg4)) transposes_S256x128_S128x256_1_0 := by
  after_results <;> rfl

set_option maxHeartbeats 8000000 in
theorem s0_v14 : StableHlo.after (Gen.hostOps0 (F := Ideal)) V (Proc.devRef .tc main_v14) = shapeCast S1x256 (V (Proc.devRef .tc main_arg5)) shapeCasts_S256_S1x256 := by
  after_results <;> rfl

set_option maxHeartbeats 8000000 in
theorem s0_arg0 : StableHlo.after (Gen.hostOps0 (F := Ideal)) V (Proc.devRef .tc main_arg0) = (V (Proc.devRef .tc main_arg0)) := by
  after_results <;> rfl

set_option maxHeartbeats 8000000 in
theorem s1_v27 : StableHlo.after (Gen.hostOps1 (F := Ideal)) V (Proc.devRef .tc main_v27) = Net.mean (V (Proc.devRef .tc main_v15)) (V (Proc.devRef .tc main_v1)) (V (Proc.devRef .tc main_v3)) (V (Proc.devRef .tc main_v12)) := by
  after_results <;> rfl

set_option maxHeartbeats 8000000 in
theorem s1_v28 : StableHlo.after (Gen.hostOps1 (F := Ideal)) V (Proc.devRef .tc main_v28) = transpose S256x256 [1, 0] (V (Proc.devRef .tc main_arg6)) transposes_S256x256_S256x256_1_0 := by
  after_results <;> rfl

set_option maxHeartbeats 8000000 in
theorem s1_v29 : StableHlo.after (Gen.hostOps1 (F := Ideal)) V (Proc.devRef .tc main_v29) = transpose S256x256 [1, 0] (V (Proc.devRef .tc main_arg8)) transposes_S256x256_S256x256_1_0 := by
  after_results <;> rfl

set_option maxHeartbeats 8000000 in
theorem s1_v30 : StableHlo.after (Gen.hostOps1 (F := Ideal)) V (Proc.devRef .tc main_v30) = shapeCast S1x256 (V (Proc.devRef .tc main_arg7)) shapeCasts_S256_S1x256 := by
  after_results <;> rfl

set_option maxHeartbeats 8000000 in
theorem s1_v15 : StableHlo.after (Gen.hostOps1 (F := Ideal)) V (Proc.devRef .tc main_v15) = (V (Proc.devRef .tc main_v15)) := by
  after_results <;> rfl

set_option maxHeartbeats 8000000 in
theorem s2_v32 : StableHlo.after (Gen.hostOps2 (F := Ideal)) V (Proc.devRef .tc main_v32) = transpose S256x256 [1, 0] (V (Proc.devRef .tc main_arg15)) transposes_S256x256_S256x256_1_0 := by
  after_results <;> rfl

set_option maxHeartbeats 8000000 in
theorem s2_v33 : StableHlo.after (Gen.hostOps2 (F := Ideal)) V (Proc.devRef .tc main_v33) = shapeCast S1x256 (V (Proc.devRef .tc main_arg16)) shapeCasts_S256_S1x256 := by
  after_results <;> rfl

set_option maxHeartbeats 8000000 in
theorem s2_v31 : StableHlo.after (Gen.hostOps2 (F := Ideal)) V (Proc.devRef .tc main_v31) = (V (Proc.devRef .tc main_v31)) := by
  after_results <;> rfl

set_option maxHeartbeats 8000000 in
theorem s3_v46 : StableHlo.after (Gen.hostOps3 (F := Ideal)) V (Proc.devRef .tc main_v46) = Net.mean (V (Proc.devRef .tc main_v34)) (V (Proc.devRef .tc main_v1)) (V (Proc.devRef .tc main_v3)) (V (Proc.devRef .tc main_v12)) := by
  after_results <;> rfl

set_option maxHeartbeats 8000000 in
theorem s3_v47 : StableHlo.after (Gen.hostOps3 (F := Ideal)) V (Proc.devRef .tc main_v47) = transpose S256x256 [1, 0] (V (Proc.devRef .tc main_arg9)) transposes_S256x256_S256x256_1_0 := by
  after_results <;> rfl

set_option maxHeartbeats 8000000 in
theorem s3_v48 : StableHlo.after (Gen.hostOps3 (F := Ideal)) V (Proc.devRef .tc main_v48) = transpose S256x256 [1, 0] (V (Proc.devRef .tc main_arg11)) transposes_S256x256_S256x256_1_0 := by
  after_results <;> rfl

set_option maxHeartbeats 8000000 in
theorem s3_v49 : StableHlo.after (Gen.hostOps3 (F := Ideal)) V (Proc.devRef .tc main_v49) = shapeCast S1x256 (V (Proc.devRef .tc main_arg10)) shapeCasts_S256_S1x256 := by
  after_results <;> rfl

set_option maxHeartbeats 8000000 in
theorem s3_v34 : StableHlo.after (Gen.hostOps3 (F := Ideal)) V (Proc.devRef .tc main_v34) = (V (Proc.devRef .tc main_v34)) := by
  after_results <;> rfl

set_option maxHeartbeats 8000000 in
theorem s4_v51 : StableHlo.after (Gen.hostOps4 (F := Ideal)) V (Proc.devRef .tc main_v51) = transpose S256x256 [1, 0] (V (Proc.devRef .tc main_arg17)) transposes_S256x256_S256x256_1_0 := by
  after_results <;> rfl

set_option maxHeartbeats 8000000 in
theorem s4_v52 : StableHlo.after (Gen.hostOps4 (F := Ideal)) V (Proc.devRef .tc main_v52) = shapeCast S1x256 (V (Proc.devRef .tc main_arg18)) shapeCasts_S256_S1x256 := by
  after_results <;> rfl

set_option maxHeartbeats 8000000 in
theorem s4_v50 : StableHlo.after (Gen.hostOps4 (F := Ideal)) V (Proc.devRef .tc main_v50) = (V (Proc.devRef .tc main_v50)) := by
  after_results <;> rfl

set_option maxHeartbeats 8000000 in
theorem s5_v65 : StableHlo.after (Gen.hostOps5 (F := Ideal)) V (Proc.devRef .tc main_v65) = Net.mean (V (Proc.devRef .tc main_v53)) (V (Proc.devRef .tc main_v1)) (V (Proc.devRef .tc main_v3)) (V (Proc.devRef .tc main_v12)) := by
  after_results <;> rfl

set_option maxHeartbeats 8000000 in
theorem s5_v66 : StableHlo.after (Gen.hostOps5 (F := Ideal)) V (Proc.devRef .tc main_v66) = transpose S256x128 [1, 0] (V (Proc.devRef .tc main_arg12)) transposes_S128x256_S256x128_1_0 := by
  after_results <;> rfl

set_option maxHeartbeats 8000000 in
theorem s5_v67 : StableHlo.after (Gen.hostOps5 (F := Ideal)) V (Proc.devRef .tc main_v67) = transpose S256x128 [1, 0] (V (Proc.devRef .tc main_arg14)) transposes_S128x256_S256x128_1_0 := by
  after_results <;> rfl

set_option maxHeartbeats 8000000 in
theorem s5_v68 : StableHlo.after (Gen.hostOps5 (F := Ideal)) V (Proc.devRef .tc main_v68) = shapeCast S1x128 (V (Proc.devRef .tc main_arg13)) shapeCasts_S128_S1x128 := by
  after_results <;> rfl

set_option maxHeartbeats 8000000 in
theorem s5_v53 : StableHlo.after (Gen.hostOps5 (F := Ideal)) V (Proc.devRef .tc main_v53) = (V (Proc.devRef .tc main_v53)) := by
  after_results <;> rfl

set_option maxHeartbeats 8000000 in
theorem s6_v70 : StableHlo.after (Gen.hostOps6 (F := Ideal)) V (Proc.devRef .tc main_v70) = transpose S128x128 [1, 0] (V (Proc.devRef .tc main_arg19)) transposes_S128x128_S128x128_1_0 := by
  after_results <;> rfl

set_option maxHeartbeats 8000000 in
theorem s6_v71 : StableHlo.after (Gen.hostOps6 (F := Ideal)) V (Proc.devRef .tc main_v71) = shapeCast S1x128 (V (Proc.devRef .tc main_arg20)) shapeCasts_S128_S1x128 := by
  after_results <;> rfl

set_option maxHeartbeats 8000000 in
theorem s6_v69 : StableHlo.after (Gen.hostOps6 (F := Ideal)) V (Proc.devRef .tc main_v69) = (V (Proc.devRef .tc main_v69)) := by
  after_results <;> rfl

set_option maxHeartbeats 8000000 in
theorem s7_v82 : StableHlo.after (Gen.hostOps7 (F := Ideal)) V (Proc.devRef .tc main_v82) = Net.take96 (V (Proc.devRef .tc main_v72)) (V (Proc.devRef .tc main_v1)) := by
  after_results <;> rfl

set_option maxHeartbeats 8000000 in
theorem s7_v89 : StableHlo.after (Gen.hostOps7 (F := Ideal)) V (Proc.devRef .tc main_v89) = Net.take96 (V (Proc.devRef .tc main_v72)) (V (Proc.devRef .tc main_v3)) := by
  after_results <;> rfl

set_option maxHeartbeats 8000000 in
theorem s7_v96 : StableHlo.after (Gen.hostOps7 (F := Ideal)) V (Proc.devRef .tc main_v96) = Net.take32 (V (Proc.devRef .tc main_v72)) (V (Proc.devRef .tc main_v1)) := by
  after_results <;> rfl

set_option maxHeartbeats 8000000 in
theorem s7_v103 : StableHlo.after (Gen.hostOps7 (F := Ideal)) V (Proc.devRef .tc main_v103) = Net.take32 (V (Proc.devRef .tc main_v72)) (V (Proc.devRef .tc main_v3)) := by
  after_results <;> rfl

set_option maxHeartbeats 8000000 in
theorem s7_v104 : StableHlo.after (Gen.hostOps7 (F := Ideal)) V (Proc.devRef .tc main_v104) = extractStridedSlice S1x96 ![0, 0] (V (Proc.devRef .tc main_arg21)) slices_S1x192_S1x96_0_0 := by
  after_results <;> rfl

set_option maxHeartbeats 8000000 in
theorem s7_v105 : StableHlo.after (Gen.hostOps7 (F := Ideal)) V (Proc.devRef .tc main_v105) = extractStridedSlice S1x96 ![0, 96] (V (Proc.devRef .tc main_arg21)) slices_S1x192_S1x96_0_96 := by
  after_results <;> rfl

set_option maxHeartbeats 8000000 in
theorem s7_v106 : StableHlo.after (Gen.hostOps7 (F := Ideal)) V (Proc.devRef .tc main_v106) = extractStridedSlice S1x32 ![0, 0] (V (Proc.devRef .tc main_arg23)) slices_S1x64_S1x32_0_0 := by
  after_results <;> rfl

set_option maxHeartbeats 8000000 in
theorem s7_v107 : StableHlo.after (Gen.hostOps7 (F := Ideal)) V (Proc.devRef .tc main_v107) = extractStridedSlice S1x32 ![0, 32] (V (Proc.devRef .tc main_arg23)) slices_S1x64_S1x32_0_32 := by
  after_results <;> rfl

set_option maxHeartbeats 8000000 in
theorem s7_v108 : StableHlo.after (Gen.hostOps7 (F := Ideal)) V (Proc.devRef .tc main_v108) = shapeCast S1x1 (V (Proc.devRef .tc main_arg22)) shapeCasts_S1_S1x1 := by
  after_results <;> rfl

set_option maxHeartbeats 8000000 in
theorem s7_v109 : StableHlo.after (Gen.hostOps7 (F := Ideal)) V (Proc.devRef .tc main_v109) = shapeCast S1x1 (V (Proc.devRef .tc main_arg24)) shapeCasts_S1_S1x1 := by
  after_results <;> rfl

set_option maxHeartbeats 8000000 in
theorem s7_arg2 : StableHlo.after (Gen.hostOps7 (F := Ideal)) V (Proc.devRef .tc main_arg2) = (V (Proc.devRef .tc main_arg2)) := by
  after_results <;> rfl

set_option maxHeartbeats 8000000 in
theorem s8_v115 : StableHlo.after (Gen.hostOps8 (F := Ideal)) V (Proc.devRef .tc main_v115) = Net.tail (V (Proc.devRef .tc main_v110)) := by
  after_results <;> rfl

end Cert.KernelIdeal.KHost

end
-- ==== Proof.KKeep.lean ====
/- A table of cases, no argument: for the kernel program's run as a chain of segment boundaries W0, W1, ..., W17
   (a stretch of host operations from an even boundary to the next odd one, a region from an odd boundary to the
   next even one), which buffers pass a region and the stretch before it unchanged. A buffer passes a region when it
   is none of the region's arrays, and passes a stretch when none of the stretch's operations writes it; both are
   decided from the printed program. The composed lemmas carry an argument array back to the launch memory and the
   two index vectors and the degree column back to the first stretch's exit. -/
import proofs.«130552_j4191888081216_2_alg».proof.Proof.Gen.KernelIdeal.Frame
import Idealize.ShloMosaic.PureOps.Ideal

set_option maxRecDepth 16384

noncomputable section

namespace Cert.KernelIdeal.KKeep

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg) (c : Dev nD)

/-- No operation of the stretch writes the buffer. -/
macro "host_free " h:ident : tactic => `(tactic| (
  refine StableHlo.after_of_forall_not_mem _ _ (List.forall_iff_forall_mem.mp ?_)
  simp only [$h:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

theorem at0_arg6 : W0 m ρ c (Proc.devRef .tc main_arg6) = m ((c : Thread nD τ).loc main_arg6) := rfl
theorem keep0_arg6 : W2 m ρ c (Proc.devRef .tc main_arg6) = W0 m ρ c (Proc.devRef .tc main_arg6) :=
  (W2_of_ne m ρ c main_arg6 (by decide)).trans (by host_free hostOps0)
theorem at1_arg6 : W2 m ρ c (Proc.devRef .tc main_arg6) = m ((c : Thread nD τ).loc main_arg6) := (keep0_arg6 m ρ c).trans (at0_arg6 m ρ c)

theorem at0_arg7 : W0 m ρ c (Proc.devRef .tc main_arg7) = m ((c : Thread nD τ).loc main_arg7) := rfl
theorem keep0_arg7 : W2 m ρ c (Proc.devRef .tc main_arg7) = W0 m ρ c (Proc.devRef .tc main_arg7) :=
  (W2_of_ne m ρ c main_arg7 (by decide)).trans (by host_free hostOps0)
theorem at1_arg7 : W2 m ρ c (Proc.devRef .tc main_arg7) = m ((c : Thread nD τ).loc main_arg7) := (keep0_arg7 m ρ c).trans (at0_arg7 m ρ c)

theorem at0_arg8 : W0 m ρ c (Proc.devRef .tc main_arg8) = m ((c : Thread nD τ).loc main_arg8) := rfl
theorem keep0_arg8 : W2 m ρ c (Proc.devRef .tc main_arg8) = W0 m ρ c (Proc.devRef .tc main_arg8) :=
  (W2_of_ne m ρ c main_arg8 (by decide)).trans (by host_free hostOps0)
theorem at1_arg8 : W2 m ρ c (Proc.devRef .tc main_arg8) = m ((c : Thread nD τ).loc main_arg8) := (keep0_arg8 m ρ c).trans (at0_arg8 m ρ c)

theorem at0_arg15 : W0 m ρ c (Proc.devRef .tc main_arg15) = m ((c : Thread nD τ).loc main_arg15) := rfl
theorem keep0_arg15 : W2 m ρ c (Proc.devRef .tc main_arg15) = W0 m ρ c (Proc.devRef .tc main_arg15) :=
  (W2_of_ne m ρ c main_arg15 (by decide)).trans (by host_free hostOps0)
theorem at1_arg15 : W2 m ρ c (Proc.devRef .tc main_arg15) = m ((c : Thread nD τ).loc main_arg15) := (keep0_arg15 m ρ c).trans (at0_arg15 m ρ c)
theorem keep1_arg15 : W4 m ρ c (Proc.devRef .tc main_arg15) = W2 m ρ c (Proc.devRef .tc main_arg15) :=
  (W4_of_ne m ρ c main_arg15 (by decide)).trans (by host_free hostOps1)
theorem at2_arg15 : W4 m ρ c (Proc.devRef .tc main_arg15) = m ((c : Thread nD τ).loc main_arg15) := (keep1_arg15 m ρ c).trans (at1_arg15 m ρ c)

theorem at0_arg16 : W0 m ρ c (Proc.devRef .tc main_arg16) = m ((c : Thread nD τ).loc main_arg16) := rfl
theorem keep0_arg16 : W2 m ρ c (Proc.devRef .tc main_arg16) = W0 m ρ c (Proc.devRef .tc main_arg16) :=
  (W2_of_ne m ρ c main_arg16 (by decide)).trans (by host_free hostOps0)
theorem at1_arg16 : W2 m ρ c (Proc.devRef .tc main_arg16) = m ((c : Thread nD τ).loc main_arg16) := (keep0_arg16 m ρ c).trans (at0_arg16 m ρ c)
theorem keep1_arg16 : W4 m ρ c (Proc.devRef .tc main_arg16) = W2 m ρ c (Proc.devRef .tc main_arg16) :=
  (W4_of_ne m ρ c main_arg16 (by decide)).trans (by host_free hostOps1)
theorem at2_arg16 : W4 m ρ c (Proc.devRef .tc main_arg16) = m ((c : Thread nD τ).loc main_arg16) := (keep1_arg16 m ρ c).trans (at1_arg16 m ρ c)

theorem at0_arg9 : W0 m ρ c (Proc.devRef .tc main_arg9) = m ((c : Thread nD τ).loc main_arg9) := rfl
theorem keep0_arg9 : W2 m ρ c (Proc.devRef .tc main_arg9) = W0 m ρ c (Proc.devRef .tc main_arg9) :=
  (W2_of_ne m ρ c main_arg9 (by decide)).trans (by host_free hostOps0)
theorem at1_arg9 : W2 m ρ c (Proc.devRef .tc main_arg9) = m ((c : Thread nD τ).loc main_arg9) := (keep0_arg9 m ρ c).trans (at0_arg9 m ρ c)
theorem keep1_arg9 : W4 m ρ c (Proc.devRef .tc main_arg9) = W2 m ρ c (Proc.devRef .tc main_arg9) :=
  (W4_of_ne m ρ c main_arg9 (by decide)).trans (by host_free hostOps1)
theorem at2_arg9 : W4 m ρ c (Proc.devRef .tc main_arg9) = m ((c : Thread nD τ).loc main_arg9) := (keep1_arg9 m ρ c).trans (at1_arg9 m ρ c)
theorem keep2_arg9 : W6 m ρ c (Proc.devRef .tc main_arg9) = W4 m ρ c (Proc.devRef .tc main_arg9) :=
  (W6_of_ne m ρ c main_arg9 (by decide)).trans (by host_free hostOps2)
theorem at3_arg9 : W6 m ρ c (Proc.devRef .tc main_arg9) = m ((c : Thread nD τ).loc main_arg9) := (keep2_arg9 m ρ c).trans (at2_arg9 m ρ c)

theorem at0_arg10 : W0 m ρ c (Proc.devRef .tc main_arg10) = m ((c : Thread nD τ).loc main_arg10) := rfl
theorem keep0_arg10 : W2 m ρ c (Proc.devRef .tc main_arg10) = W0 m ρ c (Proc.devRef .tc main_arg10) :=
  (W2_of_ne m ρ c main_arg10 (by decide)).trans (by host_free hostOps0)
theorem at1_arg10 : W2 m ρ c (Proc.devRef .tc main_arg10) = m ((c : Thread nD τ).loc main_arg10) := (keep0_arg10 m ρ c).trans (at0_arg10 m ρ c)
theorem keep1_arg10 : W4 m ρ c (Proc.devRef .tc main_arg10) = W2 m ρ c (Proc.devRef .tc main_arg10) :=
  (W4_of_ne m ρ c main_arg10 (by decide)).trans (by host_free hostOps1)
theorem at2_arg10 : W4 m ρ c (Proc.devRef .tc main_arg10) = m ((c : Thread nD τ).loc main_arg10) := (keep1_arg10 m ρ c).trans (at1_arg10 m ρ c)
theorem keep2_arg10 : W6 m ρ c (Proc.devRef .tc main_arg10) = W4 m ρ c (Proc.devRef .tc main_arg10) :=
  (W6_of_ne m ρ c main_arg10 (by decide)).trans (by host_free hostOps2)
theorem at3_arg10 : W6 m ρ c (Proc.devRef .tc main_arg10) = m ((c : Thread nD τ).loc main_arg10) := (keep2_arg10 m ρ c).trans (at2_arg10 m ρ c)

theorem at0_arg11 : W0 m ρ c (Proc.devRef .tc main_arg11) = m ((c : Thread nD τ).loc main_arg11) := rfl
theorem keep0_arg11 : W2 m ρ c (Proc.devRef .tc main_arg11) = W0 m ρ c (Proc.devRef .tc main_arg11) :=
  (W2_of_ne m ρ c main_arg11 (by decide)).trans (by host_free hostOps0)
theorem at1_arg11 : W2 m ρ c (Proc.devRef .tc main_arg11) = m ((c : Thread nD τ).loc main_arg11) := (keep0_arg11 m ρ c).trans (at0_arg11 m ρ c)
theorem keep1_arg11 : W4 m ρ c (Proc.devRef .tc main_arg11) = W2 m ρ c (Proc.devRef .tc main_arg11) :=
  (W4_of_ne m ρ c main_arg11 (by decide)).trans (by host_free hostOps1)
theorem at2_arg11 : W4 m ρ c (Proc.devRef .tc main_arg11) = m ((c : Thread nD τ).loc main_arg11) := (keep1_arg11 m ρ c).trans (at1_arg11 m ρ c)
theorem keep2_arg11 : W6 m ρ c (Proc.devRef .tc main_arg11) = W4 m ρ c (Proc.devRef .tc main_arg11) :=
  (W6_of_ne m ρ c main_arg11 (by decide)).trans (by host_free hostOps2)
theorem at3_arg11 : W6 m ρ c (Proc.devRef .tc main_arg11) = m ((c : Thread nD τ).loc main_arg11) := (keep2_arg11 m ρ c).trans (at2_arg11 m ρ c)

theorem at0_arg17 : W0 m ρ c (Proc.devRef .tc main_arg17) = m ((c : Thread nD τ).loc main_arg17) := rfl
theorem keep0_arg17 : W2 m ρ c (Proc.devRef .tc main_arg17) = W0 m ρ c (Proc.devRef .tc main_arg17) :=
  (W2_of_ne m ρ c main_arg17 (by decide)).trans (by host_free hostOps0)
theorem at1_arg17 : W2 m ρ c (Proc.devRef .tc main_arg17) = m ((c : Thread nD τ).loc main_arg17) := (keep0_arg17 m ρ c).trans (at0_arg17 m ρ c)
theorem keep1_arg17 : W4 m ρ c (Proc.devRef .tc main_arg17) = W2 m ρ c (Proc.devRef .tc main_arg17) :=
  (W4_of_ne m ρ c main_arg17 (by decide)).trans (by host_free hostOps1)
theorem at2_arg17 : W4 m ρ c (Proc.devRef .tc main_arg17) = m ((c : Thread nD τ).loc main_arg17) := (keep1_arg17 m ρ c).trans (at1_arg17 m ρ c)
theorem keep2_arg17 : W6 m ρ c (Proc.devRef .tc main_arg17) = W4 m ρ c (Proc.devRef .tc main_arg17) :=
  (W6_of_ne m ρ c main_arg17 (by decide)).trans (by host_free hostOps2)
theorem at3_arg17 : W6 m ρ c (Proc.devRef .tc main_arg17) = m ((c : Thread nD τ).loc main_arg17) := (keep2_arg17 m ρ c).trans (at2_arg17 m ρ c)
theorem keep3_arg17 : W8 m ρ c (Proc.devRef .tc main_arg17) = W6 m ρ c (Proc.devRef .tc main_arg17) :=
  (W8_of_ne m ρ c main_arg17 (by decide)).trans (by host_free hostOps3)
theorem at4_arg17 : W8 m ρ c (Proc.devRef .tc main_arg17) = m ((c : Thread nD τ).loc main_arg17) := (keep3_arg17 m ρ c).trans (at3_arg17 m ρ c)

theorem at0_arg18 : W0 m ρ c (Proc.devRef .tc main_arg18) = m ((c : Thread nD τ).loc main_arg18) := rfl
theorem keep0_arg18 : W2 m ρ c (Proc.devRef .tc main_arg18) = W0 m ρ c (Proc.devRef .tc main_arg18) :=
  (W2_of_ne m ρ c main_arg18 (by decide)).trans (by host_free hostOps0)
theorem at1_arg18 : W2 m ρ c (Proc.devRef .tc main_arg18) = m ((c : Thread nD τ).loc main_arg18) := (keep0_arg18 m ρ c).trans (at0_arg18 m ρ c)
theorem keep1_arg18 : W4 m ρ c (Proc.devRef .tc main_arg18) = W2 m ρ c (Proc.devRef .tc main_arg18) :=
  (W4_of_ne m ρ c main_arg18 (by decide)).trans (by host_free hostOps1)
theorem at2_arg18 : W4 m ρ c (Proc.devRef .tc main_arg18) = m ((c : Thread nD τ).loc main_arg18) := (keep1_arg18 m ρ c).trans (at1_arg18 m ρ c)
theorem keep2_arg18 : W6 m ρ c (Proc.devRef .tc main_arg18) = W4 m ρ c (Proc.devRef .tc main_arg18) :=
  (W6_of_ne m ρ c main_arg18 (by decide)).trans (by host_free hostOps2)
theorem at3_arg18 : W6 m ρ c (Proc.devRef .tc main_arg18) = m ((c : Thread nD τ).loc main_arg18) := (keep2_arg18 m ρ c).trans (at2_arg18 m ρ c)
theorem keep3_arg18 : W8 m ρ c (Proc.devRef .tc main_arg18) = W6 m ρ c (Proc.devRef .tc main_arg18) :=
  (W8_of_ne m ρ c main_arg18 (by decide)).trans (by host_free hostOps3)
theorem at4_arg18 : W8 m ρ c (Proc.devRef .tc main_arg18) = m ((c : Thread nD τ).loc main_arg18) := (keep3_arg18 m ρ c).trans (at3_arg18 m ρ c)

theorem at0_arg12 : W0 m ρ c (Proc.devRef .tc main_arg12) = m ((c : Thread nD τ).loc main_arg12) := rfl
theorem keep0_arg12 : W2 m ρ c (Proc.devRef .tc main_arg12) = W0 m ρ c (Proc.devRef .tc main_arg12) :=
  (W2_of_ne m ρ c main_arg12 (by decide)).trans (by host_free hostOps0)
theorem at1_arg12 : W2 m ρ c (Proc.devRef .tc main_arg12) = m ((c : Thread nD τ).loc main_arg12) := (keep0_arg12 m ρ c).trans (at0_arg12 m ρ c)
theorem keep1_arg12 : W4 m ρ c (Proc.devRef .tc main_arg12) = W2 m ρ c (Proc.devRef .tc main_arg12) :=
  (W4_of_ne m ρ c main_arg12 (by decide)).trans (by host_free hostOps1)
theorem at2_arg12 : W4 m ρ c (Proc.devRef .tc main_arg12) = m ((c : Thread nD τ).loc main_arg12) := (keep1_arg12 m ρ c).trans (at1_arg12 m ρ c)
theorem keep2_arg12 : W6 m ρ c (Proc.devRef .tc main_arg12) = W4 m ρ c (Proc.devRef .tc main_arg12) :=
  (W6_of_ne m ρ c main_arg12 (by decide)).trans (by host_free hostOps2)
theorem at3_arg12 : W6 m ρ c (Proc.devRef .tc main_arg12) = m ((c : Thread nD τ).loc main_arg12) := (keep2_arg12 m ρ c).trans (at2_arg12 m ρ c)
theorem keep3_arg12 : W8 m ρ c (Proc.devRef .tc main_arg12) = W6 m ρ c (Proc.devRef .tc main_arg12) :=
  (W8_of_ne m ρ c main_arg12 (by decide)).trans (by host_free hostOps3)
theorem at4_arg12 : W8 m ρ c (Proc.devRef .tc main_arg12) = m ((c : Thread nD τ).loc main_arg12) := (keep3_arg12 m ρ c).trans (at3_arg12 m ρ c)
theorem keep4_arg12 : W10 m ρ c (Proc.devRef .tc main_arg12) = W8 m ρ c (Proc.devRef .tc main_arg12) :=
  (W10_of_ne m ρ c main_arg12 (by decide)).trans (by host_free hostOps4)
theorem at5_arg12 : W10 m ρ c (Proc.devRef .tc main_arg12) = m ((c : Thread nD τ).loc main_arg12) := (keep4_arg12 m ρ c).trans (at4_arg12 m ρ c)

theorem at0_arg13 : W0 m ρ c (Proc.devRef .tc main_arg13) = m ((c : Thread nD τ).loc main_arg13) := rfl
theorem keep0_arg13 : W2 m ρ c (Proc.devRef .tc main_arg13) = W0 m ρ c (Proc.devRef .tc main_arg13) :=
  (W2_of_ne m ρ c main_arg13 (by decide)).trans (by host_free hostOps0)
theorem at1_arg13 : W2 m ρ c (Proc.devRef .tc main_arg13) = m ((c : Thread nD τ).loc main_arg13) := (keep0_arg13 m ρ c).trans (at0_arg13 m ρ c)
theorem keep1_arg13 : W4 m ρ c (Proc.devRef .tc main_arg13) = W2 m ρ c (Proc.devRef .tc main_arg13) :=
  (W4_of_ne m ρ c main_arg13 (by decide)).trans (by host_free hostOps1)
theorem at2_arg13 : W4 m ρ c (Proc.devRef .tc main_arg13) = m ((c : Thread nD τ).loc main_arg13) := (keep1_arg13 m ρ c).trans (at1_arg13 m ρ c)
theorem keep2_arg13 : W6 m ρ c (Proc.devRef .tc main_arg13) = W4 m ρ c (Proc.devRef .tc main_arg13) :=
  (W6_of_ne m ρ c main_arg13 (by decide)).trans (by host_free hostOps2)
theorem at3_arg13 : W6 m ρ c (Proc.devRef .tc main_arg13) = m ((c : Thread nD τ).loc main_arg13) := (keep2_arg13 m ρ c).trans (at2_arg13 m ρ c)
theorem keep3_arg13 : W8 m ρ c (Proc.devRef .tc main_arg13) = W6 m ρ c (Proc.devRef .tc main_arg13) :=
  (W8_of_ne m ρ c main_arg13 (by decide)).trans (by host_free hostOps3)
theorem at4_arg13 : W8 m ρ c (Proc.devRef .tc main_arg13) = m ((c : Thread nD τ).loc main_arg13) := (keep3_arg13 m ρ c).trans (at3_arg13 m ρ c)
theorem keep4_arg13 : W10 m ρ c (Proc.devRef .tc main_arg13) = W8 m ρ c (Proc.devRef .tc main_arg13) :=
  (W10_of_ne m ρ c main_arg13 (by decide)).trans (by host_free hostOps4)
theorem at5_arg13 : W10 m ρ c (Proc.devRef .tc main_arg13) = m ((c : Thread nD τ).loc main_arg13) := (keep4_arg13 m ρ c).trans (at4_arg13 m ρ c)

theorem at0_arg14 : W0 m ρ c (Proc.devRef .tc main_arg14) = m ((c : Thread nD τ).loc main_arg14) := rfl
theorem keep0_arg14 : W2 m ρ c (Proc.devRef .tc main_arg14) = W0 m ρ c (Proc.devRef .tc main_arg14) :=
  (W2_of_ne m ρ c main_arg14 (by decide)).trans (by host_free hostOps0)
theorem at1_arg14 : W2 m ρ c (Proc.devRef .tc main_arg14) = m ((c : Thread nD τ).loc main_arg14) := (keep0_arg14 m ρ c).trans (at0_arg14 m ρ c)
theorem keep1_arg14 : W4 m ρ c (Proc.devRef .tc main_arg14) = W2 m ρ c (Proc.devRef .tc main_arg14) :=
  (W4_of_ne m ρ c main_arg14 (by decide)).trans (by host_free hostOps1)
theorem at2_arg14 : W4 m ρ c (Proc.devRef .tc main_arg14) = m ((c : Thread nD τ).loc main_arg14) := (keep1_arg14 m ρ c).trans (at1_arg14 m ρ c)
theorem keep2_arg14 : W6 m ρ c (Proc.devRef .tc main_arg14) = W4 m ρ c (Proc.devRef .tc main_arg14) :=
  (W6_of_ne m ρ c main_arg14 (by decide)).trans (by host_free hostOps2)
theorem at3_arg14 : W6 m ρ c (Proc.devRef .tc main_arg14) = m ((c : Thread nD τ).loc main_arg14) := (keep2_arg14 m ρ c).trans (at2_arg14 m ρ c)
theorem keep3_arg14 : W8 m ρ c (Proc.devRef .tc main_arg14) = W6 m ρ c (Proc.devRef .tc main_arg14) :=
  (W8_of_ne m ρ c main_arg14 (by decide)).trans (by host_free hostOps3)
theorem at4_arg14 : W8 m ρ c (Proc.devRef .tc main_arg14) = m ((c : Thread nD τ).loc main_arg14) := (keep3_arg14 m ρ c).trans (at3_arg14 m ρ c)
theorem keep4_arg14 : W10 m ρ c (Proc.devRef .tc main_arg14) = W8 m ρ c (Proc.devRef .tc main_arg14) :=
  (W10_of_ne m ρ c main_arg14 (by decide)).trans (by host_free hostOps4)
theorem at5_arg14 : W10 m ρ c (Proc.devRef .tc main_arg14) = m ((c : Thread nD τ).loc main_arg14) := (keep4_arg14 m ρ c).trans (at4_arg14 m ρ c)

theorem at0_arg19 : W0 m ρ c (Proc.devRef .tc main_arg19) = m ((c : Thread nD τ).loc main_arg19) := rfl
theorem keep0_arg19 : W2 m ρ c (Proc.devRef .tc main_arg19) = W0 m ρ c (Proc.devRef .tc main_arg19) :=
  (W2_of_ne m ρ c main_arg19 (by decide)).trans (by host_free hostOps0)
theorem at1_arg19 : W2 m ρ c (Proc.devRef .tc main_arg19) = m ((c : Thread nD τ).loc main_arg19) := (keep0_arg19 m ρ c).trans (at0_arg19 m ρ c)
theorem keep1_arg19 : W4 m ρ c (Proc.devRef .tc main_arg19) = W2 m ρ c (Proc.devRef .tc main_arg19) :=
  (W4_of_ne m ρ c main_arg19 (by decide)).trans (by host_free hostOps1)
theorem at2_arg19 : W4 m ρ c (Proc.devRef .tc main_arg19) = m ((c : Thread nD τ).loc main_arg19) := (keep1_arg19 m ρ c).trans (at1_arg19 m ρ c)
theorem keep2_arg19 : W6 m ρ c (Proc.devRef .tc main_arg19) = W4 m ρ c (Proc.devRef .tc main_arg19) :=
  (W6_of_ne m ρ c main_arg19 (by decide)).trans (by host_free hostOps2)
theorem at3_arg19 : W6 m ρ c (Proc.devRef .tc main_arg19) = m ((c : Thread nD τ).loc main_arg19) := (keep2_arg19 m ρ c).trans (at2_arg19 m ρ c)
theorem keep3_arg19 : W8 m ρ c (Proc.devRef .tc main_arg19) = W6 m ρ c (Proc.devRef .tc main_arg19) :=
  (W8_of_ne m ρ c main_arg19 (by decide)).trans (by host_free hostOps3)
theorem at4_arg19 : W8 m ρ c (Proc.devRef .tc main_arg19) = m ((c : Thread nD τ).loc main_arg19) := (keep3_arg19 m ρ c).trans (at3_arg19 m ρ c)
theorem keep4_arg19 : W10 m ρ c (Proc.devRef .tc main_arg19) = W8 m ρ c (Proc.devRef .tc main_arg19) :=
  (W10_of_ne m ρ c main_arg19 (by decide)).trans (by host_free hostOps4)
theorem at5_arg19 : W10 m ρ c (Proc.devRef .tc main_arg19) = m ((c : Thread nD τ).loc main_arg19) := (keep4_arg19 m ρ c).trans (at4_arg19 m ρ c)
theorem keep5_arg19 : W12 m ρ c (Proc.devRef .tc main_arg19) = W10 m ρ c (Proc.devRef .tc main_arg19) :=
  (W12_of_ne m ρ c main_arg19 (by decide)).trans (by host_free hostOps5)
theorem at6_arg19 : W12 m ρ c (Proc.devRef .tc main_arg19) = m ((c : Thread nD τ).loc main_arg19) := (keep5_arg19 m ρ c).trans (at5_arg19 m ρ c)

theorem at0_arg20 : W0 m ρ c (Proc.devRef .tc main_arg20) = m ((c : Thread nD τ).loc main_arg20) := rfl
theorem keep0_arg20 : W2 m ρ c (Proc.devRef .tc main_arg20) = W0 m ρ c (Proc.devRef .tc main_arg20) :=
  (W2_of_ne m ρ c main_arg20 (by decide)).trans (by host_free hostOps0)
theorem at1_arg20 : W2 m ρ c (Proc.devRef .tc main_arg20) = m ((c : Thread nD τ).loc main_arg20) := (keep0_arg20 m ρ c).trans (at0_arg20 m ρ c)
theorem keep1_arg20 : W4 m ρ c (Proc.devRef .tc main_arg20) = W2 m ρ c (Proc.devRef .tc main_arg20) :=
  (W4_of_ne m ρ c main_arg20 (by decide)).trans (by host_free hostOps1)
theorem at2_arg20 : W4 m ρ c (Proc.devRef .tc main_arg20) = m ((c : Thread nD τ).loc main_arg20) := (keep1_arg20 m ρ c).trans (at1_arg20 m ρ c)
theorem keep2_arg20 : W6 m ρ c (Proc.devRef .tc main_arg20) = W4 m ρ c (Proc.devRef .tc main_arg20) :=
  (W6_of_ne m ρ c main_arg20 (by decide)).trans (by host_free hostOps2)
theorem at3_arg20 : W6 m ρ c (Proc.devRef .tc main_arg20) = m ((c : Thread nD τ).loc main_arg20) := (keep2_arg20 m ρ c).trans (at2_arg20 m ρ c)
theorem keep3_arg20 : W8 m ρ c (Proc.devRef .tc main_arg20) = W6 m ρ c (Proc.devRef .tc main_arg20) :=
  (W8_of_ne m ρ c main_arg20 (by decide)).trans (by host_free hostOps3)
theorem at4_arg20 : W8 m ρ c (Proc.devRef .tc main_arg20) = m ((c : Thread nD τ).loc main_arg20) := (keep3_arg20 m ρ c).trans (at3_arg20 m ρ c)
theorem keep4_arg20 : W10 m ρ c (Proc.devRef .tc main_arg20) = W8 m ρ c (Proc.devRef .tc main_arg20) :=
  (W10_of_ne m ρ c main_arg20 (by decide)).trans (by host_free hostOps4)
theorem at5_arg20 : W10 m ρ c (Proc.devRef .tc main_arg20) = m ((c : Thread nD τ).loc main_arg20) := (keep4_arg20 m ρ c).trans (at4_arg20 m ρ c)
theorem keep5_arg20 : W12 m ρ c (Proc.devRef .tc main_arg20) = W10 m ρ c (Proc.devRef .tc main_arg20) :=
  (W12_of_ne m ρ c main_arg20 (by decide)).trans (by host_free hostOps5)
theorem at6_arg20 : W12 m ρ c (Proc.devRef .tc main_arg20) = m ((c : Thread nD τ).loc main_arg20) := (keep5_arg20 m ρ c).trans (at5_arg20 m ρ c)

theorem at0_arg21 : W0 m ρ c (Proc.devRef .tc main_arg21) = m ((c : Thread nD τ).loc main_arg21) := rfl
theorem keep0_arg21 : W2 m ρ c (Proc.devRef .tc main_arg21) = W0 m ρ c (Proc.devRef .tc main_arg21) :=
  (W2_of_ne m ρ c main_arg21 (by decide)).trans (by host_free hostOps0)
theorem at1_arg21 : W2 m ρ c (Proc.devRef .tc main_arg21) = m ((c : Thread nD τ).loc main_arg21) := (keep0_arg21 m ρ c).trans (at0_arg21 m ρ c)
theorem keep1_arg21 : W4 m ρ c (Proc.devRef .tc main_arg21) = W2 m ρ c (Proc.devRef .tc main_arg21) :=
  (W4_of_ne m ρ c main_arg21 (by decide)).trans (by host_free hostOps1)
theorem at2_arg21 : W4 m ρ c (Proc.devRef .tc main_arg21) = m ((c : Thread nD τ).loc main_arg21) := (keep1_arg21 m ρ c).trans (at1_arg21 m ρ c)
theorem keep2_arg21 : W6 m ρ c (Proc.devRef .tc main_arg21) = W4 m ρ c (Proc.devRef .tc main_arg21) :=
  (W6_of_ne m ρ c main_arg21 (by decide)).trans (by host_free hostOps2)
theorem at3_arg21 : W6 m ρ c (Proc.devRef .tc main_arg21) = m ((c : Thread nD τ).loc main_arg21) := (keep2_arg21 m ρ c).trans (at2_arg21 m ρ c)
theorem keep3_arg21 : W8 m ρ c (Proc.devRef .tc main_arg21) = W6 m ρ c (Proc.devRef .tc main_arg21) :=
  (W8_of_ne m ρ c main_arg21 (by decide)).trans (by host_free hostOps3)
theorem at4_arg21 : W8 m ρ c (Proc.devRef .tc main_arg21) = m ((c : Thread nD τ).loc main_arg21) := (keep3_arg21 m ρ c).trans (at3_arg21 m ρ c)
theorem keep4_arg21 : W10 m ρ c (Proc.devRef .tc main_arg21) = W8 m ρ c (Proc.devRef .tc main_arg21) :=
  (W10_of_ne m ρ c main_arg21 (by decide)).trans (by host_free hostOps4)
theorem at5_arg21 : W10 m ρ c (Proc.devRef .tc main_arg21) = m ((c : Thread nD τ).loc main_arg21) := (keep4_arg21 m ρ c).trans (at4_arg21 m ρ c)
theorem keep5_arg21 : W12 m ρ c (Proc.devRef .tc main_arg21) = W10 m ρ c (Proc.devRef .tc main_arg21) :=
  (W12_of_ne m ρ c main_arg21 (by decide)).trans (by host_free hostOps5)
theorem at6_arg21 : W12 m ρ c (Proc.devRef .tc main_arg21) = m ((c : Thread nD τ).loc main_arg21) := (keep5_arg21 m ρ c).trans (at5_arg21 m ρ c)
theorem keep6_arg21 : W14 m ρ c (Proc.devRef .tc main_arg21) = W12 m ρ c (Proc.devRef .tc main_arg21) :=
  (W14_of_ne m ρ c main_arg21 (by decide)).trans (by host_free hostOps6)
theorem at7_arg21 : W14 m ρ c (Proc.devRef .tc main_arg21) = m ((c : Thread nD τ).loc main_arg21) := (keep6_arg21 m ρ c).trans (at6_arg21 m ρ c)

theorem at0_arg22 : W0 m ρ c (Proc.devRef .tc main_arg22) = m ((c : Thread nD τ).loc main_arg22) := rfl
theorem keep0_arg22 : W2 m ρ c (Proc.devRef .tc main_arg22) = W0 m ρ c (Proc.devRef .tc main_arg22) :=
  (W2_of_ne m ρ c main_arg22 (by decide)).trans (by host_free hostOps0)
theorem at1_arg22 : W2 m ρ c (Proc.devRef .tc main_arg22) = m ((c : Thread nD τ).loc main_arg22) := (keep0_arg22 m ρ c).trans (at0_arg22 m ρ c)
theorem keep1_arg22 : W4 m ρ c (Proc.devRef .tc main_arg22) = W2 m ρ c (Proc.devRef .tc main_arg22) :=
  (W4_of_ne m ρ c main_arg22 (by decide)).trans (by host_free hostOps1)
theorem at2_arg22 : W4 m ρ c (Proc.devRef .tc main_arg22) = m ((c : Thread nD τ).loc main_arg22) := (keep1_arg22 m ρ c).trans (at1_arg22 m ρ c)
theorem keep2_arg22 : W6 m ρ c (Proc.devRef .tc main_arg22) = W4 m ρ c (Proc.devRef .tc main_arg22) :=
  (W6_of_ne m ρ c main_arg22 (by decide)).trans (by host_free hostOps2)
theorem at3_arg22 : W6 m ρ c (Proc.devRef .tc main_arg22) = m ((c : Thread nD τ).loc main_arg22) := (keep2_arg22 m ρ c).trans (at2_arg22 m ρ c)
theorem keep3_arg22 : W8 m ρ c (Proc.devRef .tc main_arg22) = W6 m ρ c (Proc.devRef .tc main_arg22) :=
  (W8_of_ne m ρ c main_arg22 (by decide)).trans (by host_free hostOps3)
theorem at4_arg22 : W8 m ρ c (Proc.devRef .tc main_arg22) = m ((c : Thread nD τ).loc main_arg22) := (keep3_arg22 m ρ c).trans (at3_arg22 m ρ c)
theorem keep4_arg22 : W10 m ρ c (Proc.devRef .tc main_arg22) = W8 m ρ c (Proc.devRef .tc main_arg22) :=
  (W10_of_ne m ρ c main_arg22 (by decide)).trans (by host_free hostOps4)
theorem at5_arg22 : W10 m ρ c (Proc.devRef .tc main_arg22) = m ((c : Thread nD τ).loc main_arg22) := (keep4_arg22 m ρ c).trans (at4_arg22 m ρ c)
theorem keep5_arg22 : W12 m ρ c (Proc.devRef .tc main_arg22) = W10 m ρ c (Proc.devRef .tc main_arg22) :=
  (W12_of_ne m ρ c main_arg22 (by decide)).trans (by host_free hostOps5)
theorem at6_arg22 : W12 m ρ c (Proc.devRef .tc main_arg22) = m ((c : Thread nD τ).loc main_arg22) := (keep5_arg22 m ρ c).trans (at5_arg22 m ρ c)
theorem keep6_arg22 : W14 m ρ c (Proc.devRef .tc main_arg22) = W12 m ρ c (Proc.devRef .tc main_arg22) :=
  (W14_of_ne m ρ c main_arg22 (by decide)).trans (by host_free hostOps6)
theorem at7_arg22 : W14 m ρ c (Proc.devRef .tc main_arg22) = m ((c : Thread nD τ).loc main_arg22) := (keep6_arg22 m ρ c).trans (at6_arg22 m ρ c)

theorem at0_arg23 : W0 m ρ c (Proc.devRef .tc main_arg23) = m ((c : Thread nD τ).loc main_arg23) := rfl
theorem keep0_arg23 : W2 m ρ c (Proc.devRef .tc main_arg23) = W0 m ρ c (Proc.devRef .tc main_arg23) :=
  (W2_of_ne m ρ c main_arg23 (by decide)).trans (by host_free hostOps0)
theorem at1_arg23 : W2 m ρ c (Proc.devRef .tc main_arg23) = m ((c : Thread nD τ).loc main_arg23) := (keep0_arg23 m ρ c).trans (at0_arg23 m ρ c)
theorem keep1_arg23 : W4 m ρ c (Proc.devRef .tc main_arg23) = W2 m ρ c (Proc.devRef .tc main_arg23) :=
  (W4_of_ne m ρ c main_arg23 (by decide)).trans (by host_free hostOps1)
theorem at2_arg23 : W4 m ρ c (Proc.devRef .tc main_arg23) = m ((c : Thread nD τ).loc main_arg23) := (keep1_arg23 m ρ c).trans (at1_arg23 m ρ c)
theorem keep2_arg23 : W6 m ρ c (Proc.devRef .tc main_arg23) = W4 m ρ c (Proc.devRef .tc main_arg23) :=
  (W6_of_ne m ρ c main_arg23 (by decide)).trans (by host_free hostOps2)
theorem at3_arg23 : W6 m ρ c (Proc.devRef .tc main_arg23) = m ((c : Thread nD τ).loc main_arg23) := (keep2_arg23 m ρ c).trans (at2_arg23 m ρ c)
theorem keep3_arg23 : W8 m ρ c (Proc.devRef .tc main_arg23) = W6 m ρ c (Proc.devRef .tc main_arg23) :=
  (W8_of_ne m ρ c main_arg23 (by decide)).trans (by host_free hostOps3)
theorem at4_arg23 : W8 m ρ c (Proc.devRef .tc main_arg23) = m ((c : Thread nD τ).loc main_arg23) := (keep3_arg23 m ρ c).trans (at3_arg23 m ρ c)
theorem keep4_arg23 : W10 m ρ c (Proc.devRef .tc main_arg23) = W8 m ρ c (Proc.devRef .tc main_arg23) :=
  (W10_of_ne m ρ c main_arg23 (by decide)).trans (by host_free hostOps4)
theorem at5_arg23 : W10 m ρ c (Proc.devRef .tc main_arg23) = m ((c : Thread nD τ).loc main_arg23) := (keep4_arg23 m ρ c).trans (at4_arg23 m ρ c)
theorem keep5_arg23 : W12 m ρ c (Proc.devRef .tc main_arg23) = W10 m ρ c (Proc.devRef .tc main_arg23) :=
  (W12_of_ne m ρ c main_arg23 (by decide)).trans (by host_free hostOps5)
theorem at6_arg23 : W12 m ρ c (Proc.devRef .tc main_arg23) = m ((c : Thread nD τ).loc main_arg23) := (keep5_arg23 m ρ c).trans (at5_arg23 m ρ c)
theorem keep6_arg23 : W14 m ρ c (Proc.devRef .tc main_arg23) = W12 m ρ c (Proc.devRef .tc main_arg23) :=
  (W14_of_ne m ρ c main_arg23 (by decide)).trans (by host_free hostOps6)
theorem at7_arg23 : W14 m ρ c (Proc.devRef .tc main_arg23) = m ((c : Thread nD τ).loc main_arg23) := (keep6_arg23 m ρ c).trans (at6_arg23 m ρ c)

theorem at0_arg24 : W0 m ρ c (Proc.devRef .tc main_arg24) = m ((c : Thread nD τ).loc main_arg24) := rfl
theorem keep0_arg24 : W2 m ρ c (Proc.devRef .tc main_arg24) = W0 m ρ c (Proc.devRef .tc main_arg24) :=
  (W2_of_ne m ρ c main_arg24 (by decide)).trans (by host_free hostOps0)
theorem at1_arg24 : W2 m ρ c (Proc.devRef .tc main_arg24) = m ((c : Thread nD τ).loc main_arg24) := (keep0_arg24 m ρ c).trans (at0_arg24 m ρ c)
theorem keep1_arg24 : W4 m ρ c (Proc.devRef .tc main_arg24) = W2 m ρ c (Proc.devRef .tc main_arg24) :=
  (W4_of_ne m ρ c main_arg24 (by decide)).trans (by host_free hostOps1)
theorem at2_arg24 : W4 m ρ c (Proc.devRef .tc main_arg24) = m ((c : Thread nD τ).loc main_arg24) := (keep1_arg24 m ρ c).trans (at1_arg24 m ρ c)
theorem keep2_arg24 : W6 m ρ c (Proc.devRef .tc main_arg24) = W4 m ρ c (Proc.devRef .tc main_arg24) :=
  (W6_of_ne m ρ c main_arg24 (by decide)).trans (by host_free hostOps2)
theorem at3_arg24 : W6 m ρ c (Proc.devRef .tc main_arg24) = m ((c : Thread nD τ).loc main_arg24) := (keep2_arg24 m ρ c).trans (at2_arg24 m ρ c)
theorem keep3_arg24 : W8 m ρ c (Proc.devRef .tc main_arg24) = W6 m ρ c (Proc.devRef .tc main_arg24) :=
  (W8_of_ne m ρ c main_arg24 (by decide)).trans (by host_free hostOps3)
theorem at4_arg24 : W8 m ρ c (Proc.devRef .tc main_arg24) = m ((c : Thread nD τ).loc main_arg24) := (keep3_arg24 m ρ c).trans (at3_arg24 m ρ c)
theorem keep4_arg24 : W10 m ρ c (Proc.devRef .tc main_arg24) = W8 m ρ c (Proc.devRef .tc main_arg24) :=
  (W10_of_ne m ρ c main_arg24 (by decide)).trans (by host_free hostOps4)
theorem at5_arg24 : W10 m ρ c (Proc.devRef .tc main_arg24) = m ((c : Thread nD τ).loc main_arg24) := (keep4_arg24 m ρ c).trans (at4_arg24 m ρ c)
theorem keep5_arg24 : W12 m ρ c (Proc.devRef .tc main_arg24) = W10 m ρ c (Proc.devRef .tc main_arg24) :=
  (W12_of_ne m ρ c main_arg24 (by decide)).trans (by host_free hostOps5)
theorem at6_arg24 : W12 m ρ c (Proc.devRef .tc main_arg24) = m ((c : Thread nD τ).loc main_arg24) := (keep5_arg24 m ρ c).trans (at5_arg24 m ρ c)
theorem keep6_arg24 : W14 m ρ c (Proc.devRef .tc main_arg24) = W12 m ρ c (Proc.devRef .tc main_arg24) :=
  (W14_of_ne m ρ c main_arg24 (by decide)).trans (by host_free hostOps6)
theorem at7_arg24 : W14 m ρ c (Proc.devRef .tc main_arg24) = m ((c : Thread nD τ).loc main_arg24) := (keep6_arg24 m ρ c).trans (at6_arg24 m ρ c)

theorem at0_arg2 : W0 m ρ c (Proc.devRef .tc main_arg2) = m ((c : Thread nD τ).loc main_arg2) := rfl
theorem keep0_arg2 : W2 m ρ c (Proc.devRef .tc main_arg2) = W0 m ρ c (Proc.devRef .tc main_arg2) :=
  (W2_of_ne m ρ c main_arg2 (by decide)).trans (by host_free hostOps0)
theorem at1_arg2 : W2 m ρ c (Proc.devRef .tc main_arg2) = m ((c : Thread nD τ).loc main_arg2) := (keep0_arg2 m ρ c).trans (at0_arg2 m ρ c)
theorem keep1_arg2 : W4 m ρ c (Proc.devRef .tc main_arg2) = W2 m ρ c (Proc.devRef .tc main_arg2) :=
  (W4_of_ne m ρ c main_arg2 (by decide)).trans (by host_free hostOps1)
theorem at2_arg2 : W4 m ρ c (Proc.devRef .tc main_arg2) = m ((c : Thread nD τ).loc main_arg2) := (keep1_arg2 m ρ c).trans (at1_arg2 m ρ c)
theorem keep2_arg2 : W6 m ρ c (Proc.devRef .tc main_arg2) = W4 m ρ c (Proc.devRef .tc main_arg2) :=
  (W6_of_ne m ρ c main_arg2 (by decide)).trans (by host_free hostOps2)
theorem at3_arg2 : W6 m ρ c (Proc.devRef .tc main_arg2) = m ((c : Thread nD τ).loc main_arg2) := (keep2_arg2 m ρ c).trans (at2_arg2 m ρ c)
theorem keep3_arg2 : W8 m ρ c (Proc.devRef .tc main_arg2) = W6 m ρ c (Proc.devRef .tc main_arg2) :=
  (W8_of_ne m ρ c main_arg2 (by decide)).trans (by host_free hostOps3)
theorem at4_arg2 : W8 m ρ c (Proc.devRef .tc main_arg2) = m ((c : Thread nD τ).loc main_arg2) := (keep3_arg2 m ρ c).trans (at3_arg2 m ρ c)
theorem keep4_arg2 : W10 m ρ c (Proc.devRef .tc main_arg2) = W8 m ρ c (Proc.devRef .tc main_arg2) :=
  (W10_of_ne m ρ c main_arg2 (by decide)).trans (by host_free hostOps4)
theorem at5_arg2 : W10 m ρ c (Proc.devRef .tc main_arg2) = m ((c : Thread nD τ).loc main_arg2) := (keep4_arg2 m ρ c).trans (at4_arg2 m ρ c)
theorem keep5_arg2 : W12 m ρ c (Proc.devRef .tc main_arg2) = W10 m ρ c (Proc.devRef .tc main_arg2) :=
  (W12_of_ne m ρ c main_arg2 (by decide)).trans (by host_free hostOps5)
theorem at6_arg2 : W12 m ρ c (Proc.devRef .tc main_arg2) = m ((c : Thread nD τ).loc main_arg2) := (keep5_arg2 m ρ c).trans (at5_arg2 m ρ c)
theorem keep6_arg2 : W14 m ρ c (Proc.devRef .tc main_arg2) = W12 m ρ c (Proc.devRef .tc main_arg2) :=
  (W14_of_ne m ρ c main_arg2 (by decide)).trans (by host_free hostOps6)
theorem at7_arg2 : W14 m ρ c (Proc.devRef .tc main_arg2) = m ((c : Thread nD τ).loc main_arg2) := (keep6_arg2 m ρ c).trans (at6_arg2 m ρ c)

theorem at1_v1 : W2 m ρ c (Proc.devRef .tc main_v1) = W1 m ρ c (Proc.devRef .tc main_v1) := W2_of_ne m ρ c main_v1 (by decide)
theorem keep1_v1 : W4 m ρ c (Proc.devRef .tc main_v1) = W2 m ρ c (Proc.devRef .tc main_v1) :=
  (W4_of_ne m ρ c main_v1 (by decide)).trans (by host_free hostOps1)
theorem at2_v1 : W4 m ρ c (Proc.devRef .tc main_v1) = W1 m ρ c (Proc.devRef .tc main_v1) := (keep1_v1 m ρ c).trans (at1_v1 m ρ c)
theorem keep2_v1 : W6 m ρ c (Proc.devRef .tc main_v1) = W4 m ρ c (Proc.devRef .tc main_v1) :=
  (W6_of_ne m ρ c main_v1 (by decide)).trans (by host_free hostOps2)
theorem at3_v1 : W6 m ρ c (Proc.devRef .tc main_v1) = W1 m ρ c (Proc.devRef .tc main_v1) := (keep2_v1 m ρ c).trans (at2_v1 m ρ c)
theorem keep3_v1 : W8 m ρ c (Proc.devRef .tc main_v1) = W6 m ρ c (Proc.devRef .tc main_v1) :=
  (W8_of_ne m ρ c main_v1 (by decide)).trans (by host_free hostOps3)
theorem at4_v1 : W8 m ρ c (Proc.devRef .tc main_v1) = W1 m ρ c (Proc.devRef .tc main_v1) := (keep3_v1 m ρ c).trans (at3_v1 m ρ c)
theorem keep4_v1 : W10 m ρ c (Proc.devRef .tc main_v1) = W8 m ρ c (Proc.devRef .tc main_v1) :=
  (W10_of_ne m ρ c main_v1 (by decide)).trans (by host_free hostOps4)
theorem at5_v1 : W10 m ρ c (Proc.devRef .tc main_v1) = W1 m ρ c (Proc.devRef .tc main_v1) := (keep4_v1 m ρ c).trans (at4_v1 m ρ c)
theorem keep5_v1 : W12 m ρ c (Proc.devRef .tc main_v1) = W10 m ρ c (Proc.devRef .tc main_v1) :=
  (W12_of_ne m ρ c main_v1 (by decide)).trans (by host_free hostOps5)
theorem at6_v1 : W12 m ρ c (Proc.devRef .tc main_v1) = W1 m ρ c (Proc.devRef .tc main_v1) := (keep5_v1 m ρ c).trans (at5_v1 m ρ c)
theorem keep6_v1 : W14 m ρ c (Proc.devRef .tc main_v1) = W12 m ρ c (Proc.devRef .tc main_v1) :=
  (W14_of_ne m ρ c main_v1 (by decide)).trans (by host_free hostOps6)
theorem at7_v1 : W14 m ρ c (Proc.devRef .tc main_v1) = W1 m ρ c (Proc.devRef .tc main_v1) := (keep6_v1 m ρ c).trans (at6_v1 m ρ c)

theorem at1_v3 : W2 m ρ c (Proc.devRef .tc main_v3) = W1 m ρ c (Proc.devRef .tc main_v3) := W2_of_ne m ρ c main_v3 (by decide)
theorem keep1_v3 : W4 m ρ c (Proc.devRef .tc main_v3) = W2 m ρ c (Proc.devRef .tc main_v3) :=
  (W4_of_ne m ρ c main_v3 (by decide)).trans (by host_free hostOps1)
theorem at2_v3 : W4 m ρ c (Proc.devRef .tc main_v3) = W1 m ρ c (Proc.devRef .tc main_v3) := (keep1_v3 m ρ c).trans (at1_v3 m ρ c)
theorem keep2_v3 : W6 m ρ c (Proc.devRef .tc main_v3) = W4 m ρ c (Proc.devRef .tc main_v3) :=
  (W6_of_ne m ρ c main_v3 (by decide)).trans (by host_free hostOps2)
theorem at3_v3 : W6 m ρ c (Proc.devRef .tc main_v3) = W1 m ρ c (Proc.devRef .tc main_v3) := (keep2_v3 m ρ c).trans (at2_v3 m ρ c)
theorem keep3_v3 : W8 m ρ c (Proc.devRef .tc main_v3) = W6 m ρ c (Proc.devRef .tc main_v3) :=
  (W8_of_ne m ρ c main_v3 (by decide)).trans (by host_free hostOps3)
theorem at4_v3 : W8 m ρ c (Proc.devRef .tc main_v3) = W1 m ρ c (Proc.devRef .tc main_v3) := (keep3_v3 m ρ c).trans (at3_v3 m ρ c)
theorem keep4_v3 : W10 m ρ c (Proc.devRef .tc main_v3) = W8 m ρ c (Proc.devRef .tc main_v3) :=
  (W10_of_ne m ρ c main_v3 (by decide)).trans (by host_free hostOps4)
theorem at5_v3 : W10 m ρ c (Proc.devRef .tc main_v3) = W1 m ρ c (Proc.devRef .tc main_v3) := (keep4_v3 m ρ c).trans (at4_v3 m ρ c)
theorem keep5_v3 : W12 m ρ c (Proc.devRef .tc main_v3) = W10 m ρ c (Proc.devRef .tc main_v3) :=
  (W12_of_ne m ρ c main_v3 (by decide)).trans (by host_free hostOps5)
theorem at6_v3 : W12 m ρ c (Proc.devRef .tc main_v3) = W1 m ρ c (Proc.devRef .tc main_v3) := (keep5_v3 m ρ c).trans (at5_v3 m ρ c)
theorem keep6_v3 : W14 m ρ c (Proc.devRef .tc main_v3) = W12 m ρ c (Proc.devRef .tc main_v3) :=
  (W14_of_ne m ρ c main_v3 (by decide)).trans (by host_free hostOps6)
theorem at7_v3 : W14 m ρ c (Proc.devRef .tc main_v3) = W1 m ρ c (Proc.devRef .tc main_v3) := (keep6_v3 m ρ c).trans (at6_v3 m ρ c)

theorem at1_v12 : W2 m ρ c (Proc.devRef .tc main_v12) = W1 m ρ c (Proc.devRef .tc main_v12) := W2_of_ne m ρ c main_v12 (by decide)
theorem keep1_v12 : W4 m ρ c (Proc.devRef .tc main_v12) = W2 m ρ c (Proc.devRef .tc main_v12) :=
  (W4_of_ne m ρ c main_v12 (by decide)).trans (by host_free hostOps1)
theorem at2_v12 : W4 m ρ c (Proc.devRef .tc main_v12) = W1 m ρ c (Proc.devRef .tc main_v12) := (keep1_v12 m ρ c).trans (at1_v12 m ρ c)
theorem keep2_v12 : W6 m ρ c (Proc.devRef .tc main_v12) = W4 m ρ c (Proc.devRef .tc main_v12) :=
  (W6_of_ne m ρ c main_v12 (by decide)).trans (by host_free hostOps2)
theorem at3_v12 : W6 m ρ c (Proc.devRef .tc main_v12) = W1 m ρ c (Proc.devRef .tc main_v12) := (keep2_v12 m ρ c).trans (at2_v12 m ρ c)
theorem keep3_v12 : W8 m ρ c (Proc.devRef .tc main_v12) = W6 m ρ c (Proc.devRef .tc main_v12) :=
  (W8_of_ne m ρ c main_v12 (by decide)).trans (by host_free hostOps3)
theorem at4_v12 : W8 m ρ c (Proc.devRef .tc main_v12) = W1 m ρ c (Proc.devRef .tc main_v12) := (keep3_v12 m ρ c).trans (at3_v12 m ρ c)
theorem keep4_v12 : W10 m ρ c (Proc.devRef .tc main_v12) = W8 m ρ c (Proc.devRef .tc main_v12) :=
  (W10_of_ne m ρ c main_v12 (by decide)).trans (by host_free hostOps4)
theorem at5_v12 : W10 m ρ c (Proc.devRef .tc main_v12) = W1 m ρ c (Proc.devRef .tc main_v12) := (keep4_v12 m ρ c).trans (at4_v12 m ρ c)

end Cert.KernelIdeal.KKeep

end
-- ==== Proof.KChain.lean ====
/-
  The kernel program's run, boundary by boundary, holds the named stages.

  The run is a chain of boundaries: a stretch of host operations, then a region, eight times, then a closing stretch.
  At the exit of region k the region's output array is the stage function of the arrays the region found (its closed
  form), and those are what the stretch before it left: the previous stage, the transposed weights, the bias row, the
  neighbourhood mean of the previous stage. The argument arrays, the two index vectors and the degree column reach
  each stretch unchanged, because no region and no earlier stretch writes them. So by induction along the chain the
  output array of region k is stage k of the argument arrays, and the result buffer is the closing average of the
  edge stage.
-/
import proofs.«130552_j4191888081216_2_alg».proof.Proof.Gen.KernelIdeal.Frame
import proofs.«130552_j4191888081216_2_alg».proof.Proof.Region0
import proofs.«130552_j4191888081216_2_alg».proof.Proof.Region1
import proofs.«130552_j4191888081216_2_alg».proof.Proof.Region2
import proofs.«130552_j4191888081216_2_alg».proof.Proof.Region3
import proofs.«130552_j4191888081216_2_alg».proof.Proof.Region4
import proofs.«130552_j4191888081216_2_alg».proof.Proof.Region5
import proofs.«130552_j4191888081216_2_alg».proof.Proof.Region6
import proofs.«130552_j4191888081216_2_alg».proof.Proof.Region7
import proofs.«130552_j4191888081216_2_alg».proof.Proof.KStages
import proofs.«130552_j4191888081216_2_alg».proof.Proof.KHost
import proofs.«130552_j4191888081216_2_alg».proof.Proof.KKeep

set_option maxRecDepth 16384

noncomputable section

namespace Cert.KernelIdeal.KChain

open Idealize.ShloMosaic Idealize.ShloMosaic.TcCoe Idealize.ShloMosaic.StableHlo Idealize.SL.Sem
open Cert.KernelIdeal Cert.KernelIdeal.Gen Cert.Sage
open Cert.KernelIdeal.Stages

variable (m : (ℓ : Loc nD τ sig) → Buf (Elt Ideal) ℓ) (ρ : Dev nD → PrngReg) (c : Dev nD)

/-- The argument arrays of the launch memory. -/
def args : Args where
  a0 := m ((c : Thread nD τ).loc main_arg0)
  a1 := m ((c : Thread nD τ).loc main_arg1)
  a2 := m ((c : Thread nD τ).loc main_arg2)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)
  a9 := m ((c : Thread nD τ).loc main_arg9)
  a10 := m ((c : Thread nD τ).loc main_arg10)
  a11 := m ((c : Thread nD τ).loc main_arg11)
  a12 := m ((c : Thread nD τ).loc main_arg12)
  a13 := m ((c : Thread nD τ).loc main_arg13)
  a14 := m ((c : Thread nD τ).loc main_arg14)
  a15 := m ((c : Thread nD τ).loc main_arg15)
  a16 := m ((c : Thread nD τ).loc main_arg16)
  a17 := m ((c : Thread nD τ).loc main_arg17)
  a18 := m ((c : Thread nD τ).loc main_arg18)
  a19 := m ((c : Thread nD τ).loc main_arg19)
  a20 := m ((c : Thread nD τ).loc main_arg20)
  a21 := m ((c : Thread nD τ).loc main_arg21)
  a22 := m ((c : Thread nD τ).loc main_arg22)
  a23 := m ((c : Thread nD τ).loc main_arg23)
  a24 := m ((c : Thread nD τ).loc main_arg24)

local notation "𝐚" => args m c

/-! ## The first stretch: the index vectors, the degree column -/

theorem w1_v1 : W1 m ρ c (Proc.devRef .tc main_v1) = src 𝐚 := KHost.s0_v1 (W0 m ρ c)
theorem w1_v3 : W1 m ρ c (Proc.devRef .tc main_v3) = dst 𝐚 := KHost.s0_v3 (W0 m ρ c)
theorem w1_v12 : W1 m ρ c (Proc.devRef .tc main_v12) = dinv 𝐚 := KHost.s0_v12 (W0 m ρ c)

theorem e1_v1 : W2 m ρ c (Proc.devRef .tc main_v1) = src 𝐚 := (KKeep.at1_v1 m ρ c).trans (w1_v1 m ρ c)
theorem e1_v3 : W2 m ρ c (Proc.devRef .tc main_v3) = dst 𝐚 := (KKeep.at1_v3 m ρ c).trans (w1_v3 m ρ c)
theorem e1_v12 : W2 m ρ c (Proc.devRef .tc main_v12) = dinv 𝐚 := (KKeep.at1_v12 m ρ c).trans (w1_v12 m ρ c)
theorem e2_v1 : W4 m ρ c (Proc.devRef .tc main_v1) = src 𝐚 := (KKeep.at2_v1 m ρ c).trans (w1_v1 m ρ c)
theorem e2_v3 : W4 m ρ c (Proc.devRef .tc main_v3) = dst 𝐚 := (KKeep.at2_v3 m ρ c).trans (w1_v3 m ρ c)
theorem e2_v12 : W4 m ρ c (Proc.devRef .tc main_v12) = dinv 𝐚 := (KKeep.at2_v12 m ρ c).trans (w1_v12 m ρ c)
theorem e3_v1 : W6 m ρ c (Proc.devRef .tc main_v1) = src 𝐚 := (KKeep.at3_v1 m ρ c).trans (w1_v1 m ρ c)
theorem e3_v3 : W6 m ρ c (Proc.devRef .tc main_v3) = dst 𝐚 := (KKeep.at3_v3 m ρ c).trans (w1_v3 m ρ c)
theorem e3_v12 : W6 m ρ c (Proc.devRef .tc main_v12) = dinv 𝐚 := (KKeep.at3_v12 m ρ c).trans (w1_v12 m ρ c)
theorem e4_v1 : W8 m ρ c (Proc.devRef .tc main_v1) = src 𝐚 := (KKeep.at4_v1 m ρ c).trans (w1_v1 m ρ c)
theorem e4_v3 : W8 m ρ c (Proc.devRef .tc main_v3) = dst 𝐚 := (KKeep.at4_v3 m ρ c).trans (w1_v3 m ρ c)
theorem e4_v12 : W8 m ρ c (Proc.devRef .tc main_v12) = dinv 𝐚 := (KKeep.at4_v12 m ρ c).trans (w1_v12 m ρ c)
theorem e5_v1 : W10 m ρ c (Proc.devRef .tc main_v1) = src 𝐚 := (KKeep.at5_v1 m ρ c).trans (w1_v1 m ρ c)
theorem e5_v3 : W10 m ρ c (Proc.devRef .tc main_v3) = dst 𝐚 := (KKeep.at5_v3 m ρ c).trans (w1_v3 m ρ c)
theorem e5_v12 : W10 m ρ c (Proc.devRef .tc main_v12) = dinv 𝐚 := (KKeep.at5_v12 m ρ c).trans (w1_v12 m ρ c)
theorem e6_v1 : W12 m ρ c (Proc.devRef .tc main_v1) = src 𝐚 := (KKeep.at6_v1 m ρ c).trans (w1_v1 m ρ c)
theorem e6_v3 : W12 m ρ c (Proc.devRef .tc main_v3) = dst 𝐚 := (KKeep.at6_v3 m ρ c).trans (w1_v3 m ρ c)
theorem e7_v1 : W14 m ρ c (Proc.devRef .tc main_v1) = src 𝐚 := (KKeep.at7_v1 m ρ c).trans (w1_v1 m ρ c)
theorem e7_v3 : W14 m ρ c (Proc.devRef .tc main_v3) = dst 𝐚 := (KKeep.at7_v3 m ρ c).trans (w1_v3 m ρ c)

/-! ## Region 0: the first dense layer -/

set_option maxHeartbeats 2000000 in
theorem x2 : W2 m ρ c (Proc.devRef .tc main_v15) = h0 𝐚 := by
  refine (W2_arr m ρ c 3).trans ((Region0.final (V1 m ρ) c).trans ?_)
  have e0 : V1 m ρ c (Pipeline.arrRef spec0 0) = (𝐚).a0 := KHost.s0_arg0 (W0 m ρ c)
  have e1 : V1 m ρ c (Pipeline.arrRef spec0 1) = transpose S128x256 [1, 0] (𝐚).a4 Facts₀.transposes_S256x128_S128x256_1_0 := KHost.s0_v13 (W0 m ρ c)
  have e2 : V1 m ρ c (Pipeline.arrRef spec0 2) = row256 (𝐚).a5 := KHost.s0_v14 (W0 m ρ c)
  rw [e0, e1, e2]; rfl

/-! ## Region 1: the first neighbourhood layer -/

set_option maxHeartbeats 2000000 in
theorem x4 : W4 m ρ c (Proc.devRef .tc main_v31) = h1 𝐚 := by
  refine (W4_arr m ρ c 5).trans ((Region1.final (V3 m ρ) c).trans ?_)
  have e0 : V3 m ρ c (Pipeline.arrRef spec1 0) = Net.mean (h0 𝐚) (src 𝐚) (dst 𝐚) (dinv 𝐚) := by
    refine (KHost.s1_v27 (W2 m ρ c)).trans ?_
    rw [x2 m ρ c, e1_v1 m ρ c, e1_v3 m ρ c, e1_v12 m ρ c]
  have e1 : V3 m ρ c (Pipeline.arrRef spec1 1) = h0 𝐚 := (KHost.s1_v15 (W2 m ρ c)).trans (x2 m ρ c)
  have e2 : V3 m ρ c (Pipeline.arrRef spec1 2) = T256 (𝐚).a6 := by
    refine (KHost.s1_v28 (W2 m ρ c)).trans ?_; rw [KKeep.at1_arg6 m ρ c]; rfl
  have e3 : V3 m ρ c (Pipeline.arrRef spec1 3) = row256 (𝐚).a7 := by
    refine (KHost.s1_v30 (W2 m ρ c)).trans ?_; rw [KKeep.at1_arg7 m ρ c]; rfl
  have e4 : V3 m ρ c (Pipeline.arrRef spec1 4) = T256 (𝐚).a8 := by
    refine (KHost.s1_v29 (W2 m ρ c)).trans ?_; rw [KKeep.at1_arg8 m ρ c]; rfl
  rw [e0, e1, e2, e3, e4]; rfl

/-! ## Region 2: the second dense layer -/

set_option maxHeartbeats 2000000 in
theorem x6 : W6 m ρ c (Proc.devRef .tc main_v34) = h2 𝐚 := by
  refine (W6_arr m ρ c 3).trans ((Region2.final (V5 m ρ) c).trans ?_)
  have e0 : V5 m ρ c (Pipeline.arrRef spec2 0) = h1 𝐚 := (KHost.s2_v31 (W4 m ρ c)).trans (x4 m ρ c)
  have e1 : V5 m ρ c (Pipeline.arrRef spec2 1) = T256 (𝐚).a15 := by
    refine (KHost.s2_v32 (W4 m ρ c)).trans ?_; rw [KKeep.at2_arg15 m ρ c]; rfl
  have e2 : V5 m ρ c (Pipeline.arrRef spec2 2) = row256 (𝐚).a16 := by
    refine (KHost.s2_v33 (W4 m ρ c)).trans ?_; rw [KKeep.at2_arg16 m ρ c]; rfl
  rw [e0, e1, e2]; rfl

/-! ## Region 3: the second neighbourhood layer -/

set_option maxHeartbeats 2000000 in
theorem x8 : W8 m ρ c (Proc.devRef .tc main_v50) = h3 𝐚 := by
  refine (W8_arr m ρ c 5).trans ((Region3.final (V7 m ρ) c).trans ?_)
  have e0 : V7 m ρ c (Pipeline.arrRef spec3 0) = Net.mean (h2 𝐚) (src 𝐚) (dst 𝐚) (dinv 𝐚) := by
    refine (KHost.s3_v46 (W6 m ρ c)).trans ?_
    rw [x6 m ρ c, e3_v1 m ρ c, e3_v3 m ρ c, e3_v12 m ρ c]
  have e1 : V7 m ρ c (Pipeline.arrRef spec3 1) = h2 𝐚 := (KHost.s3_v34 (W6 m ρ c)).trans (x6 m ρ c)
  have e2 : V7 m ρ c (Pipeline.arrRef spec3 2) = T256 (𝐚).a9 := by
    refine (KHost.s3_v47 (W6 m ρ c)).trans ?_; rw [KKeep.at3_arg9 m ρ c]; rfl
  have e3 : V7 m ρ c (Pipeline.arrRef spec3 3) = row256 (𝐚).a10 := by
    refine (KHost.s3_v49 (W6 m ρ c)).trans ?_; rw [KKeep.at3_arg10 m ρ c]; rfl
  have e4 : V7 m ρ c (Pipeline.arrRef spec3 4) = T256 (𝐚).a11 := by
    refine (KHost.s3_v48 (W6 m ρ c)).trans ?_; rw [KKeep.at3_arg11 m ρ c]; rfl
  exact congr (congr (congr (congr (congrArg (Spec.sage (m := 25000) (n := 256) (p := 256) Spec.relu) e0) e1) e2) e3) e4

/-! ## Region 4: the third dense layer -/

set_option maxHeartbeats 2000000 in
theorem x10 : W10 m ρ c (Proc.devRef .tc main_v53) = h4 𝐚 := by
  refine (W10_arr m ρ c 3).trans ((Region4.final (V9 m ρ) c).trans ?_)
  have e0 : V9 m ρ c (Pipeline.arrRef spec4 0) = h3 𝐚 := (KHost.s4_v50 (W8 m ρ c)).trans (x8 m ρ c)
  have e1 : V9 m ρ c (Pipeline.arrRef spec4 1) = T256 (𝐚).a17 := by
    refine (KHost.s4_v51 (W8 m ρ c)).trans ?_; rw [KKeep.at4_arg17 m ρ c]; rfl
  have e2 : V9 m ρ c (Pipeline.arrRef spec4 2) = row256 (𝐚).a18 := by
    refine (KHost.s4_v52 (W8 m ρ c)).trans ?_; rw [KKeep.at4_arg18 m ρ c]; rfl
  rw [e0, e1, e2]; rfl

/-! ## Region 5: the third neighbourhood layer -/

set_option maxHeartbeats 2000000 in
theorem x12 : W12 m ρ c (Proc.devRef .tc main_v69) = h5 𝐚 := by
  refine (W12_arr m ρ c 5).trans ((Region5.final (V11 m ρ) c).trans ?_)
  have e0 : V11 m ρ c (Pipeline.arrRef spec5 0) = Net.mean (h4 𝐚) (src 𝐚) (dst 𝐚) (dinv 𝐚) := by
    refine (KHost.s5_v65 (W10 m ρ c)).trans ?_
    rw [x10 m ρ c, e5_v1 m ρ c, e5_v3 m ρ c, e5_v12 m ρ c]
  have e1 : V11 m ρ c (Pipeline.arrRef spec5 1) = h4 𝐚 := (KHost.s5_v53 (W10 m ρ c)).trans (x10 m ρ c)
  have e2 : V11 m ρ c (Pipeline.arrRef spec5 2) = transpose S256x128 [1, 0] (𝐚).a12 Facts₀.transposes_S128x256_S256x128_1_0 := by
    refine (KHost.s5_v66 (W10 m ρ c)).trans ?_; rw [KKeep.at5_arg12 m ρ c]; rfl
  have e3 : V11 m ρ c (Pipeline.arrRef spec5 3) = row128 (𝐚).a13 := by
    refine (KHost.s5_v68 (W10 m ρ c)).trans ?_; rw [KKeep.at5_arg13 m ρ c]; rfl
  have e4 : V11 m ρ c (Pipeline.arrRef spec5 4) = transpose S256x128 [1, 0] (𝐚).a14 Facts₀.transposes_S128x256_S256x128_1_0 := by
    refine (KHost.s5_v67 (W10 m ρ c)).trans ?_; rw [KKeep.at5_arg14 m ρ c]; rfl
  exact congr (congr (congr (congr (congrArg (Spec.sage (m := 25000) (n := 256) (p := 128) Spec.relu) e0) e1) e2) e3) e4

/-! ## Region 6: the last dense layer -/

set_option maxHeartbeats 2000000 in
theorem x14 : W14 m ρ c (Proc.devRef .tc main_v72) = h6 𝐚 := by
  refine (W14_arr m ρ c 3).trans ((Region6.final (V13 m ρ) c).trans ?_)
  have e0 : V13 m ρ c (Pipeline.arrRef spec6 0) = h5 𝐚 := (KHost.s6_v69 (W12 m ρ c)).trans (x12 m ρ c)
  have e1 : V13 m ρ c (Pipeline.arrRef spec6 1) = transpose S128x128 [1, 0] (𝐚).a19 Facts₀.transposes_S128x128_S128x128_1_0 := by
    refine (KHost.s6_v70 (W12 m ρ c)).trans ?_; rw [KKeep.at6_arg19 m ρ c]; rfl
  have e2 : V13 m ρ c (Pipeline.arrRef spec6 2) = row128 (𝐚).a20 := by
    refine (KHost.s6_v71 (W12 m ρ c)).trans ?_; rw [KKeep.at6_arg20 m ρ c]; rfl
  rw [e0, e1, e2]; rfl

/-! ## Region 7: the edge stage -/

set_option maxHeartbeats 2000000 in
theorem x16 : W16 m ρ c (Proc.devRef .tc main_v110) = edge 𝐚 := by
  refine (W16_arr m ρ c 11).trans ((Region7.final (V15 m ρ) c).trans ?_)
  have e0 : V15 m ρ c (Pipeline.arrRef spec7 0) = Net.take96 (h6 𝐚) (src 𝐚) := by
    refine (KHost.s7_v82 (W14 m ρ c)).trans ?_; rw [x14 m ρ c, e7_v1 m ρ c]
  have e1 : V15 m ρ c (Pipeline.arrRef spec7 1) = Net.take96 (h6 𝐚) (dst 𝐚) := by
    refine (KHost.s7_v89 (W14 m ρ c)).trans ?_; rw [x14 m ρ c, e7_v3 m ρ c]
  have e2 : V15 m ρ c (Pipeline.arrRef spec7 2) = Net.take32 (h6 𝐚) (src 𝐚) := by
    refine (KHost.s7_v96 (W14 m ρ c)).trans ?_; rw [x14 m ρ c, e7_v1 m ρ c]
  have e3 : V15 m ρ c (Pipeline.arrRef spec7 3) = Net.take32 (h6 𝐚) (dst 𝐚) := by
    refine (KHost.s7_v103 (W14 m ρ c)).trans ?_; rw [x14 m ρ c, e7_v3 m ρ c]
  have e4 : V15 m ρ c (Pipeline.arrRef spec7 4) = (𝐚).a2 := by
    refine (KHost.s7_arg2 (W14 m ρ c)).trans ?_; rw [KKeep.at7_arg2 m ρ c]; rfl
  have e5 : V15 m ρ c (Pipeline.arrRef spec7 5) = extractStridedSlice S1x96 ![0, 0] (𝐚).a21 Facts₀.slices_S1x192_S1x96_0_0 := by
    refine (KHost.s7_v104 (W14 m ρ c)).trans ?_; rw [KKeep.at7_arg21 m ρ c]; rfl
  have e6 : V15 m ρ c (Pipeline.arrRef spec7 6) = extractStridedSlice S1x96 ![0, 96] (𝐚).a21 Facts₀.slices_S1x192_S1x96_0_96 := by
    refine (KHost.s7_v105 (W14 m ρ c)).trans ?_; rw [KKeep.at7_arg21 m ρ c]; rfl
  have e7 : V15 m ρ c (Pipeline.arrRef spec7 7) = shapeCast S1x1 (𝐚).a22 Facts₀.shapeCasts_S1_S1x1 := by
    refine (KHost.s7_v108 (W14 m ρ c)).trans ?_; rw [KKeep.at7_arg22 m ρ c]; rfl
  have e8 : V15 m ρ c (Pipeline.arrRef spec7 8) = extractStridedSlice S1x32 ![0, 0] (𝐚).a23 Facts₀.slices_S1x64_S1x32_0_0 := by
    refine (KHost.s7_v106 (W14 m ρ c)).trans ?_; rw [KKeep.at7_arg23 m ρ c]; rfl
  have e9 : V15 m ρ c (Pipeline.arrRef spec7 9) = extractStridedSlice S1x32 ![0, 32] (𝐚).a23 Facts₀.slices_S1x64_S1x32_0_32 := by
    refine (KHost.s7_v107 (W14 m ρ c)).trans ?_; rw [KKeep.at7_arg23 m ρ c]; rfl
  have e10 : V15 m ρ c (Pipeline.arrRef spec7 10) = shapeCast S1x1 (𝐚).a24 Facts₀.shapeCasts_S1_S1x1 := by
    refine (KHost.s7_v109 (W14 m ρ c)).trans ?_; rw [KKeep.at7_arg24 m ρ c]; rfl
  exact congr (congr (congr (congr (congr (congr (congr (congr (congr (congr (congrArg (Spec.edge (e := 600000)) e0) e1) e2) e3) e4) e5) e6) e7) e8) e9) e10

/-! ## The closing stretch -/

/-- The result buffer at the last boundary is the closing average of the edge stage of the argument arrays. -/
theorem result_eq : W17 m ρ c (Proc.devRef .tc main_v115) = result 𝐚 := by
  refine (KHost.s8_v115 (W16 m ρ c)).trans ?_
  rw [x16 m ρ c]; rfl

end Cert.KernelIdeal.KChain

end
-- ==== Proof.SpecRef.lean ====
/-
  The same stages in the other program's grouping, and the laws that join the two groupings.

  The neighbourhood layer may add its bias before the node's own term:  (Σ mean·lw + lb) + Σ x·rw.  The edge stage may
  take one dot product of length 2n over the two endpoint rows laid side by side, against a weight column. Addition of
  extended reals is commutative and associative, and a sum over 2n positions splits into its two halves, with no
  finiteness assumption; so the groupings agree.
-/
import proofs.«130552_j4191888081216_2_alg».proof.Proof.Spec

noncomputable section

open scoped BigOperators

namespace Cert.Sage.Spec

open Idealize.ShloMosaic Idealize.ShloMosaic.ValueIdx

/-- A neighbourhood layer with the bias added before the node's own term. -/
def sageMid {m n p : Nat} (act : EReal → EReal) (mean x : Tab m n) (lw : Tab n p) (lb : Tab 1 p) (rw : Tab n p) :
    Tab m p :=
  fun i => act (((∑ k : Fin n, mean (ix2 (i 0) k) * lw (ix2 k (i 1))) + lb (ix2 0 (i 1)))
    + ∑ k : Fin n, x (ix2 (i 0) k) * rw (ix2 k (i 1)))

theorem sageMid_eq {m n p : Nat} (act : EReal → EReal) (mean x : Tab m n) (lw : Tab n p) (lb : Tab 1 p) (rw : Tab n p) :
    sageMid act mean x lw lb rw = sage act mean x lw lb rw := by
  funext i
  unfold sageMid sage
  rw [add_right_comm]

/-- One half of the edge stage as ONE dot product of a row of length n against a weight column. -/
def edgeColHalf {e n : Nat} (cat : Tab e n) (w : Tab n 1) (b : Tab 1 1) (r : Fin e) : EReal :=
  relu ((∑ k : Fin n, cat (ix2 r k) * w (ix2 k 0)) + b (ix2 0 0))

/-- The edge stage over side-by-side endpoint rows. -/
def edgeCol {e : Nat} (cat96 : Tab e 192) (cat32 : Tab e 64) (ea : Tab e 1) (w96 : Tab 192 1) (b96 : Tab 1 1)
    (w32 : Tab 64 1) (b32 : Tab 1 1) : Tab e 1 :=
  fun i => edgeColHalf cat96 w96 b96 (i 0) * ea (ix2 (i 0) 0) + edgeColHalf cat32 w32 b32 (i 0)

/-- A dot product over n + n positions, the row's left half from xl and right half from xr, the weights likewise:
    the sum of the two dot products of length n. -/
theorem edgeColHalf_eq {e n : Nat} (cat : Tab e (n + n)) (w : Tab (n + n) 1) (b : Tab 1 1) (xl xr : Tab e n)
    (wl wr : Tab 1 n) (r : Fin e)
    (hl : ∀ k : Fin n, cat (ix2 r (Fin.castAdd n k)) = xl (ix2 r k)) (hr : ∀ k : Fin n, cat (ix2 r (Fin.natAdd n k)) = xr (ix2 r k))
    (hwl : ∀ k : Fin n, w (ix2 (Fin.castAdd n k) 0) = wl (ix2 0 k)) (hwr : ∀ k : Fin n, w (ix2 (Fin.natAdd n k) 0) = wr (ix2 0 k)) :
    edgeColHalf cat w b r = edgeHalf xl xr wl wr b r := by
  unfold edgeColHalf edgeHalf
  rw [Fin.sum_univ_add]
  simp only [hl, hr, hwl, hwr]

end Cert.Sage.Spec

end
-- ==== Proof.RefNet.lean ====
/-
  The value of the reference program, as a chain of named stages.

  The program is a graph network on 25000 nodes and 600000 edges. An edge list gives each edge a source and a
  destination node. A neighbourhood stage takes a node table h, reads for every edge the source node's row, adds that row
  into the destination node's row of a table of zeros, and divides each node's row by the number of edges that arrive at
  it (at least one): the mean of the neighbours. Seven node stages alternate: a dense layer, then three times a
  neighbourhood layer followed by a dense layer; the last two have 128 columns. The edge stage reads, for each edge, the
  rows of the last node table at its two endpoints, lays their first 96 columns side by side (192 entries) and their
  last 32 columns side by side (64 entries), takes one dot product of each against a weight column, adds a bias, takes
  the maximum with zero, multiplies the first by the edge's attribute and adds the second. Finally the 600000 edge
  values are grouped in 12500 rows of 48 and each row is averaged.

  Each stage is ONE definition over the previous stage's table and the argument arrays, so a table that two later
  operations read is named once and never written out twice. The dense, neighbourhood and edge stages are the
  index-by-index functions of the specification; the operations that are not read at an index here (the row gather, the
  scattered sum, the index arithmetic, slices, side-by-side joins, transposes, the degree's broadcasts, the final
  regrouping, row sum and division) stand as the program states them. That the program's own
  operations of a stage, composed, ARE the stage, and that the stages chained are the program's result, is the next
  module's business.
-/
import proofs.«130552_j4191888081216_2_alg».proof.Proof.Gen.ReferenceIdeal
import proofs.«130552_j4191888081216_2_alg».proof.Proof.Spec
import proofs.«130552_j4191888081216_2_alg».proof.Proof.SpecRef
import proofs.«130552_j4191888081216_2_alg».proof.Proof.LibDot
import Idealize.ShloMosaic.Lib.ValueIdx
import Idealize.ShloMosaic.Lib.ValueLayout
import Idealize.ShloMosaic.Lib.KernelVsHost
import Idealize.ShloMosaic.PureOps.Ideal.Laws

noncomputable section

open scoped BigOperators

namespace Cert.ReferenceIdeal.RefValue.RefNet

open Cert.ReferenceIdeal Cert.ReferenceIdeal.Gen Idealize.ShloMosaic Idealize.ShloMosaic.ValueIdx
open Cert.Sage

/-! ## The edge list and the neighbourhood mean -/

/-- The source node of every edge: row 0 of the edge list. -/
def src (a1 : IVec S2x600000 32) : IVec S600000 32 :=
  shapeCast S600000 (extractStridedSlice S1x600000 ![0, 0] a1 slices_S2x600000_S1x600000_0_0) shapeCasts_S1x600000_S600000

/-- The destination node of every edge: row 1 of the edge list. -/
def dst (a1 : IVec S2x600000 32) : IVec S600000 32 :=
  shapeCast S600000 (extractStridedSlice S1x600000 ![1, 0] a1 slices_S2x600000_S1x600000_1_0) shapeCasts_S1x600000_S600000

/-- The row index a gather reads for each edge: a negative node number counts from the end (25000 is added), and the
    vector is laid out as one column. -/
def gidx (s : IVec S600000 32) : IVec S600000x1 32 :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 25000#32))) s)

/-- The destination nodes as one column: the row each edge's contribution is added into. -/
def didx (d : IVec S600000 32) : IVec S600000x1 32 :=
  broadcastInDim S600000x1 ![0] bcast_S600000_S600000x1_0 d

/-- For every node, the sum over the edges arriving at it of the source node's row of h (256 columns). -/
def nbr256 (h : Spec.Tab 25000 256) (s d : IVec S600000 32) : Spec.Tab 25000 256 :=
  Host.scatterAdd scatter_S25000x256_S600000x1_S600000x256_1_0_0_1
    (broadcastInDim S25000x256 ![] bcast_S_S25000x256 (constant (F := Ideal) S_ .f32 0x00000000#32))
    (didx d)
    (Host.gather gather_S25000x256_S600000x1_S600000x256_1_0_n_n_0_1_1256 h (gidx s))

/-- For every node, the number of edges arriving at it, and at least one. -/
def degmax (d : IVec S600000 32) : FVec Ideal S25000 .f32 :=
  maximumf
    (Host.scatterAdd scatter_S25000_S600000x1_S600000_n_0_0_1
      (broadcastInDim S25000 ![] bcast_S_S25000 (constant (F := Ideal) S_ .f32 0x00000000#32))
      (didx d)
      (broadcastInDim S600000 ![] bcast_S_S600000 (constant (F := Ideal) S_ .f32 0x3F800000#32)))
    (broadcastInDim S25000 ![] bcast_S_S25000 (constant (F := Ideal) S_ .f32 0x3F800000#32))

/-- The mean of the neighbours' rows of h: the sum divided, in every column, by the node's count. -/
def mean (h : Spec.Tab 25000 256) (s d : IVec S600000 32) : Spec.Tab 25000 256 :=
  Host.divf (nbr256 h s d)
    (broadcastInDim S25000x256 ![0, 1] bcast_S25000x1_S25000x256_0_1
      (broadcastInDim S25000x1 ![0] bcast_S25000_S25000x1_0 (degmax d)))

/-! ## The node stages -/

/-- The first dense layer: 128 features to 256, maximum with zero. -/
def dense0 (x : Spec.Tab 25000 128) (w : Spec.Tab 256 128) (b : FVec Ideal S256 .f32) : Spec.Tab 25000 256 :=
  Spec.dense Spec.relu x (transpose S128x256 [1, 0] w transposes_S256x128_S128x256_1_0)
    (broadcastInDim S1x256 ![1] bcast_S256_S1x256_1 b)

/-- A neighbourhood layer on 256 columns to 256 columns, maximum with zero. -/
def sage256 (h : Spec.Tab 25000 256) (s d : IVec S600000 32) (lw : Spec.Tab 256 256) (lb : FVec Ideal S256 .f32)
    (rw : Spec.Tab 256 256) : Spec.Tab 25000 256 :=
  Spec.sageMid Spec.relu (mean h s d) h (transpose S256x256 [1, 0] lw transposes_S256x256_S256x256_1_0)
    (broadcastInDim S1x256 ![1] bcast_S256_S1x256_1 lb) (transpose S256x256 [1, 0] rw transposes_S256x256_S256x256_1_0)

/-- A dense layer on 256 columns to 256 columns, the leaky activation. -/
def dense256 (h : Spec.Tab 25000 256) (w : Spec.Tab 256 256) (b : FVec Ideal S256 .f32) : Spec.Tab 25000 256 :=
  Spec.dense Spec.leaky h (transpose S256x256 [1, 0] w transposes_S256x256_S256x256_1_0)
    (broadcastInDim S1x256 ![1] bcast_S256_S1x256_1 b)

/-- The last neighbourhood layer: 256 columns to 128, maximum with zero. -/
def sage128 (h : Spec.Tab 25000 256) (s d : IVec S600000 32) (lw : Spec.Tab 128 256) (lb : FVec Ideal S128 .f32)
    (rw : Spec.Tab 128 256) : Spec.Tab 25000 128 :=
  Spec.sageMid Spec.relu (mean h s d) h (transpose S256x128 [1, 0] lw transposes_S128x256_S256x128_1_0)
    (broadcastInDim S1x128 ![1] bcast_S128_S1x128_1 lb) (transpose S256x128 [1, 0] rw transposes_S128x256_S256x128_1_0)

/-- The last dense layer: 128 columns to 128, the leaky activation. -/
def dense128 (h : Spec.Tab 25000 128) (w : Spec.Tab 128 128) (b : FVec Ideal S128 .f32) : Spec.Tab 25000 128 :=
  Spec.dense Spec.leaky h (transpose S128x128 [1, 0] w transposes_S128x128_S128x128_1_0)
    (broadcastInDim S1x128 ![1] bcast_S128_S1x128_1 b)

/-! ## The edge stage and the final averaging -/

/-- For every edge, the row of h at the node the vector s names for it (128 columns). -/
def rowsAt (h : Spec.Tab 25000 128) (s : IVec S600000 32) : Spec.Tab 600000 128 :=
  Host.gather gather_S25000x128_S600000x1_S600000x128_1_0_n_n_0_1_1128 h (gidx s)

/-- The first 96 columns of the two endpoint rows, side by side. -/
def cat96 (h : Spec.Tab 25000 128) (s d : IVec S600000 32) : Spec.Tab 600000 192 :=
  concatenate S600000x192 1
    [⟨S600000x96, extractStridedSlice S600000x96 ![0, 0] (rowsAt h s) slices_S600000x128_S600000x96_0_0⟩,
     ⟨S600000x96, extractStridedSlice S600000x96 ![0, 0] (rowsAt h d) slices_S600000x128_S600000x96_0_0⟩]
    concatenates_S600000x96_S600000x96_S600000x192_d1

/-- The last 32 columns of the two endpoint rows, side by side. -/
def cat32 (h : Spec.Tab 25000 128) (s d : IVec S600000 32) : Spec.Tab 600000 64 :=
  concatenate S600000x64 1
    [⟨S600000x32, extractStridedSlice S600000x32 ![0, 96] (rowsAt h s) slices_S600000x128_S600000x32_0_96⟩,
     ⟨S600000x32, extractStridedSlice S600000x32 ![0, 96] (rowsAt h d) slices_S600000x128_S600000x32_0_96⟩]
    concatenates_S600000x32_S600000x32_S600000x64_d1

/-- The edge stage: one value per edge. -/
def edgeStage (h : Spec.Tab 25000 128) (s d : IVec S600000 32) (ea : Spec.Tab 600000 1) (w96 : Spec.Tab 1 192)
    (b96 : FVec Ideal S1 .f32) (w32 : Spec.Tab 1 64) (b32 : FVec Ideal S1 .f32) : Spec.Tab 600000 1 :=
  Spec.edgeCol (cat96 h s d) (cat32 h s d) ea (transpose S192x1 [1, 0] w96 transposes_S1x192_S192x1_1_0)
    (broadcastInDim S1x1 ![1] bcast_S1_S1x1_1 b96) (transpose S64x1 [1, 0] w32 transposes_S1x64_S64x1_1_0)
    (broadcastInDim S1x1 ![1] bcast_S1_S1x1_1 b32)

/-- The final averaging: the edge values in 12500 rows of 48, each row summed and divided by 48, as one column. -/
def tail (e : Spec.Tab 600000 1) : Spec.Tab 12500 1 :=
  shapeCast S12500x1
    (Host.divf
      (Host.reduceAdd (shapeCast S12500x48 e shapeCasts_S600000x1_S12500x48) (constant (F := Ideal) S_ .f32 0x00000000#32)
        reducesTo_S12500x48_S12500_d1 h_S_)
      (broadcastInDim S12500 ![] bcast_S_S12500 (constant (F := Ideal) S_ .f32 0x42400000#32)))
    shapeCasts_S12500_S12500x1

/-! ## The whole value -/

/-- The argument arrays the value depends on (the program's fourth argument is read by no operation). -/
structure Args where
  a0 : Spec.Tab 25000 128
  a1 : IVec S2x600000 32
  a2 : Spec.Tab 600000 1
  a4 : Spec.Tab 256 128
  a5 : FVec Ideal S256 .f32
  a6 : Spec.Tab 256 256
  a7 : FVec Ideal S256 .f32
  a8 : Spec.Tab 256 256
  a9 : Spec.Tab 256 256
  a10 : FVec Ideal S256 .f32
  a11 : Spec.Tab 256 256
  a12 : Spec.Tab 128 256
  a13 : FVec Ideal S128 .f32
  a14 : Spec.Tab 128 256
  a15 : Spec.Tab 256 256
  a16 : FVec Ideal S256 .f32
  a17 : Spec.Tab 256 256
  a18 : FVec Ideal S256 .f32
  a19 : Spec.Tab 128 128
  a20 : FVec Ideal S128 .f32
  a21 : Spec.Tab 1 192
  a22 : FVec Ideal S1 .f32
  a23 : Spec.Tab 1 64
  a24 : FVec Ideal S1 .f32

/-- The seven node tables, each from the one before. -/
def h0 (A : Args) : Spec.Tab 25000 256 := dense0 A.a0 A.a4 A.a5
def h1 (A : Args) : Spec.Tab 25000 256 := sage256 (h0 A) (src A.a1) (dst A.a1) A.a6 A.a7 A.a8
def h2 (A : Args) : Spec.Tab 25000 256 := dense256 (h1 A) A.a15 A.a16
def h3 (A : Args) : Spec.Tab 25000 256 := sage256 (h2 A) (src A.a1) (dst A.a1) A.a9 A.a10 A.a11
def h4 (A : Args) : Spec.Tab 25000 256 := dense256 (h3 A) A.a17 A.a18
def h5 (A : Args) : Spec.Tab 25000 128 := sage128 (h4 A) (src A.a1) (dst A.a1) A.a12 A.a13 A.a14
def h6 (A : Args) : Spec.Tab 25000 128 := dense128 (h5 A) A.a19 A.a20

/-- One value per edge. -/
def edges (A : Args) : Spec.Tab 600000 1 := edgeStage (h6 A) (src A.a1) (dst A.a1) A.a2 A.a21 A.a22 A.a23 A.a24

/-- The program's result: 12500 averages, as one column. -/
def result (A : Args) : Spec.Tab 12500 1 := tail (edges A)

end Cert.ReferenceIdeal.RefValue.RefNet

end
-- ==== Proof.MeanLaw.lean ====
/-
  The neighbourhood mean, written two ways, is one function on the extended reals.

  A node's feature row is its neighbours' sum x(r, ·) scaled by the node's degree, the degree first raised to at least
  one. One program multiplies the sum by the quotient 1 / max(deg r, 1); the other divides the sum by max(deg r, 1). The
  quotient of extended reals by a divisor y that is not zero is the product with the inverse y⁻¹, so 1 / y = y⁻¹ and
  x · (1 / y) = x · y⁻¹ = x / y whatever x is: finite, infinite, or of either sign. The divisor max(deg r, 1) is at least
  one, whatever deg r is, so it is never zero. Hence entry (r, j) of both tables is x(r, j) · (max(deg r, 1))⁻¹, with no
  assumption on the sum or on the degree.

  The layout steps in between only move entries: a one-entry table repeated along the 25000 nodes reads its entry, the
  column of quotients (or of divisors) laid beside the 256 features reads the node's own entry, and the word 0x3F800000
  denotes the real one.
-/
import Idealize.ShloMosaic.PureOps.Ideal
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.Sage.MeanLaw

open Idealize.ShloMosaic Idealize.ShloMosaic.ValueIdx

/-- The constant one laid along the nodes reads one at every node. -/
theorem ones_apply (h1 : (⟨0, ![]⟩ : Shape).BroadcastsInDim ⟨1, ![25000]⟩ ![]) (i : (⟨1, ![25000]⟩ : Shape).Idx) :
    broadcastInDim ⟨1, ![25000]⟩ ![] h1 (constant (F := Ideal) ⟨0, ![]⟩ .f32 0x3F800000#32) i = 1 := by
  rw [broadcastInDim_scalar_apply]
  show Ideal.ofBits .f32 0x3F800000#32 = 1
  exact Ideal.ofBits_one_f32

/-- The degree raised to at least one, at node r. -/
theorem clamp_apply (deg : FVec Ideal ⟨1, ![25000]⟩ .f32) (h1 : (⟨0, ![]⟩ : Shape).BroadcastsInDim ⟨1, ![25000]⟩ ![])
    (r : Fin 25000) :
    maximumf deg (broadcastInDim ⟨1, ![25000]⟩ ![] h1 (constant (F := Ideal) ⟨0, ![]⟩ .f32 0x3F800000#32)) (ix1 r)
      = max (deg (ix1 r)) 1 := by
  rw [maximumf_apply, ones_apply]

/-- A degree raised to at least one is not zero. -/
theorem clamp_ne_zero (d : EReal) : max d 1 ≠ 0 :=
  (lt_of_lt_of_le zero_lt_one (le_max_right d 1)).ne'

/-- A column of one entry per node laid beside the 256 features reads the node's own entry. -/
theorem column_apply (v : FVec Ideal ⟨2, ![25000, 1]⟩ .f32)
    (hb : (⟨2, ![25000, 1]⟩ : Shape).BroadcastsInDim ⟨2, ![25000, 256]⟩ ![0, 1]) (r : Fin 25000) (j : Fin 256) :
    broadcastInDim ⟨2, ![25000, 256]⟩ ![0, 1] hb v (ix2 r j) = v (ix2 r 0) :=
  broadcastInDim_apply ![0, 1] hb v (ix2 r j) (ix2 r (0 : Fin 1)) (by
    intro a
    match a with
    | ⟨0, _⟩ => rfl
    | ⟨1, _⟩ => rfl)

/-- The first way at an entry: the sum times the quotient of one by the raised degree. -/
theorem scaled_apply (x : FVec Ideal ⟨2, ![25000, 256]⟩ .f32) (deg : FVec Ideal ⟨1, ![25000]⟩ .f32)
    (h1 : (⟨0, ![]⟩ : Shape).BroadcastsInDim ⟨1, ![25000]⟩ ![])
    (hsc : (⟨1, ![25000]⟩ : Shape).ShapeCasts ⟨2, ![25000, 1]⟩)
    (hb : (⟨2, ![25000, 1]⟩ : Shape).BroadcastsInDim ⟨2, ![25000, 256]⟩ ![0, 1]) (r : Fin 25000) (j : Fin 256) :
    mulf x (broadcastInDim ⟨2, ![25000, 256]⟩ ![0, 1] hb (shapeCast ⟨2, ![25000, 1]⟩
        (Host.divf (broadcastInDim ⟨1, ![25000]⟩ ![] h1 (constant (F := Ideal) ⟨0, ![]⟩ .f32 0x3F800000#32))
          (maximumf deg (broadcastInDim ⟨1, ![25000]⟩ ![] h1 (constant (F := Ideal) ⟨0, ![]⟩ .f32 0x3F800000#32))))
        hsc)) (ix2 r j)
      = x (ix2 r j) * Ideal.div 1 (max (deg (ix1 r)) 1) := by
  rw [mulf_apply, column_apply]
  rw [shapeCast_apply _ hsc (ix2 r (0 : Fin 1)) (ix1 r) (by
    rw [Shape.rowMajor_val_two, Shape.rowMajor_val_one]
    show r.val = r.val * 1 + 0
    omega)]
  rw [hostDivf_apply, ones_apply, clamp_apply]

/-- The second way at an entry: the sum divided by the raised degree. -/
theorem divided_apply (x : FVec Ideal ⟨2, ![25000, 256]⟩ .f32) (deg : FVec Ideal ⟨1, ![25000]⟩ .f32)
    (h1 : (⟨0, ![]⟩ : Shape).BroadcastsInDim ⟨1, ![25000]⟩ ![])
    (hb : (⟨2, ![25000, 1]⟩ : Shape).BroadcastsInDim ⟨2, ![25000, 256]⟩ ![0, 1])
    (hb0 : (⟨1, ![25000]⟩ : Shape).BroadcastsInDim ⟨2, ![25000, 1]⟩ ![0]) (r : Fin 25000) (j : Fin 256) :
    Host.divf x (broadcastInDim ⟨2, ![25000, 256]⟩ ![0, 1] hb (broadcastInDim ⟨2, ![25000, 1]⟩ ![0] hb0
        (maximumf deg (broadcastInDim ⟨1, ![25000]⟩ ![] h1 (constant (F := Ideal) ⟨0, ![]⟩ .f32 0x3F800000#32)))))
        (ix2 r j)
      = Ideal.div (x (ix2 r j)) (max (deg (ix1 r)) 1) := by
  rw [hostDivf_apply, column_apply]
  rw [broadcastInDim_apply ![0] hb0 _ (ix2 r (0 : Fin 1)) (ix1 r) (by
    intro a
    match a with
    | ⟨0, _⟩ => rfl)]
  rw [clamp_apply]

/-- Both ways at an entry are the sum times the inverse of the raised degree. -/
theorem scaled_apply_inv (x : FVec Ideal ⟨2, ![25000, 256]⟩ .f32) (deg : FVec Ideal ⟨1, ![25000]⟩ .f32)
    (h1 : (⟨0, ![]⟩ : Shape).BroadcastsInDim ⟨1, ![25000]⟩ ![])
    (hsc : (⟨1, ![25000]⟩ : Shape).ShapeCasts ⟨2, ![25000, 1]⟩)
    (hb : (⟨2, ![25000, 1]⟩ : Shape).BroadcastsInDim ⟨2, ![25000, 256]⟩ ![0, 1]) (r : Fin 25000) (j : Fin 256) :
    mulf x (broadcastInDim ⟨2, ![25000, 256]⟩ ![0, 1] hb (shapeCast ⟨2, ![25000, 1]⟩
        (Host.divf (broadcastInDim ⟨1, ![25000]⟩ ![] h1 (constant (F := Ideal) ⟨0, ![]⟩ .f32 0x3F800000#32))
          (maximumf deg (broadcastInDim ⟨1, ![25000]⟩ ![] h1 (constant (F := Ideal) ⟨0, ![]⟩ .f32 0x3F800000#32))))
        hsc)) (ix2 r j)
      = x (ix2 r j) * (max (deg (ix1 r)) 1)⁻¹ := by
  rw [scaled_apply, Ideal.mul_one_div (clamp_ne_zero _)]
  unfold Ideal.div
  rw [if_neg (clamp_ne_zero _)]

theorem divided_apply_inv (x : FVec Ideal ⟨2, ![25000, 256]⟩ .f32) (deg : FVec Ideal ⟨1, ![25000]⟩ .f32)
    (h1 : (⟨0, ![]⟩ : Shape).BroadcastsInDim ⟨1, ![25000]⟩ ![])
    (hb : (⟨2, ![25000, 1]⟩ : Shape).BroadcastsInDim ⟨2, ![25000, 256]⟩ ![0, 1])
    (hb0 : (⟨1, ![25000]⟩ : Shape).BroadcastsInDim ⟨2, ![25000, 1]⟩ ![0]) (r : Fin 25000) (j : Fin 256) :
    Host.divf x (broadcastInDim ⟨2, ![25000, 256]⟩ ![0, 1] hb (broadcastInDim ⟨2, ![25000, 1]⟩ ![0] hb0
        (maximumf deg (broadcastInDim ⟨1, ![25000]⟩ ![] h1 (constant (F := Ideal) ⟨0, ![]⟩ .f32 0x3F800000#32)))))
        (ix2 r j)
      = x (ix2 r j) * (max (deg (ix1 r)) 1)⁻¹ := by
  rw [divided_apply]
  unfold Ideal.div
  rw [if_neg (clamp_ne_zero _)]

/-- The two tables are equal: the sum times one over the raised degree is the sum divided by the raised degree, at
    every entry and for every extended real. -/
theorem mean_law (x : FVec Ideal ⟨2, ![25000, 256]⟩ .f32) (deg : FVec Ideal ⟨1, ![25000]⟩ .f32)
    (h1 : (⟨0, ![]⟩ : Shape).BroadcastsInDim ⟨1, ![25000]⟩ ![])
    (hsc : (⟨1, ![25000]⟩ : Shape).ShapeCasts ⟨2, ![25000, 1]⟩)
    (hb : (⟨2, ![25000, 1]⟩ : Shape).BroadcastsInDim ⟨2, ![25000, 256]⟩ ![0, 1])
    (hb0 : (⟨1, ![25000]⟩ : Shape).BroadcastsInDim ⟨2, ![25000, 1]⟩ ![0]) :
    mulf x (broadcastInDim ⟨2, ![25000, 256]⟩ ![0, 1] hb (shapeCast ⟨2, ![25000, 1]⟩
        (Host.divf (broadcastInDim ⟨1, ![25000]⟩ ![] h1 (constant (F := Ideal) ⟨0, ![]⟩ .f32 0x3F800000#32))
          (maximumf deg (broadcastInDim ⟨1, ![25000]⟩ ![] h1 (constant (F := Ideal) ⟨0, ![]⟩ .f32 0x3F800000#32))))
        hsc))
      = Host.divf x (broadcastInDim ⟨2, ![25000, 256]⟩ ![0, 1] hb (broadcastInDim ⟨2, ![25000, 1]⟩ ![0] hb0
          (maximumf deg (broadcastInDim ⟨1, ![25000]⟩ ![] h1 (constant (F := Ideal) ⟨0, ![]⟩ .f32 0x3F800000#32))))) := by
  funext i
  obtain ⟨r, j, rfl⟩ : ∃ (r : Fin 25000) (j : Fin 256), i = ix2 r j := ⟨i 0, i 1, eq_ix2 i⟩
  rw [scaled_apply, divided_apply]
  exact Ideal.mul_one_div (clamp_ne_zero _)

end Cert.Sage.MeanLaw

end
-- ==== Proof.GatherSlice.lean ====
/-
  Slicing columns and gathering rows commute.

  One program cuts the node table (25000 rows, 128 columns) to a band of columns — the first 96, or the last 32 — and
  then, for each of the 600000 edges, takes the row its endpoint index names. The other takes the whole row first and
  cuts it to the band afterwards. The row an index names is the index read as a signed integer and clamped into
  [0, 24999]; that rule looks only at the index and at the number of rows, never at the columns, so both orders take
  the same row, and entry (e, k) of either result is entry (row of e, o + k) of the node table, o = 0 for the first
  band and o = 96 for the second. The narrowing of the table's entries before the cut is the identity on the extended
  reals. Nothing is assumed about the entries or about the indices.
-/
import proofs.«130552_j4191888081216_2_alg».proof.Proof.Gen.ReferenceIdeal
import proofs.«130552_j4191888081216_2_alg».proof.Proof.Gen.KernelIdeal
import proofs.«130552_j4191888081216_2_alg».proof.Proof.KNet
import Idealize.ShloMosaic.Lib.ValueIdx
import Idealize.ShloMosaic.Lib.Pipeline.Value

set_option maxRecDepth 16384

noncomputable section

namespace Cert.Sage.GatherSlice

open Idealize.ShloMosaic Idealize.ShloMosaic.ValueIdx

/-! ## A gather of whole rows, read at an entry -/

section Rows
variable {α : Type}

/-- The dimension numbers of a gather that takes one whole row of an N-row, C-column table per start index, the start
    indices laid out as one column of E entries: the row axis collapsed and named by the start index, the column axis
    the result's offset axis. -/
abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start index names: the index read signed, clamped into [0, N − 1]. It does not depend on the number of
    columns of the table. -/
def rowOf {E w : Nat} (N : Nat) (hN : 0 < N) (g : IVec ⟨2, ![E, 1]⟩ w) (e : Fin E) : Fin N :=
  ⟨min (g (ix2 e (0 : Fin 1))).toInt.toNat (N - 1), by omega⟩

/-- Entry (e, k) of the gather is entry (row named by start index e, k) of the table. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (g : IVec ⟨2, ![E, 1]⟩ w) (e : Fin E) (k : Fin C) :
    Host.gather (rowsDims N C E wf) x g (ix2 e k) = x (ix2 (rowOf N hN g e) k) := by
  unfold Host.gather
  congr 1
  funext a
  refine Fin.ext ?_
  match a with
  | ⟨0, _⟩ =>
    show (rowsDims N C E wf).start (ix2 e k) g 0 + (rowsDims N C E wf).batchCoord (ix2 e k) 0
      + (rowsDims N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C E wf).startIndexMap from List.mem_singleton.mpr rfl)]
    have hsi : (rowsDims N C E wf).siIdx (ix2 e k) ⟨List.idxOf (0 : Fin 2) (rowsDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N C E wf).start (ix2 e k) g 1 + (rowsDims N C E wf).batchCoord (ix2 e k) 1
      + (rowsDims N C E wf).offCoord (ix2 e k) 1 = k.val
    rw [GatherDims.batchCoord_eq_zero _ _ _ List.not_mem_nil]
    have hs : (rowsDims N C E wf).start (ix2 e k) g 1 = 0 := by
      unfold GatherDims.start
      rw [dif_neg (show (1 : Fin 2) ∉ (rowsDims N C E wf).startIndexMap from (by decide : (1 : Fin 2) ∉ [(0 : Fin 2)]))]
    have hk : (1 : Fin 2) ∈ (rowsDims N C E wf).sKept :=
      (GatherDims.mem_sKept _ _).mpr ⟨(by decide : (1 : Fin 2) ∉ [(0 : Fin 2)]), List.not_mem_nil⟩
    have ho : (rowsDims N C E wf).offCoord (ix2 e k) 1 = k.val := by
      unfold GatherDims.offCoord
      rw [dif_pos hk]
      rfl
    rw [hs, ho]
    omega

end Rows

/-! ## A column slice, read at an entry -/

section Cols
variable {α : Type}

/-- Columns o … o + m − 1 of an n-column table: entry (a, k) of the slice is entry (a, o + k) of the table. -/
theorem cols_apply {r n m o : Nat} (x : (⟨2, ![r, n]⟩ : Shape).Idx → α)
    (h : (⟨2, ![r, n]⟩ : Shape).Slices ![0, o] ⟨2, ![r, m]⟩) (a : Fin r) (k : Fin m) (k' : Fin n)
    (hk : k'.val = o + k.val) :
    extractStridedSlice ⟨2, ![r, m]⟩ ![0, o] x h (ix2 a k) = x (ix2 a k') :=
  extractStridedSlice_apply ![0, o] x h (ix2 a k) (ix2 a k') (fun ax => by
    match ax with
    | ⟨0, _⟩ => show a.val = 0 + a.val; omega
    | ⟨1, _⟩ => exact hk)

end Cols

/-! ## The three gathers of this certificate are gathers of whole rows -/

theorem rows_pos : 0 < 25000 := by decide

theorem rec96 : Cert.KernelIdeal.gather_S25000x96_S600000x1_S600000x96_1_0_n_n_0_1_196
    = rowsDims 25000 96 600000 Cert.KernelIdeal.Facts₀.gather_S25000x96_S600000x1_S600000x96_1_0_n_n_0_1_196_wf := rfl

theorem rec32 : Cert.KernelIdeal.gather_S25000x32_S600000x1_S600000x32_1_0_n_n_0_1_132
    = rowsDims 25000 32 600000 Cert.KernelIdeal.Facts₀.gather_S25000x32_S600000x1_S600000x32_1_0_n_n_0_1_132_wf := rfl

theorem rec128 : Cert.ReferenceIdeal.gather_S25000x128_S600000x1_S600000x128_1_0_n_n_0_1_1128
    = rowsDims 25000 128 600000 Cert.ReferenceIdeal.Facts₀.gather_S25000x128_S600000x1_S600000x128_1_0_n_n_0_1_1128_wf := rfl

/-! ## Slice then gather is gather then slice -/

/-- The first 96 columns: entry (e, k) of either side is entry (row named by edge e's index, k) of the node table. -/
theorem take96_eq (h : FVec Ideal Cert.KernelIdeal.S25000x128 .f32) (s : IVec Cert.KernelIdeal.S600000 32) :
    (Cert.KernelIdeal.Net.take96 h s : Cert.KernelIdeal.S600000x96.Idx → EReal)
      = extractStridedSlice Cert.ReferenceIdeal.S600000x96 ![0, 0]
          (Host.gather Cert.ReferenceIdeal.gather_S25000x128_S600000x1_S600000x128_1_0_n_n_0_1_1128 h
            (Cert.KernelIdeal.Net.gidx s))
          Cert.ReferenceIdeal.Facts₀.slices_S600000x128_S600000x96_0_0 := by
  funext j
  obtain ⟨e, k, rfl⟩ : ∃ (e : Fin 600000) (k : Fin 96), j = ix2 e k := ⟨j 0, j 1, eq_ix2 j⟩
  have hk : k.val < 128 := by have := k.isLt; omega
  have L : Cert.KernelIdeal.Net.take96 h s (ix2 e k)
      = h (ix2 (rowOf 25000 rows_pos (Cert.KernelIdeal.Net.gidx s) e) (⟨k.val, hk⟩ : Fin 128)) := by
    unfold Cert.KernelIdeal.Net.take96
    rw [rec96, gather_rows_apply rows_pos]
    exact cols_apply _ _ _ k ⟨k.val, hk⟩ (by show k.val = 0 + k.val; omega)
  have R : extractStridedSlice Cert.ReferenceIdeal.S600000x96 ![0, 0]
        (Host.gather Cert.ReferenceIdeal.gather_S25000x128_S600000x1_S600000x128_1_0_n_n_0_1_1128 h
          (Cert.KernelIdeal.Net.gidx s))
        Cert.ReferenceIdeal.Facts₀.slices_S600000x128_S600000x96_0_0 (ix2 e k)
      = h (ix2 (rowOf 25000 rows_pos (Cert.KernelIdeal.Net.gidx s) e) (⟨k.val, hk⟩ : Fin 128)) := by
    refine (cols_apply _ _ e k ⟨k.val, hk⟩ (by show k.val = 0 + k.val; omega)).trans ?_
    rw [rec128]
    exact gather_rows_apply rows_pos _ h _ e _
  exact L.trans R.symm

/-- The last 32 columns: entry (e, k) of either side is entry (row named by edge e's index, 96 + k) of the node
    table. -/
theorem take32_eq (h : FVec Ideal Cert.KernelIdeal.S25000x128 .f32) (s : IVec Cert.KernelIdeal.S600000 32) :
    (Cert.KernelIdeal.Net.take32 h s : Cert.KernelIdeal.S600000x32.Idx → EReal)
      = extractStridedSlice Cert.ReferenceIdeal.S600000x32 ![0, 96]
          (Host.gather Cert.ReferenceIdeal.gather_S25000x128_S600000x1_S600000x128_1_0_n_n_0_1_1128 h
            (Cert.KernelIdeal.Net.gidx s))
          Cert.ReferenceIdeal.Facts₀.slices_S600000x128_S600000x32_0_96 := by
  funext j
  obtain ⟨e, k, rfl⟩ : ∃ (e : Fin 600000) (k : Fin 32), j = ix2 e k := ⟨j 0, j 1, eq_ix2 j⟩
  have hk : 96 + k.val < 128 := by have := k.isLt; omega
  have L : Cert.KernelIdeal.Net.take32 h s (ix2 e k)
      = h (ix2 (rowOf 25000 rows_pos (Cert.KernelIdeal.Net.gidx s) e) (⟨96 + k.val, hk⟩ : Fin 128)) := by
    unfold Cert.KernelIdeal.Net.take32
    rw [rec32, gather_rows_apply rows_pos]
    exact cols_apply _ _ _ k ⟨96 + k.val, hk⟩ rfl
  have R : extractStridedSlice Cert.ReferenceIdeal.S600000x32 ![0, 96]
        (Host.gather Cert.ReferenceIdeal.gather_S25000x128_S600000x1_S600000x128_1_0_n_n_0_1_1128 h
          (Cert.KernelIdeal.Net.gidx s))
        Cert.ReferenceIdeal.Facts₀.slices_S600000x128_S600000x32_0_96 (ix2 e k)
      = h (ix2 (rowOf 25000 rows_pos (Cert.KernelIdeal.Net.gidx s) e) (⟨96 + k.val, hk⟩ : Fin 128)) := by
    refine (cols_apply _ _ e k ⟨96 + k.val, hk⟩ rfl).trans ?_
    rw [rec128]
    exact gather_rows_apply rows_pos _ h _ e _
  exact L.trans R.symm

end Cert.Sage.GatherSlice

end
-- ==== Proof.EdgeBridge.lean ====
/-
  The edge stage of the two programs is one function.

  For an edge e with endpoint rows a = h(source e) and c = h(target e) of the last node table, one program forms two
  dot products per band: a's band against the left half of the weight row plus c's band against the right half, then
  the bias and the maximum with zero. The other lays the two bands side by side in one row of 2n positions, stands the
  weight row up as a column of 2n entries, and takes one dot product of length 2n. A sum over 2n positions is the sum
  over the first n plus the sum over the last n; position k of the first n reads a's band and the weight's entry k,
  position n + k reads c's band and the weight's entry n + k, which is entry k of the right half. This holds for the
  band of the first 96 columns (n = 96) and the band of the last 32 (n = 32). The bands themselves agree because
  cutting columns and gathering rows commute. The one-entry bias is spelt as a recast in one program and as a
  placement along an axis in the other; both hold the entry at (0, 0), the only place the stage reads it. The first
  half is multiplied by the edge's attribute and the second added, the same in both. Nothing is assumed finite.
-/
import proofs.«130552_j4191888081216_2_alg».proof.Proof.RefNet
import proofs.«130552_j4191888081216_2_alg».proof.Proof.KStages
import proofs.«130552_j4191888081216_2_alg».proof.Proof.SpecRef
import proofs.«130552_j4191888081216_2_alg».proof.Proof.GatherSlice
import Idealize.ShloMosaic.Lib.ValueIdx
import Idealize.ShloMosaic.Lib.ValueLayout
import Idealize.ShloMosaic.Lib.Pipeline.Value

set_option maxRecDepth 16384

noncomputable section

open scoped BigOperators

namespace Cert.Sage.EdgeBridge

open Idealize.ShloMosaic Idealize.ShloMosaic.ValueIdx
open Cert.Sage Cert.Sage.GatherSlice
open Cert.ReferenceIdeal.RefValue

/-! ## The two spellings of a one-entry bias -/

/-- A one-entry vector recast as a 1 × 1 table holds that entry. -/
theorem bias_cast (b : FVec Ideal Cert.KernelIdeal.S1 .f32) :
    shapeCast Cert.KernelIdeal.S1x1 b Cert.KernelIdeal.Facts₀.shapeCasts_S1_S1x1 (ix2 (0 : Fin 1) (0 : Fin 1))
      = b (ix1 (0 : Fin 1)) :=
  shapeCast_apply b _ (ix2 (0 : Fin 1) (0 : Fin 1)) (ix1 (0 : Fin 1)) (by
    rw [Shape.rowMajor_val_two, Shape.rowMajor_val_one]; rfl)

/-- A one-entry vector laid along axis 1 of a 1 × 1 table holds that entry. -/
theorem bias_dims (b : FVec Ideal Cert.ReferenceIdeal.S1 .f32) :
    broadcastInDim Cert.ReferenceIdeal.S1x1 ![1] Cert.ReferenceIdeal.Facts₀.bcast_S1_S1x1_1 b
        (ix2 (0 : Fin 1) (0 : Fin 1)) = b (ix1 (0 : Fin 1)) :=
  broadcastInDim_apply ![1] _ b (ix2 (0 : Fin 1) (0 : Fin 1)) (ix1 (0 : Fin 1)) (fun a => by
    match a with
    | ⟨0, _⟩ => rfl)

/-- One half of the edge stage reads its bias table at (0, 0) only. -/
theorem edgeHalf_bias {e n : Nat} (xl xr : Spec.Tab e n) (wl wr : Spec.Tab 1 n) (b b' : Spec.Tab 1 1) (r : Fin e)
    (hb : b (ix2 0 0) = b' (ix2 0 0)) : Spec.edgeHalf xl xr wl wr b r = Spec.edgeHalf xl xr wl wr b' r := by
  unfold Spec.edgeHalf
  rw [hb]

/-! ## The endpoint rows side by side, and the weight row cut in two -/

/-- The reference's gather index is the kernel program's. -/
theorem gidx_eq (s : IVec Cert.KernelIdeal.S600000 32) : RefNet.gidx s = Cert.KernelIdeal.Net.gidx s := rfl

/-- The first 96 columns of the rows gathered at s, in the reference's order of operations, are the kernel
    program's table. -/
theorem band96 (h : FVec Ideal Cert.KernelIdeal.S25000x128 .f32) (s : IVec Cert.KernelIdeal.S600000 32) :
    extractStridedSlice Cert.ReferenceIdeal.S600000x96 ![0, 0] (RefNet.rowsAt h s)
        Cert.ReferenceIdeal.Facts₀.slices_S600000x128_S600000x96_0_0
      = (Cert.KernelIdeal.Net.take96 h s : Cert.KernelIdeal.S600000x96.Idx → EReal) :=
  (take96_eq h s).symm

/-- The last 32 columns likewise. -/
theorem band32 (h : FVec Ideal Cert.KernelIdeal.S25000x128 .f32) (s : IVec Cert.KernelIdeal.S600000 32) :
    extractStridedSlice Cert.ReferenceIdeal.S600000x32 ![0, 96] (RefNet.rowsAt h s)
        Cert.ReferenceIdeal.Facts₀.slices_S600000x128_S600000x32_0_96
      = (Cert.KernelIdeal.Net.take32 h s : Cert.KernelIdeal.S600000x32.Idx → EReal) :=
  (take32_eq h s).symm

/-! ## The index facts of the two halves -/

section Facts96
variable (h : FVec Ideal Cert.KernelIdeal.S25000x128 .f32) (s d : IVec Cert.KernelIdeal.S600000 32)
  (e : Fin 600000)

/-- Positions 0 … 95 of a side-by-side row hold the first band of the row gathered at s. -/
theorem cat96_left (k : Fin 96) :
    RefNet.cat96 h s d (ix2 e (Fin.castAdd 96 k)) = Cert.KernelIdeal.Net.take96 h s (ix2 e k) := by
  unfold RefNet.cat96
  refine (concatenate_pair_apply_left (t := Cert.ReferenceIdeal.S600000x192) (s₁ := Cert.ReferenceIdeal.S600000x96)
    (s₂ := Cert.ReferenceIdeal.S600000x96) (1 : Fin 2) _ _ _ (ix2 e (Fin.castAdd 96 k)) rfl
    (ix2 e k : Cert.ReferenceIdeal.S600000x96.Idx) (fun b => ?_)).trans ?_
  · match b with
    | ⟨0, _⟩ => rfl
    | ⟨1, _⟩ => rfl
  · exact congrFun (band96 h s) (ix2 e k)

/-- Positions 96 … 191 hold the first band of the row gathered at d. -/
theorem cat96_right (k : Fin 96) :
    RefNet.cat96 h s d (ix2 e (Fin.natAdd 96 k)) = Cert.KernelIdeal.Net.take96 h d (ix2 e k) := by
  unfold RefNet.cat96
  refine (concatenate_pair_apply_right (t := Cert.ReferenceIdeal.S600000x192) (s₁ := Cert.ReferenceIdeal.S600000x96)
    (s₂ := Cert.ReferenceIdeal.S600000x96) (1 : Fin 2) _ _ _ (ix2 e (Fin.natAdd 96 k)) rfl rfl
    (ix2 e k : Cert.ReferenceIdeal.S600000x96.Idx) (fun b hb => ?_)
    (by show k.val + 96 = 96 + k.val; omega)).trans ?_
  · match b with
    | ⟨0, _⟩ => rfl
    | ⟨1, _⟩ => exact absurd rfl hb
  · exact congrFun (band96 h d) (ix2 e k)

/-- Positions 0 … 31 of the second side-by-side row hold the second band of the row gathered at s. -/
theorem cat32_left (k : Fin 32) :
    RefNet.cat32 h s d (ix2 e (Fin.castAdd 32 k)) = Cert.KernelIdeal.Net.take32 h s (ix2 e k) := by
  unfold RefNet.cat32
  refine (concatenate_pair_apply_left (t := Cert.ReferenceIdeal.S600000x64) (s₁ := Cert.ReferenceIdeal.S600000x32)
    (s₂ := Cert.ReferenceIdeal.S600000x32) (1 : Fin 2) _ _ _ (ix2 e (Fin.castAdd 32 k)) rfl
    (ix2 e k : Cert.ReferenceIdeal.S600000x32.Idx) (fun b => ?_)).trans ?_
  · match b with
    | ⟨0, _⟩ => rfl
    | ⟨1, _⟩ => rfl
  · exact congrFun (band32 h s) (ix2 e k)

/-- Positions 32 … 63 hold the second band of the row gathered at d. -/
theorem cat32_right (k : Fin 32) :
    RefNet.cat32 h s d (ix2 e (Fin.natAdd 32 k)) = Cert.KernelIdeal.Net.take32 h d (ix2 e k) := by
  unfold RefNet.cat32
  refine (concatenate_pair_apply_right (t := Cert.ReferenceIdeal.S600000x64) (s₁ := Cert.ReferenceIdeal.S600000x32)
    (s₂ := Cert.ReferenceIdeal.S600000x32) (1 : Fin 2) _ _ _ (ix2 e (Fin.natAdd 32 k)) rfl rfl
    (ix2 e k : Cert.ReferenceIdeal.S600000x32.Idx) (fun b hb => ?_)
    (by show k.val + 32 = 32 + k.val; omega)).trans ?_
  · match b with
    | ⟨0, _⟩ => rfl
    | ⟨1, _⟩ => exact absurd rfl hb
  · exact congrFun (band32 h d) (ix2 e k)

end Facts96

/-- The weight row of 192 entries stood up as a column: its first 96 entries are the left weight row. -/
theorem w96_left (w : FVec Ideal Cert.KernelIdeal.S1x192 .f32) (k : Fin 96) :
    transpose Cert.ReferenceIdeal.S192x1 [1, 0] w Cert.ReferenceIdeal.Facts₀.transposes_S1x192_S192x1_1_0
        (ix2 (Fin.castAdd 96 k) (0 : Fin 1))
      = extractStridedSlice Cert.KernelIdeal.S1x96 ![0, 0] w Cert.KernelIdeal.Facts₀.slices_S1x192_S1x96_0_0
        (ix2 (0 : Fin 1) k) :=
  (transpose_ix2_apply w _ (Fin.castAdd 96 k) (0 : Fin 1)).trans
    (cols_apply w _ (0 : Fin 1) k (Fin.castAdd 96 k) (by show k.val = 0 + k.val; omega)).symm

/-- Its last 96 entries are the right weight row. -/
theorem w96_right (w : FVec Ideal Cert.KernelIdeal.S1x192 .f32) (k : Fin 96) :
    transpose Cert.ReferenceIdeal.S192x1 [1, 0] w Cert.ReferenceIdeal.Facts₀.transposes_S1x192_S192x1_1_0
        (ix2 (Fin.natAdd 96 k) (0 : Fin 1))
      = extractStridedSlice Cert.KernelIdeal.S1x96 ![0, 96] w Cert.KernelIdeal.Facts₀.slices_S1x192_S1x96_0_96
        (ix2 (0 : Fin 1) k) :=
  (transpose_ix2_apply w _ (Fin.natAdd 96 k) (0 : Fin 1)).trans
    (cols_apply w _ (0 : Fin 1) k (Fin.natAdd 96 k) rfl).symm

/-- The weight row of 64 entries stood up as a column: its first 32 entries are the left weight row. -/
theorem w32_left (w : FVec Ideal Cert.KernelIdeal.S1x64 .f32) (k : Fin 32) :
    transpose Cert.ReferenceIdeal.S64x1 [1, 0] w Cert.ReferenceIdeal.Facts₀.transposes_S1x64_S64x1_1_0
        (ix2 (Fin.castAdd 32 k) (0 : Fin 1))
      = extractStridedSlice Cert.KernelIdeal.S1x32 ![0, 0] w Cert.KernelIdeal.Facts₀.slices_S1x64_S1x32_0_0
        (ix2 (0 : Fin 1) k) :=
  (transpose_ix2_apply w _ (Fin.castAdd 32 k) (0 : Fin 1)).trans
    (cols_apply w _ (0 : Fin 1) k (Fin.castAdd 32 k) (by show k.val = 0 + k.val; omega)).symm

/-- Its last 32 entries are the right weight row. -/
theorem w32_right (w : FVec Ideal Cert.KernelIdeal.S1x64 .f32) (k : Fin 32) :
    transpose Cert.ReferenceIdeal.S64x1 [1, 0] w Cert.ReferenceIdeal.Facts₀.transposes_S1x64_S64x1_1_0
        (ix2 (Fin.natAdd 32 k) (0 : Fin 1))
      = extractStridedSlice Cert.KernelIdeal.S1x32 ![0, 32] w Cert.KernelIdeal.Facts₀.slices_S1x64_S1x32_0_32
        (ix2 (0 : Fin 1) k) :=
  (transpose_ix2_apply w _ (Fin.natAdd 32 k) (0 : Fin 1)).trans
    (cols_apply w _ (0 : Fin 1) k (Fin.natAdd 32 k) rfl).symm

/-! ## The two halves, and the stage -/

section Halves
variable (h : FVec Ideal Cert.KernelIdeal.S25000x128 .f32) (s d : IVec Cert.KernelIdeal.S600000 32)

/-- The 192-position dot product of an edge is the sum of the two 96-position ones. -/
theorem half96 (w96 : FVec Ideal Cert.KernelIdeal.S1x192 .f32) (b96 : FVec Ideal Cert.KernelIdeal.S1 .f32)
    (e : Fin 600000) :
    Spec.edgeColHalf (RefNet.cat96 h s d)
        (transpose Cert.ReferenceIdeal.S192x1 [1, 0] w96 Cert.ReferenceIdeal.Facts₀.transposes_S1x192_S192x1_1_0)
        (broadcastInDim Cert.ReferenceIdeal.S1x1 ![1] Cert.ReferenceIdeal.Facts₀.bcast_S1_S1x1_1 b96) e
      = Spec.edgeHalf (Cert.KernelIdeal.Net.take96 h s) (Cert.KernelIdeal.Net.take96 h d)
          (extractStridedSlice Cert.KernelIdeal.S1x96 ![0, 0] w96 Cert.KernelIdeal.Facts₀.slices_S1x192_S1x96_0_0)
          (extractStridedSlice Cert.KernelIdeal.S1x96 ![0, 96] w96 Cert.KernelIdeal.Facts₀.slices_S1x192_S1x96_0_96)
          (shapeCast Cert.KernelIdeal.S1x1 b96 Cert.KernelIdeal.Facts₀.shapeCasts_S1_S1x1) e :=
  (Spec.edgeColHalf_eq (n := 96) (RefNet.cat96 h s d) _ _ (Cert.KernelIdeal.Net.take96 h s)
      (Cert.KernelIdeal.Net.take96 h d) _ _ e (cat96_left h s d e) (cat96_right h s d e) (w96_left w96)
      (w96_right w96)).trans
    (edgeHalf_bias _ _ _ _ _ _ e ((bias_dims b96).trans (bias_cast b96).symm))

/-- The 64-position dot product of an edge is the sum of the two 32-position ones. -/
theorem half32 (w32 : FVec Ideal Cert.KernelIdeal.S1x64 .f32) (b32 : FVec Ideal Cert.KernelIdeal.S1 .f32)
    (e : Fin 600000) :
    Spec.edgeColHalf (RefNet.cat32 h s d)
        (transpose Cert.ReferenceIdeal.S64x1 [1, 0] w32 Cert.ReferenceIdeal.Facts₀.transposes_S1x64_S64x1_1_0)
        (broadcastInDim Cert.ReferenceIdeal.S1x1 ![1] Cert.ReferenceIdeal.Facts₀.bcast_S1_S1x1_1 b32) e
      = Spec.edgeHalf (Cert.KernelIdeal.Net.take32 h s) (Cert.KernelIdeal.Net.take32 h d)
          (extractStridedSlice Cert.KernelIdeal.S1x32 ![0, 0] w32 Cert.KernelIdeal.Facts₀.slices_S1x64_S1x32_0_0)
          (extractStridedSlice Cert.KernelIdeal.S1x32 ![0, 32] w32 Cert.KernelIdeal.Facts₀.slices_S1x64_S1x32_0_32)
          (shapeCast Cert.KernelIdeal.S1x1 b32 Cert.KernelIdeal.Facts₀.shapeCasts_S1_S1x1) e :=
  (Spec.edgeColHalf_eq (n := 32) (RefNet.cat32 h s d) _ _ (Cert.KernelIdeal.Net.take32 h s)
      (Cert.KernelIdeal.Net.take32 h d) _ _ e (cat32_left h s d e) (cat32_right h s d e) (w32_left w32)
      (w32_right w32)).trans
    (edgeHalf_bias _ _ _ _ _ _ e ((bias_dims b32).trans (bias_cast b32).symm))

/-- THE EDGE STAGE of the kernel program, over its four gathered bands and its cut weight rows, is the reference's,
    over side-by-side rows and whole weight columns: one value per edge, the same at every edge. -/
theorem edge_eq (ea : FVec Ideal Cert.KernelIdeal.S600000x1 .f32) (w96 : FVec Ideal Cert.KernelIdeal.S1x192 .f32)
    (b96 : FVec Ideal Cert.KernelIdeal.S1 .f32) (w32 : FVec Ideal Cert.KernelIdeal.S1x64 .f32)
    (b32 : FVec Ideal Cert.KernelIdeal.S1 .f32) :
    Spec.edge (Cert.KernelIdeal.Net.take96 h s) (Cert.KernelIdeal.Net.take96 h d) (Cert.KernelIdeal.Net.take32 h s)
        (Cert.KernelIdeal.Net.take32 h d) ea
        (extractStridedSlice Cert.KernelIdeal.S1x96 ![0, 0] w96 Cert.KernelIdeal.Facts₀.slices_S1x192_S1x96_0_0)
        (extractStridedSlice Cert.KernelIdeal.S1x96 ![0, 96] w96 Cert.KernelIdeal.Facts₀.slices_S1x192_S1x96_0_96)
        (shapeCast Cert.KernelIdeal.S1x1 b96 Cert.KernelIdeal.Facts₀.shapeCasts_S1_S1x1)
        (extractStridedSlice Cert.KernelIdeal.S1x32 ![0, 0] w32 Cert.KernelIdeal.Facts₀.slices_S1x64_S1x32_0_0)
        (extractStridedSlice Cert.KernelIdeal.S1x32 ![0, 32] w32 Cert.KernelIdeal.Facts₀.slices_S1x64_S1x32_0_32)
        (shapeCast Cert.KernelIdeal.S1x1 b32 Cert.KernelIdeal.Facts₀.shapeCasts_S1_S1x1)
      = RefNet.edgeStage h s d ea w96 b96 w32 b32 := by
  funext i
  unfold RefNet.edgeStage Spec.edge Spec.edgeCol
  exact (congrArg₂ (fun a b : EReal => a * ea (ix2 (i 0) 0) + b) (half96 h s d w96 b96 (i 0))
    (half32 h s d w32 b32 (i 0))).symm

end Halves

end Cert.Sage.EdgeBridge

end
-- ==== Proof.Bridge.lean ====
/-
  The two programs' stages are the same functions of the argument arrays.

  Stage by stage. A dense layer reads its bias only through the one-row table's entries (0, j), and a vector cast to
  one row and a vector placed along the columns of a one-row table both have the vector's entry j there; the weight
  tables are transposed by the same operation on both sides. A neighbourhood layer adds the same three terms in two
  groupings, and its mean is the neighbourhood sum times the reciprocal of max(deg, 1) on one side and the sum divided
  by max(deg, 1) on the other: equal on every extended real, since the divisor is at least one. The gather, the
  scatter-add and the index arithmetic are the same operations applied to equal tables. The edge stage and the
  closing average follow the same pattern. Nothing here assumes an entry finite.
-/
import proofs.«130552_j4191888081216_2_alg».proof.Proof.KStages
import proofs.«130552_j4191888081216_2_alg».proof.Proof.RefNet
import proofs.«130552_j4191888081216_2_alg».proof.Proof.SpecRef
import proofs.«130552_j4191888081216_2_alg».proof.Proof.MeanLaw
import proofs.«130552_j4191888081216_2_alg».proof.Proof.EdgeBridge
import Idealize.ShloMosaic.Lib.Pipeline.Value
import Idealize.ShloMosaic.Lib.ValueLayout

noncomputable section

open scoped BigOperators

namespace Cert.Sage.Bridge

open Idealize.ShloMosaic Idealize.ShloMosaic.ValueIdx Cert.Sage

/-! ## A bias vector as a one-row table, in two spellings -/

variable {α : Type}

/-- A vector cast to a one-row table has the vector's entry j at (0, j). -/
theorem rowCast_apply {n : Nat} (x : (⟨1, ![n]⟩ : Shape).Idx → α)
    (h1 : (⟨1, ![n]⟩ : Shape).ShapeCasts ⟨2, ![1, n]⟩) (j : Fin n) :
    shapeCast ⟨2, ![1, n]⟩ x h1 (ix2 (0 : Fin 1) j) = x (ix1 j) :=
  shapeCast_apply x h1 (ix2 (0 : Fin 1) j) (ix1 j) (by
    rw [Shape.rowMajor_val_two, Shape.rowMajor_val_one]; show j.val = 0 * n + j.val; omega)

/-- A vector placed along the columns of a one-row table has the vector's entry j at (0, j). -/
theorem rowDim_apply {n : Nat} (x : (⟨1, ![n]⟩ : Shape).Idx → α)
    (hd : (⟨1, ![n]⟩ : Shape).BroadcastsInDim ⟨2, ![1, n]⟩ ![1]) (j : Fin n) :
    broadcastInDim ⟨2, ![1, n]⟩ ![1] hd x (ix2 (0 : Fin 1) j) = x (ix1 j) := by
  refine broadcastInDim_apply ![1] hd x (ix2 (0 : Fin 1) j) (ix1 j) ?_
  intro a
  match a with
  | ⟨0, _⟩ =>
    show j.val = if n = 1 then 0 else j.val
    split
    · have := j.isLt; omega
    · rfl

/-- The two spellings agree wherever a layer reads the bias. -/
theorem row_eq {n : Nat} (x : (⟨1, ![n]⟩ : Shape).Idx → α) (h1 : (⟨1, ![n]⟩ : Shape).ShapeCasts ⟨2, ![1, n]⟩)
    (hd : (⟨1, ![n]⟩ : Shape).BroadcastsInDim ⟨2, ![1, n]⟩ ![1]) (j : Fin n) :
    shapeCast ⟨2, ![1, n]⟩ x h1 (ix2 (0 : Fin 1) j) = broadcastInDim ⟨2, ![1, n]⟩ ![1] hd x (ix2 (0 : Fin 1) j) :=
  (rowCast_apply x h1 j).trans (rowDim_apply x hd j).symm

/-! ## The layers depend on the bias only through its row of entries -/

theorem dense_congr {m n p : Nat} (act : EReal → EReal) (x : Spec.Tab m n) (w : Spec.Tab n p) (b b' : Spec.Tab 1 p)
    (hb : ∀ j : Fin p, b (ix2 0 j) = b' (ix2 0 j)) : Spec.dense act x w b = Spec.dense act x w b' := by
  funext i
  exact congrArg (fun t => act ((∑ k : Fin n, x (ix2 (i 0) k) * w (ix2 k (i 1))) + t)) (hb (i 1))

theorem sage_congr {m n p : Nat} (act : EReal → EReal) (mean x : Spec.Tab m n) (lw : Spec.Tab n p) (lb lb' : Spec.Tab 1 p)
    (rw' : Spec.Tab n p) (hb : ∀ j : Fin p, lb (ix2 0 j) = lb' (ix2 0 j)) :
    Spec.sage act mean x lw lb rw' = Spec.sage act mean x lw lb' rw' := by
  funext i
  exact congrArg (fun t => act (((∑ k : Fin n, mean (ix2 (i 0) k) * lw (ix2 k (i 1)))
    + ∑ k : Fin n, x (ix2 (i 0) k) * rw' (ix2 k (i 1))) + t)) (hb (i 1))

/-! ## The stages -/

open Cert.KernelIdeal.Stages

/-- The kernel program's argument arrays as the reference's. -/
def toR (a : Args) : Cert.ReferenceIdeal.RefValue.RefNet.Args where
  a0 := a.a0
  a1 := a.a1
  a2 := a.a2
  a4 := a.a4
  a5 := a.a5
  a6 := a.a6
  a7 := a.a7
  a8 := a.a8
  a9 := a.a9
  a10 := a.a10
  a11 := a.a11
  a12 := a.a12
  a13 := a.a13
  a14 := a.a14
  a15 := a.a15
  a16 := a.a16
  a17 := a.a17
  a18 := a.a18
  a19 := a.a19
  a20 := a.a20
  a21 := a.a21
  a22 := a.a22
  a23 := a.a23
  a24 := a.a24

namespace R
export Cert.ReferenceIdeal.RefValue.RefNet (src dst gidx didx nbr256 degmax mean dense0 sage256 dense256 sage128 dense128 edgeStage tail h0 h1 h2 h3 h4 h5 h6 edges result)
end R

variable (a : Args)

theorem src_eq : src a = R.src a.a1 := rfl
theorem dst_eq : dst a = R.dst a.a1 := rfl

/-- The neighbourhood mean: the sum times the reciprocal of max(deg, 1) is the sum divided by max(deg, 1). -/
theorem mean_eq (h : FVec Ideal Cert.KernelIdeal.S25000x256 .f32) :
    Cert.KernelIdeal.Net.mean h (src a) (dst a) (dinv a) = R.mean h (R.src a.a1) (R.dst a.a1) :=
  MeanLaw.mean_law _ _ _ _ _ _

theorem h0_eq : h0 a = R.h0 (toR a) :=
  dense_congr _ _ _ _ _ fun j => row_eq _ _ _ j

theorem h1_eq : h1 a = R.h1 (toR a) := by
  unfold h1 R.h1 R.sage256
  rw [Spec.sageMid_eq, h0_eq a, mean_eq a]
  exact sage_congr _ _ _ _ _ _ _ fun j => row_eq _ _ _ j

theorem h2_eq : h2 a = R.h2 (toR a) := by
  unfold h2 R.h2 R.dense256
  rw [h1_eq a]
  exact dense_congr _ _ _ _ _ fun j => row_eq _ _ _ j

theorem h3_eq : h3 a = R.h3 (toR a) := by
  unfold h3 R.h3 R.sage256
  rw [Spec.sageMid_eq, h2_eq a, mean_eq a]
  exact sage_congr _ _ _ _ _ _ _ fun j => row_eq _ _ _ j

theorem h4_eq : h4 a = R.h4 (toR a) := by
  unfold h4 R.h4 R.dense256
  rw [h3_eq a]
  exact dense_congr _ _ _ _ _ fun j => row_eq _ _ _ j

theorem h5_eq : h5 a = R.h5 (toR a) := by
  unfold h5 R.h5 R.sage128
  rw [Spec.sageMid_eq, h4_eq a, mean_eq a]
  exact sage_congr _ _ _ _ _ _ _ fun j => row_eq _ _ _ j

theorem h6_eq : h6 a = R.h6 (toR a) := by
  unfold h6 R.h6 R.dense128
  rw [h5_eq a]
  exact dense_congr _ _ _ _ _ fun j => row_eq _ _ _ j

theorem edge_eq : edge a = R.edges (toR a) := by
  unfold edge R.edges
  rw [h6_eq a]
  exact EdgeBridge.edge_eq _ _ _ _ _ _ _ _

/-- The two results are one function of the argument arrays. -/
theorem result_eq : result a = R.result (toR a) := by
  unfold result R.result
  rw [edge_eq a]
  rfl

end Cert.Sage.Bridge

end
-- ==== Proof.RefRun.lean ====
/- The reference program's run, with the result left as the FOLD of its operations.
   @main of the reference is a straight line of 205 host operations `ops`; `main c = seq ops` by computation, the
   signature scopes no buffer and no semaphore, and every operation touches TensorCore references only. Hence
   (`run_seq`) from any memory with zero counters every weakly fair execution terminates, and each buffer ends at
   `after ops` of the device's launch contents. The result buffer is stated exactly so — the fold is NOT opened
   into one composed term, because every layer's output feeds two later operations and the composed term doubles
   per layer; the named stages of the value are the business of the next module. The 25 argument buffers are
   written by no operation and end as they began. -/
import proofs.«130552_j4191888081216_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 205 operations, in order (a called function's operations stand in its call's place, spelt `TRef.…`). -/
abbrev ops : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    unary main_arg4 main_v4 ((transpose S128x256 [1, 0] · transposes_S256x128_S128x256_1_0) : (⟨S256x128, .f32⟩ : BufTy).Contents (Elt F) → (⟨S128x256, .f32⟩ : BufTy).Contents (Elt F)),
    binary main_arg0 main_v4 main_v5 ((fun l r => Host.dotGeneral dot_S25000x128_S128x256_S25000x256_1_0_0_1_n_n none l r) : (⟨S25000x128, .f32⟩ : BufTy).Contents (Elt F) → (⟨S128x256, .f32⟩ : BufTy).Contents (Elt F) → (⟨S25000x256, .f32⟩ : BufTy).Contents (Elt F)),
    unary main_arg5 main_v6 (broadcastInDim S1x256 ![1] bcast_S256_S1x256_1 : (⟨S256, .f32⟩ : BufTy).Contents (Elt F) → (⟨S1x256, .f32⟩ : BufTy).Contents (Elt F)),
    unary main_v6 main_v7 (broadcastInDim S25000x256 ![0, 1] bcast_S1x256_S25000x256_0_1 : (⟨S1x256, .f32⟩ : BufTy).Contents (Elt F) → (⟨S25000x256, .f32⟩ : BufTy).Contents (Elt F)),
    binary main_v5 main_v7 main_v8 (addf : (⟨S25000x256, .f32⟩ : BufTy).Contents (Elt F) → (⟨S25000x256, .f32⟩ : BufTy).Contents (Elt F) → (⟨S25000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S25000x256, .f32⟩) main_call0_v0) (broadcastInDim S25000x256 ![] bcast_S_S25000x256),
    TRef.binary (TRef.of (T := ⟨S25000x256, .f32⟩) main_v8) (TRef.of (T := ⟨S25000x256, .f32⟩) main_call0_v0) (TRef.of (T := ⟨S25000x256, .f32⟩) main_v9) maximumf,
    nullary main_c (constantI S_ 32 0#32),
    unary main_c main_v10 (broadcastInDim S600000 ![] bcast_S_S600000 : (⟨S_, .i32⟩ : BufTy).Contents (Elt F) → (⟨S600000, .i32⟩ : BufTy).Contents (Elt F)),
    binary main_v1 main_v10 main_v11 (cmpi .slt : (⟨S600000, .i32⟩ : BufTy).Contents (Elt F) → (⟨S600000, .i32⟩ : BufTy).Contents (Elt F) → (⟨S600000, .i1⟩ : BufTy).Contents (Elt F)),
    nullary main_c_0 (constantI S_ 32 25000#32),
    unary main_c_0 main_v12 (broadcastInDim S600000 ![] bcast_S_S600000 : (⟨S_, .i32⟩ : BufTy).Contents (Elt F) → (⟨S600000, .i32⟩ : BufTy).Contents (Elt F)),
    binary main_v1 main_v12 main_v13 (addi : (⟨S600000, .i32⟩ : BufTy).Contents (Elt F) → (⟨S600000, .i32⟩ : BufTy).Contents (Elt F) → (⟨S600000, .i32⟩ : BufTy).Contents (Elt F)),
    ternary main_v11 main_v13 main_v1 main_v14 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v14 main_v15 (broadcastInDim S600000x1 ![0] bcast_S600000_S600000x1_0 : (⟨S600000, .i32⟩ : BufTy).Contents (Elt F) → (⟨S600000x1, .i32⟩ : BufTy).Contents (Elt F)),
    binary main_v9 main_v15 main_v16 ((fun x i => Host.gather gather_S25000x256_S600000x1_S600000x256_1_0_n_n_0_1_1256 x i) : (⟨S25000x256, .f32⟩ : BufTy).Contents (Elt F) → (⟨S600000x1, .i32⟩ : BufTy).Contents (Elt F) → (⟨S600000x256, .f32⟩ : BufTy).Contents (Elt F)),
    nullary main_cst (constant S_ .f32 0x00000000#32),
    unary main_cst main_v17 (broadcastInDim S25000x256 ![] bcast_S_S25000x256 : (⟨S_, .f32⟩ : BufTy).Contents (Elt F) → (⟨S25000x256, .f32⟩ : BufTy).Contents (Elt F)),
    unary main_v3 main_v18 (broadcastInDim S600000x1 ![0] bcast_S600000_S600000x1_0 : (⟨S600000, .i32⟩ : BufTy).Contents (Elt F) → (⟨S600000x1, .i32⟩ : BufTy).Contents (Elt F)),
    ternary main_v17 main_v18 main_v16 main_v19 ((fun x i u => Host.scatterAdd scatter_S25000x256_S600000x1_S600000x256_1_0_0_1 x i u) : (⟨S25000x256, .f32⟩ : BufTy).Contents (Elt F) → (⟨S600000x1, .i32⟩ : BufTy).Contents (Elt F) → (⟨S600000x256, .f32⟩ : BufTy).Contents (Elt F) → (⟨S25000x256, .f32⟩ : BufTy).Contents (Elt F)),
    nullary main_cst_1 (constant S_ .f32 0x3F800000#32),
    unary main_cst_1 main_v20 (broadcastInDim S600000 ![] bcast_S_S600000 : (⟨S_, .f32⟩ : BufTy).Contents (Elt F) → (⟨S600000, .f32⟩ : BufTy).Contents (Elt F)),
    nullary main_cst_2 (constant S_ .f32 0x00000000#32),
    unary main_cst_2 main_v21 (broadcastInDim S25000 ![] bcast_S_S25000 : (⟨S_, .f32⟩ : BufTy).Contents (Elt F) → (⟨S25000, .f32⟩ : BufTy).Contents (Elt F)),
    unary main_v3 main_v22 (broadcastInDim S600000x1 ![0] bcast_S600000_S600000x1_0 : (⟨S600000, .i32⟩ : BufTy).Contents (Elt F) → (⟨S600000x1, .i32⟩ : BufTy).Contents (Elt F)),
    ternary main_v21 main_v22 main_v20 main_v23 ((fun x i u => Host.scatterAdd scatter_S25000_S600000x1_S600000_n_0_0_1 x i u) : (⟨S25000, .f32⟩ : BufTy).Contents (Elt F) → (⟨S600000x1, .i32⟩ : BufTy).Contents (Elt F) → (⟨S600000, .f32⟩ : BufTy).Contents (Elt F) → (⟨S25000, .f32⟩ : BufTy).Contents (Elt F)),
    nullary main_cst_3 (constant S_ .f32 0x3F800000#32),
    unary main_cst_3 main_v24 (broadcastInDim S25000 ![] bcast_S_S25000 : (⟨S_, .f32⟩ : BufTy).Contents (Elt F) → (⟨S25000, .f32⟩ : BufTy).Contents (Elt F)),
    binary main_v23 main_v24 main_v25 (maximumf : (⟨S25000, .f32⟩ : BufTy).Contents (Elt F) → (⟨S25000, .f32⟩ : BufTy).Contents (Elt F) → (⟨S25000, .f32⟩ : BufTy).Contents (Elt F)),
    unary main_v25 main_v26 (broadcastInDim S25000x1 ![0] bcast_S25000_S25000x1_0 : (⟨S25000, .f32⟩ : BufTy).Contents (Elt F) → (⟨S25000x1, .f32⟩ : BufTy).Contents (Elt F)),
    unary main_v26 main_v27 (broadcastInDim S25000x256 ![0, 1] bcast_S25000x1_S25000x256_0_1 : (⟨S25000x1, .f32⟩ : BufTy).Contents (Elt F) → (⟨S25000x256, .f32⟩ : BufTy).Contents (Elt F)),
    binary main_v19 main_v27 main_v28 (Host.divf : (⟨S25000x256, .f32⟩ : BufTy).Contents (Elt F) → (⟨S25000x256, .f32⟩ : BufTy).Contents (Elt F) → (⟨S25000x256, .f32⟩ : BufTy).Contents (Elt F)),
    unary main_arg6 main_v29 ((transpose S256x256 [1, 0] · transposes_S256x256_S256x256_1_0) : (⟨S256x256, .f32⟩ : BufTy).Contents (Elt F) → (⟨S256x256, .f32⟩ : BufTy).Contents (Elt F)),
    binary main_v28 main_v29 main_v30 ((fun l r => Host.dotGeneral dot_S25000x256_S256x256_S25000x256_1_0_0_1_n_n none l r) : (⟨S25000x256, .f32⟩ : BufTy).Contents (Elt F) → (⟨S256x256, .f32⟩ : BufTy).Contents (Elt F) → (⟨S25000x256, .f32⟩ : BufTy).Contents (Elt F)),
    unary main_arg7 main_v31 (broadcastInDim S1x256 ![1] bcast_S256_S1x256_1 : (⟨S256, .f32⟩ : BufTy).Contents (Elt F) → (⟨S1x256, .f32⟩ : BufTy).Contents (Elt F)),
    unary main_v31 main_v32 (broadcastInDim S25000x256 ![0, 1] bcast_S1x256_S25000x256_0_1 : (⟨S1x256, .f32⟩ : BufTy).Contents (Elt F) → (⟨S25000x256, .f32⟩ : BufTy).Contents (Elt F)),
    binary main_v30 main_v32 main_v33 (addf : (⟨S25000x256, .f32⟩ : BufTy).Contents (Elt F) → (⟨S25000x256, .f32⟩ : BufTy).Contents (Elt F) → (⟨S25000x256, .f32⟩ : BufTy).Contents (Elt F)),
    unary main_arg8 main_v34 ((transpose S256x256 [1, 0] · transposes_S256x256_S256x256_1_0) : (⟨S256x256, .f32⟩ : BufTy).Contents (Elt F) → (⟨S256x256, .f32⟩ : BufTy).Contents (Elt F)),
    binary main_v9 main_v34 main_v35 ((fun l r => Host.dotGeneral dot_S25000x256_S256x256_S25000x256_1_0_0_1_n_n none l r) : (⟨S25000x256, .f32⟩ : BufTy).Contents (Elt F) → (⟨S256x256, .f32⟩ : BufTy).Contents (Elt F) → (⟨S25000x256, .f32⟩ : BufTy).Contents (Elt F)),
    binary main_v33 main_v35 main_v36 (addf : (⟨S25000x256, .f32⟩ : BufTy).Contents (Elt F) → (⟨S25000x256, .f32⟩ : BufTy).Contents (Elt F) → (⟨S25000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S25000x256, .f32⟩) main_call1_v0) (broadcastInDim S25000x256 ![] bcast_S_S25000x256),
    TRef.binary (TRef.of (T := ⟨S25000x256, .f32⟩) main_v36) (TRef.of (T := ⟨S25000x256, .f32⟩) main_call1_v0) (TRef.of (T := ⟨S25000x256, .f32⟩) main_v37) maximumf,
    unary main_arg15 main_v38 ((transpose S256x256 [1, 0] · transposes_S256x256_S256x256_1_0) : (⟨S256x256, .f32⟩ : BufTy).Contents (Elt F) → (⟨S256x256, .f32⟩ : BufTy).Contents (Elt F)),
    binary main_v37 main_v38 main_v39 ((fun l r => Host.dotGeneral dot_S25000x256_S256x256_S25000x256_1_0_0_1_n_n none l r) : (⟨S25000x256, .f32⟩ : BufTy).Contents (Elt F) → (⟨S256x256, .f32⟩ : BufTy).Contents (Elt F) → (⟨S25000x256, .f32⟩ : BufTy).Contents (Elt F)),
    unary main_arg16 main_v40 (broadcastInDim S1x256 ![1] bcast_S256_S1x256_1 : (⟨S256, .f32⟩ : BufTy).Contents (Elt F) → (⟨S1x256, .f32⟩ : BufTy).Contents (Elt F)),
    unary main_v40 main_v41 (broadcastInDim S25000x256 ![0, 1] bcast_S1x256_S25000x256_0_1 : (⟨S1x256, .f32⟩ : BufTy).Contents (Elt F) → (⟨S25000x256, .f32⟩ : BufTy).Contents (Elt F)),
    binary main_v39 main_v41 main_v42 (addf : (⟨S25000x256, .f32⟩ : BufTy).Contents (Elt F) → (⟨S25000x256, .f32⟩ : BufTy).Contents (Elt F) → (⟨S25000x256, .f32⟩ : BufTy).Contents (Elt F)),
    nullary main_cst_4 (constant S_ .f32 0x00000000#32),
    unary main_cst_4 main_v43 (broadcastInDim S25000x256 ![] bcast_S_S25000x256 : (⟨S_, .f32⟩ : BufTy).Contents (Elt F) → (⟨S25000x256, .f32⟩ : BufTy).Contents (Elt F)),
    binary main_v42 main_v43 main_v44 (cmpf .ogt : (⟨S25000x256, .f32⟩ : BufTy).Contents (Elt F) → (⟨S25000x256, .f32⟩ : BufTy).Contents (Elt F) → (⟨S25000x256, .i1⟩ : BufTy).Contents (Elt F)),
    nullary main_cst_5 (constant S_ .f32 0x3C23D70A#32),
    unary main_cst_5 main_v45 (broadcastInDim S25000x256 ![] bcast_S_S25000x256 : (⟨S_, .f32⟩ : BufTy).Contents (Elt F) → (⟨S25000x256, .f32⟩ : BufTy).Contents (Elt F)),
    binary main_v45 main_v42 main_v46 (mulf : (⟨S25000x256, .f32⟩ : BufTy).Contents (Elt F) → (⟨S25000x256, .f32⟩ : BufTy).Contents (Elt F) → (⟨S25000x256, .f32⟩ : BufTy).Contents (Elt F)),
    TRef.ternary (TRef.of (T := ⟨S25000x256, .i1⟩) main_v44) (TRef.of (T := ⟨S25000x256, .f32⟩) main_v42) (TRef.of (T := ⟨S25000x256, .f32⟩) main_v46) (TRef.of (T := ⟨S25000x256, .f32⟩) main_v47) select,
    nullary main_c_6 (constantI S_ 32 0#32),
    unary main_c_6 main_v48 (broadcastInDim S600000 ![] bcast_S_S600000 : (⟨S_, .i32⟩ : BufTy).Contents (Elt F) → (⟨S600000, .i32⟩ : BufTy).Contents (Elt F)),
    binary main_v1 main_v48 main_v49 (cmpi .slt : (⟨S600000, .i32⟩ : BufTy).Contents (Elt F) → (⟨S600000, .i32⟩ : BufTy).Contents (Elt F) → (⟨S600000, .i1⟩ : BufTy).Contents (Elt F)),
    nullary main_c_7 (constantI S_ 32 25000#32),
    unary main_c_7 main_v50 (broadcastInDim S600000 ![] bcast_S_S600000 : (⟨S_, .i32⟩ : BufTy).Contents (Elt F) → (⟨S600000, .i32⟩ : BufTy).Contents (Elt F)),
    binary main_v1 main_v50 main_v51 (addi : (⟨S600000, .i32⟩ : BufTy).Contents (Elt F) → (⟨S600000, .i32⟩ : BufTy).Contents (Elt F) → (⟨S600000, .i32⟩ : BufTy).Contents (Elt F)),
    ternary main_v49 main_v51 main_v1 main_v52 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v52 main_v53 (broadcastInDim S600000x1 ![0] bcast_S600000_S600000x1_0 : (⟨S600000, .i32⟩ : BufTy).Contents (Elt F) → (⟨S600000x1, .i32⟩ : BufTy).Contents (Elt F)),
    binary main_v47 main_v53 main_v54 ((fun x i => Host.gather gather_S25000x256_S600000x1_S600000x256_1_0_n_n_0_1_1256 x i) : (⟨S25000x256, .f32⟩ : BufTy).Contents (Elt F) → (⟨S600000x1, .i32⟩ : BufTy).Contents (Elt F) → (⟨S600000x256, .f32⟩ : BufTy).Contents (Elt F)),
    nullary main_cst_8 (constant S_ .f32 0x00000000#32),
    unary main_cst_8 main_v55 (broadcastInDim S25000x256 ![] bcast_S_S25000x256 : (⟨S_, .f32⟩ : BufTy).Contents (Elt F) → (⟨S25000x256, .f32⟩ : BufTy).Contents (Elt F)),
    unary main_v3 main_v56 (broadcastInDim S600000x1 ![0] bcast_S600000_S600000x1_0 : (⟨S600000, .i32⟩ : BufTy).Contents (Elt F) → (⟨S600000x1, .i32⟩ : BufTy).Contents (Elt F)),
    ternary main_v55 main_v56 main_v54 main_v57 ((fun x i u => Host.scatterAdd scatter_S25000x256_S600000x1_S600000x256_1_0_0_1 x i u) : (⟨S25000x256, .f32⟩ : BufTy).Contents (Elt F) → (⟨S600000x1, .i32⟩ : BufTy).Contents (Elt F) → (⟨S600000x256, .f32⟩ : BufTy).Contents (Elt F) → (⟨S25000x256, .f32⟩ : BufTy).Contents (Elt F)),
    nullary main_cst_9 (constant S_ .f32 0x3F800000#32),
    unary main_cst_9 main_v58 (broadcastInDim S600000 ![] bcast_S_S600000 : (⟨S_, .f32⟩ : BufTy).Contents (Elt F) → (⟨S600000, .f32⟩ : BufTy).Contents (Elt F)),
    nullary main_cst_10 (constant S_ .f32 0x00000000#32),
    unary main_cst_10 main_v59 (broadcastInDim S25000 ![] bcast_S_S25000 : (⟨S_, .f32⟩ : BufTy).Contents (Elt F) → (⟨S25000, .f32⟩ : BufTy).Contents (Elt F)),
    unary main_v3 main_v60 (broadcastInDim S600000x1 ![0] bcast_S600000_S600000x1_0 : (⟨S600000, .i32⟩ : BufTy).Contents (Elt F) → (⟨S600000x1, .i32⟩ : BufTy).Contents (Elt F)),
    ternary main_v59 main_v60 main_v58 main_v61 ((fun x i u => Host.scatterAdd scatter_S25000_S600000x1_S600000_n_0_0_1 x i u) : (⟨S25000, .f32⟩ : BufTy).Contents (Elt F) → (⟨S600000x1, .i32⟩ : BufTy).Contents (Elt F) → (⟨S600000, .f32⟩ : BufTy).Contents (Elt F) → (⟨S25000, .f32⟩ : BufTy).Contents (Elt F)),
    nullary main_cst_11 (constant S_ .f32 0x3F800000#32),
    unary main_cst_11 main_v62 (broadcastInDim S25000 ![] bcast_S_S25000 : (⟨S_, .f32⟩ : BufTy).Contents (Elt F) → (⟨S25000, .f32⟩ : BufTy).Contents (Elt F)),
    binary main_v61 main_v62 main_v63 (maximumf : (⟨S25000, .f32⟩ : BufTy).Contents (Elt F) → (⟨S25000, .f32⟩ : BufTy).Contents (Elt F) → (⟨S25000, .f32⟩ : BufTy).Contents (Elt F)),
    unary main_v63 main_v64 (broadcastInDim S25000x1 ![0] bcast_S25000_S25000x1_0 : (⟨S25000, .f32⟩ : BufTy).Contents (Elt F) → (⟨S25000x1, .f32⟩ : BufTy).Contents (Elt F)),
    unary main_v64 main_v65 (broadcastInDim S25000x256 ![0, 1] bcast_S25000x1_S25000x256_0_1 : (⟨S25000x1, .f32⟩ : BufTy).Contents (Elt F) → (⟨S25000x256, .f32⟩ : BufTy).Contents (Elt F)),
    binary main_v57 main_v65 main_v66 (Host.divf : (⟨S25000x256, .f32⟩ : BufTy).Contents (Elt F) → (⟨S25000x256, .f32⟩ : BufTy).Contents (Elt F) → (⟨S25000x256, .f32⟩ : BufTy).Contents (Elt F)),
    unary main_arg9 main_v67 ((transpose S256x256 [1, 0] · transposes_S256x256_S256x256_1_0) : (⟨S256x256, .f32⟩ : BufTy).Contents (Elt F) → (⟨S256x256, .f32⟩ : BufTy).Contents (Elt F)),
    binary main_v66 main_v67 main_v68 ((fun l r => Host.dotGeneral dot_S25000x256_S256x256_S25000x256_1_0_0_1_n_n none l r) : (⟨S25000x256, .f32⟩ : BufTy).Contents (Elt F) → (⟨S256x256, .f32⟩ : BufTy).Contents (Elt F) → (⟨S25000x256, .f32⟩ : BufTy).Contents (Elt F)),
    unary main_arg10 main_v69 (broadcastInDim S1x256 ![1] bcast_S256_S1x256_1 : (⟨S256, .f32⟩ : BufTy).Contents (Elt F) → (⟨S1x256, .f32⟩ : BufTy).Contents (Elt F)),
    unary main_v69 main_v70 (broadcastInDim S25000x256 ![0, 1] bcast_S1x256_S25000x256_0_1 : (⟨S1x256, .f32⟩ : BufTy).Contents (Elt F) → (⟨S25000x256, .f32⟩ : BufTy).Contents (Elt F)),
    binary main_v68 main_v70 main_v71 (addf : (⟨S25000x256, .f32⟩ : BufTy).Contents (Elt F) → (⟨S25000x256, .f32⟩ : BufTy).Contents (Elt F) → (⟨S25000x256, .f32⟩ : BufTy).Contents (Elt F)),
    unary main_arg11 main_v72 ((transpose S256x256 [1, 0] · transposes_S256x256_S256x256_1_0) : (⟨S256x256, .f32⟩ : BufTy).Contents (Elt F) → (⟨S256x256, .f32⟩ : BufTy).Contents (Elt F)),
    binary main_v47 main_v72 main_v73 ((fun l r => Host.dotGeneral dot_S25000x256_S256x256_S25000x256_1_0_0_1_n_n none l r) : (⟨S25000x256, .f32⟩ : BufTy).Contents (Elt F) → (⟨S256x256, .f32⟩ : BufTy).Contents (Elt F) → (⟨S25000x256, .f32⟩ : BufTy).Contents (Elt F)),
    binary main_v71 main_v73 main_v74 (addf : (⟨S25000x256, .f32⟩ : BufTy).Contents (Elt F) → (⟨S25000x256, .f32⟩ : BufTy).Contents (Elt F) → (⟨S25000x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S25000x256, .f32⟩) main_call3_v0) (broadcastInDim S25000x256 ![] bcast_S_S25000x256),
    TRef.binary (TRef.of (T := ⟨S25000x256, .f32⟩) main_v74) (TRef.of (T := ⟨S25000x256, .f32⟩) main_call3_v0) (TRef.of (T := ⟨S25000x256, .f32⟩) main_v75) maximumf,
    unary main_arg17 main_v76 ((transpose S256x256 [1, 0] · transposes_S256x256_S256x256_1_0) : (⟨S256x256, .f32⟩ : BufTy).Contents (Elt F) → (⟨S256x256, .f32⟩ : BufTy).Contents (Elt F)),
    binary main_v75 main_v76 main_v77 ((fun l r => Host.dotGeneral dot_S25000x256_S256x256_S25000x256_1_0_0_1_n_n none l r) : (⟨S25000x256, .f32⟩ : BufTy).Contents (Elt F) → (⟨S256x256, .f32⟩ : BufTy).Contents (Elt F) → (⟨S25000x256, .f32⟩ : BufTy).Contents (Elt F)),
    unary main_arg18 main_v78 (broadcastInDim S1x256 ![1] bcast_S256_S1x256_1 : (⟨S256, .f32⟩ : BufTy).Contents (Elt F) → (⟨S1x256, .f32⟩ : BufTy).Contents (Elt F)),
    unary main_v78 main_v79 (broadcastInDim S25000x256 ![0, 1] bcast_S1x256_S25000x256_0_1 : (⟨S1x256, .f32⟩ : BufTy).Contents (Elt F) → (⟨S25000x256, .f32⟩ : BufTy).Contents (Elt F)),
    binary main_v77 main_v79 main_v80 (addf : (⟨S25000x256, .f32⟩ : BufTy).Contents (Elt F) → (⟨S25000x256, .f32⟩ : BufTy).Contents (Elt F) → (⟨S25000x256, .f32⟩ : BufTy).Contents (Elt F)),
    nullary main_cst_12 (constant S_ .f32 0x00000000#32),
    unary main_cst_12 main_v81 (broadcastInDim S25000x256 ![] bcast_S_S25000x256 : (⟨S_, .f32⟩ : BufTy).Contents (Elt F) → (⟨S25000x256, .f32⟩ : BufTy).Contents (Elt F)),
    binary main_v80 main_v81 main_v82 (cmpf .ogt : (⟨S25000x256, .f32⟩ : BufTy).Contents (Elt F) → (⟨S25000x256, .f32⟩ : BufTy).Contents (Elt F) → (⟨S25000x256, .i1⟩ : BufTy).Contents (Elt F)),
    nullary main_cst_13 (constant S_ .f32 0x3C23D70A#32),
    unary main_cst_13 main_v83 (broadcastInDim S25000x256 ![] bcast_S_S25000x256 : (⟨S_, .f32⟩ : BufTy).Contents (Elt F) → (⟨S25000x256, .f32⟩ : BufTy).Contents (Elt F)),
    binary main_v83 main_v80 main_v84 (mulf : (⟨S25000x256, .f32⟩ : BufTy).Contents (Elt F) → (⟨S25000x256, .f32⟩ : BufTy).Contents (Elt F) → (⟨S25000x256, .f32⟩ : BufTy).Contents (Elt F)),
    TRef.ternary (TRef.of (T := ⟨S25000x256, .i1⟩) main_v82) (TRef.of (T := ⟨S25000x256, .f32⟩) main_v80) (TRef.of (T := ⟨S25000x256, .f32⟩) main_v84) (TRef.of (T := ⟨S25000x256, .f32⟩) main_v85) select,
    nullary main_c_14 (constantI S_ 32 0#32),
    unary main_c_14 main_v86 (broadcastInDim S600000 ![] bcast_S_S600000 : (⟨S_, .i32⟩ : BufTy).Contents (Elt F) → (⟨S600000, .i32⟩ : BufTy).Contents (Elt F)),
    binary main_v1 main_v86 main_v87 (cmpi .slt : (⟨S600000, .i32⟩ : BufTy).Contents (Elt F) → (⟨S600000, .i32⟩ : BufTy).Contents (Elt F) → (⟨S600000, .i1⟩ : BufTy).Contents (Elt F)),
    nullary main_c_15 (constantI S_ 32 25000#32),
    unary main_c_15 main_v88 (broadcastInDim S600000 ![] bcast_S_S600000 : (⟨S_, .i32⟩ : BufTy).Contents (Elt F) → (⟨S600000, .i32⟩ : BufTy).Contents (Elt F)),
    binary main_v1 main_v88 main_v89 (addi : (⟨S600000, .i32⟩ : BufTy).Contents (Elt F) → (⟨S600000, .i32⟩ : BufTy).Contents (Elt F) → (⟨S600000, .i32⟩ : BufTy).Contents (Elt F)),
    ternary main_v87 main_v89 main_v1 main_v90 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v90 main_v91 (broadcastInDim S600000x1 ![0] bcast_S600000_S600000x1_0 : (⟨S600000, .i32⟩ : BufTy).Contents (Elt F) → (⟨S600000x1, .i32⟩ : BufTy).Contents (Elt F)),
    binary main_v85 main_v91 main_v92 ((fun x i => Host.gather gather_S25000x256_S600000x1_S600000x256_1_0_n_n_0_1_1256 x i) : (⟨S25000x256, .f32⟩ : BufTy).Contents (Elt F) → (⟨S600000x1, .i32⟩ : BufTy).Contents (Elt F) → (⟨S600000x256, .f32⟩ : BufTy).Contents (Elt F)),
    nullary main_cst_16 (constant S_ .f32 0x00000000#32),
    unary main_cst_16 main_v93 (broadcastInDim S25000x256 ![] bcast_S_S25000x256 : (⟨S_, .f32⟩ : BufTy).Contents (Elt F) → (⟨S25000x256, .f32⟩ : BufTy).Contents (Elt F)),
    unary main_v3 main_v94 (broadcastInDim S600000x1 ![0] bcast_S600000_S600000x1_0 : (⟨S600000, .i32⟩ : BufTy).Contents (Elt F) → (⟨S600000x1, .i32⟩ : BufTy).Contents (Elt F)),
    ternary main_v93 main_v94 main_v92 main_v95 ((fun x i u => Host.scatterAdd scatter_S25000x256_S600000x1_S600000x256_1_0_0_1 x i u) : (⟨S25000x256, .f32⟩ : BufTy).Contents (Elt F) → (⟨S600000x1, .i32⟩ : BufTy).Contents (Elt F) → (⟨S600000x256, .f32⟩ : BufTy).Contents (Elt F) → (⟨S25000x256, .f32⟩ : BufTy).Contents (Elt F)),
    nullary main_cst_17 (constant S_ .f32 0x3F800000#32),
    unary main_cst_17 main_v96 (broadcastInDim S600000 ![] bcast_S_S600000 : (⟨S_, .f32⟩ : BufTy).Contents (Elt F) → (⟨S600000, .f32⟩ : BufTy).Contents (Elt F)),
    nullary main_cst_18 (constant S_ .f32 0x00000000#32),
    unary main_cst_18 main_v97 (broadcastInDim S25000 ![] bcast_S_S25000 : (⟨S_, .f32⟩ : BufTy).Contents (Elt F) → (⟨S25000, .f32⟩ : BufTy).Contents (Elt F)),
    unary main_v3 main_v98 (broadcastInDim S600000x1 ![0] bcast_S600000_S600000x1_0 : (⟨S600000, .i32⟩ : BufTy).Contents (Elt F) → (⟨S600000x1, .i32⟩ : BufTy).Contents (Elt F)),
    ternary main_v97 main_v98 main_v96 main_v99 ((fun x i u => Host.scatterAdd scatter_S25000_S600000x1_S600000_n_0_0_1 x i u) : (⟨S25000, .f32⟩ : BufTy).Contents (Elt F) → (⟨S600000x1, .i32⟩ : BufTy).Contents (Elt F) → (⟨S600000, .f32⟩ : BufTy).Contents (Elt F) → (⟨S25000, .f32⟩ : BufTy).Contents (Elt F)),
    nullary main_cst_19 (constant S_ .f32 0x3F800000#32),
    unary main_cst_19 main_v100 (broadcastInDim S25000 ![] bcast_S_S25000 : (⟨S_, .f32⟩ : BufTy).Contents (Elt F) → (⟨S25000, .f32⟩ : BufTy).Contents (Elt F)),
    binary main_v99 main_v100 main_v101 (maximumf : (⟨S25000, .f32⟩ : BufTy).Contents (Elt F) → (⟨S25000, .f32⟩ : BufTy).Contents (Elt F) → (⟨S25000, .f32⟩ : BufTy).Contents (Elt F)),
    unary main_v101 main_v102 (broadcastInDim S25000x1 ![0] bcast_S25000_S25000x1_0 : (⟨S25000, .f32⟩ : BufTy).Contents (Elt F) → (⟨S25000x1, .f32⟩ : BufTy).Contents (Elt F)),
    unary main_v102 main_v103 (broadcastInDim S25000x256 ![0, 1] bcast_S25000x1_S25000x256_0_1 : (⟨S25000x1, .f32⟩ : BufTy).Contents (Elt F) → (⟨S25000x256, .f32⟩ : BufTy).Contents (Elt F)),
    binary main_v95 main_v103 main_v104 (Host.divf : (⟨S25000x256, .f32⟩ : BufTy).Contents (Elt F) → (⟨S25000x256, .f32⟩ : BufTy).Contents (Elt F) → (⟨S25000x256, .f32⟩ : BufTy).Contents (Elt F)),
    unary main_arg12 main_v105 ((transpose S256x128 [1, 0] · transposes_S128x256_S256x128_1_0) : (⟨S128x256, .f32⟩ : BufTy).Contents (Elt F) → (⟨S256x128, .f32⟩ : BufTy).Contents (Elt F)),
    binary main_v104 main_v105 main_v106 ((fun l r => Host.dotGeneral dot_S25000x256_S256x128_S25000x128_1_0_0_1_n_n none l r) : (⟨S25000x256, .f32⟩ : BufTy).Contents (Elt F) → (⟨S256x128, .f32⟩ : BufTy).Contents (Elt F) → (⟨S25000x128, .f32⟩ : BufTy).Contents (Elt F)),
    unary main_arg13 main_v107 (broadcastInDim S1x128 ![1] bcast_S128_S1x128_1 : (⟨S128, .f32⟩ : BufTy).Contents (Elt F) → (⟨S1x128, .f32⟩ : BufTy).Contents (Elt F)),
    unary main_v107 main_v108 (broadcastInDim S25000x128 ![0, 1] bcast_S1x128_S25000x128_0_1 : (⟨S1x128, .f32⟩ : BufTy).Contents (Elt F) → (⟨S25000x128, .f32⟩ : BufTy).Contents (Elt F)),
    binary main_v106 main_v108 main_v109 (addf : (⟨S25000x128, .f32⟩ : BufTy).Contents (Elt F) → (⟨S25000x128, .f32⟩ : BufTy).Contents (Elt F) → (⟨S25000x128, .f32⟩ : BufTy).Contents (Elt F)),
    unary main_arg14 main_v110 ((transpose S256x128 [1, 0] · transposes_S128x256_S256x128_1_0) : (⟨S128x256, .f32⟩ : BufTy).Contents (Elt F) → (⟨S256x128, .f32⟩ : BufTy).Contents (Elt F)),
    binary main_v85 main_v110 main_v111 ((fun l r => Host.dotGeneral dot_S25000x256_S256x128_S25000x128_1_0_0_1_n_n none l r) : (⟨S25000x256, .f32⟩ : BufTy).Contents (Elt F) → (⟨S256x128, .f32⟩ : BufTy).Contents (Elt F) → (⟨S25000x128, .f32⟩ : BufTy).Contents (Elt F)),
    binary main_v109 main_v111 main_v112 (addf : (⟨S25000x128, .f32⟩ : BufTy).Contents (Elt F) → (⟨S25000x128, .f32⟩ : BufTy).Contents (Elt F) → (⟨S25000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S25000x128, .f32⟩) main_call5_v0) (broadcastInDim S25000x128 ![] bcast_S_S25000x128),
    TRef.binary (TRef.of (T := ⟨S25000x128, .f32⟩) main_v112) (TRef.of (T := ⟨S25000x128, .f32⟩) main_call5_v0) (TRef.of (T := ⟨S25000x128, .f32⟩) main_v113) maximumf,
    unary main_arg19 main_v114 ((transpose S128x128 [1, 0] · transposes_S128x128_S128x128_1_0) : (⟨S128x128, .f32⟩ : BufTy).Contents (Elt F) → (⟨S128x128, .f32⟩ : BufTy).Contents (Elt F)),
    binary main_v113 main_v114 main_v115 ((fun l r => Host.dotGeneral dot_S25000x128_S128x128_S25000x128_1_0_0_1_n_n none l r) : (⟨S25000x128, .f32⟩ : BufTy).Contents (Elt F) → (⟨S128x128, .f32⟩ : BufTy).Contents (Elt F) → (⟨S25000x128, .f32⟩ : BufTy).Contents (Elt F)),
    unary main_arg20 main_v116 (broadcastInDim S1x128 ![1] bcast_S128_S1x128_1 : (⟨S128, .f32⟩ : BufTy).Contents (Elt F) → (⟨S1x128, .f32⟩ : BufTy).Contents (Elt F)),
    unary main_v116 main_v117 (broadcastInDim S25000x128 ![0, 1] bcast_S1x128_S25000x128_0_1 : (⟨S1x128, .f32⟩ : BufTy).Contents (Elt F) → (⟨S25000x128, .f32⟩ : BufTy).Contents (Elt F)),
    binary main_v115 main_v117 main_v118 (addf : (⟨S25000x128, .f32⟩ : BufTy).Contents (Elt F) → (⟨S25000x128, .f32⟩ : BufTy).Contents (Elt F) → (⟨S25000x128, .f32⟩ : BufTy).Contents (Elt F)),
    nullary main_cst_20 (constant S_ .f32 0x00000000#32),
    unary main_cst_20 main_v119 (broadcastInDim S25000x128 ![] bcast_S_S25000x128 : (⟨S_, .f32⟩ : BufTy).Contents (Elt F) → (⟨S25000x128, .f32⟩ : BufTy).Contents (Elt F)),
    binary main_v118 main_v119 main_v120 (cmpf .ogt : (⟨S25000x128, .f32⟩ : BufTy).Contents (Elt F) → (⟨S25000x128, .f32⟩ : BufTy).Contents (Elt F) → (⟨S25000x128, .i1⟩ : BufTy).Contents (Elt F)),
    nullary main_cst_21 (constant S_ .f32 0x3C23D70A#32),
    unary main_cst_21 main_v121 (broadcastInDim S25000x128 ![] bcast_S_S25000x128 : (⟨S_, .f32⟩ : BufTy).Contents (Elt F) → (⟨S25000x128, .f32⟩ : BufTy).Contents (Elt F)),
    binary main_v121 main_v118 main_v122 (mulf : (⟨S25000x128, .f32⟩ : BufTy).Contents (Elt F) → (⟨S25000x128, .f32⟩ : BufTy).Contents (Elt F) → (⟨S25000x128, .f32⟩ : BufTy).Contents (Elt F)),
    TRef.ternary (TRef.of (T := ⟨S25000x128, .i1⟩) main_v120) (TRef.of (T := ⟨S25000x128, .f32⟩) main_v118) (TRef.of (T := ⟨S25000x128, .f32⟩) main_v122) (TRef.of (T := ⟨S25000x128, .f32⟩) main_v123) select,
    nullary main_c_22 (constantI S_ 32 0#32),
    unary main_c_22 main_v124 (broadcastInDim S600000 ![] bcast_S_S600000 : (⟨S_, .i32⟩ : BufTy).Contents (Elt F) → (⟨S600000, .i32⟩ : BufTy).Contents (Elt F)),
    binary main_v1 main_v124 main_v125 (cmpi .slt : (⟨S600000, .i32⟩ : BufTy).Contents (Elt F) → (⟨S600000, .i32⟩ : BufTy).Contents (Elt F) → (⟨S600000, .i1⟩ : BufTy).Contents (Elt F)),
    nullary main_c_23 (constantI S_ 32 25000#32),
    unary main_c_23 main_v126 (broadcastInDim S600000 ![] bcast_S_S600000 : (⟨S_, .i32⟩ : BufTy).Contents (Elt F) → (⟨S600000, .i32⟩ : BufTy).Contents (Elt F)),
    binary main_v1 main_v126 main_v127 (addi : (⟨S600000, .i32⟩ : BufTy).Contents (Elt F) → (⟨S600000, .i32⟩ : BufTy).Contents (Elt F) → (⟨S600000, .i32⟩ : BufTy).Contents (Elt F)),
    ternary main_v125 main_v127 main_v1 main_v128 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v128 main_v129 (broadcastInDim S600000x1 ![0] bcast_S600000_S600000x1_0 : (⟨S600000, .i32⟩ : BufTy).Contents (Elt F) → (⟨S600000x1, .i32⟩ : BufTy).Contents (Elt F)),
    binary main_v123 main_v129 main_v130 ((fun x i => Host.gather gather_S25000x128_S600000x1_S600000x128_1_0_n_n_0_1_1128 x i) : (⟨S25000x128, .f32⟩ : BufTy).Contents (Elt F) → (⟨S600000x1, .i32⟩ : BufTy).Contents (Elt F) → (⟨S600000x128, .f32⟩ : BufTy).Contents (Elt F)),
    nullary main_c_24 (constantI S_ 32 0#32),
    unary main_c_24 main_v131 (broadcastInDim S600000 ![] bcast_S_S600000 : (⟨S_, .i32⟩ : BufTy).Contents (Elt F) → (⟨S600000, .i32⟩ : BufTy).Contents (Elt F)),
    binary main_v3 main_v131 main_v132 (cmpi .slt : (⟨S600000, .i32⟩ : BufTy).Contents (Elt F) → (⟨S600000, .i32⟩ : BufTy).Contents (Elt F) → (⟨S600000, .i1⟩ : BufTy).Contents (Elt F)),
    nullary main_c_25 (constantI S_ 32 25000#32),
    unary main_c_25 main_v133 (broadcastInDim S600000 ![] bcast_S_S600000 : (⟨S_, .i32⟩ : BufTy).Contents (Elt F) → (⟨S600000, .i32⟩ : BufTy).Contents (Elt F)),
    binary main_v3 main_v133 main_v134 (addi : (⟨S600000, .i32⟩ : BufTy).Contents (Elt F) → (⟨S600000, .i32⟩ : BufTy).Contents (Elt F) → (⟨S600000, .i32⟩ : BufTy).Contents (Elt F)),
    ternary main_v132 main_v134 main_v3 main_v135 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v135 main_v136 (broadcastInDim S600000x1 ![0] bcast_S600000_S600000x1_0 : (⟨S600000, .i32⟩ : BufTy).Contents (Elt F) → (⟨S600000x1, .i32⟩ : BufTy).Contents (Elt F)),
    binary main_v123 main_v136 main_v137 ((fun x i => Host.gather gather_S25000x128_S600000x1_S600000x128_1_0_n_n_0_1_1128 x i) : (⟨S25000x128, .f32⟩ : BufTy).Contents (Elt F) → (⟨S600000x1, .i32⟩ : BufTy).Contents (Elt F) → (⟨S600000x128, .f32⟩ : BufTy).Contents (Elt F)),
    unary main_v130 main_v138 ((extractStridedSlice S600000x96 ![0, 0] · slices_S600000x128_S600000x96_0_0) : (⟨S600000x128, .f32⟩ : BufTy).Contents (Elt F) → (⟨S600000x96, .f32⟩ : BufTy).Contents (Elt F)),
    unary main_v137 main_v139 ((extractStridedSlice S600000x96 ![0, 0] · slices_S600000x128_S600000x96_0_0) : (⟨S600000x128, .f32⟩ : BufTy).Contents (Elt F) → (⟨S600000x96, .f32⟩ : BufTy).Contents (Elt F)),
    binary main_v138 main_v139 main_v140 ((fun a b => concatenate S600000x192 1 [⟨S600000x96, a⟩, ⟨S600000x96, b⟩] concatenates_S600000x96_S600000x96_S600000x192_d1) : (⟨S600000x96, .f32⟩ : BufTy).Contents (Elt F) → (⟨S600000x96, .f32⟩ : BufTy).Contents (Elt F) → (⟨S600000x192, .f32⟩ : BufTy).Contents (Elt F)),
    unary main_v130 main_v141 ((extractStridedSlice S600000x32 ![0, 96] · slices_S600000x128_S600000x32_0_96) : (⟨S600000x128, .f32⟩ : BufTy).Contents (Elt F) → (⟨S600000x32, .f32⟩ : BufTy).Contents (Elt F)),
    unary main_v137 main_v142 ((extractStridedSlice S600000x32 ![0, 96] · slices_S600000x128_S600000x32_0_96) : (⟨S600000x128, .f32⟩ : BufTy).Contents (Elt F) → (⟨S600000x32, .f32⟩ : BufTy).Contents (Elt F)),
    binary main_v141 main_v142 main_v143 ((fun a b => concatenate S600000x64 1 [⟨S600000x32, a⟩, ⟨S600000x32, b⟩] concatenates_S600000x32_S600000x32_S600000x64_d1) : (⟨S600000x32, .f32⟩ : BufTy).Contents (Elt F) → (⟨S600000x32, .f32⟩ : BufTy).Contents (Elt F) → (⟨S600000x64, .f32⟩ : BufTy).Contents (Elt F)),
    unary main_arg21 main_v144 ((transpose S192x1 [1, 0] · transposes_S1x192_S192x1_1_0) : (⟨S1x192, .f32⟩ : BufTy).Contents (Elt F) → (⟨S192x1, .f32⟩ : BufTy).Contents (Elt F)),
    binary main_v140 main_v144 main_v145 ((fun l r => Host.dotGeneral dot_S600000x192_S192x1_S600000x1_1_0_0_1_n_n none l r) : (⟨S600000x192, .f32⟩ : BufTy).Contents (Elt F) → (⟨S192x1, .f32⟩ : BufTy).Contents (Elt F) → (⟨S600000x1, .f32⟩ : BufTy).Contents (Elt F)),
    unary main_arg22 main_v146 (broadcastInDim S1x1 ![1] bcast_S1_S1x1_1 : (⟨S1, .f32⟩ : BufTy).Contents (Elt F) → (⟨S1x1, .f32⟩ : BufTy).Contents (Elt F)),
    unary main_v146 main_v147 (broadcastInDim S600000x1 ![0, 1] bcast_S1x1_S600000x1_0_1 : (⟨S1x1, .f32⟩ : BufTy).Contents (Elt F) → (⟨S600000x1, .f32⟩ : BufTy).Contents (Elt F)),
    binary main_v145 main_v147 main_v148 (addf : (⟨S600000x1, .f32⟩ : BufTy).Contents (Elt F) → (⟨S600000x1, .f32⟩ : BufTy).Contents (Elt F) → (⟨S600000x1, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S600000x1, .f32⟩) main_call7_v0) (broadcastInDim S600000x1 ![] bcast_S_S600000x1),
    TRef.binary (TRef.of (T := ⟨S600000x1, .f32⟩) main_v148) (TRef.of (T := ⟨S600000x1, .f32⟩) main_call7_v0) (TRef.of (T := ⟨S600000x1, .f32⟩) main_v149) maximumf,
    unary main_arg23 main_v150 ((transpose S64x1 [1, 0] · transposes_S1x64_S64x1_1_0) : (⟨S1x64, .f32⟩ : BufTy).Contents (Elt F) → (⟨S64x1, .f32⟩ : BufTy).Contents (Elt F)),
    binary main_v143 main_v150 main_v151 ((fun l r => Host.dotGeneral dot_S600000x64_S64x1_S600000x1_1_0_0_1_n_n none l r) : (⟨S600000x64, .f32⟩ : BufTy).Contents (Elt F) → (⟨S64x1, .f32⟩ : BufTy).Contents (Elt F) → (⟨S600000x1, .f32⟩ : BufTy).Contents (Elt F)),
    unary main_arg24 main_v152 (broadcastInDim S1x1 ![1] bcast_S1_S1x1_1 : (⟨S1, .f32⟩ : BufTy).Contents (Elt F) → (⟨S1x1, .f32⟩ : BufTy).Contents (Elt F)),
    unary main_v152 main_v153 (broadcastInDim S600000x1 ![0, 1] bcast_S1x1_S600000x1_0_1 : (⟨S1x1, .f32⟩ : BufTy).Contents (Elt F) → (⟨S600000x1, .f32⟩ : BufTy).Contents (Elt F)),
    binary main_v151 main_v153 main_v154 (addf : (⟨S600000x1, .f32⟩ : BufTy).Contents (Elt F) → (⟨S600000x1, .f32⟩ : BufTy).Contents (Elt F) → (⟨S600000x1, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S600000x1, .f32⟩) main_call8_v0) (broadcastInDim S600000x1 ![] bcast_S_S600000x1),
    TRef.binary (TRef.of (T := ⟨S600000x1, .f32⟩) main_v154) (TRef.of (T := ⟨S600000x1, .f32⟩) main_call8_v0) (TRef.of (T := ⟨S600000x1, .f32⟩) main_v155) maximumf,
    binary main_v149 main_arg2 main_v156 (mulf : (⟨S600000x1, .f32⟩ : BufTy).Contents (Elt F) → (⟨S600000x1, .f32⟩ : BufTy).Contents (Elt F) → (⟨S600000x1, .f32⟩ : BufTy).Contents (Elt F)),
    binary main_v156 main_v155 main_v157 (addf : (⟨S600000x1, .f32⟩ : BufTy).Contents (Elt F) → (⟨S600000x1, .f32⟩ : BufTy).Contents (Elt F) → (⟨S600000x1, .f32⟩ : BufTy).Contents (Elt F)),
    reshape main_v157 main_v158 rfl shapeCasts_S600000x1_S12500x48,
    nullary main_cst_26 (constant S_ .f32 0x00000000#32),
    binary main_v158 main_cst_26 main_v159 ((fun x v => Host.reduceAdd x v reducesTo_S12500x48_S12500_d1 h_S_) : (⟨S12500x48, .f32⟩ : BufTy).Contents (Elt F) → (⟨S_, .f32⟩ : BufTy).Contents (Elt F) → (⟨S12500, .f32⟩ : BufTy).Contents (Elt F)),
    nullary main_cst_27 (constant S_ .f32 0x42400000#32),
    unary main_cst_27 main_v160 (broadcastInDim S12500 ![] bcast_S_S12500 : (⟨S_, .f32⟩ : BufTy).Contents (Elt F) → (⟨S12500, .f32⟩ : BufTy).Contents (Elt F)),
    binary main_v159 main_v160 main_v161 (Host.divf : (⟨S12500, .f32⟩ : BufTy).Contents (Elt F) → (⟨S12500, .f32⟩ : BufTy).Contents (Elt F) → (⟨S12500, .f32⟩ : BufTy).Contents (Elt F)),
    reshape main_v161 main_v162 rfl shapeCasts_S12500_S12500x1 ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., binary_bufs_sub .., binary_bufs_sub .., reshape_bufs_sub .., nullary_bufs_sub .., binary_bufs_sub .., nullary_bufs_sub .., unary_bufs_sub .., binary_bufs_sub .., reshape_bufs_sub ..⟩

set_option maxRecDepth 8192 in
set_option maxHeartbeats 82000000 in
/-- On every device, for any float values, from any memory with zero counters: every weakly fair execution of
    @main terminates with the result buffer at the fold of the 205 operations over the device's launch contents,
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v162) = StableHlo.after ops (launchContents m c) (Proc.devRef .tc main_v162)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun _ h c => ⟨h c main_v162,
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl),
      (h c main_arg15).trans (by after_results_simp <;> rfl),
      (h c main_arg16).trans (by after_results_simp <;> rfl),
      (h c main_arg17).trans (by after_results_simp <;> rfl),
      (h c main_arg18).trans (by after_results_simp <;> rfl),
      (h c main_arg19).trans (by after_results_simp <;> rfl),
      (h c main_arg20).trans (by after_results_simp <;> rfl),
      (h c main_arg21).trans (by after_results_simp <;> rfl),
      (h c main_arg22).trans (by after_results_simp <;> rfl),
      (h c main_arg23).trans (by after_results_simp <;> rfl),
      (h c main_arg24).trans (by after_results_simp <;> rfl)⟩)
    (run_seq scopedRefs_eq scopedSems_eq defs main (fun _ => ops) main_eq (fun _ => ops_sub) m ρ)

end Cert.ReferenceIdeal.RefValue

end
-- ==== Proof.RefChain.lean ====
/-
  The reference program's result buffer, after its 205 operations, is the chain of named stages.

  The operations are cut into ten consecutive stretches at the stage boundaries: the two index vectors; the first dense
  layer; then, three times, a neighbourhood layer (36 operations: the index arithmetic, the row gather, the scattered
  sum, the arrival counts, the division, two products, the bias and the activation) followed by a dense layer (12
  operations); the edge stage (42 operations); and the final averaging (7 operations). The fold of a list that is two
  lists in a row is the second list's fold after the first's, so the program's fold is the ten stretches' folds composed.

  For each stretch, over ARBITRARY buffer contents V — a variable, so no earlier stage is ever written out inside a later
  one — two facts are shown. First, the stretch's output buffer holds the stage function of the buffers the stretch
  reads: every operation's result is its function of its operands' contents, and the composed whole-table operations of
  a dense, neighbourhood or edge stage are, index by index, the specification's function (a product read at an entry is
  the sum over the contracted axis; a bias row laid down every row reads its own column; a table of one constant reads
  the constant). Second, a buffer the stretch does not write keeps its contents: the stretch's writes are a literal list
  of buffers, and membership in it is decided.

  Chaining: the argument arrays are written by no stretch and hold their launch contents throughout; the two index
  vectors are written by the first stretch only; each stage's table is read by the next stretch (a neighbourhood layer
  reads it twice, once through the gather and once directly). So the result buffer holds the final averaging of the edge
  stage of the seventh node table of the launch's argument arrays.
-/
import proofs.«130552_j4191888081216_2_alg».proof.Proof.RefRun
import proofs.«130552_j4191888081216_2_alg».proof.Proof.RefNet
import Idealize.ShloMosaic.Lib.StableHlo.Run
import Idealize.ShloMosaic.Lib.Pipeline.Frame

set_option Elab.async false

noncomputable section

open scoped BigOperators

namespace Cert.ReferenceIdeal.RefValue.RefChain

open Cert.ReferenceIdeal Cert.ReferenceIdeal.Gen Idealize.ShloMosaic Idealize.ShloMosaic.ValueIdx Idealize.ShloMosaic.StableHlo
open Cert.Sage

/-! ## The layers as the program composes them, read at an index

A product of an m × n table with an n × p table sums over the n positions of the contracted axis; a one-row table laid
down every row reads its entry in the same column; a table filled with one constant reads the constant. So a layer's
entry (a, c), composed from the program's whole-table operations, is the expression the specification gives it. -/

/-- The product plus the bias row, at entry (a, c). -/
theorem lin_apply {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (hb : (⟨2, ![1, p]⟩ : Shape).BroadcastsInDim ⟨2, ![m, p]⟩ ![0, 1])
    (x : FVec Ideal ⟨2, ![m, n]⟩ .f32) (w : FVec Ideal ⟨2, ![n, p]⟩ .f32) (b : FVec Ideal ⟨2, ![1, p]⟩ .f32)
    (a : Fin m) (c : Fin p) :
    addf (Host.dotGeneral d none x w) (broadcastInDim ⟨2, ![m, p]⟩ ![0, 1] hb b) (ix2 a c)
      = (∑ k : Fin n, x (ix2 a k) * w (ix2 k c)) + b (ix2 0 c) := by
  show FloatOps.dotGeneral d none .single x w (ix2 a c) + broadcastInDim ⟨2, ![m, p]⟩ ![0, 1] hb b (ix2 a c) = _
  rw [Ideal.dotGeneral_apply, LibDot.sum_plain d hr hs hl0 hl1 hr0 hr1, broadcastInDim_oneRow_apply]

/-- The product alone, at entry (a, c). -/
theorem dot_apply {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (x : FVec Ideal ⟨2, ![m, n]⟩ .f32) (w : FVec Ideal ⟨2, ![n, p]⟩ .f32) (a : Fin m) (c : Fin p) :
    Host.dotGeneral d none x w (ix2 a c) = ∑ k : Fin n, x (ix2 a k) * w (ix2 k c) := by
  show FloatOps.dotGeneral d none .single x w (ix2 a c) = _
  rw [Ideal.dotGeneral_apply, LibDot.sum_plain d hr hs hl0 hl1 hr0 hr1]

/-- A dense layer with the maximum-with-zero activation: the product, the bias row laid down every row, their sum,
    and the maximum with a table of zeros. -/
theorem dense_relu {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (hb : (⟨2, ![1, p]⟩ : Shape).BroadcastsInDim ⟨2, ![m, p]⟩ ![0, 1])
    (hz : S_.BroadcastsInDim ⟨2, ![m, p]⟩ ![])
    (x : FVec Ideal ⟨2, ![m, n]⟩ .f32) (w : FVec Ideal ⟨2, ![n, p]⟩ .f32) (b : FVec Ideal ⟨2, ![1, p]⟩ .f32) :
    maximumf (addf (Host.dotGeneral d none x w) (broadcastInDim ⟨2, ![m, p]⟩ ![0, 1] hb b))
        (broadcastInDim ⟨2, ![m, p]⟩ ![] hz (constant (F := Ideal) S_ .f32 0x00000000#32))
      = Spec.dense Spec.relu x w b := by
  funext i
  obtain ⟨a, c, rfl⟩ : ∃ (a : Fin m) (c : Fin p), i = ix2 a c := ⟨i 0, i 1, eq_ix2 i⟩
  show max (addf (Host.dotGeneral d none x w) (broadcastInDim ⟨2, ![m, p]⟩ ![0, 1] hb b) (ix2 a c))
      (Ideal.ofBits .f32 0x00000000#32) = Spec.relu ((∑ k : Fin n, x (ix2 a k) * w (ix2 k c)) + b (ix2 0 c))
  rw [lin_apply d hr hs hl0 hl1 hr0 hr1]
  rfl

/-- A dense layer with the leaky activation: where the sum exceeds zero the sum, elsewhere the fixed multiple of it. -/
theorem dense_leaky {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (hb : (⟨2, ![1, p]⟩ : Shape).BroadcastsInDim ⟨2, ![m, p]⟩ ![0, 1])
    (hz : S_.BroadcastsInDim ⟨2, ![m, p]⟩ ![])
    (x : FVec Ideal ⟨2, ![m, n]⟩ .f32) (w : FVec Ideal ⟨2, ![n, p]⟩ .f32) (b : FVec Ideal ⟨2, ![1, p]⟩ .f32) :
    select
        (cmpf .ogt (addf (Host.dotGeneral d none x w) (broadcastInDim ⟨2, ![m, p]⟩ ![0, 1] hb b))
          (broadcastInDim ⟨2, ![m, p]⟩ ![] hz (constant (F := Ideal) S_ .f32 0x00000000#32)))
        (addf (Host.dotGeneral d none x w) (broadcastInDim ⟨2, ![m, p]⟩ ![0, 1] hb b))
        (mulf (broadcastInDim ⟨2, ![m, p]⟩ ![] hz (constant (F := Ideal) S_ .f32 0x3C23D70A#32))
          (addf (Host.dotGeneral d none x w) (broadcastInDim ⟨2, ![m, p]⟩ ![0, 1] hb b)))
      = Spec.dense Spec.leaky x w b := by
  funext i
  obtain ⟨a, c, rfl⟩ : ∃ (a : Fin m) (c : Fin p), i = ix2 a c := ⟨i 0, i 1, eq_ix2 i⟩
  show Spec.leaky (addf (Host.dotGeneral d none x w) (broadcastInDim ⟨2, ![m, p]⟩ ![0, 1] hb b) (ix2 a c))
    = Spec.leaky ((∑ k : Fin n, x (ix2 a k) * w (ix2 k c)) + b (ix2 0 c))
  rw [lin_apply d hr hs hl0 hl1 hr0 hr1]

/-- A neighbourhood layer: the mean's product plus the bias row, plus the node's own product, then the maximum with a
    table of zeros. Both products contract the same number of columns. -/
theorem sage_relu {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (hb : (⟨2, ![1, p]⟩ : Shape).BroadcastsInDim ⟨2, ![m, p]⟩ ![0, 1])
    (hz : S_.BroadcastsInDim ⟨2, ![m, p]⟩ ![])
    (mn x : FVec Ideal ⟨2, ![m, n]⟩ .f32) (lw rw : FVec Ideal ⟨2, ![n, p]⟩ .f32) (lb : FVec Ideal ⟨2, ![1, p]⟩ .f32) :
    maximumf
        (addf (addf (Host.dotGeneral d none mn lw) (broadcastInDim ⟨2, ![m, p]⟩ ![0, 1] hb lb)) (Host.dotGeneral d none x rw))
        (broadcastInDim ⟨2, ![m, p]⟩ ![] hz (constant (F := Ideal) S_ .f32 0x00000000#32))
      = Spec.sageMid Spec.relu mn x lw lb rw := by
  funext i
  obtain ⟨a, c, rfl⟩ : ∃ (a : Fin m) (c : Fin p), i = ix2 a c := ⟨i 0, i 1, eq_ix2 i⟩
  show max (addf (Host.dotGeneral d none mn lw) (broadcastInDim ⟨2, ![m, p]⟩ ![0, 1] hb lb) (ix2 a c)
        + Host.dotGeneral d none x rw (ix2 a c)) (Ideal.ofBits .f32 0x00000000#32)
    = Spec.relu (((∑ k : Fin n, mn (ix2 a k) * lw (ix2 k c)) + lb (ix2 0 c)) + ∑ k : Fin n, x (ix2 a k) * rw (ix2 k c))
  rw [lin_apply d hr hs hl0 hl1 hr0 hr1, dot_apply d hr hs hl0 hl1 hr0 hr1]
  rfl

/-- The edge stage: each half a product against a weight column plus a bias, then the maximum with zero; the first
    half times the edge's attribute, plus the second half. -/
theorem edge_col {e : Nat} (d1 : DotDims ⟨2, ![e, 192]⟩ ⟨2, ![192, 1]⟩ ⟨2, ![e, 1]⟩)
    (d2 : DotDims ⟨2, ![e, 64]⟩ ⟨2, ![64, 1]⟩ ⟨2, ![e, 1]⟩)
    (hrd1 : d1.contr.rank = 1) (hsd1 : d1.contr.size ⟨0, by omega⟩ = 192)
    (hl0d1 : ∀ (i : (⟨2, ![e, 1]⟩ : Shape).Idx) (q : d1.contr.Idx), (d1.lhsIdx i q 0).val = (i 0).val)
    (hl1d1 : ∀ (i : (⟨2, ![e, 1]⟩ : Shape).Idx) (q : d1.contr.Idx), (d1.lhsIdx i q 1).val = (q ⟨0, by omega⟩).val)
    (hr0d1 : ∀ (i : (⟨2, ![e, 1]⟩ : Shape).Idx) (q : d1.contr.Idx), (d1.rhsIdx i q 0).val = (q ⟨0, by omega⟩).val)
    (hr1d1 : ∀ (i : (⟨2, ![e, 1]⟩ : Shape).Idx) (q : d1.contr.Idx), (d1.rhsIdx i q 1).val = (i 1).val)
    (hrd2 : d2.contr.rank = 1) (hsd2 : d2.contr.size ⟨0, by omega⟩ = 64)
    (hl0d2 : ∀ (i : (⟨2, ![e, 1]⟩ : Shape).Idx) (q : d2.contr.Idx), (d2.lhsIdx i q 0).val = (i 0).val)
    (hl1d2 : ∀ (i : (⟨2, ![e, 1]⟩ : Shape).Idx) (q : d2.contr.Idx), (d2.lhsIdx i q 1).val = (q ⟨0, by omega⟩).val)
    (hr0d2 : ∀ (i : (⟨2, ![e, 1]⟩ : Shape).Idx) (q : d2.contr.Idx), (d2.rhsIdx i q 0).val = (q ⟨0, by omega⟩).val)
    (hr1d2 : ∀ (i : (⟨2, ![e, 1]⟩ : Shape).Idx) (q : d2.contr.Idx), (d2.rhsIdx i q 1).val = (i 1).val)
    (hb : (⟨2, ![1, 1]⟩ : Shape).BroadcastsInDim ⟨2, ![e, 1]⟩ ![0, 1])
    (hz : S_.BroadcastsInDim ⟨2, ![e, 1]⟩ ![])
    (c1 : FVec Ideal ⟨2, ![e, 192]⟩ .f32) (c2 : FVec Ideal ⟨2, ![e, 64]⟩ .f32) (ea : FVec Ideal ⟨2, ![e, 1]⟩ .f32)
    (w1 : FVec Ideal ⟨2, ![192, 1]⟩ .f32) (b1 : FVec Ideal ⟨2, ![1, 1]⟩ .f32)
    (w2 : FVec Ideal ⟨2, ![64, 1]⟩ .f32) (b2 : FVec Ideal ⟨2, ![1, 1]⟩ .f32) :
    addf
        (mulf
          (maximumf (addf (Host.dotGeneral d1 none c1 w1) (broadcastInDim ⟨2, ![e, 1]⟩ ![0, 1] hb b1))
            (broadcastInDim ⟨2, ![e, 1]⟩ ![] hz (constant (F := Ideal) S_ .f32 0x00000000#32)))
          ea)
        (maximumf (addf (Host.dotGeneral d2 none c2 w2) (broadcastInDim ⟨2, ![e, 1]⟩ ![0, 1] hb b2))
          (broadcastInDim ⟨2, ![e, 1]⟩ ![] hz (constant (F := Ideal) S_ .f32 0x00000000#32)))
      = Spec.edgeCol c1 c2 ea w1 b1 w2 b2 := by
  funext i
  obtain ⟨a, c, rfl⟩ : ∃ (a : Fin e) (c : Fin 1), i = ix2 a c := ⟨i 0, i 1, eq_ix2 i⟩
  obtain rfl : c = 0 := Subsingleton.elim _ _
  show max (addf (Host.dotGeneral d1 none c1 w1) (broadcastInDim ⟨2, ![e, 1]⟩ ![0, 1] hb b1) (ix2 a 0))
        (Ideal.ofBits .f32 0x00000000#32) * ea (ix2 a 0)
      + max (addf (Host.dotGeneral d2 none c2 w2) (broadcastInDim ⟨2, ![e, 1]⟩ ![0, 1] hb b2) (ix2 a 0))
        (Ideal.ofBits .f32 0x00000000#32)
    = Spec.relu ((∑ k : Fin 192, c1 (ix2 a k) * w1 (ix2 k 0)) + b1 (ix2 0 0)) * ea (ix2 a 0)
      + Spec.relu ((∑ k : Fin 64, c2 (ix2 a k) * w2 (ix2 k 0)) + b2 (ix2 0 0))
  rw [lin_apply d1 hrd1 hsd1 hl0d1 hl1d1 hr0d1 hr1d1, lin_apply d2 hrd2 hsd2 hl0d2 hl1d2 hr0d2 hr1d2]
  rfl

/-! ## The stretches -/
section Stretches
variable {F : FTy → Type} [FloatOps F]
/-- Stretch 0: operations 0 to 3 of the program. -/
abbrev s0 : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000 ]
/-- The buffers stretch 0 writes. -/
abbrev W0 : List (Ref sig .tc) := [main_v0, main_v1, main_v2, main_v3]
theorem s0_writes : (s0 (F := F)).Forall fun op => op.writes ⊆ ((W0).map (Proc.devRef (τ := τ) .tc)).toFinset := by
  simp only [List.Forall]
  refine ⟨?_, ?_, ?_, ?_⟩ <;>
    (simp only [StableHlo.nullary_writes, StableHlo.unary_writes, StableHlo.binary_writes, StableHlo.ternary_writes,
      StableHlo.reshape_writes, Finset.singleton_subset_iff, List.mem_toFinset]; exact List.mem_map_of_mem (by decide))
/-- A buffer that stretch 0 does not write keeps its contents through it. -/
theorem s0_keep (V : Valuation τ sig (Elt F)) (r : Ref sig .tc) (h : r ∉ W0) :
    after s0 V (Proc.devRef .tc r) = V (Proc.devRef .tc r) :=
  after_of_writes_sub s0 V s0_writes h

/-- Stretch 1: operations 4 to 11 of the program. -/
abbrev s1 : List (HloOp τ sig (Elt F)) :=
  [ unary main_arg4 main_v4 ((transpose S128x256 [1, 0] · transposes_S256x128_S128x256_1_0) : (⟨S256x128, .f32⟩ : BufTy).Contents (Elt F) → (⟨S128x256, .f32⟩ : BufTy).Contents (Elt F)),
    binary main_arg0 main_v4 main_v5 ((fun l r => Host.dotGeneral dot_S25000x128_S128x256_S25000x256_1_0_0_1_n_n none l r) : (⟨S25000x128, .f32⟩ : BufTy).Contents (Elt F) → (⟨S128x256, .f32⟩ : BufTy).Contents (Elt F) → (⟨S25000x256, .f32⟩ : BufTy).Contents (Elt F)),
    unary main_arg5 main_v6 (broadcastInDim S1x256 ![1] bcast_S256_S1x256_1 : (⟨S256, .f32⟩ : BufTy).Contents (Elt F) → (⟨S1x256, .f32⟩ : BufTy).Contents (Elt F)),
    unary main_v6 main_v7 (broadcastInDim S25000x256 ![0, 1] bcast_S1x256_S25000x256_0_1 : (⟨S1x256, .f32⟩ : BufTy).Contents (Elt F) → (⟨S25000x256, .f32⟩ : BufTy).Contents (Elt F)),
    binary main_v5 main_v7 main_v8 (addf : (⟨S25000x256, .f32⟩ : BufTy).Contents (Elt F) → (⟨S25000x256, .f32⟩ : BufTy).Contents (Elt F) → (⟨S25000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S25000x256, .f32⟩) main_call0_v0) (broadcastInDim S25000x256 ![] bcast_S_S25000x256),
    TRef.binary (TRef.of (T := ⟨S25000x256, .f32⟩) main_v8) (TRef.of (T := ⟨S25000x256, .f32⟩) main_call0_v0) (TRef.of (T := ⟨S25000x256, .f32⟩) main_v9) maximumf ]
/-- The buffers stretch 1 writes. -/
abbrev W1 : List (Ref sig .tc) := [main_v4, main_v5, main_v6, main_v7, main_v8, main_call0_cst, main_call0_v0, main_v9]
theorem s1_writes : (s1 (F := F)).Forall fun op => op.writes ⊆ ((W1).map (Proc.devRef (τ := τ) .tc)).toFinset := by
  simp only [List.Forall]
  refine ⟨?_, ?_, ?_, ?_, ?_, ?_, ?_, ?_⟩ <;>
    (simp only [StableHlo.nullary_writes, StableHlo.unary_writes, StableHlo.binary_writes, StableHlo.ternary_writes,
      StableHlo.reshape_writes, Finset.singleton_subset_iff, List.mem_toFinset]; exact List.mem_map_of_mem (by decide))
/-- A buffer that stretch 1 does not write keeps its contents through it. -/
theorem s1_keep (V : Valuation τ sig (Elt F)) (r : Ref sig .tc) (h : r ∉ W1) :
    after s1 V (Proc.devRef .tc r) = V (Proc.devRef .tc r) :=
  after_of_writes_sub s1 V s1_writes h

/-- Stretch 2: operations 12 to 47 of the program. -/
abbrev s2 : List (HloOp τ sig (Elt F)) :=
  [ nullary main_c (constantI S_ 32 0#32),
    unary main_c main_v10 (broadcastInDim S600000 ![] bcast_S_S600000 : (⟨S_, .i32⟩ : BufTy).Contents (Elt F) → (⟨S600000, .i32⟩ : BufTy).Contents (Elt F)),
    binary main_v1 main_v10 main_v11 (cmpi .slt : (⟨S600000, .i32⟩ : BufTy).Contents (Elt F) → (⟨S600000, .i32⟩ : BufTy).Contents (Elt F) → (⟨S600000, .i1⟩ : BufTy).Contents (Elt F)),
    nullary main_c_0 (constantI S_ 32 25000#32),
    unary main_c_0 main_v12 (broadcastInDim S600000 ![] bcast_S_S600000 : (⟨S_, .i32⟩ : BufTy).Contents (Elt F) → (⟨S600000, .i32⟩ : BufTy).Contents (Elt F)),
    binary main_v1 main_v12 main_v13 (addi : (⟨S600000, .i32⟩ : BufTy).Contents (Elt F) → (⟨S600000, .i32⟩ : BufTy).Contents (Elt F) → (⟨S600000, .i32⟩ : BufTy).Contents (Elt F)),
    ternary main_v11 main_v13 main_v1 main_v14 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v14 main_v15 (broadcastInDim S600000x1 ![0] bcast_S600000_S600000x1_0 : (⟨S600000, .i32⟩ : BufTy).Contents (Elt F) → (⟨S600000x1, .i32⟩ : BufTy).Contents (Elt F)),
    binary main_v9 main_v15 main_v16 ((fun x i => Host.gather gather_S25000x256_S600000x1_S600000x256_1_0_n_n_0_1_1256 x i) : (⟨S25000x256, .f32⟩ : BufTy).Contents (Elt F) → (⟨S600000x1, .i32⟩ : BufTy).Contents (Elt F) → (⟨S600000x256, .f32⟩ : BufTy).Contents (Elt F)),
    nullary main_cst (constant S_ .f32 0x00000000#32),
    unary main_cst main_v17 (broadcastInDim S25000x256 ![] bcast_S_S25000x256 : (⟨S_, .f32⟩ : BufTy).Contents (Elt F) → (⟨S25000x256, .f32⟩ : BufTy).Contents (Elt F)),
    unary main_v3 main_v18 (broadcastInDim S600000x1 ![0] bcast_S600000_S600000x1_0 : (⟨S600000, .i32⟩ : BufTy).Contents (Elt F) → (⟨S600000x1, .i32⟩ : BufTy).Contents (Elt F)),
    ternary main_v17 main_v18 main_v16 main_v19 ((fun x i u => Host.scatterAdd scatter_S25000x256_S600000x1_S600000x256_1_0_0_1 x i u) : (⟨S25000x256, .f32⟩ : BufTy).Contents (Elt F) → (⟨S600000x1, .i32⟩ : BufTy).Contents (Elt F) → (⟨S600000x256, .f32⟩ : BufTy).Contents (Elt F) → (⟨S25000x256, .f32⟩ : BufTy).Contents (Elt F)),
    nullary main_cst_1 (constant S_ .f32 0x3F800000#32),
    unary main_cst_1 main_v20 (broadcastInDim S600000 ![] bcast_S_S600000 : (⟨S_, .f32⟩ : BufTy).Contents (Elt F) → (⟨S600000, .f32⟩ : BufTy).Contents (Elt F)),
    nullary main_cst_2 (constant S_ .f32 0x00000000#32),
    unary main_cst_2 main_v21 (broadcastInDim S25000 ![] bcast_S_S25000 : (⟨S_, .f32⟩ : BufTy).Contents (Elt F) → (⟨S25000, .f32⟩ : BufTy).Contents (Elt F)),
    unary main_v3 main_v22 (broadcastInDim S600000x1 ![0] bcast_S600000_S600000x1_0 : (⟨S600000, .i32⟩ : BufTy).Contents (Elt F) → (⟨S600000x1, .i32⟩ : BufTy).Contents (Elt F)),
    ternary main_v21 main_v22 main_v20 main_v23 ((fun x i u => Host.scatterAdd scatter_S25000_S600000x1_S600000_n_0_0_1 x i u) : (⟨S25000, .f32⟩ : BufTy).Contents (Elt F) → (⟨S600000x1, .i32⟩ : BufTy).Contents (Elt F) → (⟨S600000, .f32⟩ : BufTy).Contents (Elt F) → (⟨S25000, .f32⟩ : BufTy).Contents (Elt F)),
    nullary main_cst_3 (constant S_ .f32 0x3F800000#32),
    unary main_cst_3 main_v24 (broadcastInDim S25000 ![] bcast_S_S25000 : (⟨S_, .f32⟩ : BufTy).Contents (Elt F) → (⟨S25000, .f32⟩ : BufTy).Contents (Elt F)),
    binary main_v23 main_v24 main_v25 (maximumf : (⟨S25000, .f32⟩ : BufTy).Contents (Elt F) → (⟨S25000, .f32⟩ : BufTy).Contents (Elt F) → (⟨S25000, .f32⟩ : BufTy).Contents (Elt F)),
    unary main_v25 main_v26 (broadcastInDim S25000x1 ![0] bcast_S25000_S25000x1_0 : (⟨S25000, .f32⟩ : BufTy).Contents (Elt F) → (⟨S25000x1, .f32⟩ : BufTy).Contents (Elt F)),
    unary main_v26 main_v27 (broadcastInDim S25000x256 ![0, 1] bcast_S25000x1_S25000x256_0_1 : (⟨S25000x1, .f32⟩ : BufTy).Contents (Elt F) → (⟨S25000x256, .f32⟩ : BufTy).Contents (Elt F)),
    binary main_v19 main_v27 main_v28 (Host.divf : (⟨S25000x256, .f32⟩ : BufTy).Contents (Elt F) → (⟨S25000x256, .f32⟩ : BufTy).Contents (Elt F) → (⟨S25000x256, .f32⟩ : BufTy).Contents (Elt F)),
    unary main_arg6 main_v29 ((transpose S256x256 [1, 0] · transposes_S256x256_S256x256_1_0) : (⟨S256x256, .f32⟩ : BufTy).Contents (Elt F) → (⟨S256x256, .f32⟩ : BufTy).Contents (Elt F)),
    binary main_v28 main_v29 main_v30 ((fun l r => Host.dotGeneral dot_S25000x256_S256x256_S25000x256_1_0_0_1_n_n none l r) : (⟨S25000x256, .f32⟩ : BufTy).Contents (Elt F) → (⟨S256x256, .f32⟩ : BufTy).Contents (Elt F) → (⟨S25000x256, .f32⟩ : BufTy).Contents (Elt F)),
    unary main_arg7 main_v31 (broadcastInDim S1x256 ![1] bcast_S256_S1x256_1 : (⟨S256, .f32⟩ : BufTy).Contents (Elt F) → (⟨S1x256, .f32⟩ : BufTy).Contents (Elt F)),
    unary main_v31 main_v32 (broadcastInDim S25000x256 ![0, 1] bcast_S1x256_S25000x256_0_1 : (⟨S1x256, .f32⟩ : BufTy).Contents (Elt F) → (⟨S25000x256, .f32⟩ : BufTy).Contents (Elt F)),
    binary main_v30 main_v32 main_v33 (addf : (⟨S25000x256, .f32⟩ : BufTy).Contents (Elt F) → (⟨S25000x256, .f32⟩ : BufTy).Contents (Elt F) → (⟨S25000x256, .f32⟩ : BufTy).Contents (Elt F)),
    unary main_arg8 main_v34 ((transpose S256x256 [1, 0] · transposes_S256x256_S256x256_1_0) : (⟨S256x256, .f32⟩ : BufTy).Contents (Elt F) → (⟨S256x256, .f32⟩ : BufTy).Contents (Elt F)),
    binary main_v9 main_v34 main_v35 ((fun l r => Host.dotGeneral dot_S25000x256_S256x256_S25000x256_1_0_0_1_n_n none l r) : (⟨S25000x256, .f32⟩ : BufTy).Contents (Elt F) → (⟨S256x256, .f32⟩ : BufTy).Contents (Elt F) → (⟨S25000x256, .f32⟩ : BufTy).Contents (Elt F)),
    binary main_v33 main_v35 main_v36 (addf : (⟨S25000x256, .f32⟩ : BufTy).Contents (Elt F) → (⟨S25000x256, .f32⟩ : BufTy).Contents (Elt F) → (⟨S25000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S25000x256, .f32⟩) main_call1_v0) (broadcastInDim S25000x256 ![] bcast_S_S25000x256),
    TRef.binary (TRef.of (T := ⟨S25000x256, .f32⟩) main_v36) (TRef.of (T := ⟨S25000x256, .f32⟩) main_call1_v0) (TRef.of (T := ⟨S25000x256, .f32⟩) main_v37) maximumf ]
/-- The buffers stretch 2 writes. -/
abbrev W2 : List (Ref sig .tc) := [main_c, main_v10, main_v11, main_c_0, main_v12, main_v13, main_v14, main_v15, main_v16, main_cst, main_v17, main_v18, main_v19, main_cst_1, main_v20, main_cst_2, main_v21, main_v22, main_v23, main_cst_3, main_v24, main_v25, main_v26, main_v27, main_v28, main_v29, main_v30, main_v31, main_v32, main_v33, main_v34, main_v35, main_v36, main_call1_cst, main_call1_v0, main_v37]
theorem s2_writes : (s2 (F := F)).Forall fun op => op.writes ⊆ ((W2).map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes,
      StableHlo.reshape_writes, Finset.singleton_subset_iff, List.mem_toFinset]; exact List.mem_map_of_mem (by decide))
/-- A buffer that stretch 2 does not write keeps its contents through it. -/
theorem s2_keep (V : Valuation τ sig (Elt F)) (r : Ref sig .tc) (h : r ∉ W2) :
    after s2 V (Proc.devRef .tc r) = V (Proc.devRef .tc r) :=
  after_of_writes_sub s2 V s2_writes h

/-- Stretch 3: operations 48 to 59 of the program. -/
abbrev s3 : List (HloOp τ sig (Elt F)) :=
  [ unary main_arg15 main_v38 ((transpose S256x256 [1, 0] · transposes_S256x256_S256x256_1_0) : (⟨S256x256, .f32⟩ : BufTy).Contents (Elt F) → (⟨S256x256, .f32⟩ : BufTy).Contents (Elt F)),
    binary main_v37 main_v38 main_v39 ((fun l r => Host.dotGeneral dot_S25000x256_S256x256_S25000x256_1_0_0_1_n_n none l r) : (⟨S25000x256, .f32⟩ : BufTy).Contents (Elt F) → (⟨S256x256, .f32⟩ : BufTy).Contents (Elt F) → (⟨S25000x256, .f32⟩ : BufTy).Contents (Elt F)),
    unary main_arg16 main_v40 (broadcastInDim S1x256 ![1] bcast_S256_S1x256_1 : (⟨S256, .f32⟩ : BufTy).Contents (Elt F) → (⟨S1x256, .f32⟩ : BufTy).Contents (Elt F)),
    unary main_v40 main_v41 (broadcastInDim S25000x256 ![0, 1] bcast_S1x256_S25000x256_0_1 : (⟨S1x256, .f32⟩ : BufTy).Contents (Elt F) → (⟨S25000x256, .f32⟩ : BufTy).Contents (Elt F)),
    binary main_v39 main_v41 main_v42 (addf : (⟨S25000x256, .f32⟩ : BufTy).Contents (Elt F) → (⟨S25000x256, .f32⟩ : BufTy).Contents (Elt F) → (⟨S25000x256, .f32⟩ : BufTy).Contents (Elt F)),
    nullary main_cst_4 (constant S_ .f32 0x00000000#32),
    unary main_cst_4 main_v43 (broadcastInDim S25000x256 ![] bcast_S_S25000x256 : (⟨S_, .f32⟩ : BufTy).Contents (Elt F) → (⟨S25000x256, .f32⟩ : BufTy).Contents (Elt F)),
    binary main_v42 main_v43 main_v44 (cmpf .ogt : (⟨S25000x256, .f32⟩ : BufTy).Contents (Elt F) → (⟨S25000x256, .f32⟩ : BufTy).Contents (Elt F) → (⟨S25000x256, .i1⟩ : BufTy).Contents (Elt F)),
    nullary main_cst_5 (constant S_ .f32 0x3C23D70A#32),
    unary main_cst_5 main_v45 (broadcastInDim S25000x256 ![] bcast_S_S25000x256 : (⟨S_, .f32⟩ : BufTy).Contents (Elt F) → (⟨S25000x256, .f32⟩ : BufTy).Contents (Elt F)),
    binary main_v45 main_v42 main_v46 (mulf : (⟨S25000x256, .f32⟩ : BufTy).Contents (Elt F) → (⟨S25000x256, .f32⟩ : BufTy).Contents (Elt F) → (⟨S25000x256, .f32⟩ : BufTy).Contents (Elt F)),
    TRef.ternary (TRef.of (T := ⟨S25000x256, .i1⟩) main_v44) (TRef.of (T := ⟨S25000x256, .f32⟩) main_v42) (TRef.of (T := ⟨S25000x256, .f32⟩) main_v46) (TRef.of (T := ⟨S25000x256, .f32⟩) main_v47) select ]
/-- The buffers stretch 3 writes. -/
abbrev W3 : List (Ref sig .tc) := [main_v38, main_v39, main_v40, main_v41, main_v42, main_cst_4, main_v43, main_v44, main_cst_5, main_v45, main_v46, main_v47]
theorem s3_writes : (s3 (F := F)).Forall fun op => op.writes ⊆ ((W3).map (Proc.devRef (τ := τ) .tc)).toFinset := by
  simp only [List.Forall]
  refine ⟨?_, ?_, ?_, ?_, ?_, ?_, ?_, ?_, ?_, ?_, ?_, ?_⟩ <;>
    (simp only [StableHlo.nullary_writes, StableHlo.unary_writes, StableHlo.binary_writes, StableHlo.ternary_writes,
      StableHlo.reshape_writes, Finset.singleton_subset_iff, List.mem_toFinset]; exact List.mem_map_of_mem (by decide))
/-- A buffer that stretch 3 does not write keeps its contents through it. -/
theorem s3_keep (V : Valuation τ sig (Elt F)) (r : Ref sig .tc) (h : r ∉ W3) :
    after s3 V (Proc.devRef .tc r) = V (Proc.devRef .tc r) :=
  after_of_writes_sub s3 V s3_writes h

/-- Stretch 4: operations 60 to 95 of the program. -/
abbrev s4 : List (HloOp τ sig (Elt F)) :=
  [ nullary main_c_6 (constantI S_ 32 0#32),
    unary main_c_6 main_v48 (broadcastInDim S600000 ![] bcast_S_S600000 : (⟨S_, .i32⟩ : BufTy).Contents (Elt F) → (⟨S600000, .i32⟩ : BufTy).Contents (Elt F)),
    binary main_v1 main_v48 main_v49 (cmpi .slt : (⟨S600000, .i32⟩ : BufTy).Contents (Elt F) → (⟨S600000, .i32⟩ : BufTy).Contents (Elt F) → (⟨S600000, .i1⟩ : BufTy).Contents (Elt F)),
    nullary main_c_7 (constantI S_ 32 25000#32),
    unary main_c_7 main_v50 (broadcastInDim S600000 ![] bcast_S_S600000 : (⟨S_, .i32⟩ : BufTy).Contents (Elt F) → (⟨S600000, .i32⟩ : BufTy).Contents (Elt F)),
    binary main_v1 main_v50 main_v51 (addi : (⟨S600000, .i32⟩ : BufTy).Contents (Elt F) → (⟨S600000, .i32⟩ : BufTy).Contents (Elt F) → (⟨S600000, .i32⟩ : BufTy).Contents (Elt F)),
    ternary main_v49 main_v51 main_v1 main_v52 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v52 main_v53 (broadcastInDim S600000x1 ![0] bcast_S600000_S600000x1_0 : (⟨S600000, .i32⟩ : BufTy).Contents (Elt F) → (⟨S600000x1, .i32⟩ : BufTy).Contents (Elt F)),
    binary main_v47 main_v53 main_v54 ((fun x i => Host.gather gather_S25000x256_S600000x1_S600000x256_1_0_n_n_0_1_1256 x i) : (⟨S25000x256, .f32⟩ : BufTy).Contents (Elt F) → (⟨S600000x1, .i32⟩ : BufTy).Contents (Elt F) → (⟨S600000x256, .f32⟩ : BufTy).Contents (Elt F)),
    nullary main_cst_8 (constant S_ .f32 0x00000000#32),
    unary main_cst_8 main_v55 (broadcastInDim S25000x256 ![] bcast_S_S25000x256 : (⟨S_, .f32⟩ : BufTy).Contents (Elt F) → (⟨S25000x256, .f32⟩ : BufTy).Contents (Elt F)),
    unary main_v3 main_v56 (broadcastInDim S600000x1 ![0] bcast_S600000_S600000x1_0 : (⟨S600000, .i32⟩ : BufTy).Contents (Elt F) → (⟨S600000x1, .i32⟩ : BufTy).Contents (Elt F)),
    ternary main_v55 main_v56 main_v54 main_v57 ((fun x i u => Host.scatterAdd scatter_S25000x256_S600000x1_S600000x256_1_0_0_1 x i u) : (⟨S25000x256, .f32⟩ : BufTy).Contents (Elt F) → (⟨S600000x1, .i32⟩ : BufTy).Contents (Elt F) → (⟨S600000x256, .f32⟩ : BufTy).Contents (Elt F) → (⟨S25000x256, .f32⟩ : BufTy).Contents (Elt F)),
    nullary main_cst_9 (constant S_ .f32 0x3F800000#32),
    unary main_cst_9 main_v58 (broadcastInDim S600000 ![] bcast_S_S600000 : (⟨S_, .f32⟩ : BufTy).Contents (Elt F) → (⟨S600000, .f32⟩ : BufTy).Contents (Elt F)),
    nullary main_cst_10 (constant S_ .f32 0x00000000#32),
    unary main_cst_10 main_v59 (broadcastInDim S25000 ![] bcast_S_S25000 : (⟨S_, .f32⟩ : BufTy).Contents (Elt F) → (⟨S25000, .f32⟩ : BufTy).Contents (Elt F)),
    unary main_v3 main_v60 (broadcastInDim S600000x1 ![0] bcast_S600000_S600000x1_0 : (⟨S600000, .i32⟩ : BufTy).Contents (Elt F) → (⟨S600000x1, .i32⟩ : BufTy).Contents (Elt F)),
    ternary main_v59 main_v60 main_v58 main_v61 ((fun x i u => Host.scatterAdd scatter_S25000_S600000x1_S600000_n_0_0_1 x i u) : (⟨S25000, .f32⟩ : BufTy).Contents (Elt F) → (⟨S600000x1, .i32⟩ : BufTy).Contents (Elt F) → (⟨S600000, .f32⟩ : BufTy).Contents (Elt F) → (⟨S25000, .f32⟩ : BufTy).Contents (Elt F)),
    nullary main_cst_11 (constant S_ .f32 0x3F800000#32),
    unary main_cst_11 main_v62 (broadcastInDim S25000 ![] bcast_S_S25000 : (⟨S_, .f32⟩ : BufTy).Contents (Elt F) → (⟨S25000, .f32⟩ : BufTy).Contents (Elt F)),
    binary main_v61 main_v62 main_v63 (maximumf : (⟨S25000, .f32⟩ : BufTy).Contents (Elt F) → (⟨S25000, .f32⟩ : BufTy).Contents (Elt F) → (⟨S25000, .f32⟩ : BufTy).Contents (Elt F)),
    unary main_v63 main_v64 (broadcastInDim S25000x1 ![0] bcast_S25000_S25000x1_0 : (⟨S25000, .f32⟩ : BufTy).Contents (Elt F) → (⟨S25000x1, .f32⟩ : BufTy).Contents (Elt F)),
    unary main_v64 main_v65 (broadcastInDim S25000x256 ![0, 1] bcast_S25000x1_S25000x256_0_1 : (⟨S25000x1, .f32⟩ : BufTy).Contents (Elt F) → (⟨S25000x256, .f32⟩ : BufTy).Contents (Elt F)),
    binary main_v57 main_v65 main_v66 (Host.divf : (⟨S25000x256, .f32⟩ : BufTy).Contents (Elt F) → (⟨S25000x256, .f32⟩ : BufTy).Contents (Elt F) → (⟨S25000x256, .f32⟩ : BufTy).Contents (Elt F)),
    unary main_arg9 main_v67 ((transpose S256x256 [1, 0] · transposes_S256x256_S256x256_1_0) : (⟨S256x256, .f32⟩ : BufTy).Contents (Elt F) → (⟨S256x256, .f32⟩ : BufTy).Contents (Elt F)),
    binary main_v66 main_v67 main_v68 ((fun l r => Host.dotGeneral dot_S25000x256_S256x256_S25000x256_1_0_0_1_n_n none l r) : (⟨S25000x256, .f32⟩ : BufTy).Contents (Elt F) → (⟨S256x256, .f32⟩ : BufTy).Contents (Elt F) → (⟨S25000x256, .f32⟩ : BufTy).Contents (Elt F)),
    unary main_arg10 main_v69 (broadcastInDim S1x256 ![1] bcast_S256_S1x256_1 : (⟨S256, .f32⟩ : BufTy).Contents (Elt F) → (⟨S1x256, .f32⟩ : BufTy).Contents (Elt F)),
    unary main_v69 main_v70 (broadcastInDim S25000x256 ![0, 1] bcast_S1x256_S25000x256_0_1 : (⟨S1x256, .f32⟩ : BufTy).Contents (Elt F) → (⟨S25000x256, .f32⟩ : BufTy).Contents (Elt F)),
    binary main_v68 main_v70 main_v71 (addf : (⟨S25000x256, .f32⟩ : BufTy).Contents (Elt F) → (⟨S25000x256, .f32⟩ : BufTy).Contents (Elt F) → (⟨S25000x256, .f32⟩ : BufTy).Contents (Elt F)),
    unary main_arg11 main_v72 ((transpose S256x256 [1, 0] · transposes_S256x256_S256x256_1_0) : (⟨S256x256, .f32⟩ : BufTy).Contents (Elt F) → (⟨S256x256, .f32⟩ : BufTy).Contents (Elt F)),
    binary main_v47 main_v72 main_v73 ((fun l r => Host.dotGeneral dot_S25000x256_S256x256_S25000x256_1_0_0_1_n_n none l r) : (⟨S25000x256, .f32⟩ : BufTy).Contents (Elt F) → (⟨S256x256, .f32⟩ : BufTy).Contents (Elt F) → (⟨S25000x256, .f32⟩ : BufTy).Contents (Elt F)),
    binary main_v71 main_v73 main_v74 (addf : (⟨S25000x256, .f32⟩ : BufTy).Contents (Elt F) → (⟨S25000x256, .f32⟩ : BufTy).Contents (Elt F) → (⟨S25000x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S25000x256, .f32⟩) main_call3_v0) (broadcastInDim S25000x256 ![] bcast_S_S25000x256),
    TRef.binary (TRef.of (T := ⟨S25000x256, .f32⟩) main_v74) (TRef.of (T := ⟨S25000x256, .f32⟩) main_call3_v0) (TRef.of (T := ⟨S25000x256, .f32⟩) main_v75) maximumf ]
/-- The buffers stretch 4 writes. -/
abbrev W4 : List (Ref sig .tc) := [main_c_6, main_v48, main_v49, main_c_7, main_v50, main_v51, main_v52, main_v53, main_v54, main_cst_8, main_v55, main_v56, main_v57, main_cst_9, main_v58, main_cst_10, main_v59, main_v60, main_v61, main_cst_11, main_v62, main_v63, main_v64, main_v65, main_v66, main_v67, main_v68, main_v69, main_v70, main_v71, main_v72, main_v73, main_v74, main_call3_cst, main_call3_v0, main_v75]
theorem s4_writes : (s4 (F := F)).Forall fun op => op.writes ⊆ ((W4).map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes,
      StableHlo.reshape_writes, Finset.singleton_subset_iff, List.mem_toFinset]; exact List.mem_map_of_mem (by decide))
/-- A buffer that stretch 4 does not write keeps its contents through it. -/
theorem s4_keep (V : Valuation τ sig (Elt F)) (r : Ref sig .tc) (h : r ∉ W4) :
    after s4 V (Proc.devRef .tc r) = V (Proc.devRef .tc r) :=
  after_of_writes_sub s4 V s4_writes h

/-- Stretch 5: operations 96 to 107 of the program. -/
abbrev s5 : List (HloOp τ sig (Elt F)) :=
  [ unary main_arg17 main_v76 ((transpose S256x256 [1, 0] · transposes_S256x256_S256x256_1_0) : (⟨S256x256, .f32⟩ : BufTy).Contents (Elt F) → (⟨S256x256, .f32⟩ : BufTy).Contents (Elt F)),
    binary main_v75 main_v76 main_v77 ((fun l r => Host.dotGeneral dot_S25000x256_S256x256_S25000x256_1_0_0_1_n_n none l r) : (⟨S25000x256, .f32⟩ : BufTy).Contents (Elt F) → (⟨S256x256, .f32⟩ : BufTy).Contents (Elt F) → (⟨S25000x256, .f32⟩ : BufTy).Contents (Elt F)),
    unary main_arg18 main_v78 (broadcastInDim S1x256 ![1] bcast_S256_S1x256_1 : (⟨S256, .f32⟩ : BufTy).Contents (Elt F) → (⟨S1x256, .f32⟩ : BufTy).Contents (Elt F)),
    unary main_v78 main_v79 (broadcastInDim S25000x256 ![0, 1] bcast_S1x256_S25000x256_0_1 : (⟨S1x256, .f32⟩ : BufTy).Contents (Elt F) → (⟨S25000x256, .f32⟩ : BufTy).Contents (Elt F)),
    binary main_v77 main_v79 main_v80 (addf : (⟨S25000x256, .f32⟩ : BufTy).Contents (Elt F) → (⟨S25000x256, .f32⟩ : BufTy).Contents (Elt F) → (⟨S25000x256, .f32⟩ : BufTy).Contents (Elt F)),
    nullary main_cst_12 (constant S_ .f32 0x00000000#32),
    unary main_cst_12 main_v81 (broadcastInDim S25000x256 ![] bcast_S_S25000x256 : (⟨S_, .f32⟩ : BufTy).Contents (Elt F) → (⟨S25000x256, .f32⟩ : BufTy).Contents (Elt F)),
    binary main_v80 main_v81 main_v82 (cmpf .ogt : (⟨S25000x256, .f32⟩ : BufTy).Contents (Elt F) → (⟨S25000x256, .f32⟩ : BufTy).Contents (Elt F) → (⟨S25000x256, .i1⟩ : BufTy).Contents (Elt F)),
    nullary main_cst_13 (constant S_ .f32 0x3C23D70A#32),
    unary main_cst_13 main_v83 (broadcastInDim S25000x256 ![] bcast_S_S25000x256 : (⟨S_, .f32⟩ : BufTy).Contents (Elt F) → (⟨S25000x256, .f32⟩ : BufTy).Contents (Elt F)),
    binary main_v83 main_v80 main_v84 (mulf : (⟨S25000x256, .f32⟩ : BufTy).Contents (Elt F) → (⟨S25000x256, .f32⟩ : BufTy).Contents (Elt F) → (⟨S25000x256, .f32⟩ : BufTy).Contents (Elt F)),
    TRef.ternary (TRef.of (T := ⟨S25000x256, .i1⟩) main_v82) (TRef.of (T := ⟨S25000x256, .f32⟩) main_v80) (TRef.of (T := ⟨S25000x256, .f32⟩) main_v84) (TRef.of (T := ⟨S25000x256, .f32⟩) main_v85) select ]
/-- The buffers stretch 5 writes. -/
abbrev W5 : List (Ref sig .tc) := [main_v76, main_v77, main_v78, main_v79, main_v80, main_cst_12, main_v81, main_v82, main_cst_13, main_v83, main_v84, main_v85]
theorem s5_writes : (s5 (F := F)).Forall fun op => op.writes ⊆ ((W5).map (Proc.devRef (τ := τ) .tc)).toFinset := by
  simp only [List.Forall]
  refine ⟨?_, ?_, ?_, ?_, ?_, ?_, ?_, ?_, ?_, ?_, ?_, ?_⟩ <;>
    (simp only [StableHlo.nullary_writes, StableHlo.unary_writes, StableHlo.binary_writes, StableHlo.ternary_writes,
      StableHlo.reshape_writes, Finset.singleton_subset_iff, List.mem_toFinset]; exact List.mem_map_of_mem (by decide))
/-- A buffer that stretch 5 does not write keeps its contents through it. -/
theorem s5_keep (V : Valuation τ sig (Elt F)) (r : Ref sig .tc) (h : r ∉ W5) :
    after s5 V (Proc.devRef .tc r) = V (Proc.devRef .tc r) :=
  after_of_writes_sub s5 V s5_writes h

/-- Stretch 6: operations 108 to 143 of the program. -/
abbrev s6 : List (HloOp τ sig (Elt F)) :=
  [ nullary main_c_14 (constantI S_ 32 0#32),
    unary main_c_14 main_v86 (broadcastInDim S600000 ![] bcast_S_S600000 : (⟨S_, .i32⟩ : BufTy).Contents (Elt F) → (⟨S600000, .i32⟩ : BufTy).Contents (Elt F)),
    binary main_v1 main_v86 main_v87 (cmpi .slt : (⟨S600000, .i32⟩ : BufTy).Contents (Elt F) → (⟨S600000, .i32⟩ : BufTy).Contents (Elt F) → (⟨S600000, .i1⟩ : BufTy).Contents (Elt F)),
    nullary main_c_15 (constantI S_ 32 25000#32),
    unary main_c_15 main_v88 (broadcastInDim S600000 ![] bcast_S_S600000 : (⟨S_, .i32⟩ : BufTy).Contents (Elt F) → (⟨S600000, .i32⟩ : BufTy).Contents (Elt F)),
    binary main_v1 main_v88 main_v89 (addi : (⟨S600000, .i32⟩ : BufTy).Contents (Elt F) → (⟨S600000, .i32⟩ : BufTy).Contents (Elt F) → (⟨S600000, .i32⟩ : BufTy).Contents (Elt F)),
    ternary main_v87 main_v89 main_v1 main_v90 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v90 main_v91 (broadcastInDim S600000x1 ![0] bcast_S600000_S600000x1_0 : (⟨S600000, .i32⟩ : BufTy).Contents (Elt F) → (⟨S600000x1, .i32⟩ : BufTy).Contents (Elt F)),
    binary main_v85 main_v91 main_v92 ((fun x i => Host.gather gather_S25000x256_S600000x1_S600000x256_1_0_n_n_0_1_1256 x i) : (⟨S25000x256, .f32⟩ : BufTy).Contents (Elt F) → (⟨S600000x1, .i32⟩ : BufTy).Contents (Elt F) → (⟨S600000x256, .f32⟩ : BufTy).Contents (Elt F)),
    nullary main_cst_16 (constant S_ .f32 0x00000000#32),
    unary main_cst_16 main_v93 (broadcastInDim S25000x256 ![] bcast_S_S25000x256 : (⟨S_, .f32⟩ : BufTy).Contents (Elt F) → (⟨S25000x256, .f32⟩ : BufTy).Contents (Elt F)),
    unary main_v3 main_v94 (broadcastInDim S600000x1 ![0] bcast_S600000_S600000x1_0 : (⟨S600000, .i32⟩ : BufTy).Contents (Elt F) → (⟨S600000x1, .i32⟩ : BufTy).Contents (Elt F)),
    ternary main_v93 main_v94 main_v92 main_v95 ((fun x i u => Host.scatterAdd scatter_S25000x256_S600000x1_S600000x256_1_0_0_1 x i u) : (⟨S25000x256, .f32⟩ : BufTy).Contents (Elt F) → (⟨S600000x1, .i32⟩ : BufTy).Contents (Elt F) → (⟨S600000x256, .f32⟩ : BufTy).Contents (Elt F) → (⟨S25000x256, .f32⟩ : BufTy).Contents (Elt F)),
    nullary main_cst_17 (constant S_ .f32 0x3F800000#32),
    unary main_cst_17 main_v96 (broadcastInDim S600000 ![] bcast_S_S600000 : (⟨S_, .f32⟩ : BufTy).Contents (Elt F) → (⟨S600000, .f32⟩ : BufTy).Contents (Elt F)),
    nullary main_cst_18 (constant S_ .f32 0x00000000#32),
    unary main_cst_18 main_v97 (broadcastInDim S25000 ![] bcast_S_S25000 : (⟨S_, .f32⟩ : BufTy).Contents (Elt F) → (⟨S25000, .f32⟩ : BufTy).Contents (Elt F)),
    unary main_v3 main_v98 (broadcastInDim S600000x1 ![0] bcast_S600000_S600000x1_0 : (⟨S600000, .i32⟩ : BufTy).Contents (Elt F) → (⟨S600000x1, .i32⟩ : BufTy).Contents (Elt F)),
    ternary main_v97 main_v98 main_v96 main_v99 ((fun x i u => Host.scatterAdd scatter_S25000_S600000x1_S600000_n_0_0_1 x i u) : (⟨S25000, .f32⟩ : BufTy).Contents (Elt F) → (⟨S600000x1, .i32⟩ : BufTy).Contents (Elt F) → (⟨S600000, .f32⟩ : BufTy).Contents (Elt F) → (⟨S25000, .f32⟩ : BufTy).Contents (Elt F)),
    nullary main_cst_19 (constant S_ .f32 0x3F800000#32),
    unary main_cst_19 main_v100 (broadcastInDim S25000 ![] bcast_S_S25000 : (⟨S_, .f32⟩ : BufTy).Contents (Elt F) → (⟨S25000, .f32⟩ : BufTy).Contents (Elt F)),
    binary main_v99 main_v100 main_v101 (maximumf : (⟨S25000, .f32⟩ : BufTy).Contents (Elt F) → (⟨S25000, .f32⟩ : BufTy).Contents (Elt F) → (⟨S25000, .f32⟩ : BufTy).Contents (Elt F)),
    unary main_v101 main_v102 (broadcastInDim S25000x1 ![0] bcast_S25000_S25000x1_0 : (⟨S25000, .f32⟩ : BufTy).Contents (Elt F) → (⟨S25000x1, .f32⟩ : BufTy).Contents (Elt F)),
    unary main_v102 main_v103 (broadcastInDim S25000x256 ![0, 1] bcast_S25000x1_S25000x256_0_1 : (⟨S25000x1, .f32⟩ : BufTy).Contents (Elt F) → (⟨S25000x256, .f32⟩ : BufTy).Contents (Elt F)),
    binary main_v95 main_v103 main_v104 (Host.divf : (⟨S25000x256, .f32⟩ : BufTy).Contents (Elt F) → (⟨S25000x256, .f32⟩ : BufTy).Contents (Elt F) → (⟨S25000x256, .f32⟩ : BufTy).Contents (Elt F)),
    unary main_arg12 main_v105 ((transpose S256x128 [1, 0] · transposes_S128x256_S256x128_1_0) : (⟨S128x256, .f32⟩ : BufTy).Contents (Elt F) → (⟨S256x128, .f32⟩ : BufTy).Contents (Elt F)),
    binary main_v104 main_v105 main_v106 ((fun l r => Host.dotGeneral dot_S25000x256_S256x128_S25000x128_1_0_0_1_n_n none l r) : (⟨S25000x256, .f32⟩ : BufTy).Contents (Elt F) → (⟨S256x128, .f32⟩ : BufTy).Contents (Elt F) → (⟨S25000x128, .f32⟩ : BufTy).Contents (Elt F)),
    unary main_arg13 main_v107 (broadcastInDim S1x128 ![1] bcast_S128_S1x128_1 : (⟨S128, .f32⟩ : BufTy).Contents (Elt F) → (⟨S1x128, .f32⟩ : BufTy).Contents (Elt F)),
    unary main_v107 main_v108 (broadcastInDim S25000x128 ![0, 1] bcast_S1x128_S25000x128_0_1 : (⟨S1x128, .f32⟩ : BufTy).Contents (Elt F) → (⟨S25000x128, .f32⟩ : BufTy).Contents (Elt F)),
    binary main_v106 main_v108 main_v109 (addf : (⟨S25000x128, .f32⟩ : BufTy).Contents (Elt F) → (⟨S25000x128, .f32⟩ : BufTy).Contents (Elt F) → (⟨S25000x128, .f32⟩ : BufTy).Contents (Elt F)),
    unary main_arg14 main_v110 ((transpose S256x128 [1, 0] · transposes_S128x256_S256x128_1_0) : (⟨S128x256, .f32⟩ : BufTy).Contents (Elt F) → (⟨S256x128, .f32⟩ : BufTy).Contents (Elt F)),
    binary main_v85 main_v110 main_v111 ((fun l r => Host.dotGeneral dot_S25000x256_S256x128_S25000x128_1_0_0_1_n_n none l r) : (⟨S25000x256, .f32⟩ : BufTy).Contents (Elt F) → (⟨S256x128, .f32⟩ : BufTy).Contents (Elt F) → (⟨S25000x128, .f32⟩ : BufTy).Contents (Elt F)),
    binary main_v109 main_v111 main_v112 (addf : (⟨S25000x128, .f32⟩ : BufTy).Contents (Elt F) → (⟨S25000x128, .f32⟩ : BufTy).Contents (Elt F) → (⟨S25000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S25000x128, .f32⟩) main_call5_v0) (broadcastInDim S25000x128 ![] bcast_S_S25000x128),
    TRef.binary (TRef.of (T := ⟨S25000x128, .f32⟩) main_v112) (TRef.of (T := ⟨S25000x128, .f32⟩) main_call5_v0) (TRef.of (T := ⟨S25000x128, .f32⟩) main_v113) maximumf ]
/-- The buffers stretch 6 writes. -/
abbrev W6 : List (Ref sig .tc) := [main_c_14, main_v86, main_v87, main_c_15, main_v88, main_v89, main_v90, main_v91, main_v92, main_cst_16, main_v93, main_v94, main_v95, main_cst_17, main_v96, main_cst_18, main_v97, main_v98, main_v99, main_cst_19, main_v100, main_v101, main_v102, main_v103, main_v104, main_v105, main_v106, main_v107, main_v108, main_v109, main_v110, main_v111, main_v112, main_call5_cst, main_call5_v0, main_v113]
theorem s6_writes : (s6 (F := F)).Forall fun op => op.writes ⊆ ((W6).map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes,
      StableHlo.reshape_writes, Finset.singleton_subset_iff, List.mem_toFinset]; exact List.mem_map_of_mem (by decide))
/-- A buffer that stretch 6 does not write keeps its contents through it. -/
theorem s6_keep (V : Valuation τ sig (Elt F)) (r : Ref sig .tc) (h : r ∉ W6) :
    after s6 V (Proc.devRef .tc r) = V (Proc.devRef .tc r) :=
  after_of_writes_sub s6 V s6_writes h

/-- Stretch 7: operations 144 to 155 of the program. -/
abbrev s7 : List (HloOp τ sig (Elt F)) :=
  [ unary main_arg19 main_v114 ((transpose S128x128 [1, 0] · transposes_S128x128_S128x128_1_0) : (⟨S128x128, .f32⟩ : BufTy).Contents (Elt F) → (⟨S128x128, .f32⟩ : BufTy).Contents (Elt F)),
    binary main_v113 main_v114 main_v115 ((fun l r => Host.dotGeneral dot_S25000x128_S128x128_S25000x128_1_0_0_1_n_n none l r) : (⟨S25000x128, .f32⟩ : BufTy).Contents (Elt F) → (⟨S128x128, .f32⟩ : BufTy).Contents (Elt F) → (⟨S25000x128, .f32⟩ : BufTy).Contents (Elt F)),
    unary main_arg20 main_v116 (broadcastInDim S1x128 ![1] bcast_S128_S1x128_1 : (⟨S128, .f32⟩ : BufTy).Contents (Elt F) → (⟨S1x128, .f32⟩ : BufTy).Contents (Elt F)),
    unary main_v116 main_v117 (broadcastInDim S25000x128 ![0, 1] bcast_S1x128_S25000x128_0_1 : (⟨S1x128, .f32⟩ : BufTy).Contents (Elt F) → (⟨S25000x128, .f32⟩ : BufTy).Contents (Elt F)),
    binary main_v115 main_v117 main_v118 (addf : (⟨S25000x128, .f32⟩ : BufTy).Contents (Elt F) → (⟨S25000x128, .f32⟩ : BufTy).Contents (Elt F) → (⟨S25000x128, .f32⟩ : BufTy).Contents (Elt F)),
    nullary main_cst_20 (constant S_ .f32 0x00000000#32),
    unary main_cst_20 main_v119 (broadcastInDim S25000x128 ![] bcast_S_S25000x128 : (⟨S_, .f32⟩ : BufTy).Contents (Elt F) → (⟨S25000x128, .f32⟩ : BufTy).Contents (Elt F)),
    binary main_v118 main_v119 main_v120 (cmpf .ogt : (⟨S25000x128, .f32⟩ : BufTy).Contents (Elt F) → (⟨S25000x128, .f32⟩ : BufTy).Contents (Elt F) → (⟨S25000x128, .i1⟩ : BufTy).Contents (Elt F)),
    nullary main_cst_21 (constant S_ .f32 0x3C23D70A#32),
    unary main_cst_21 main_v121 (broadcastInDim S25000x128 ![] bcast_S_S25000x128 : (⟨S_, .f32⟩ : BufTy).Contents (Elt F) → (⟨S25000x128, .f32⟩ : BufTy).Contents (Elt F)),
    binary main_v121 main_v118 main_v122 (mulf : (⟨S25000x128, .f32⟩ : BufTy).Contents (Elt F) → (⟨S25000x128, .f32⟩ : BufTy).Contents (Elt F) → (⟨S25000x128, .f32⟩ : BufTy).Contents (Elt F)),
    TRef.ternary (TRef.of (T := ⟨S25000x128, .i1⟩) main_v120) (TRef.of (T := ⟨S25000x128, .f32⟩) main_v118) (TRef.of (T := ⟨S25000x128, .f32⟩) main_v122) (TRef.of (T := ⟨S25000x128, .f32⟩) main_v123) select ]
/-- The buffers stretch 7 writes. -/
abbrev W7 : List (Ref sig .tc) := [main_v114, main_v115, main_v116, main_v117, main_v118, main_cst_20, main_v119, main_v120, main_cst_21, main_v121, main_v122, main_v123]
theorem s7_writes : (s7 (F := F)).Forall fun op => op.writes ⊆ ((W7).map (Proc.devRef (τ := τ) .tc)).toFinset := by
  simp only [List.Forall]
  refine ⟨?_, ?_, ?_, ?_, ?_, ?_, ?_, ?_, ?_, ?_, ?_, ?_⟩ <;>
    (simp only [StableHlo.nullary_writes, StableHlo.unary_writes, StableHlo.binary_writes, StableHlo.ternary_writes,
      StableHlo.reshape_writes, Finset.singleton_subset_iff, List.mem_toFinset]; exact List.mem_map_of_mem (by decide))
/-- A buffer that stretch 7 does not write keeps its contents through it. -/
theorem s7_keep (V : Valuation τ sig (Elt F)) (r : Ref sig .tc) (h : r ∉ W7) :
    after s7 V (Proc.devRef .tc r) = V (Proc.devRef .tc r) :=
  after_of_writes_sub s7 V s7_writes h

/-- Stretch 8: operations 156 to 197 of the program. -/
abbrev s8 : List (HloOp τ sig (Elt F)) :=
  [ nullary main_c_22 (constantI S_ 32 0#32),
    unary main_c_22 main_v124 (broadcastInDim S600000 ![] bcast_S_S600000 : (⟨S_, .i32⟩ : BufTy).Contents (Elt F) → (⟨S600000, .i32⟩ : BufTy).Contents (Elt F)),
    binary main_v1 main_v124 main_v125 (cmpi .slt : (⟨S600000, .i32⟩ : BufTy).Contents (Elt F) → (⟨S600000, .i32⟩ : BufTy).Contents (Elt F) → (⟨S600000, .i1⟩ : BufTy).Contents (Elt F)),
    nullary main_c_23 (constantI S_ 32 25000#32),
    unary main_c_23 main_v126 (broadcastInDim S600000 ![] bcast_S_S600000 : (⟨S_, .i32⟩ : BufTy).Contents (Elt F) → (⟨S600000, .i32⟩ : BufTy).Contents (Elt F)),
    binary main_v1 main_v126 main_v127 (addi : (⟨S600000, .i32⟩ : BufTy).Contents (Elt F) → (⟨S600000, .i32⟩ : BufTy).Contents (Elt F) → (⟨S600000, .i32⟩ : BufTy).Contents (Elt F)),
    ternary main_v125 main_v127 main_v1 main_v128 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v128 main_v129 (broadcastInDim S600000x1 ![0] bcast_S600000_S600000x1_0 : (⟨S600000, .i32⟩ : BufTy).Contents (Elt F) → (⟨S600000x1, .i32⟩ : BufTy).Contents (Elt F)),
    binary main_v123 main_v129 main_v130 ((fun x i => Host.gather gather_S25000x128_S600000x1_S600000x128_1_0_n_n_0_1_1128 x i) : (⟨S25000x128, .f32⟩ : BufTy).Contents (Elt F) → (⟨S600000x1, .i32⟩ : BufTy).Contents (Elt F) → (⟨S600000x128, .f32⟩ : BufTy).Contents (Elt F)),
    nullary main_c_24 (constantI S_ 32 0#32),
    unary main_c_24 main_v131 (broadcastInDim S600000 ![] bcast_S_S600000 : (⟨S_, .i32⟩ : BufTy).Contents (Elt F) → (⟨S600000, .i32⟩ : BufTy).Contents (Elt F)),
    binary main_v3 main_v131 main_v132 (cmpi .slt : (⟨S600000, .i32⟩ : BufTy).Contents (Elt F) → (⟨S600000, .i32⟩ : BufTy).Contents (Elt F) → (⟨S600000, .i1⟩ : BufTy).Contents (Elt F)),
    nullary main_c_25 (constantI S_ 32 25000#32),
    unary main_c_25 main_v133 (broadcastInDim S600000 ![] bcast_S_S600000 : (⟨S_, .i32⟩ : BufTy).Contents (Elt F) → (⟨S600000, .i32⟩ : BufTy).Contents (Elt F)),
    binary main_v3 main_v133 main_v134 (addi : (⟨S600000, .i32⟩ : BufTy).Contents (Elt F) → (⟨S600000, .i32⟩ : BufTy).Contents (Elt F) → (⟨S600000, .i32⟩ : BufTy).Contents (Elt F)),
    ternary main_v132 main_v134 main_v3 main_v135 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v135 main_v136 (broadcastInDim S600000x1 ![0] bcast_S600000_S600000x1_0 : (⟨S600000, .i32⟩ : BufTy).Contents (Elt F) → (⟨S600000x1, .i32⟩ : BufTy).Contents (Elt F)),
    binary main_v123 main_v136 main_v137 ((fun x i => Host.gather gather_S25000x128_S600000x1_S600000x128_1_0_n_n_0_1_1128 x i) : (⟨S25000x128, .f32⟩ : BufTy).Contents (Elt F) → (⟨S600000x1, .i32⟩ : BufTy).Contents (Elt F) → (⟨S600000x128, .f32⟩ : BufTy).Contents (Elt F)),
    unary main_v130 main_v138 ((extractStridedSlice S600000x96 ![0, 0] · slices_S600000x128_S600000x96_0_0) : (⟨S600000x128, .f32⟩ : BufTy).Contents (Elt F) → (⟨S600000x96, .f32⟩ : BufTy).Contents (Elt F)),
    unary main_v137 main_v139 ((extractStridedSlice S600000x96 ![0, 0] · slices_S600000x128_S600000x96_0_0) : (⟨S600000x128, .f32⟩ : BufTy).Contents (Elt F) → (⟨S600000x96, .f32⟩ : BufTy).Contents (Elt F)),
    binary main_v138 main_v139 main_v140 ((fun a b => concatenate S600000x192 1 [⟨S600000x96, a⟩, ⟨S600000x96, b⟩] concatenates_S600000x96_S600000x96_S600000x192_d1) : (⟨S600000x96, .f32⟩ : BufTy).Contents (Elt F) → (⟨S600000x96, .f32⟩ : BufTy).Contents (Elt F) → (⟨S600000x192, .f32⟩ : BufTy).Contents (Elt F)),
    unary main_v130 main_v141 ((extractStridedSlice S600000x32 ![0, 96] · slices_S600000x128_S600000x32_0_96) : (⟨S600000x128, .f32⟩ : BufTy).Contents (Elt F) → (⟨S600000x32, .f32⟩ : BufTy).Contents (Elt F)),
    unary main_v137 main_v142 ((extractStridedSlice S600000x32 ![0, 96] · slices_S600000x128_S600000x32_0_96) : (⟨S600000x128, .f32⟩ : BufTy).Contents (Elt F) → (⟨S600000x32, .f32⟩ : BufTy).Contents (Elt F)),
    binary main_v141 main_v142 main_v143 ((fun a b => concatenate S600000x64 1 [⟨S600000x32, a⟩, ⟨S600000x32, b⟩] concatenates_S600000x32_S600000x32_S600000x64_d1) : (⟨S600000x32, .f32⟩ : BufTy).Contents (Elt F) → (⟨S600000x32, .f32⟩ : BufTy).Contents (Elt F) → (⟨S600000x64, .f32⟩ : BufTy).Contents (Elt F)),
    unary main_arg21 main_v144 ((transpose S192x1 [1, 0] · transposes_S1x192_S192x1_1_0) : (⟨S1x192, .f32⟩ : BufTy).Contents (Elt F) → (⟨S192x1, .f32⟩ : BufTy).Contents (Elt F)),
    binary main_v140 main_v144 main_v145 ((fun l r => Host.dotGeneral dot_S600000x192_S192x1_S600000x1_1_0_0_1_n_n none l r) : (⟨S600000x192, .f32⟩ : BufTy).Contents (Elt F) → (⟨S192x1, .f32⟩ : BufTy).Contents (Elt F) → (⟨S600000x1, .f32⟩ : BufTy).Contents (Elt F)),
    unary main_arg22 main_v146 (broadcastInDim S1x1 ![1] bcast_S1_S1x1_1 : (⟨S1, .f32⟩ : BufTy).Contents (Elt F) → (⟨S1x1, .f32⟩ : BufTy).Contents (Elt F)),
    unary main_v146 main_v147 (broadcastInDim S600000x1 ![0, 1] bcast_S1x1_S600000x1_0_1 : (⟨S1x1, .f32⟩ : BufTy).Contents (Elt F) → (⟨S600000x1, .f32⟩ : BufTy).Contents (Elt F)),
    binary main_v145 main_v147 main_v148 (addf : (⟨S600000x1, .f32⟩ : BufTy).Contents (Elt F) → (⟨S600000x1, .f32⟩ : BufTy).Contents (Elt F) → (⟨S600000x1, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S600000x1, .f32⟩) main_call7_v0) (broadcastInDim S600000x1 ![] bcast_S_S600000x1),
    TRef.binary (TRef.of (T := ⟨S600000x1, .f32⟩) main_v148) (TRef.of (T := ⟨S600000x1, .f32⟩) main_call7_v0) (TRef.of (T := ⟨S600000x1, .f32⟩) main_v149) maximumf,
    unary main_arg23 main_v150 ((transpose S64x1 [1, 0] · transposes_S1x64_S64x1_1_0) : (⟨S1x64, .f32⟩ : BufTy).Contents (Elt F) → (⟨S64x1, .f32⟩ : BufTy).Contents (Elt F)),
    binary main_v143 main_v150 main_v151 ((fun l r => Host.dotGeneral dot_S600000x64_S64x1_S600000x1_1_0_0_1_n_n none l r) : (⟨S600000x64, .f32⟩ : BufTy).Contents (Elt F) → (⟨S64x1, .f32⟩ : BufTy).Contents (Elt F) → (⟨S600000x1, .f32⟩ : BufTy).Contents (Elt F)),
    unary main_arg24 main_v152 (broadcastInDim S1x1 ![1] bcast_S1_S1x1_1 : (⟨S1, .f32⟩ : BufTy).Contents (Elt F) → (⟨S1x1, .f32⟩ : BufTy).Contents (Elt F)),
    unary main_v152 main_v153 (broadcastInDim S600000x1 ![0, 1] bcast_S1x1_S600000x1_0_1 : (⟨S1x1, .f32⟩ : BufTy).Contents (Elt F) → (⟨S600000x1, .f32⟩ : BufTy).Contents (Elt F)),
    binary main_v151 main_v153 main_v154 (addf : (⟨S600000x1, .f32⟩ : BufTy).Contents (Elt F) → (⟨S600000x1, .f32⟩ : BufTy).Contents (Elt F) → (⟨S600000x1, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S600000x1, .f32⟩) main_call8_v0) (broadcastInDim S600000x1 ![] bcast_S_S600000x1),
    TRef.binary (TRef.of (T := ⟨S600000x1, .f32⟩) main_v154) (TRef.of (T := ⟨S600000x1, .f32⟩) main_call8_v0) (TRef.of (T := ⟨S600000x1, .f32⟩) main_v155) maximumf,
    binary main_v149 main_arg2 main_v156 (mulf : (⟨S600000x1, .f32⟩ : BufTy).Contents (Elt F) → (⟨S600000x1, .f32⟩ : BufTy).Contents (Elt F) → (⟨S600000x1, .f32⟩ : BufTy).Contents (Elt F)),
    binary main_v156 main_v155 main_v157 (addf : (⟨S600000x1, .f32⟩ : BufTy).Contents (Elt F) → (⟨S600000x1, .f32⟩ : BufTy).Contents (Elt F) → (⟨S600000x1, .f32⟩ : BufTy).Contents (Elt F)) ]
/-- The buffers stretch 8 writes. -/
abbrev W8 : List (Ref sig .tc) := [main_c_22, main_v124, main_v125, main_c_23, main_v126, main_v127, main_v128, main_v129, main_v130, main_c_24, main_v131, main_v132, main_c_25, main_v133, main_v134, main_v135, main_v136, main_v137, main_v138, main_v139, main_v140, main_v141, main_v142, main_v143, main_v144, main_v145, main_v146, main_v147, main_v148, main_call7_cst, main_call7_v0, main_v149, main_v150, main_v151, main_v152, main_v153, main_v154, main_call8_cst, main_call8_v0, main_v155, main_v156, main_v157]
theorem s8_writes : (s8 (F := F)).Forall fun op => op.writes ⊆ ((W8).map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes,
      StableHlo.reshape_writes, Finset.singleton_subset_iff, List.mem_toFinset]; exact List.mem_map_of_mem (by decide))
/-- A buffer that stretch 8 does not write keeps its contents through it. -/
theorem s8_keep (V : Valuation τ sig (Elt F)) (r : Ref sig .tc) (h : r ∉ W8) :
    after s8 V (Proc.devRef .tc r) = V (Proc.devRef .tc r) :=
  after_of_writes_sub s8 V s8_writes h

/-- Stretch 9: operations 198 to 204 of the program. -/
abbrev s9 : List (HloOp τ sig (Elt F)) :=
  [ reshape main_v157 main_v158 rfl shapeCasts_S600000x1_S12500x48,
    nullary main_cst_26 (constant S_ .f32 0x00000000#32),
    binary main_v158 main_cst_26 main_v159 ((fun x v => Host.reduceAdd x v reducesTo_S12500x48_S12500_d1 h_S_) : (⟨S12500x48, .f32⟩ : BufTy).Contents (Elt F) → (⟨S_, .f32⟩ : BufTy).Contents (Elt F) → (⟨S12500, .f32⟩ : BufTy).Contents (Elt F)),
    nullary main_cst_27 (constant S_ .f32 0x42400000#32),
    unary main_cst_27 main_v160 (broadcastInDim S12500 ![] bcast_S_S12500 : (⟨S_, .f32⟩ : BufTy).Contents (Elt F) → (⟨S12500, .f32⟩ : BufTy).Contents (Elt F)),
    binary main_v159 main_v160 main_v161 (Host.divf : (⟨S12500, .f32⟩ : BufTy).Contents (Elt F) → (⟨S12500, .f32⟩ : BufTy).Contents (Elt F) → (⟨S12500, .f32⟩ : BufTy).Contents (Elt F)),
    reshape main_v161 main_v162 rfl shapeCasts_S12500_S12500x1 ]
/-- The buffers stretch 9 writes. -/
abbrev W9 : List (Ref sig .tc) := [main_v158, main_cst_26, main_v159, main_cst_27, main_v160, main_v161, main_v162]
theorem s9_writes : (s9 (F := F)).Forall fun op => op.writes ⊆ ((W9).map (Proc.devRef (τ := τ) .tc)).toFinset := by
  simp only [List.Forall]
  refine ⟨?_, ?_, ?_, ?_, ?_, ?_, ?_⟩ <;>
    (simp only [StableHlo.nullary_writes, StableHlo.unary_writes, StableHlo.binary_writes, StableHlo.ternary_writes,
      StableHlo.reshape_writes, Finset.singleton_subset_iff, List.mem_toFinset]; exact List.mem_map_of_mem (by decide))
/-- A buffer that stretch 9 does not write keeps its contents through it. -/
theorem s9_keep (V : Valuation τ sig (Elt F)) (r : Ref sig .tc) (h : r ∉ W9) :
    after s9 V (Proc.devRef .tc r) = V (Proc.devRef .tc r) :=
  after_of_writes_sub s9 V s9_writes h

end Stretches

/-! ## What each stretch leaves in its output buffer, over any contents V -/
theorem s0_v1 (V : Valuation τ sig (Elt Ideal)) :
    after s0 V (Proc.devRef .tc main_v1) = RefNet.src (V (Proc.devRef .tc main_arg1)) := by
  after_results
  rfl
theorem s0_v3 (V : Valuation τ sig (Elt Ideal)) :
    after s0 V (Proc.devRef .tc main_v3) = RefNet.dst (V (Proc.devRef .tc main_arg1)) := by
  after_results
  rfl

theorem s1_out (V : Valuation τ sig (Elt Ideal)) :
    after s1 V (Proc.devRef .tc main_v9)
      = RefNet.dense0 (V (Proc.devRef .tc main_arg0)) (V (Proc.devRef .tc main_arg4)) (V (Proc.devRef .tc main_arg5)) := by
  after_results
  exact dense_relu dot_S25000x128_S128x256_S25000x256_1_0_0_1_n_n rfl rfl (fun _ _ => rfl) (fun _ _ => rfl) (fun _ _ => rfl) (fun _ _ => rfl)
    bcast_S1x256_S25000x256_0_1 bcast_S_S25000x256 (V (Proc.devRef .tc main_arg0))
    (transpose S128x256 [1, 0] (V (Proc.devRef .tc main_arg4)) transposes_S256x128_S128x256_1_0) (broadcastInDim S1x256 ![1] bcast_S256_S1x256_1 (V (Proc.devRef .tc main_arg5)))

set_option maxRecDepth 100000 in
set_option maxHeartbeats 4000000 in
theorem s2_out (V : Valuation τ sig (Elt Ideal)) :
    after s2 V (Proc.devRef .tc main_v37)
      = RefNet.sage256 (V (Proc.devRef .tc main_v9)) (V (Proc.devRef .tc main_v1)) (V (Proc.devRef .tc main_v3)) (V (Proc.devRef .tc main_arg6)) (V (Proc.devRef .tc main_arg7)) (V (Proc.devRef .tc main_arg8)) := by
  after_results_simp
  have h := sage_relu dot_S25000x256_S256x256_S25000x256_1_0_0_1_n_n rfl rfl (fun _ _ => rfl) (fun _ _ => rfl) (fun _ _ => rfl) (fun _ _ => rfl)
    bcast_S1x256_S25000x256_0_1 bcast_S_S25000x256 (RefNet.mean (V (Proc.devRef .tc main_v9)) (V (Proc.devRef .tc main_v1)) (V (Proc.devRef .tc main_v3))) (V (Proc.devRef .tc main_v9))
    (transpose S256x256 [1, 0] (V (Proc.devRef .tc main_arg6)) transposes_S256x256_S256x256_1_0) (transpose S256x256 [1, 0] (V (Proc.devRef .tc main_arg8)) transposes_S256x256_S256x256_1_0) (broadcastInDim S1x256 ![1] bcast_S256_S1x256_1 (V (Proc.devRef .tc main_arg7)))
  exact h

set_option maxHeartbeats 1000000 in
theorem s3_out (V : Valuation τ sig (Elt Ideal)) :
    after s3 V (Proc.devRef .tc main_v47)
      = RefNet.dense256 (V (Proc.devRef .tc main_v37)) (V (Proc.devRef .tc main_arg15)) (V (Proc.devRef .tc main_arg16)) := by
  after_results
  exact dense_leaky dot_S25000x256_S256x256_S25000x256_1_0_0_1_n_n rfl rfl (fun _ _ => rfl) (fun _ _ => rfl) (fun _ _ => rfl) (fun _ _ => rfl)
    bcast_S1x256_S25000x256_0_1 bcast_S_S25000x256 (V (Proc.devRef .tc main_v37)) (transpose S256x256 [1, 0] (V (Proc.devRef .tc main_arg15)) transposes_S256x256_S256x256_1_0) (broadcastInDim S1x256 ![1] bcast_S256_S1x256_1 (V (Proc.devRef .tc main_arg16)))

set_option maxRecDepth 100000 in
set_option maxHeartbeats 4000000 in
theorem s4_out (V : Valuation τ sig (Elt Ideal)) :
    after s4 V (Proc.devRef .tc main_v75)
      = RefNet.sage256 (V (Proc.devRef .tc main_v47)) (V (Proc.devRef .tc main_v1)) (V (Proc.devRef .tc main_v3)) (V (Proc.devRef .tc main_arg9)) (V (Proc.devRef .tc main_arg10)) (V (Proc.devRef .tc main_arg11)) := by
  after_results_simp
  have h := sage_relu dot_S25000x256_S256x256_S25000x256_1_0_0_1_n_n rfl rfl (fun _ _ => rfl) (fun _ _ => rfl) (fun _ _ => rfl) (fun _ _ => rfl)
    bcast_S1x256_S25000x256_0_1 bcast_S_S25000x256 (RefNet.mean (V (Proc.devRef .tc main_v47)) (V (Proc.devRef .tc main_v1)) (V (Proc.devRef .tc main_v3))) (V (Proc.devRef .tc main_v47))
    (transpose S256x256 [1, 0] (V (Proc.devRef .tc main_arg9)) transposes_S256x256_S256x256_1_0) (transpose S256x256 [1, 0] (V (Proc.devRef .tc main_arg11)) transposes_S256x256_S256x256_1_0) (broadcastInDim S1x256 ![1] bcast_S256_S1x256_1 (V (Proc.devRef .tc main_arg10)))
  exact h

set_option maxHeartbeats 1000000 in
theorem s5_out (V : Valuation τ sig (Elt Ideal)) :
    after s5 V (Proc.devRef .tc main_v85)
      = RefNet.dense256 (V (Proc.devRef .tc main_v75)) (V (Proc.devRef .tc main_arg17)) (V (Proc.devRef .tc main_arg18)) := by
  after_results
  exact dense_leaky dot_S25000x256_S256x256_S25000x256_1_0_0_1_n_n rfl rfl (fun _ _ => rfl) (fun _ _ => rfl) (fun _ _ => rfl) (fun _ _ => rfl)
    bcast_S1x256_S25000x256_0_1 bcast_S_S25000x256 (V (Proc.devRef .tc main_v75)) (transpose S256x256 [1, 0] (V (Proc.devRef .tc main_arg17)) transposes_S256x256_S256x256_1_0) (broadcastInDim S1x256 ![1] bcast_S256_S1x256_1 (V (Proc.devRef .tc main_arg18)))

set_option maxRecDepth 100000 in
set_option maxHeartbeats 4000000 in
theorem s6_out (V : Valuation τ sig (Elt Ideal)) :
    after s6 V (Proc.devRef .tc main_v113)
      = RefNet.sage128 (V (Proc.devRef .tc main_v85)) (V (Proc.devRef .tc main_v1)) (V (Proc.devRef .tc main_v3)) (V (Proc.devRef .tc main_arg12)) (V (Proc.devRef .tc main_arg13)) (V (Proc.devRef .tc main_arg14)) := by
  after_results_simp
  have h := sage_relu dot_S25000x256_S256x128_S25000x128_1_0_0_1_n_n rfl rfl (fun _ _ => rfl) (fun _ _ => rfl) (fun _ _ => rfl) (fun _ _ => rfl)
    bcast_S1x128_S25000x128_0_1 bcast_S_S25000x128 (RefNet.mean (V (Proc.devRef .tc main_v85)) (V (Proc.devRef .tc main_v1)) (V (Proc.devRef .tc main_v3))) (V (Proc.devRef .tc main_v85))
    (transpose S256x128 [1, 0] (V (Proc.devRef .tc main_arg12)) transposes_S128x256_S256x128_1_0) (transpose S256x128 [1, 0] (V (Proc.devRef .tc main_arg14)) transposes_S128x256_S256x128_1_0) (broadcastInDim S1x128 ![1] bcast_S128_S1x128_1 (V (Proc.devRef .tc main_arg13)))
  exact h

set_option maxHeartbeats 1000000 in
theorem s7_out (V : Valuation τ sig (Elt Ideal)) :
    after s7 V (Proc.devRef .tc main_v123)
      = RefNet.dense128 (V (Proc.devRef .tc main_v113)) (V (Proc.devRef .tc main_arg19)) (V (Proc.devRef .tc main_arg20)) := by
  after_results
  exact dense_leaky dot_S25000x128_S128x128_S25000x128_1_0_0_1_n_n rfl rfl (fun _ _ => rfl) (fun _ _ => rfl) (fun _ _ => rfl) (fun _ _ => rfl)
    bcast_S1x128_S25000x128_0_1 bcast_S_S25000x128 (V (Proc.devRef .tc main_v113)) (transpose S128x128 [1, 0] (V (Proc.devRef .tc main_arg19)) transposes_S128x128_S128x128_1_0) (broadcastInDim S1x128 ![1] bcast_S128_S1x128_1 (V (Proc.devRef .tc main_arg20)))

set_option maxRecDepth 100000 in
set_option maxHeartbeats 40000000 in
theorem s8_out (V : Valuation τ sig (Elt Ideal)) :
    after s8 V (Proc.devRef .tc main_v157)
      = RefNet.edgeStage (V (Proc.devRef .tc main_v123)) (V (Proc.devRef .tc main_v1)) (V (Proc.devRef .tc main_v3)) (V (Proc.devRef .tc main_arg2)) (V (Proc.devRef .tc main_arg21))
          (V (Proc.devRef .tc main_arg22)) (V (Proc.devRef .tc main_arg23)) (V (Proc.devRef .tc main_arg24)) := by
  after_results_simp
  have h := edge_col dot_S600000x192_S192x1_S600000x1_1_0_0_1_n_n dot_S600000x64_S64x1_S600000x1_1_0_0_1_n_n
    rfl rfl (fun _ _ => rfl) (fun _ _ => rfl) (fun _ _ => rfl) (fun _ _ => rfl)
    rfl rfl (fun _ _ => rfl) (fun _ _ => rfl) (fun _ _ => rfl) (fun _ _ => rfl)
    bcast_S1x1_S600000x1_0_1 bcast_S_S600000x1
    (RefNet.cat96 (V (Proc.devRef .tc main_v123)) (V (Proc.devRef .tc main_v1)) (V (Proc.devRef .tc main_v3))) (RefNet.cat32 (V (Proc.devRef .tc main_v123)) (V (Proc.devRef .tc main_v1)) (V (Proc.devRef .tc main_v3)))
    (V (Proc.devRef .tc main_arg2)) (transpose S192x1 [1, 0] (V (Proc.devRef .tc main_arg21)) transposes_S1x192_S192x1_1_0)
    (broadcastInDim S1x1 ![1] bcast_S1_S1x1_1 (V (Proc.devRef .tc main_arg22))) (transpose S64x1 [1, 0] (V (Proc.devRef .tc main_arg23)) transposes_S1x64_S64x1_1_0)
    (broadcastInDim S1x1 ![1] bcast_S1_S1x1_1 (V (Proc.devRef .tc main_arg24)))
  exact h

theorem s9_out (V : Valuation τ sig (Elt Ideal)) :
    after s9 V (Proc.devRef .tc main_v162) = RefNet.tail (V (Proc.devRef .tc main_v157)) := by
  after_results
  rfl

/-! ## The chain

The program is the ten stretches in a row, so its fold is the stretches' folds composed. Through the chain three kinds
of buffer are followed: an argument array, which no operation writes and which therefore holds its launch contents at
every point; the two index vectors, written by the first stretch and by none after it; and each stage's output table,
which the next stretch reads. -/

/-- The argument arrays, read off the launch contents. -/
def argsOf (V₀ : Valuation τ sig (Elt Ideal)) : RefNet.Args where
  a0 := V₀ (Proc.devRef .tc main_arg0)
  a1 := V₀ (Proc.devRef .tc main_arg1)
  a2 := V₀ (Proc.devRef .tc main_arg2)
  a4 := V₀ (Proc.devRef .tc main_arg4)
  a5 := V₀ (Proc.devRef .tc main_arg5)
  a6 := V₀ (Proc.devRef .tc main_arg6)
  a7 := V₀ (Proc.devRef .tc main_arg7)
  a8 := V₀ (Proc.devRef .tc main_arg8)
  a9 := V₀ (Proc.devRef .tc main_arg9)
  a10 := V₀ (Proc.devRef .tc main_arg10)
  a11 := V₀ (Proc.devRef .tc main_arg11)
  a12 := V₀ (Proc.devRef .tc main_arg12)
  a13 := V₀ (Proc.devRef .tc main_arg13)
  a14 := V₀ (Proc.devRef .tc main_arg14)
  a15 := V₀ (Proc.devRef .tc main_arg15)
  a16 := V₀ (Proc.devRef .tc main_arg16)
  a17 := V₀ (Proc.devRef .tc main_arg17)
  a18 := V₀ (Proc.devRef .tc main_arg18)
  a19 := V₀ (Proc.devRef .tc main_arg19)
  a20 := V₀ (Proc.devRef .tc main_arg20)
  a21 := V₀ (Proc.devRef .tc main_arg21)
  a22 := V₀ (Proc.devRef .tc main_arg22)
  a23 := V₀ (Proc.devRef .tc main_arg23)
  a24 := V₀ (Proc.devRef .tc main_arg24)

/-- The argument arrays some operation reads. -/
abbrev argRefs : List (Ref sig .tc) := [main_arg0, main_arg1, main_arg2, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24]

section Chain
variable (V₀ : Valuation τ sig (Elt Ideal))

/-- The buffers' contents before stretch k (V0 is the launch contents). -/
def V1 : Valuation τ sig (Elt Ideal) := after s0 V₀
def V2 : Valuation τ sig (Elt Ideal) := after s1 (V1 V₀)
def V3 : Valuation τ sig (Elt Ideal) := after s2 (V2 V₀)
def V4 : Valuation τ sig (Elt Ideal) := after s3 (V3 V₀)
def V5 : Valuation τ sig (Elt Ideal) := after s4 (V4 V₀)
def V6 : Valuation τ sig (Elt Ideal) := after s5 (V5 V₀)
def V7 : Valuation τ sig (Elt Ideal) := after s6 (V6 V₀)
def V8 : Valuation τ sig (Elt Ideal) := after s7 (V7 V₀)
def V9 : Valuation τ sig (Elt Ideal) := after s8 (V8 V₀)
def V10 : Valuation τ sig (Elt Ideal) := after s9 (V9 V₀)

/-- No stretch writes an argument array. -/
theorem V1_arg (r : Ref sig .tc) (hr : r ∈ argRefs) : V1 V₀ (Proc.devRef .tc r) = V₀ (Proc.devRef .tc r) :=
  s0_keep V₀ r ((by decide : ∀ r ∈ argRefs, r ∉ W0) r hr)
theorem V2_arg (r : Ref sig .tc) (hr : r ∈ argRefs) : V2 V₀ (Proc.devRef .tc r) = V₀ (Proc.devRef .tc r) :=
  (s1_keep (V1 V₀) r ((by decide : ∀ r ∈ argRefs, r ∉ W1) r hr)).trans (V1_arg V₀ r hr)
theorem V3_arg (r : Ref sig .tc) (hr : r ∈ argRefs) : V3 V₀ (Proc.devRef .tc r) = V₀ (Proc.devRef .tc r) :=
  (s2_keep (V2 V₀) r ((by decide : ∀ r ∈ argRefs, r ∉ W2) r hr)).trans (V2_arg V₀ r hr)
theorem V4_arg (r : Ref sig .tc) (hr : r ∈ argRefs) : V4 V₀ (Proc.devRef .tc r) = V₀ (Proc.devRef .tc r) :=
  (s3_keep (V3 V₀) r ((by decide : ∀ r ∈ argRefs, r ∉ W3) r hr)).trans (V3_arg V₀ r hr)
theorem V5_arg (r : Ref sig .tc) (hr : r ∈ argRefs) : V5 V₀ (Proc.devRef .tc r) = V₀ (Proc.devRef .tc r) :=
  (s4_keep (V4 V₀) r ((by decide : ∀ r ∈ argRefs, r ∉ W4) r hr)).trans (V4_arg V₀ r hr)
theorem V6_arg (r : Ref sig .tc) (hr : r ∈ argRefs) : V6 V₀ (Proc.devRef .tc r) = V₀ (Proc.devRef .tc r) :=
  (s5_keep (V5 V₀) r ((by decide : ∀ r ∈ argRefs, r ∉ W5) r hr)).trans (V5_arg V₀ r hr)
theorem V7_arg (r : Ref sig .tc) (hr : r ∈ argRefs) : V7 V₀ (Proc.devRef .tc r) = V₀ (Proc.devRef .tc r) :=
  (s6_keep (V6 V₀) r ((by decide : ∀ r ∈ argRefs, r ∉ W6) r hr)).trans (V6_arg V₀ r hr)
theorem V8_arg (r : Ref sig .tc) (hr : r ∈ argRefs) : V8 V₀ (Proc.devRef .tc r) = V₀ (Proc.devRef .tc r) :=
  (s7_keep (V7 V₀) r ((by decide : ∀ r ∈ argRefs, r ∉ W7) r hr)).trans (V7_arg V₀ r hr)
theorem V9_arg (r : Ref sig .tc) (hr : r ∈ argRefs) : V9 V₀ (Proc.devRef .tc r) = V₀ (Proc.devRef .tc r) :=
  (s8_keep (V8 V₀) r ((by decide : ∀ r ∈ argRefs, r ∉ W8) r hr)).trans (V8_arg V₀ r hr)

/-- The two index vectors, from the first stretch on. -/
theorem V1_v1 : V1 V₀ (Proc.devRef .tc main_v1) = RefNet.src (V₀ (Proc.devRef .tc main_arg1)) := s0_v1 V₀
theorem V1_v3 : V1 V₀ (Proc.devRef .tc main_v3) = RefNet.dst (V₀ (Proc.devRef .tc main_arg1)) := s0_v3 V₀
theorem V2_v1 : V2 V₀ (Proc.devRef .tc main_v1) = RefNet.src (V₀ (Proc.devRef .tc main_arg1)) :=
  (s1_keep (V1 V₀) main_v1 (by decide)).trans (V1_v1 V₀)
theorem V2_v3 : V2 V₀ (Proc.devRef .tc main_v3) = RefNet.dst (V₀ (Proc.devRef .tc main_arg1)) :=
  (s1_keep (V1 V₀) main_v3 (by decide)).trans (V1_v3 V₀)
theorem V3_v1 : V3 V₀ (Proc.devRef .tc main_v1) = RefNet.src (V₀ (Proc.devRef .tc main_arg1)) :=
  (s2_keep (V2 V₀) main_v1 (by decide)).trans (V2_v1 V₀)
theorem V3_v3 : V3 V₀ (Proc.devRef .tc main_v3) = RefNet.dst (V₀ (Proc.devRef .tc main_arg1)) :=
  (s2_keep (V2 V₀) main_v3 (by decide)).trans (V2_v3 V₀)
theorem V4_v1 : V4 V₀ (Proc.devRef .tc main_v1) = RefNet.src (V₀ (Proc.devRef .tc main_arg1)) :=
  (s3_keep (V3 V₀) main_v1 (by decide)).trans (V3_v1 V₀)
theorem V4_v3 : V4 V₀ (Proc.devRef .tc main_v3) = RefNet.dst (V₀ (Proc.devRef .tc main_arg1)) :=
  (s3_keep (V3 V₀) main_v3 (by decide)).trans (V3_v3 V₀)
theorem V5_v1 : V5 V₀ (Proc.devRef .tc main_v1) = RefNet.src (V₀ (Proc.devRef .tc main_arg1)) :=
  (s4_keep (V4 V₀) main_v1 (by decide)).trans (V4_v1 V₀)
theorem V5_v3 : V5 V₀ (Proc.devRef .tc main_v3) = RefNet.dst (V₀ (Proc.devRef .tc main_arg1)) :=
  (s4_keep (V4 V₀) main_v3 (by decide)).trans (V4_v3 V₀)
theorem V6_v1 : V6 V₀ (Proc.devRef .tc main_v1) = RefNet.src (V₀ (Proc.devRef .tc main_arg1)) :=
  (s5_keep (V5 V₀) main_v1 (by decide)).trans (V5_v1 V₀)
theorem V6_v3 : V6 V₀ (Proc.devRef .tc main_v3) = RefNet.dst (V₀ (Proc.devRef .tc main_arg1)) :=
  (s5_keep (V5 V₀) main_v3 (by decide)).trans (V5_v3 V₀)
theorem V7_v1 : V7 V₀ (Proc.devRef .tc main_v1) = RefNet.src (V₀ (Proc.devRef .tc main_arg1)) :=
  (s6_keep (V6 V₀) main_v1 (by decide)).trans (V6_v1 V₀)
theorem V7_v3 : V7 V₀ (Proc.devRef .tc main_v3) = RefNet.dst (V₀ (Proc.devRef .tc main_arg1)) :=
  (s6_keep (V6 V₀) main_v3 (by decide)).trans (V6_v3 V₀)
theorem V8_v1 : V8 V₀ (Proc.devRef .tc main_v1) = RefNet.src (V₀ (Proc.devRef .tc main_arg1)) :=
  (s7_keep (V7 V₀) main_v1 (by decide)).trans (V7_v1 V₀)
theorem V8_v3 : V8 V₀ (Proc.devRef .tc main_v3) = RefNet.dst (V₀ (Proc.devRef .tc main_arg1)) :=
  (s7_keep (V7 V₀) main_v3 (by decide)).trans (V7_v3 V₀)

/-- Each stage's output table, where the next stretch finds it. -/
theorem V2_v9 : V2 V₀ (Proc.devRef .tc main_v9) = RefNet.h0 (argsOf V₀) := by
  show after s1 (V1 V₀) (Proc.devRef .tc main_v9) = _
  rw [s1_out, V1_arg V₀ main_arg0 (by decide), V1_arg V₀ main_arg4 (by decide), V1_arg V₀ main_arg5 (by decide)]
  rfl
theorem V3_v37 : V3 V₀ (Proc.devRef .tc main_v37) = RefNet.h1 (argsOf V₀) := by
  show after s2 (V2 V₀) (Proc.devRef .tc main_v37) = _
  rw [s2_out, V2_v9, V2_v1, V2_v3, V2_arg V₀ main_arg6 (by decide), V2_arg V₀ main_arg7 (by decide), V2_arg V₀ main_arg8 (by decide)]
  rfl
theorem V4_v47 : V4 V₀ (Proc.devRef .tc main_v47) = RefNet.h2 (argsOf V₀) := by
  show after s3 (V3 V₀) (Proc.devRef .tc main_v47) = _
  rw [s3_out, V3_v37, V3_arg V₀ main_arg15 (by decide), V3_arg V₀ main_arg16 (by decide)]
  rfl
theorem V5_v75 : V5 V₀ (Proc.devRef .tc main_v75) = RefNet.h3 (argsOf V₀) := by
  show after s4 (V4 V₀) (Proc.devRef .tc main_v75) = _
  rw [s4_out, V4_v47, V4_v1, V4_v3, V4_arg V₀ main_arg9 (by decide), V4_arg V₀ main_arg10 (by decide), V4_arg V₀ main_arg11 (by decide)]
  rfl
theorem V6_v85 : V6 V₀ (Proc.devRef .tc main_v85) = RefNet.h4 (argsOf V₀) := by
  show after s5 (V5 V₀) (Proc.devRef .tc main_v85) = _
  rw [s5_out, V5_v75, V5_arg V₀ main_arg17 (by decide), V5_arg V₀ main_arg18 (by decide)]
  rfl
theorem V7_v113 : V7 V₀ (Proc.devRef .tc main_v113) = RefNet.h5 (argsOf V₀) := by
  show after s6 (V6 V₀) (Proc.devRef .tc main_v113) = _
  rw [s6_out, V6_v85, V6_v1, V6_v3, V6_arg V₀ main_arg12 (by decide), V6_arg V₀ main_arg13 (by decide), V6_arg V₀ main_arg14 (by decide)]
  rfl
theorem V8_v123 : V8 V₀ (Proc.devRef .tc main_v123) = RefNet.h6 (argsOf V₀) := by
  show after s7 (V7 V₀) (Proc.devRef .tc main_v123) = _
  rw [s7_out, V7_v113, V7_arg V₀ main_arg19 (by decide), V7_arg V₀ main_arg20 (by decide)]
  rfl
theorem V9_v157 : V9 V₀ (Proc.devRef .tc main_v157) = RefNet.edges (argsOf V₀) := by
  show after s8 (V8 V₀) (Proc.devRef .tc main_v157) = _
  rw [s8_out, V8_v123, V8_v1, V8_v3, V8_arg V₀ main_arg2 (by decide), V8_arg V₀ main_arg21 (by decide), V8_arg V₀ main_arg22 (by decide), V8_arg V₀ main_arg23 (by decide), V8_arg V₀ main_arg24 (by decide)]
  rfl
theorem V10_v162 : V10 V₀ (Proc.devRef .tc main_v162) = RefNet.result (argsOf V₀) := by
  show after s9 (V9 V₀) (Proc.devRef .tc main_v162) = _
  rw [s9_out, V9_v157]
  rfl

end Chain

/-- The program's operations are the ten stretches in a row. -/
theorem ops_eq {F : FTy → Type} [FloatOps F] :
    (ops : List (HloOp τ sig (Elt F))) = s0 ++ (s1 ++ (s2 ++ (s3 ++ (s4 ++ (s5 ++ (s6 ++ (s7 ++ (s8 ++ s9)))))))) := rfl

/-- The result buffer after the program's 205 operations, from any launch contents: the value's named stages, chained,
    at the argument arrays of the launch. -/
theorem result_eq (V₀ : Valuation τ sig (Elt Ideal)) :
    after ops V₀ (Proc.devRef .tc main_v162) = RefNet.result (argsOf V₀) := by
  rw [ops_eq]
  simp only [StableHlo.after_append]
  exact V10_v162 V₀

end Cert.ReferenceIdeal.RefValue.RefChain

end
-- ==== Proof.lean ====
/-
  The certificate of the graph network kernel against its reference: both programs, run from memories that agree on
  the argument arrays, end with the same table of 12500 averaged edge values, as extended reals.

  The kernel program is eight launches among stretches of host operations. Each launch's output array is one stage of
  the network as a function of the arrays the launch finds (a dense layer, a neighbourhood layer, the edge stage), and
  the host stretches compute the neighbourhood means, the gathered endpoint rows and the closing average; so its result
  is the composition of the stages over the argument arrays. The reference computes the same stages by host operations
  alone. The two compositions differ in four places and agree in each: the neighbourhood mean (the sum times the
  reciprocal of max(deg, 1) against the sum divided by it: the divisor is at least one), the place of the bias in a
  three-term sum, a dot product of length 2n against two of length n, and the order of slicing columns and gathering
  rows. A change of number format is the identity on the extended reals. The precondition is never opened.

  The frames of the two kernel programs are their generated frame certificates; the reference's frame is its run with
  the result dropped; the idealization rewrote no operation.
-/
import proofs.«130552_j4191888081216_2_alg».proof.Defs
import proofs.«130552_j4191888081216_2_alg».proof.Proof.Gen.Kernel
import proofs.«130552_j4191888081216_2_alg».proof.Proof.Gen.Kernel.Frame
import proofs.«130552_j4191888081216_2_alg».proof.Proof.Gen.KernelIdeal
import proofs.«130552_j4191888081216_2_alg».proof.Proof.Gen.KernelIdeal.Frame
import proofs.«130552_j4191888081216_2_alg».proof.Proof.Gen.ReferenceIdeal
import proofs.«130552_j4191888081216_2_alg».proof.Proof.Gen.Pre_finite_inputs
import proofs.«130552_j4191888081216_2_alg».proof.Proof.KernelRun
import proofs.«130552_j4191888081216_2_alg».proof.Proof.KChain
import proofs.«130552_j4191888081216_2_alg».proof.Proof.Bridge
import proofs.«130552_j4191888081216_2_alg».proof.Proof.RefRun
import proofs.«130552_j4191888081216_2_alg».proof.Proof.RefChain
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The idealization rewrote no operation. -/
theorem preserves : Cert.preserves_Kernel_KernelIdeal := trivial

/-- Both programs end at the composition of the stages over the argument arrays of the kernel's launch memory. -/
theorem algebraic : Cert.algebraic_KernelIdeal_ReferenceIdeal := by
  intro m ρ m' ρ' _ hagree
  refine ⟨fun c => Cert.KernelIdeal.Stages.result (Cert.KernelIdeal.KChain.args m c), ?_, ?_⟩
  · exact (θ_run Cert.KernelIdeal.defs _ _).mono
      (fun r h c => ⟨(h c).1.trans (Cert.KernelIdeal.KChain.result_eq m ρ c), (h c).2⟩)
      (Cert.KernelIdeal.Gen.run_result m ρ)
  · refine (θ_run Cert.ReferenceIdeal.defs _ _).mono (fun r h c => ⟨(h c).1.trans ?_, (h c).2⟩)
      (Cert.ReferenceIdeal.RefValue.run (F := Ideal) m' ρ')
    obtain ⟨g0, g1, g2, _, g4, g5, g6, g7, g8, g9, g10, g11, g12, g13, g14, g15, g16, g17, g18, g19, g20, g21, g22, g23, g24⟩ := hagree c
    refine (Cert.ReferenceIdeal.RefValue.RefChain.result_eq _).trans ?_
    refine Eq.trans ?_ (Cert.Sage.Bridge.result_eq (Cert.KernelIdeal.KChain.args m c)).symm
    refine congrArg Cert.ReferenceIdeal.RefValue.RefNet.result ?_
    unfold Cert.ReferenceIdeal.RefValue.RefChain.argsOf Cert.Sage.Bridge.toR Cert.KernelIdeal.KChain.args
    dsimp only
    congr 1

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
